-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S5x128 : Shape := ⟨2, ![5, 128]⟩
abbrev S1x2048x128 : Shape := ⟨3, ![1, 2048, 128]⟩
abbrev S_ : Shape := ⟨0, ![]⟩

class Facts : Prop where
  bcast_S_S5x128 : S_.BroadcastsInDim S5x128 (![] : Fin 0 → Fin S5x128.rank)
  reducesTo_S5x128_S_d0_1 : S5x128.ReducesTo [0, 1] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x200 32) (main_arg1 : FVec F S5x128 .f32) (main_arg2 : FVec F S1x2048x128 .f32) : IVec S_ 1 :=
  let main_v0 : FVec F S5x128 .f32 := Host.absf main_arg1
  let main_cst : FVec F S_ .f32 := constant S_ .f32 0x7F800000#32
  let main_v1 : FVec F S5x128 .f32 := broadcastInDim S5x128 ![] bcast_S_S5x128 main_cst
  let main_v2 : IVec S5x128 1 := cmpf .olt main_v0 main_v1
  let main_c : IVec S_ 1 := constantI S_ 1 1#1
  let main_v3 : IVec S_ 1 := (fun x v => Host.reduce IntOp.andi x v reducesTo_S5x128_S_d0_1 h_S_) main_v2 main_c
  let main_v4 : FVec F S1x2048x128 .f32 := Host.absf main_arg2
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_c_2 : IVec S_ 32 := constantI S_ 32 0#32
  let main_v9 : IVec S1024x200 32 := broadcastInDim S1024x200 ![] bcast_S_S1024x200 main_c_2
  let main_v10 : IVec S1024x200 1 := cmpi .sge main_arg0 main_v9
  let main_c_3 : IVec S_ 32 := constantI S_ 32 4#32
  let main_v11 : IVec S1024x200 32 := broadcastInDim S1024x200 ![] bcast_S_S1024x200 main_c_3
  let main_v12 : IVec S1024x200 1 := cmpi .sle main_arg0 main_v11
  let main_v13 : IVec S1024x200 1 := andi main_v10 main_v12
  let main_c_4 : IVec S_ 1 := constantI S_ 1 1#1
  let main_v14 : IVec S_ 1 := (fun x v => Host.reduce IntOp.andi x v reducesTo_S1024x200_S_d0_1 h_S_) main_v13 main_c_4
  let main_v15 : IVec S_ 1 := andi main_v8 main_v14
  main_v15
-- ==== Kernel.lean ====
abbrev S1024x200 : Shape := ⟨2, ![1024, 200]⟩
abbrev S5x128 : Shape := ⟨2, ![5, 128]⟩
abbrev S1x2048x128 : Shape := ⟨3, ![1, 2048, 128]⟩
abbrev S1x200x128 : Shape := ⟨3, ![1, 200, 128]⟩
abbrev S200x128 : Shape := ⟨2, ![200, 128]⟩
abbrev S5x200x128 : Shape := ⟨3, ![5, 200, 128]⟩
abbrev S5x1x128 : Shape := ⟨3, ![5, 1, 128]⟩
abbrev S1000x128 : Shape := ⟨2, ![1000, 128]⟩
abbrev S204800 : Shape := ⟨1, ![204800]⟩
abbrev S204800x128 : Shape := ⟨2, ![204800, 128]⟩
abbrev S6400 : Shape := ⟨1, ![6400]⟩
abbrev S2x128x128 : Shape := ⟨3, ![2, 128, 128]⟩
abbrev S_ : Shape := ⟨0, ![]⟩
abbrev S16 : Shape := ⟨1, ![16]⟩
abbrev S1x128x128 : Shape := ⟨3, ![1, 128, 128]⟩
abbrev S128x128 : Shape := ⟨2, ![128, 128]⟩
abbrev S128 : Shape := ⟨1, ![128]⟩
abbrev S1024x200x128 : Shape := ⟨3, ![1024, 200, 128]⟩

abbrev nBuf : Table → Nat
  | .hbm => 10
  | .local .tc .vmem => 3
  | .shared => 1
  | .local .scVector .vmem => 3
  | _ => 0

abbrev bufTy : (tb : Table) → Fin (nBuf tb) → BufTy
  | .hbm, ⟨0, _⟩ => ⟨S1024x200, .i32⟩
  | .hbm, ⟨1, _⟩ => ⟨S5x128, .f32⟩
  | .hbm, ⟨2, _⟩ => ⟨S1x2048x128, .f32⟩
  | .hbm, ⟨3, _⟩ => ⟨S1x200x128, .f32⟩
  | .hbm, ⟨4, _⟩ => ⟨S200x128, .f32⟩
  | .hbm, ⟨5, _⟩ => ⟨S5x200x128, .f32⟩
  | .hbm, ⟨6, _⟩ => ⟨S1000x128, .f32⟩
  | .hbm, ⟨7, _⟩ => ⟨S204800, .i32⟩
  | .hbm, ⟨8, _⟩ => ⟨S204800x128, .f32⟩
  | .hbm, ⟨9, _⟩ => ⟨S1024x200x128, .f32⟩
  | .local .tc .vmem, ⟨0, _⟩ => ⟨S5x128, .f32⟩
  | .local .tc .vmem, ⟨1, _⟩ => ⟨S200x128, .f32⟩
  | .local .tc .vmem, ⟨2, _⟩ => ⟨S5x200x128, .f32⟩
  | .shared, ⟨0, _⟩ => ⟨S1000x128, .f32⟩
  | .local .scVector .vmem, ⟨0, _⟩ => ⟨S6400, .i32⟩
  | .local .scVector .vmem, ⟨1, _⟩ => ⟨S6400, .i32⟩
  | .local .scVector .vmem, ⟨2, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S5x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k1_t1_loop : Scf.Loop 32 :=
  let c0_i32_1 : BitVec 32 := 0#32
  let c16_i32 : BitVec 32 := 16#32
  let v11 : BitVec 32 := Scalar.addi c0_i32_1 c16_i32
  let c1_i32 : BitVec 32 := 1#32
  ⟨c0_i32_1, v11, c1_i32⟩
def k1_off2 (k1_t1 : Fin k1_t1_loop.trips) : Fin 1 → Nat :=
  let c0_i32_1 : BitVec 32 := 0#32
  let c1_i32 : BitVec 32 := 1#32
  let arg14 : BitVec 32 := Scf.iv c0_i32_1 c1_i32 k1_t1
  let c16_i32_35 : BitVec 32 := 16#32
  let v36 : BitVec 32 := Scalar.muli arg14 c16_i32_35
  let v37 : Index := Scalar.indexCast v36
  ![v37.toNat]
@[reducible] def k1_t2_loop : Scf.Loop 32 :=
  let c16_i32_14 : BitVec 32 := 16#32
  let c384_i32 : BitVec 32 := 384#32
  let v21 : BitVec 32 := Scalar.addi c16_i32_14 c384_i32
  let c1_i32_15 : BitVec 32 := 1#32
  ⟨c16_i32_14, v21, c1_i32_15⟩
def k1_off3 (k1_t2 : Fin k1_t2_loop.trips) : Fin 1 → Nat :=
  let c16_i32_14 : BitVec 32 := 16#32
  let c1_i32_15 : BitVec 32 := 1#32
  let arg14 : BitVec 32 := Scf.iv c16_i32_14 c1_i32_15 k1_t2
  let c16_i32_35 : BitVec 32 := 16#32
  let v36 : BitVec 32 := Scalar.muli arg14 c16_i32_35
  let v37 : Index := Scalar.indexCast v36
  ![v37.toNat]
@[reducible] def k1_t3_loop : Scf.Loop 32 :=
  let c0_i32_18 : BitVec 32 := 0#32
  let c25_i32 : BitVec 32 := 25#32
  let v23 : BitVec 32 := Scalar.addi c0_i32_18 c25_i32
  let c1_i32_19 : BitVec 32 := 1#32
  ⟨c0_i32_18, v23, c1_i32_19⟩
def k1_off4 (i : grid1.Coords) (k1_t3 : Fin k1_t3_loop.trips) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c1_i32_19 : BitVec 32 := 1#32
  let arg14 : BitVec 32 := Scf.iv c0_i32_18 c1_i32_19 k1_t3
  let c2_i32_35 : BitVec 32 := 2#32
  let v36 : BitVec 32 := Scalar.muli arg14 c2_i32_35
  let v37 : BitVec 32 := Scalar.addi v36 c0_i32_36
  let c128_i32_43 : BitVec 32 := 128#32
  let v42 : BitVec 32 := Scalar.muli v37 c128_i32_43
  let v43 : BitVec 32 := Scalar.addi v2 v42
  let c0_i32_47 : BitVec 32 := 0#32
  ![v43.toNat, 0]
def k1_cond2 (k1_t3 : Fin k1_t3_loop.trips) : BitVec 1 :=
  let c0_i32_18 : BitVec 32 := 0#32
  let c1_i32_19 : BitVec 32 := 1#32
  let arg14 : BitVec 32 := Scf.iv c0_i32_18 c1_i32_19 k1_t3
  let c2_i32_35 : BitVec 32 := 2#32
  let v36 : BitVec 32 := Scalar.muli arg14 c2_i32_35
  let c0_i32_36 : BitVec 32 := 0#32
  let v37 : BitVec 32 := Scalar.addi v36 c0_i32_36
  let c2_i32_51 : BitVec 32 := 2#32
  let v50 : BitVec 32 := Scalar.addi v37 c2_i32_51
  let c50_i32 : BitVec 32 := 50#32
  let v51 : BitVec 1 := Scalar.cmpi .slt v50 c50_i32
  let v52 : BitVec 32 := Scalar.extui v51
  let c0_i32_52 : BitVec 32 := 0#32
  let v53 : BitVec 1 := Scalar.cmpi .ne v52 c0_i32_52
  v53

def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_75 : BitVec 32 := 0#32
  ![v2.toNat, 0]
def k1_off6 (k1_t3 : Fin k1_t3_loop.trips) : Fin 1 → Nat :=
  let c0_i32_18 : BitVec 32 := 0#32
  let c1_i32_19 : BitVec 32 := 1#32
  let arg14 : BitVec 32 := Scf.iv c0_i32_18 c1_i32_19 k1_t3
  let c2_i32_35 : BitVec 32 := 2#32
  let v36 : BitVec 32 := Scalar.muli arg14 c2_i32_35
  let c0_i32_36 : BitVec 32 := 0#32
  let v37 : BitVec 32 := Scalar.addi v36 c0_i32_36
  let c2_i32_79 : BitVec 32 := 2#32
  let v78 : BitVec 32 := Scalar.addi v37 c2_i32_79
  let c128_i32_80 : BitVec 32 := 128#32
  let v79 : BitVec 32 := Scalar.muli v78 c128_i32_80
  ![v79.toNat]
def k1_cond3 (k1_t3 : Fin k1_t3_loop.trips) : BitVec 1 :=
  let c0_i32_18 : BitVec 32 := 0#32
  let c1_i32_19 : BitVec 32 := 1#32
  let arg14 : BitVec 32 := Scf.iv c0_i32_18 c1_i32_19 k1_t3
  let c2_i32_53 : BitVec 32 := 2#32
  let v54 : BitVec 32 := Scalar.muli arg14 c2_i32_53
  let c1_i32_54 : BitVec 32 := 1#32
  let v55 : BitVec 32 := Scalar.addi v54 c1_i32_54
  let c2_i32_69 : BitVec 32 := 2#32
  let v68 : BitVec 32 := Scalar.addi v55 c2_i32_69
  let c50_i32_70 : BitVec 32 := 50#32
  let v69 : BitVec 1 := Scalar.cmpi .slt v68 c50_i32_70
  let v70 : BitVec 32 := Scalar.extui v69
  let c0_i32_71 : BitVec 32 := 0#32
  let v71 : BitVec 1 := Scalar.cmpi .ne v70 c0_i32_71
  v71

def k1_off7 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_75 : BitVec 32 := 0#32
  ![v2.toNat, 0]
def k1_off8 (k1_t3 : Fin k1_t3_loop.trips) : Fin 1 → Nat :=
  let c0_i32_18 : BitVec 32 := 0#32
  let c1_i32_19 : BitVec 32 := 1#32
  let arg14 : BitVec 32 := Scf.iv c0_i32_18 c1_i32_19 k1_t3
  let c2_i32_53 : BitVec 32 := 2#32
  let v54 : BitVec 32 := Scalar.muli arg14 c2_i32_53
  let c1_i32_54 : BitVec 32 := 1#32
  let v55 : BitVec 32 := Scalar.addi v54 c1_i32_54
  let c2_i32_79 : BitVec 32 := 2#32
  let v78 : BitVec 32 := Scalar.addi v55 c2_i32_79
  let c128_i32_80 : BitVec 32 := 128#32
  let v79 : BitVec 32 := Scalar.muli v78 c128_i32_80
  ![v79.toNat]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_24 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S1x2048x128_S1x200x128_0_0_0 : S1x2048x128.Slices ![0, 0, 0] S1x200x128
  shapeCasts_S1x200x128_S200x128 : S1x200x128.ShapeCasts S200x128
  inb_S5x128_S5x128_0_0 : ∀ a, (![0, 0] : Fin 2 → Nat) a + S5x128.size a ≤ S5x128.size a
  h_S5x128 : 0 < S5x128.numel
  shapeCasts_S5x128_S5x1x128 : S5x128.ShapeCasts S5x1x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S1x200x128 : S200x128.ShapeCasts S1x200x128
  broadcasts_S5x1x128_S5x200x128 : S5x1x128.Broadcasts S5x200x128
  broadcasts_S1x200x128_S5x200x128 : S1x200x128.Broadcasts S5x200x128
  inb_S5x200x128_S5x200x128_0_0_0 : ∀ a, (![0, 0, 0] : Fin 3 → Nat) a + S5x200x128.size a ≤ S5x200x128.size a
  h_S5x200x128 : 0 < S5x200x128.numel
  shapeCasts_S5x200x128_S1000x128 : S5x200x128.ShapeCasts S1000x128
  shapeCasts_S1024x200_S204800 : S1024x200.ShapeCasts S204800
  iota_S16_d0_w32_scVector : S16.Iotas .scVector 32 [0]
  h_S16 : 0 < S16.numel
  shapeCasts_S16_S16 : S16.ShapeCasts S16
  inb_S2x128x128_S1x128x128_0_0_0 : ∀ a, (![0, 0, 0] : Fin 3 → Nat) a + S1x128x128.size a ≤ S2x128x128.size a
  squeezes_S1x128x128_S128x128 : S1x128x128.Squeezes S128x128
  inb_S6400_S128_0 : ∀ a, (![0] : Fin 1 → Nat) a + S128.size a ≤ S6400.size a
  inb_S1000x128_S1000x128_0_0 : ∀ a, (![0, 0] : Fin 2 → Nat) a + S1000x128.size a ≤ S1000x128.size a
  gathers_S1000x128_S128x128 : S1000x128.Gathers 0 S128x128
  inb_S2x128x128_S1x128x128_1_0_0 : ∀ a, (![1, 0, 0] : Fin 3 → Nat) a + S1x128x128.size a ≤ S2x128x128.size a
  inb_S6400_S128_128 : ∀ a, (![128] : Fin 1 → Nat) a + S128.size a ≤ S6400.size a
  shapeCasts_S204800x128_S1024x200x128 : S204800x128.ShapeCasts S1024x200x128
  hcc1_scratch4 : 3 + S_.numel ≤ 9
  hcc1_scratch5 : 4 + S_.numel ≤ 9
  hcc1_scratch6 : 5 + S_.numel ≤ 9
  hcc1_scratch7 : 6 + S_.numel ≤ 9
  hcc1_scratch8 : 7 + S_.numel ≤ 9
  hcc1_scoped0 : 8 + S_.numel ≤ 9
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S6400.size a ≤ S204800.size a
  k1_t1_ok : k1_t1_loop.OK
  k1_off2_inb : ∀ k1_t1 : Fin k1_t1_loop.trips, ∀ a, (k1_off2 k1_t1) a + S16.size a ≤ S6400.size a
  k1_t2_ok : k1_t2_loop.OK
  k1_off3_inb : ∀ k1_t2 : Fin k1_t2_loop.trips, ∀ a, (k1_off3 k1_t2) a + S16.size a ≤ S6400.size a
  k1_t3_ok : k1_t3_loop.OK
  k1_off4_inb : ∀ (i : grid1.Coords) (k1_t3 : Fin k1_t3_loop.trips), ∀ (r : Fin 2), ∀ a, (k1_off4 i k1_t3 (BitVec.ofNat 32 r.val)) a + S128x128.size a ≤ S204800x128.size a
  k1_off5_inb : ∀ (i : grid1.Coords) (k1_t3 : Fin k1_t3_loop.trips), ∀ (k1_h2 : k1_cond2 k1_t3 = 1#1), ∀ a, (k1_off5 i) a + S128x128.size a ≤ S204800x128.size a
  k1_off6_inb : ∀ k1_t3 : Fin k1_t3_loop.trips, ∀ (k1_h2 : k1_cond2 k1_t3 = 1#1), ∀ a, (k1_off6 k1_t3) a + S128.size a ≤ S6400.size a
  k1_off7_inb : ∀ (i : grid1.Coords) (k1_t3 : Fin k1_t3_loop.trips), ∀ (k1_h3 : k1_cond3 k1_t3 = 1#1), ∀ a, (k1_off7 i) a + S128x128.size a ≤ S204800x128.size a
  k1_off8_inb : ∀ k1_t3 : Fin k1_t3_loop.trips, ∀ (k1_h3 : k1_cond3 k1_t3 = 1#1), ∀ a, (k1_off8 k1_t3) a + S128.size a ≤ S6400.size a
  k1_off9_inb : ∀ i : grid1.Coords, ∀ a, (k1_off9 i) a + S128x128.size a ≤ S204800x128.size a

variable [Facts₀]

abbrev cc1_scratch4 : DmaSems sig S_ := SemArray.consecutive 3 S_ hcc1_scratch4
abbrev cc1_scratch5 : DmaSems sig S_ := SemArray.consecutive 4 S_ hcc1_scratch5
abbrev cc1_scratch6 : DmaSems sig S_ := SemArray.consecutive 5 S_ hcc1_scratch6
abbrev cc1_scratch7 : DmaSems sig S_ := SemArray.consecutive 6 S_ hcc1_scratch7
abbrev cc1_scratch8 : DmaSems sig S_ := SemArray.consecutive 7 S_ hcc1_scratch8
abbrev cc1_scoped0 : DmaSems sig S_ := SemArray.consecutive 8 S_ hcc1_scoped0

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x200 : Shape := ⟨2, ![1024, 200]⟩
abbrev S5x128 : Shape := ⟨2, ![5, 128]⟩
abbrev S1x2048x128 : Shape := ⟨3, ![1, 2048, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x200x128 : Shape := ⟨3, ![1, 200, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S5x128, .f32⟩
  | .hbm, ⟨2, _⟩ => ⟨S1x2048x128, .f32⟩
  | .hbm, ⟨3, _⟩ => ⟨S_, .i32⟩
  | .hbm, ⟨4, _⟩ => ⟨S1024x200, .i32⟩
  | .hbm, ⟨5, _⟩ => ⟨S1024x200, .i1⟩
  | .hbm, ⟨6, _⟩ => ⟨S_, .i32⟩
  | .hbm, ⟨7, _⟩ => ⟨S1024x200, .i32⟩
  | .hbm, ⟨8, _⟩ => ⟨S1024x200, .i32⟩
  | .hbm, ⟨9, _⟩ => ⟨S1024x200, .i32⟩
  | .hbm, ⟨10, _⟩ => ⟨S1024x200x1, .i32⟩
  | .hbm, ⟨11, _⟩ => ⟨S1, .i32⟩
  | .hbm, ⟨12, _⟩ => ⟨S_, .i32⟩
  | .hbm, ⟨13, _⟩ => ⟨S1024x200x1, .i32⟩
  | .hbm, ⟨14, _⟩ => ⟨S1024x200x1, .i1⟩
  | .hbm, ⟨15, _⟩ => ⟨S1x1x1, .i32⟩
  | .hbm, ⟨16, _⟩ => ⟨S1024x200x1, .i32⟩
  | .hbm, ⟨17, _⟩ => ⟨S1024x200x1, .i1⟩
  | .hbm, ⟨18, _⟩ => ⟨S1024x200x1, .i1⟩
  | .hbm, ⟨19, _⟩ => ⟨S_, .i1⟩
  | .hbm, ⟨20, _⟩ => ⟨S1024x200, .i1⟩
  | .hbm, ⟨21, _⟩ => ⟨S1024x200x128, .f32⟩
  | .hbm, ⟨22, _⟩ => ⟨S1024x200x128, .i1⟩
  | .hbm, ⟨23, _⟩ => ⟨S_, .f32⟩
  | .hbm, ⟨24, _⟩ => ⟨S1024x200x128, .f32⟩
  | .hbm, ⟨25, _⟩ => ⟨S1024x200x128, .f32⟩
  | .hbm, ⟨26, _⟩ => ⟨S1x200x128, .f32⟩
  | .hbm, ⟨27, _⟩ => ⟨S1024x200x128, .f32⟩
  | .hbm, ⟨28, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  slices_S1x2048x128_S1x200x128_0_0_0 : S1x2048x128.Slices ![0, 0, 0] S1x200x128
  bcast_S1x200x128_S1024x200x128_0_1_2 : S1x200x128.BroadcastsInDim S1024x200x128 (![0, 1, 2] : Fin 3 → Fin S1024x200x128.rank)
  gather_S5x128_S1024x200x1_S1024x200x128_2_0_n_n_0_2_1128_wf : GatherDims.WF S5x128 S1024x200x1 S1024x200x128 [2] [0] [] [0] [] 2 ![1, 128]

variable [Facts₀]

def gather_S5x128_S1024x200x1_S1024x200x128_2_0_n_n_0_2_1128 : GatherDims S5x128 S1024x200x1 S1024x200x128 where
  offsetDims := [2]
  collapsedSliceDims := [0]
  operandBatchingDims := []
  startIndicesBatchingDims := []
  startIndexMap := [0]
  indexVectorDim := 2
  sliceSizes := ![1, 128]
  wf := gather_S5x128_S1024x200x1_S1024x200x128_2_0_n_n_0_2_1128_wf

class Facts : Prop extends Facts₀ where

variable [Facts]
-- ==== Proof.Spec.lean ====
/-
  The function both programs compute, stated once over literal shapes and for any float instance:
  entry (b, l, k) of the result is row x[b, l] of the embedding table at column k, plus entry (0, l, k) of the
  position table. A token word w names table row w mod 5 (under the precondition 0 ≤ w ≤ 4 that is w itself).
-/
import Idealize.ShloMosaic.PureOps.Ideal
import Idealize.ShloMosaic.Lib.ValueIdx

noncomputable section

namespace Cert.Spec

open Idealize.ShloMosaic Idealize.ShloMosaic.ValueIdx

/-- tokens: 1024 sequences of 200 positions -/
abbrev SX : Shape := ⟨2, ![1024, 200]⟩
/-- the embedding table: 5 rows of 128 -/
abbrev STab : Shape := ⟨2, ![5, 128]⟩
/-- the position table: 2048 positions of 128 -/
abbrev SPe : Shape := ⟨3, ![1, 2048, 128]⟩
/-- the result -/
abbrev SOut : Shape := ⟨3, ![1024, 200, 128]⟩

/-- The table row a token word names. -/
def rowOf (w : BitVec 32) : Fin 5 := ⟨w.toNat % 5, Nat.mod_lt _ (by decide)⟩

/-- A position below 200 as a position of the 2048-row position table. -/
def posOf (l : Fin 200) : Fin 2048 := ⟨l.val, lt_of_lt_of_le l.isLt (by decide)⟩

/-- Every token names a table row: the integer part of the precondition. -/
def InRange (x : IVec SX 32) : Prop := ∀ i, (x i).toNat < 5

/-- The result, index by index: table row of the token plus the position's row. -/
def out {F : FTy → Type} [FloatOps F] (x : IVec SX 32) (tab : FVec F STab .f32) (pe : FVec F SPe .f32) : FVec F SOut .f32 :=
  fun j => FloatOps.addf (tab (ix2 (rowOf (x (ix2 (j 0) (j 1)))) (j 2))) (pe (ix3 (0 : Fin 1) (posOf (j 1)) (j 2)))

end Cert.Spec

end
-- ==== Proof.Common.lean ====
/-
  The common vocabulary of the kernel's run: the program as the launch theorem sees it, the ghost state (the
  handshakes' rounds, the barrier cells' rounds, the TensorCore region's staging cells' rounds, the transfers'
  counters), the arrays a tile reads and writes, and the values they hold. A tile (c, s) of the 2 x 16 grid owns
  tokens [6400 w, 6400 (w + 1)) of the flattened token array, w = 2 s + c, and writes the same rows of the result;
  row r of the result is row (token r) * 200 + r mod 200 of the combined table, whose row v * 200 + l is table row v
  plus position row l. Everything is stated for any float instance.
-/
import proofs.«208021_g30185030156587_cont_9to1_1229_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«208021_g30185030156587_cont_9to1_1229_25_alg».proof.Proof.Gen.KernelIdeal
import proofs.«208021_g30185030156587_cont_9to1_1229_25_alg».proof.Proof.Gen.KernelIdeal.Skeleton
import proofs.«208021_g30185030156587_cont_9to1_1229_25_alg».proof.Proof.Spec

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds library. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays, their parts, and the values they hold -/

section Arrays

variable [FloatOps F]

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- the combined table [1000, 128] -/
abbrev combLoc (d : Dev nD) : Loc nD τ sig := (SparseCore.T d).loc main_v3
/-- the flattened tokens [204800] -/
abbrev xfLoc (d : Dev nD) : Loc nD τ sig := (SparseCore.T d).loc main_v4
/-- the gathered rows [204800, 128] -/
abbrev oLoc (d : Dev nD) : Loc nD τ sig := (SparseCore.T d).loc main_v5
/-- the result [1024, 200, 128] -/
abbrev resLoc (d : Dev nD) : Loc nD τ sig := (SparseCore.T d).loc main_v6
/-- SparseCore `c`'s shared copy of the combined table -/
abbrev shRef (c : Fin τ.nSC) : DevRef τ sig := ⟨.shared, ⟨0, by decide⟩, c⟩
abbrev shLoc (d : Dev nD) (c : Fin τ.nSC) : Loc nD τ sig := (d, shRef c)

/-- The first 200 positions of the position table as a [200, 128] matrix. -/
def pe2Of (pe : FVec F S1x2048x128 .f32) : FVec F S200x128 .f32 :=
  shapeCast S200x128 (extractStridedSlice S1x200x128 ![0, 0, 0] pe slices_S1x2048x128_S1x200x128_0_0_0) shapeCasts_S1x200x128_S200x128
/-- The combined table: row v * 200 + l is table row v plus position row l. -/
def combOf (tab : FVec F S5x128 .f32) (pe2 : FVec F S200x128 .f32) : FVec F S1000x128 .f32 :=
  shapeCast S1000x128 (k0_pay1 (F := F) tab pe2) shapeCasts_S5x200x128_S1000x128
/-- The tokens, flattened. -/
def xfOf (x : IVec S1024x200 32) : IVec S204800 32 := shapeCast S204800 x shapeCasts_S1024x200_S204800
/-- Row r of the gathered rows: row (token r) * 200 + r mod 200 of the combined table. -/
def gatherOut (comb : FVec F S1000x128 .f32) (xf : IVec S204800 32) : FVec F S204800x128 .f32 :=
  fun j => comb (ix2 (⟨((xf (ix1 (j 0))).toNat % 5) * 200 + (j 0).val % 200, by
    have h1 := Nat.mod_lt (xf (ix1 (j 0))).toNat (show 0 < 5 by decide)
    have h2 := Nat.mod_lt (j 0).val (show 0 < 200 by decide)
    omega⟩ : Fin 1000) (j 1))
/-- The gathered rows as the result's [1024, 200, 128]. -/
def resOf (o : FVec F S204800x128 .f32) : FVec F S1024x200x128 .f32 := shapeCast S1024x200x128 o shapeCasts_S204800x128_S1024x200x128
/-- What the kernel's program leaves in its result, as a term of its three arguments. -/
def kernelOut (x : IVec S1024x200 32) (tab : FVec F S5x128 .f32) (pe : FVec F S1x2048x128 .f32) : FVec F S1024x200x128 .f32 :=
  resOf (gatherOut (combOf tab (pe2Of pe)) (xfOf x))

variable (m : (ℓ : Loc nD τ sig) → Buf (Elt F) ℓ)

/-- The combined table's contents when the SparseCore call starts, of the launch memory; -/
def Cb (d : Dev nD) : Buf (Elt F) (combLoc d) := combOf (F := F) (m (a1Loc d)) (pe2Of (m (a2Loc d)))
/-- the flattened tokens'; -/
def Xf (d : Dev nD) : Buf (Elt F) (xfLoc d) := xfOf (m (a0Loc d))
/-- and the gathered rows when it ends. -/
def Go (d : Dev nD) : Buf (Elt F) (oLoc d) := gatherOut (F := F) (Cb m d) (Xf m d)

end Arrays

/-! ## The parts: token blocks and row chunks -/

/-- the flattened tokens split into the 32 tiles' blocks of 6400 -/
theorem hdivX : 32 ∣ S204800.size 0 := ⟨6400, rfl⟩
/-- the gathered rows split into 1600 chunks of 128 rows -/
theorem hdivO : 1600 ∣ S204800x128.size 0 := ⟨128, rfl⟩
abbrev xfPart (w : Fin 32) : Rect S204800 := Rect.part (s := S204800) (a₀ := 0) hdivX w
abbrev oPart (k : Fin 1600) : Rect S204800x128 := Rect.part (s := S204800x128) (a₀ := 0) hdivO k
abbrev xfSet (w : Fin 32) : Finset S204800.Idx := ((Memref.whole main_v4_scv : Memref sig .scVector .hbm S204800 .i32).view.slice (xfPart w)).set
abbrev oSet (k : Fin 1600) : Finset S204800x128.Idx := ((Memref.whole main_v5_scv : Memref sig .scVector .hbm S204800x128 .f32).view.slice (oPart k)).set
/-- tile (c, s) is worker 2 s + c -/
def wid (c : Fin 2) (s : Fin 16) : Fin 32 := ⟨2 * s.val + c.val, by omega⟩
/-- chunk j of worker w's block is chunk 50 w + j of the array -/
def chunkOf (w : Fin 32) (j : Fin 50) : Fin 1600 := ⟨50 * w.val + j.val, by omega⟩

/-! ## The barrier cells -/

section Barrier

variable [FloatOps F]
variable (m : (ℓ : Loc nD τ sig) → Buf (Elt F) ℓ)

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile j's read share of its SparseCore's shared copy of the combined table, at the table's contents. -/
abbrev shTok (d : Dev nD) (c : Fin τ.nSC) (j : Fin 16) : sProp 𝕄 := shLoc d c ↦{Transfers.shareTok fullShare 16 j} (Cb m d : Buf (Elt F) (shLoc d c))
/-- What is left of the shared copy after the sixteen read shares. -/
abbrev shRest (d : Dev nD) (c : Fin τ.nSC) : sProp 𝕄 := shLoc d c ↦{Transfers.shareDrop fullShare 16} (Cb m d : Buf (Elt F) (shLoc d c))

/-- What a duty in tile `j`'s round hands over: tile 0's arrival, tile j's read share of the loaded table; the others', nothing. -/
def bPay (g : GSem nD τ sig) (n : ℕ) : sProp 𝕄 :=
  match g with
  | ((d, .scVector c j), _) => if n = 0 then shTok m d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Barrier

end Cert.Proof.Lookup

end
-- ==== Proof.Pay.lean ====
/-
  What the handshakes of the one SparseCore call carry. The call takes, per SparseCore c, a read share of the
  combined table, the sixteen token blocks of its tiles and the 16 x 50 row chunks they write; tile s of it is handed
  its block and its fifty chunks, and tile 0 also the table's share and the shared copy's buffer whole; each tile
  brings back its block, its chunks holding the gathered rows, and its read share of the shared copy (tile 0 also what
  is left of the shared copy and the table's share). Each tile's proof consumes its barrier kit and owes its arrivals.
-/
import proofs.«208021_g30185030156587_cont_9to1_1229_25_alg».proof.Proof.Common

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- the call's core number as a grid coordinate -/
abbrev cF (c : Fin ((K (F := F)).nCore 0)) : Fin 2 := Fin.cast nCore_zero c
/-- the call's subcore number as a grid coordinate -/
abbrev sF (i : Fin ((K (F := F)).nSub 0)) : Fin 16 := Fin.cast nSub_zero i

/-- core c's read share of the combined table in HBM -/
abbrev combTok (d : Dev nD) (c : Fin 2) : sProp 𝕄 := combLoc d ↦{Transfers.shareTok fullShare 2 c} Cb m d
/-- worker w's block of the flattened tokens -/
abbrev xfBlk (d : Dev nD) (w : Fin 32) : sProp 𝕄 := xfLoc d ↦[xfSet w]{fullShare} Xf m d
/-- chunk k of the gathered rows, at contents f -/
abbrev oChunk (d : Dev nD) (k : Fin 1600) (f : Buf (Elt F) (oLoc d)) : sProp 𝕄 := oLoc d ↦[oSet k]{fullShare} f
/-- worker w's fifty chunks -/
abbrev oBlk (d : Dev nD) (w : Fin 32) (f : Buf (Elt F) (oLoc d)) : sProp 𝕄 := bigSep Finset.univ fun j : Fin 50 => oChunk d (chunkOf w j) f

def goRes (d : Dev nD) (c : Fin ((K (F := F)).nCore 0)) (i : Fin ((K (F := F)).nSub 0)) : sProp 𝕄 :=
  iprop(xfBlk m d (wid (cF c) (sF i)) ∗ oBlk d (wid (cF c) (sF i)) (m (oLoc d))
    ∗ (if (sF i).val = 0 then iprop(combTok m d (cF c) ∗ ∃ f, shLoc d (coreOf c) ↦{fullShare} f) else iprop(emp)))

def tdRes (d : Dev nD) (c : Fin ((K (F := F)).nCore 0)) (i : Fin ((K (F := F)).nSub 0)) : sProp 𝕄 :=
  iprop(xfBlk m d (wid (cF c) (sF i)) ∗ oBlk d (wid (cF c) (sF i)) (Go m d)
    ∗ (if (sF i).val = 0 then iprop(combTok m d (cF c) ∗ shRest m d (coreOf c)) else iprop(emp))
    ∗ shTok m d (coreOf c) (sF i))

def stRes (d : Dev nD) (c : Fin ((K (F := F)).nCore 0)) : sProp 𝕄 :=
  iprop(combTok m d (cF c) ∗ (bigSep Finset.univ fun s : Fin 16 => xfBlk m d (wid (cF c) s))
    ∗ bigSep Finset.univ fun s : Fin 16 => oBlk d (wid (cF c) s) (m (oLoc d)))

def dnRes (d : Dev nD) (c : Fin ((K (F := F)).nCore 0)) : sProp 𝕄 :=
  iprop(combTok m d (cF c) ∗ (bigSep Finset.univ fun s : Fin 16 => xfBlk m d (wid (cF c) s))
    ∗ bigSep Finset.univ fun s : Fin 16 => oBlk d (wid (cF c) s) (Go m d))

def P : (K (F := F)).Pay (nD := nD) (Val := Elt F) (Name := ℕ) (U := UU) where
  st := fun q d c => match q with | 0 => stRes m d c
  dn := fun q d c => match q with | 0 => dnRes m d c
  go := fun q d c i => match q with | 0 => goRes m d c i
  td := fun q d c i => match q with | 0 => tdRes m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => by show BI.Storable (upEmb : UEmb _ 𝕄) (stRes m d c); unfold stRes; infer_instance
  dn q d c := match q with
    | 0 => by show BI.Storable (upEmb : UEmb _ 𝕄) (dnRes m d c); unfold dnRes; infer_instance
  go q d c i := match q with
    | 0 => by show BI.Storable (upEmb : UEmb _ 𝕄) (goRes m d c i); unfold goRes; split <;> infer_instance
  td q d c i := match q with
    | 0 => by show BI.Storable (upEmb : UEmb _ 𝕄) (tdRes m d c i); unfold tdRes; split <;> infer_instance

end Cert.Proof.Lookup

end
-- ==== Proof.Split.lean ====
/-
  Splitting and joining. The flattened tokens are the 32 workers' blocks, the gathered rows the 1600 chunks of 128
  rows, worker 2 s + c being tile (c, s) and chunk 50 w + j being worker w's j-th; the combined table is read
  through two read shares, one per SparseCore, and a SparseCore's shared copy through sixteen, one per tile. With
  these a SparseCore's operands split into its tiles' and the tiles' results join.
-/
import proofs.«208021_g30185030156587_cont_9to1_1229_25_alg».proof.Proof.Pay

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Workers and chunks -/

/-- worker numbers are the (core, subcore) pairs -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    exact Prod.ext (Fin.ext (by show (2 * s.val + c.val) % 2 = c.val; omega)) (Fin.ext (by show (2 * s.val + c.val) / 2 = s.val; omega))
  right_inv := fun w => Fin.ext (by show 2 * (w.val / 2) + w.val % 2 = w.val; omega)

/-- chunk numbers are the (worker, chunk of the worker) pairs -/
def chunkEquiv : Fin 32 × Fin 50 ≃ Fin 1600 where
  toFun p := chunkOf p.1 p.2
  invFun k := (⟨k.val / 50, by have := k.isLt; omega⟩, ⟨k.val % 50, Nat.mod_lt _ (by decide)⟩)
  left_inv := fun ⟨w, j⟩ => by
    have hw := w.isLt; have hj := j.isLt
    exact Prod.ext (Fin.ext (by show (50 * w.val + j.val) / 50 = w.val; omega)) (Fin.ext (by show (50 * w.val + j.val) % 50 = j.val; omega))
  right_inv := fun k => Fin.ext (by show 50 * (k.val / 50) + k.val % 50 = k.val; omega)

theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_chunks (Φ : Fin 1600 → sProp 𝕄) :
    bigSep Finset.univ Φ = bigSep Finset.univ fun w : Fin 32 => bigSep Finset.univ fun j : Fin 50 => Φ (chunkOf w j) := by
  rw [bigSep_univ_equiv chunkEquiv Φ, bigSep_univ_prod]; rfl

/-! ## The arrays in parts -/

theorem xfSet_eq (w : Fin 32) : xfSet w = (xfPart w).set := by
  show ((View.whole (main_v4_scv : Ref sig .scVector)).slice (xfPart w)).set = _
  rw [View.set_slice]; exact Finset.map_refl
theorem xf_disjoint : ∀ i ∈ (Finset.univ : Finset (Fin 32)), ∀ j ∈ (Finset.univ : Finset (Fin 32)), i ≠ j → Disjoint (xfSet i) (xfSet j) :=
  fun i _ j _ h => by rw [xfSet_eq, xfSet_eq]; exact Rect.part_disjoint hdivX h
theorem xf_cover : (Finset.univ : Finset (Fin 32)).biUnion xfSet = Finset.univ :=
  (Finset.biUnion_congr rfl fun i _ => xfSet_eq i).trans (Rect.biUnion_part hdivX)

theorem oSet_eq (k : Fin 1600) : oSet k = (oPart k).set := by
  show ((View.whole (main_v5_scv : Ref sig .scVector)).slice (oPart k)).set = _
  rw [View.set_slice]; exact Finset.map_refl
theorem o_disjoint : ∀ i ∈ (Finset.univ : Finset (Fin 1600)), ∀ j ∈ (Finset.univ : Finset (Fin 1600)), i ≠ j → Disjoint (oSet i) (oSet j) :=
  fun i _ j _ h => by rw [oSet_eq, oSet_eq]; exact Rect.part_disjoint hdivO h
theorem o_cover : (Finset.univ : Finset (Fin 1600)).biUnion oSet = Finset.univ :=
  (Finset.biUnion_congr rfl fun i _ => oSet_eq i).trans (Rect.biUnion_part hdivO)

/-- The flattened tokens are the tiles' blocks. -/
theorem xfPts_split (d : Dev nD) (f : Buf (Elt F) (xfLoc d)) :
    (xfLoc d ↦{fullShare} f : sProp 𝕄) = bigSep Finset.univ fun c : Fin 2 => bigSep Finset.univ fun s : Fin 16 => xfLoc d ↦[xfSet (wid c s)]{fullShare} f := by
  rw [← bigSep_workers (F := F) (fun w => xfLoc d ↦[xfSet w]{fullShare} f), ← pointsTo_biUnion Finset.univ (ℓ := xfLoc d) xfSet xf_disjoint, xf_cover]; try rfl

/-- The gathered rows are the tiles' chunks. -/
theorem oPts_split (d : Dev nD) (f : Buf (Elt F) (oLoc d)) :
    (oLoc d ↦{fullShare} f : sProp 𝕄) = bigSep Finset.univ fun c : Fin 2 => bigSep Finset.univ fun s : Fin 16 => oBlk d (wid c s) f := by
  rw [← bigSep_workers (F := F) (fun w => oBlk d w f)]
  unfold oBlk oChunk
  rw [← bigSep_chunks (F := F) (fun k => oLoc d ↦[oSet k]{fullShare} f), ← pointsTo_biUnion Finset.univ (ℓ := oLoc d) oSet o_disjoint, o_cover]; try rfl

/-- The combined table through one read share per SparseCore, and the rest. -/
theorem combPts_split [FloatOps F] (m : (ℓ : Loc nD τ sig) → Buf (Elt F) ℓ) (d : Dev nD) :
    (combLoc d ↦{fullShare} Cb m d : sProp 𝕄) ⊣⊢ iprop((combLoc d ↦{Transfers.shareDrop fullShare 2} Cb m d) ∗ bigSep Finset.univ fun c : Fin 2 => combTok m d c) :=
  Transfers.pointsTo_toks fullShare 2

end Cert.Proof.Lookup

end
-- ==== Proof.VecSplit.lean ====
/-
  How a SparseCore's operands split into its sixteen tiles' and the tiles' results join: the token blocks and the
  row chunks tile by tile; the table's read share and the shared copy's buffer to tile 0, which loads the copy; the
  sixteen read shares the tiles bring back, with what tile 0 kept, are the shared copy whole again.
-/
import proofs.«208021_g30185030156587_cont_9to1_1229_25_alg».proof.Proof.Split

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

omit [FloatOps F] in
theorem bigSep_tasks (Φ : Fin 16 → sProp 𝕄) :
    (bigSep Finset.univ fun i : Fin ((K (F := F)).nSub 0) => Φ (sF i)) = bigSep Finset.univ Φ :=
  bigSep_congr fun _ _ => congrArg Φ (Fin.ext rfl)

omit [FloatOps F] in
/-- A resource only tile 0 is handed is that resource. -/
theorem bigSep_ite_zero (A : sProp 𝕄) :
    (bigSep Finset.univ fun s : Fin 16 => (if s.val = 0 then A else iprop(emp) : sProp 𝕄)) = iprop(A ∗ emp) := by
  rw [BI.bigSep_univ_split (0 : Fin 16),
    show (bigSep (Finset.univ.erase (0 : Fin 16)) fun s : Fin 16 => (if s.val = 0 then A else iprop(emp) : sProp 𝕄))
      = bigSep (Finset.univ.erase (0 : Fin 16)) fun _ => (iprop(emp) : sProp 𝕄) from
      bigSep_congr fun s hs => if_neg fun h => (Finset.mem_erase.mp hs).1 (Fin.ext h), bigSep_emp']
  rfl

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d c ∗ ownBufs (S d (coreOf c))) ⊢ |={Set.univ}=> iprop((bigSep Finset.univ fun i : Fin ((K (F := F)).nSub 0) => goRes m d c i)
      ∗ ((bigSep Finset.univ fun i : Fin ((K (F := F)).nSub 0) => tdRes m d c i) -∗ iprop(dnRes m d c ∗ ownBufs (S d (coreOf c)))))
  unfold goRes tdRes stRes dnRes
  rw [bigSep_tasks (F := F) (fun s => iprop(xfBlk m d (wid (cF c) s) ∗ oBlk d (wid (cF c) s) (m (oLoc d))
        ∗ (if s.val = 0 then iprop(combTok m d (cF c) ∗ ∃ f, shLoc d (coreOf c) ↦{fullShare} f) else iprop(emp)))),
    bigSep_tasks (F := F) (fun s => iprop(xfBlk m d (wid (cF c) s) ∗ oBlk d (wid (cF c) s) (Go m d)
        ∗ (if s.val = 0 then iprop(combTok m d (cF c) ∗ shRest m d (coreOf c)) else iprop(emp)) ∗ shTok m d (coreOf c) s)),
    bigSep_sep', bigSep_sep', bigSep_sep', bigSep_sep', bigSep_sep', bigSep_ite_zero, bigSep_ite_zero, ownBufs_S]
  iintro ⟨⟨Hc, Hx, Ho⟩, ⟨%fsh, Hsh⟩, Hrest⟩; imodintro
  isplitl [Hc Hx Ho Hsh]
  · isplitl [Hx]; · iexact Hx
    isplitl [Ho]; · iexact Ho
    isplitl [Hc Hsh]
    · isplitl [Hc]; · iexact Hc
      iexists fsh; iexact Hsh
    · iempintro
  iintro ⟨Hx, Ho, ⟨⟨Hc, Hr⟩, -⟩, Htoks⟩
  isplitl [Hc Hx Ho]
  · isplitl [Hc]; · iexact Hc
    isplitl [Hx]; · iexact Hx
    iexact Ho
  isplitl [Hr Htoks]
  · iexists (Cb m d : Buf (Elt F) (shLoc d (coreOf c)))
    iapply (Transfers.pointsTo_toks_join fullShare 16)
    isplitl [Hr]; · iexact Hr
    iexact Htoks
  iexact Hrest

end Cert.Proof.Lookup

end
-- ==== Proof.LaunchElem.lean ====
/-
  The launch element of the ghost state and what the launch hands over: the handshakes' rounds; the barrier cells'
  rounds, funded and allocated for every tile at once and dealt as each tile's kit (every cell's invariant of its
  SparseCore, its own position, its duty token in every tile's round, the credit for the sixteen units of its own
  round); and the TensorCore region's staging cells' rounds, funded for @main.
-/
import proofs.«208021_g30185030156587_cont_9to1_1229_25_alg».proof.Proof.VecSplit
import proofs.«208021_g30185030156587_cont_9to1_1229_25_alg».proof.Proof.Gen.KernelIdeal.Launch

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The region's staging cells and the tokens of the transfers its loops issue. -/
abbrev rCells : Finset (GSem nD τ sig) := Pipeline.cells (nD := nD) (τ := τ) cfgs cellOf_inj
abbrev rToks : Finset (GSem nD τ sig × ℕ × Unit) := Pipeline.launchToks (nD := nD) (τ := τ) cfgs cellOf_inj
def u₀ : UU := (initOf (K (F := F)).hsCells (K (F := F)).hsToks, (initOf bCells bToks, (initOf rCells rToks, 1)))

/-- What @main's proof starts from beside the launch's deal: the region's staging cells' ghost state and duty tokens. -/
abbrev G (d : Dev nD) : sProp 𝕄 := iprop(Pipeline.cellsGhost cfgs (ER (F := F)) 0 d ∗ Pipeline.toksInit cfgs (ER (F := F)) 0 d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a) ∗ ownU ((1, (b, (r, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (ownU ((1, (b, (r, 1))) : UU) : sProp 𝕄) ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((r, 1) : UR × Counters)))))
  iintro H
  ihave H' := h1 $$ H
  icases H' with ⟨HH, Hrest⟩
  isplitl [HH]; · iexact HH
  iapply h2; iexact Hrest

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The region's staging cells' ghost state and duty tokens, per device. -/
theorem ghost_r : (BI.own (ER (F := F) (initOf rCells rToks)) : sProp 𝕄) ⊢ |==> bigSep Finset.univ fun d : Dev nD => G (F := F) d := by
  refine (Pipeline.fund_ghost (nD := nD) (τ := τ) cfgs (ER (F := F)) cellOf_inj).trans ?_
  iintro H
  imod H with ⟨Hg, Ht⟩
  imodintro
  unfold G
  rw [bigSep_sep']
  isplitl [Hg]
  · iapply (Entails.of_eq (bigSep_congr fun d _ => (bigSep_univ_of_subsingleton (0 : Fin 1) (Φ := fun p => Pipeline.cellsGhost cfgs (ER (F := F)) p d)))); iexact Hg
  · iapply (Entails.of_eq (bigSep_congr fun d _ => (bigSep_univ_of_subsingleton (0 : Fin 1) (Φ := fun p => Pipeline.toksInit cfgs (ER (F := F)) p d)))); iexact Ht

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (ghost_r (F := F)) $$ HR with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.Lookup

end
-- ==== Proof.FinRes.lean ====
/-
  What @main's proof ends with on the TensorCore, and how it reads the claim off the final memory: the three
  arguments at their launch contents and the result at the kernel's term of them.
-/
import proofs.«208021_g30185030156587_cont_9to1_1229_25_alg».proof.Proof.LaunchElem

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- The arguments as launched and the result holding the gathered rows of the launch memory, reshaped. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ resLoc d ↦{fullShare} (resOf (F := F) (Go m d) : Buf (Elt F) (resLoc d)))

def fq (d : Dev nD) (s' : Phys nD τ sig (Elt F)) : Prop :=
  s'.mem.mem (resLoc d) = (resOf (F := F) (Go m d) : Buf (Elt F) (resLoc d))
    ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave %h0 := (SI_pointsTo_agree (st := s') (ℓ := a0Loc d) (I := Finset.univ) (q := fullShare) (f := m (a0Loc d))) $$ [HSI H0]
  · isplitl [HSI] <;> iassumption
  ihave %h1 := (SI_pointsTo_agree (st := s') (ℓ := a1Loc d) (I := Finset.univ) (q := fullShare) (f := m (a1Loc d))) $$ [HSI H1]
  · isplitl [HSI] <;> iassumption
  ihave %h2 := (SI_pointsTo_agree (st := s') (ℓ := a2Loc d) (I := Finset.univ) (q := fullShare) (f := m (a2Loc d))) $$ [HSI H2]
  · isplitl [HSI] <;> iassumption
  ihave %hr := (SI_pointsTo_agree (st := s') (ℓ := resLoc d) (I := Finset.univ) (q := fullShare) (f := (resOf (F := F) (Go m d) : Buf (Elt F) (resLoc d)))) $$ [HSI Hr]
  · isplitl [HSI] <;> iassumption
  ipureintro
  exact ⟨funext fun i => hr i (Finset.mem_univ i), funext fun i => h0 i (Finset.mem_univ i), funext fun i => h1 i (Finset.mem_univ i), funext fun i => h2 i (Finset.mem_univ i)⟩

/-- The run's post: on every device the result is the kernel's term of the launch memory's arguments, which are unchanged. -/
def QC : PUnit × MemSt nD τ sig (Elt F) → Prop := fun r => ∀ c : Dev nD,
  r.2.mem (resLoc c) = (kernelOut (F := F) (m (a0Loc c)) (m (a1Loc c)) (m (a2Loc c)) : Buf (Elt F) (resLoc c))
    ∧ r.2.mem (a0Loc c) = m (a0Loc c) ∧ r.2.mem (a1Loc c) = m (a1Loc c) ∧ r.2.mem (a2Loc c) = m (a2Loc c)

theorem hQ (s' : Phys nD τ sig (Elt F)) (h : ∀ d, fq m d s') : QC m (⟨⟩, s'.mem) := fun c => h c

end Cert.Proof.Lookup

end
-- ==== Proof.Tile.lean ====
/-
  The tile-level vocabulary of the kernel body.  Tile (c, s) of the 2 x 16 grid is worker w = 2 s + c.  It reads
  tokens [6400 w, 6400 (w + 1)) of the flattened token array, fills its own list of 6400 row numbers, and
  gathers rows of its SparseCore's shared copy of the combined table, 128 at a time through two staging buffers,
  into rows [6400 w + 128 k, 6400 w + 128 (k + 1)), k < 50, of the result.  This module names each slice the body
  addresses exactly as the program spells it, gives the set of elements each slice covers in the terms the
  launch hands them over in (the worker's block, its fifty chunks), and states how the tile's own scratch
  buffers and DMA semaphores come out of what the launch theorem provides.
-/
import proofs.«208021_g30185030156587_cont_9to1_1229_25_alg».proof.Proof.Pay

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Tile

variable [FloatOps F]
variable (m : (ℓ : Loc nD τ sig) → Buf (Elt F) ℓ) (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)
/-- the tile's worker number 2 s + c -/
abbrev wL (L : grid1.Coords) : Fin 32 := wid (cL L) (jL L)

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
theorem trips3 : k1_t3_loop.trips = 25 := by decide

/-! ## The worker's block of the tokens -/

abbrev xBlkR (L : grid1.Coords) : Rect S204800 := Rect.unit (s := S204800) (k1_off1 L) S6400.size (k1_off1_inb L)
/-- the block of the flattened tokens the tile copies in, as the program slices it -/
abbrev xBlkK (L : grid1.Coords) : Memref sig .scVector .hbm S6400 .i32 := (xfV).slice (xBlkR L) (fun _ => rfl)

omit [FloatOps F] in
theorem xBlkR_eq : xBlkR L = xfPart (wL L) := by
  unfold xBlkR xfPart Rect.part Rect.block
  congr 1 <;> funext a
  · rw [k1_off1_eq]
    match a with
    | 0 => simp [Shape.partIx, Shape.partSize, wid]; omega
  · match a with
    | 0 => simp [Shape.partSize]

omit [FloatOps F] in
theorem set_xBlkK : (xBlkK L).view.set = xfSet (wL L) := by
  show ((xfV).view.slice (xBlkR L)).set = ((xfV).view.slice (xfPart (wL L))).set
  rw [xBlkR_eq]

/-! ## The fifty chunks of the result the tile writes -/

abbrev oChunkR (L : grid1.Coords) (t : Fin k1_t3_loop.trips) (r : Fin 2) : Rect S204800x128 :=
  Rect.unit (s := S204800x128) (k1_off4 L t (BitVec.ofNat 32 r.val)) S128x128.size (k1_off4_inb L t r)
/-- the chunk of 128 rows of the result that trip t writes out of staging buffer r, as the program slices it -/
abbrev oChunkK (L : grid1.Coords) (t : Fin k1_t3_loop.trips) (r : Fin 2) : Memref sig .scVector .hbm S128x128 .f32 :=
  (oV).slice (oChunkR L t r) (fun _ => rfl)

/-- trip t, buffer r is the worker's chunk 2 t + r -/
def chunkIx (t : Fin k1_t3_loop.trips) (r : Fin 2) : Fin 50 := ⟨2 * t.val + r.val, by have h : t.val < 25 := lt_of_lt_of_eq t.isLt trips3; omega⟩

omit [FloatOps F] in
theorem oChunkR_eq (t : Fin k1_t3_loop.trips) (r : Fin 2) : oChunkR L t r = oPart (chunkOf (wL L) (chunkIx t r)) := by
  unfold oChunkR oPart Rect.part Rect.block
  congr 1 <;> funext a
  · rw [k1_off4_eq]
    match a with
    | 0 => simp [Shape.partIx, Shape.partSize, wid, chunkOf, chunkIx]; omega
    | 1 => simp [Shape.partIx, Shape.partSize]
  · match a with
    | 0 => simp [Shape.partSize]
    | 1 => simp [Shape.partSize]

omit [FloatOps F] in
theorem set_oChunkK (t : Fin k1_t3_loop.trips) (r : Fin 2) : (oChunkK L t r).view.set = oSet (chunkOf (wL L) (chunkIx t r)) := by
  show ((oV).view.slice (oChunkR L t r)).set = ((oV).view.slice (oPart (chunkOf (wL L) (chunkIx t r)))).set
  rw [oChunkR_eq]

/-! ## The two staging buffers: the halves of the tile's [2, 128, 128] scratch -/

abbrev buf0K : Memref sig .scVector .vmem S128x128 .f32 :=
  ((bufsV).slice (Rect.unit (s := S2x128x128) ![0, 0, 0] S1x128x128.size inb_S2x128x128_S1x128x128_0_0_0) (fun _ => rfl)).squeeze S128x128 squeezes_S1x128x128_S128x128
abbrev buf1K : Memref sig .scVector .vmem S128x128 .f32 :=
  ((bufsV).slice (Rect.unit (s := S2x128x128) ![1, 0, 0] S1x128x128.size inb_S2x128x128_S1x128x128_1_0_0) (fun _ => rfl)).squeeze S128x128 squeezes_S1x128x128_S128x128

omit [FloatOps F] in
theorem hdivB : 2 ∣ S2x128x128.size 0 := ⟨1, rfl⟩
abbrev bufSet (b : Fin 2) : Finset S2x128x128.Idx := ((bufsV).view.slice (Rect.part (s := S2x128x128) (a₀ := 0) hdivB b)).set

omit [FloatOps F] in
theorem buf0R_eq : Rect.unit (s := S2x128x128) ![0, 0, 0] S1x128x128.size inb_S2x128x128_S1x128x128_0_0_0 = Rect.part (s := S2x128x128) (a₀ := 0) hdivB 0 := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem buf1R_eq : Rect.unit (s := S2x128x128) ![1, 0, 0] S1x128x128.size inb_S2x128x128_S1x128x128_1_0_0 = Rect.part (s := S2x128x128) (a₀ := 0) hdivB 1 := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_buf0K : (buf0K).view.set = bufSet 0 := by
  show (((View.whole (cc1_scratch2 : Ref sig .scVector)).slice (Rect.unit (s := S2x128x128) ![0, 0, 0] S1x128x128.size inb_S2x128x128_S1x128x128_0_0_0)).reshape S128x128 squeezes_S1x128x128_S128x128.numel_eq).set
    = ((View.whole (cc1_scratch2 : Ref sig .scVector)).slice (Rect.part (s := S2x128x128) (a₀ := 0) hdivB 0)).set
  rw [View.set_reshape, View.set_slice_whole, View.set_slice_whole]
  exact congrArg (fun r : Rect S2x128x128 => r.set) buf0R_eq
omit [FloatOps F] in
theorem set_buf1K : (buf1K).view.set = bufSet 1 := by
  show (((View.whole (cc1_scratch2 : Ref sig .scVector)).slice (Rect.unit (s := S2x128x128) ![1, 0, 0] S1x128x128.size inb_S2x128x128_S1x128x128_1_0_0)).reshape S128x128 squeezes_S1x128x128_S128x128.numel_eq).set
    = ((View.whole (cc1_scratch2 : Ref sig .scVector)).slice (Rect.part (s := S2x128x128) (a₀ := 0) hdivB 1)).set
  rw [View.set_reshape, View.set_slice_whole, View.set_slice_whole]
  exact congrArg (fun r : Rect S2x128x128 => r.set) buf1R_eq

omit [FloatOps F] in
theorem bufSet_eq (b : Fin 2) : bufSet b = (Rect.part (s := S2x128x128) (a₀ := 0) hdivB b).set := by
  show ((View.whole (cc1_scratch2 : Ref sig .scVector)).slice _).set = _
  rw [View.set_slice]; exact Finset.map_refl
omit [FloatOps F] in
theorem bufSets_disjoint : Disjoint (bufSet 0) (bufSet 1) := by
  rw [bufSet_eq, bufSet_eq]; exact Rect.part_disjoint hdivB (by decide)
omit [FloatOps F] in
theorem bufSets_cover : bufSet 0 ∪ bufSet 1 = Finset.univ := by
  have h := Rect.biUnion_part (s := S2x128x128) (a₀ := 0) hdivB
  rw [← h, bufSet_eq, bufSet_eq]
  ext x; simp [Fin.exists_fin_two]

/-- the staging scratch, held whole, is its two halves -/
theorem bufs_halves (f : Buf (Elt F) ((V d (cV L) (jV L)).loc cc1_scratch2)) :
    ((V d (cV L) (jV L)).loc cc1_scratch2 ↦{fullShare} f : sProp 𝕄)
      ⊣⊢ iprop(((buf0K).view.loc (V d (cV L) (jV L)) ↦[(buf0K).view.set]{fullShare} f) ∗ ((buf1K).view.loc (V d (cV L) (jV L)) ↦[(buf1K).view.set]{fullShare} f)) := by
  rw [set_buf0K, set_buf1K]
  show (_ ↦[Finset.univ]{fullShare} f : sProp 𝕄) ⊣⊢ _
  rw [← bufSets_cover]
  exact pointsTo_union bufSets_disjoint

/-! ## The list of row numbers, in fifty slices of 128 -/

omit [FloatOps F] in
theorem hdivI : 50 ∣ S6400.size 0 := ⟨128, rfl⟩
/-- words [128 k, 128 (k + 1)) of the tile's list of row numbers -/
abbrev idxSet (k : Fin 50) : Finset S6400.Idx := ((idxV).view.slice (Rect.part (s := S6400) (a₀ := 0) hdivI k)).set

/-- the first two slices, whose gathers the prologue starts -/
abbrev idx0K : Memref sig .scVector .vmem S128 .i32 := (idxV).slice (Rect.unit (s := S6400) ![0] S128.size inb_S6400_S128_0) (fun _ => rfl)
abbrev idx1K : Memref sig .scVector .vmem S128 .i32 := (idxV).slice (Rect.unit (s := S6400) ![128] S128.size inb_S6400_S128_128) (fun _ => rfl)
/-- the slices the main loop's trip t starts gathers from -/
abbrev idxAK (t : Fin k1_t3_loop.trips) (h2 : k1_cond2 t = 1#1) : Memref sig .scVector .vmem S128 .i32 :=
  (idxV).slice (Rect.unit (s := S6400) (k1_off6 t) S128.size (k1_off6_inb t h2)) (fun _ => rfl)
abbrev idxBK (t : Fin k1_t3_loop.trips) (h3 : k1_cond3 t = 1#1) : Memref sig .scVector .vmem S128 .i32 :=
  (idxV).slice (Rect.unit (s := S6400) (k1_off8 t) S128.size (k1_off8_inb t h3)) (fun _ => rfl)

omit [FloatOps F] in
theorem cond2_lt (t : Fin k1_t3_loop.trips) (h2 : k1_cond2 t = 1#1) : 2 * t.val + 2 < 50 := by
  revert t; decide
omit [FloatOps F] in
theorem cond3_lt (t : Fin k1_t3_loop.trips) (h3 : k1_cond3 t = 1#1) : 2 * t.val + 3 < 50 := by
  revert t; decide

omit [FloatOps F] in
theorem idxR_eq (k : Fin 50) (off : Fin 1 → ℕ) (inb : ∀ a, off a + S128.size a ≤ S6400.size a) (h : off = ![128 * k.val]) :
    Rect.unit (s := S6400) off S128.size inb = Rect.part (s := S6400) (a₀ := 0) hdivI k := by
  subst h
  unfold Rect.part Rect.block
  congr 1 <;> funext a
  · match a with
    | 0 => simp [Shape.partIx, Shape.partSize]; omega
  · match a with
    | 0 => simp [Shape.partSize]

omit [FloatOps F] in
theorem idx_slice_set (r : Rect S6400) : ((idxV).view.slice r).set = r.set := by
  show ((View.whole (cc1_scratch1 : Ref sig .scVector)).slice r).set = r.set
  exact View.set_slice_whole (cc1_scratch1 : Ref sig .scVector) r

omit [FloatOps F] in
theorem set_idx0K : (idx0K).view.set = idxSet 0 := by
  show ((idxV).view.slice (Rect.unit (s := S6400) ![0] S128.size inb_S6400_S128_0)).set = ((idxV).view.slice (Rect.part (s := S6400) (a₀ := 0) hdivI 0)).set
  rw [idx_slice_set, idx_slice_set]
  exact congrArg (fun r : Rect S6400 => r.set) (idxR_eq 0 _ _ rfl)
omit [FloatOps F] in
theorem set_idx1K : (idx1K).view.set = idxSet 1 := by
  show ((idxV).view.slice (Rect.unit (s := S6400) ![128] S128.size inb_S6400_S128_128)).set = ((idxV).view.slice (Rect.part (s := S6400) (a₀ := 0) hdivI 1)).set
  rw [idx_slice_set, idx_slice_set]
  exact congrArg (fun r : Rect S6400 => r.set) (idxR_eq 1 _ _ rfl)
omit [FloatOps F] in
theorem set_idxAK (t : Fin k1_t3_loop.trips) (h2 : k1_cond2 t = 1#1) : (idxAK t h2).view.set = idxSet ⟨2 * t.val + 2, cond2_lt t h2⟩ := by
  show ((idxV).view.slice (Rect.unit (s := S6400) (k1_off6 t) S128.size (k1_off6_inb t h2))).set
    = ((idxV).view.slice (Rect.part (s := S6400) (a₀ := 0) hdivI ⟨2 * t.val + 2, cond2_lt t h2⟩)).set
  rw [idx_slice_set, idx_slice_set]
  exact congrArg (fun r : Rect S6400 => r.set) (idxR_eq ⟨2 * t.val + 2, cond2_lt t h2⟩ _ _
    ((k1_off6_eq t).trans (congrArg (fun x : ℕ => ![x]) (by show 256 * t.val + 256 = 128 * (2 * t.val + 2); omega))))
omit [FloatOps F] in
theorem set_idxBK (t : Fin k1_t3_loop.trips) (h3 : k1_cond3 t = 1#1) : (idxBK t h3).view.set = idxSet ⟨2 * t.val + 3, cond3_lt t h3⟩ := by
  show ((idxV).view.slice (Rect.unit (s := S6400) (k1_off8 t) S128.size (k1_off8_inb t h3))).set
    = ((idxV).view.slice (Rect.part (s := S6400) (a₀ := 0) hdivI ⟨2 * t.val + 3, cond3_lt t h3⟩)).set
  rw [idx_slice_set, idx_slice_set]
  exact congrArg (fun r : Rect S6400 => r.set) (idxR_eq ⟨2 * t.val + 3, cond3_lt t h3⟩ _ _
    ((k1_off8_eq t).trans (congrArg (fun x : ℕ => ![x]) (by show 256 * t.val + 384 = 128 * (2 * t.val + 3); omega))))

omit [FloatOps F] in
theorem idxSet_eq (k : Fin 50) : idxSet k = (Rect.part (s := S6400) (a₀ := 0) hdivI k).set := idx_slice_set _
omit [FloatOps F] in
theorem idxSets_disjoint : ∀ i ∈ (Finset.univ : Finset (Fin 50)), ∀ j ∈ (Finset.univ : Finset (Fin 50)), i ≠ j → Disjoint (idxSet i) (idxSet j) :=
  fun i _ j _ h => by rw [idxSet_eq, idxSet_eq]; exact Rect.part_disjoint hdivI h
omit [FloatOps F] in
theorem idxSets_cover : (Finset.univ : Finset (Fin 50)).biUnion idxSet = Finset.univ :=
  (Finset.biUnion_congr rfl fun i _ => idxSet_eq i).trans (Rect.biUnion_part hdivI)
omit [FloatOps F] in
theorem mem_idxSet (k : Fin 50) (p : S6400.Idx) : p ∈ idxSet k ↔ 128 * k.val ≤ (p 0).val ∧ (p 0).val < 128 * k.val + 128 := by
  rw [idxSet_eq, Rect.mem_set_unit]
  constructor
  · intro h; have := h 0; simp [Shape.partIx, Shape.partSize] at this; omega
  · intro h a
    match a with
    | 0 => simp [Shape.partIx, Shape.partSize]; omega

/-- the list, held whole, is its fifty slices -/
theorem idx_slices (f : Buf (Elt F) ((V d (cV L) (jV L)).loc cc1_scratch1)) :
    ((V d (cV L) (jV L)).loc cc1_scratch1 ↦{fullShare} f : sProp 𝕄)
      = bigSep Finset.univ fun k : Fin 50 => (V d (cV L) (jV L)).loc cc1_scratch1 ↦[idxSet k]{fullShare} f := by
  rw [← pointsTo_biUnion Finset.univ (ℓ := (V d (cV L) (jV L)).loc cc1_scratch1) idxSet idxSets_disjoint, idxSets_cover]

/-! ## The shared copy of the combined table, as the gathers address it -/

abbrev shSK : Memref sig .scVector .shared S1000x128 .f32 :=
  (shV).slice (Rect.unit (s := S1000x128) ![0, 0] S1000x128.size inb_S1000x128_S1000x128_0_0) (fun _ => rfl)

omit [FloatOps F] in
theorem set_shSK : (shSK).view.set = Finset.univ := by
  show ((View.whole (cc1_scratch3 : Ref sig .scVector)).slice _).set = _
  rw [View.set_slice_whole]
  ext x
  simp only [Finset.mem_univ, iff_true]
  exact Rect.mem_set_unit.mpr (fun a => by
    match a with
    | 0 => exact ⟨Nat.zero_le _, lt_of_lt_of_eq (x 0).isLt (Nat.zero_add _).symm⟩
    | 1 => exact ⟨Nat.zero_le _, lt_of_lt_of_eq (x 1).isLt (Nat.zero_add _).symm⟩)

omit [FloatOps F] in
theorem pts_shSK (q : PosShare TreeShare) (f : Buf (Elt F) (shLoc d (cV L))) :
    ((shSK).view.loc (V d (cV L) (jV L)) ↦[(shSK).view.set]{q} f : sProp 𝕄) = shLoc d (cV L) ↦{q} f := by
  rw [set_shSK]; rfl

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-! ## The HBM arrays as the tile addresses them -/

omit [FloatOps F] in
theorem pts_xBlkK (q : PosShare TreeShare) (f : Buf (Elt F) (xfLoc d)) :
    ((xBlkK L).view.loc (V d (cV L) (jV L)) ↦[(xBlkK L).view.set]{q} f : sProp 𝕄) = xfLoc d ↦[xfSet (wL L)]{q} f := by
  rw [set_xBlkK]
omit [FloatOps F] in
theorem pts_oChunkK (t : Fin k1_t3_loop.trips) (r : Fin 2) (q : PosShare TreeShare) (f : Buf (Elt F) (oLoc d)) :
    ((oChunkK L t r).view.loc (V d (cV L) (jV L)) ↦[(oChunkK L t r).view.set]{q} f : sProp 𝕄) = oLoc d ↦[oSet (chunkOf (wL L) (chunkIx t r))]{q} f := by
  rw [set_oChunkK]
omit [FloatOps F] in
theorem pts_combV (q : PosShare TreeShare) (f : Buf (Elt F) (combLoc d)) :
    ((combV).view.loc (V d (cV L) (jV L)) ↦{q} f : sProp 𝕄) = combLoc d ↦{q} f := rfl
omit [FloatOps F] in
theorem pts_xV (f : Buf (Elt F) ((V d (cV L) (jV L)).loc cc1_scratch0)) :
    ((xV).view.loc (V d (cV L) (jV L)) ↦{fullShare} f : sProp 𝕄) = (V d (cV L) (jV L)).loc cc1_scratch0 ↦{fullShare} f := rfl
omit [FloatOps F] in
theorem pts_idxV (f : Buf (Elt F) ((V d (cV L) (jV L)).loc cc1_scratch1)) :
    ((idxV).view.loc (V d (cV L) (jV L)) ↦{fullShare} f : sProp 𝕄) = (V d (cV L) (jV L)).loc cc1_scratch1 ↦{fullShare} f := rfl

/-! ## The tile's DMA semaphores -/

/-- the two gather semaphores, the two copy-out semaphores, the token copy's, and the scoped one of the table's copy -/
abbrev g0cell (d : Dev nD) (c : Fin τ.nSC) (i : Fin τ.nSub) : GSem nD τ sig := (V d c i, .dma cc1_scratch4.sem)
abbrev g1cell (d : Dev nD) (c : Fin τ.nSC) (i : Fin τ.nSub) : GSem nD τ sig := (V d c i, .dma cc1_scratch5.sem)
abbrev o0cell (d : Dev nD) (c : Fin τ.nSC) (i : Fin τ.nSub) : GSem nD τ sig := (V d c i, .dma cc1_scratch6.sem)
abbrev o1cell (d : Dev nD) (c : Fin τ.nSC) (i : Fin τ.nSub) : GSem nD τ sig := (V d c i, .dma cc1_scratch7.sem)
abbrev xscell (d : Dev nD) (c : Fin τ.nSC) (i : Fin τ.nSub) : GSem nD τ sig := (V d c i, .dma cc1_scratch8.sem)
abbrev sccell (d : Dev nD) (c : Fin τ.nSC) (i : Fin τ.nSub) : GSem nD τ sig := (V d c i, .dma cc1_scoped0.sem)

omit [FloatOps F] in
theorem dmaCell_mem (d : Dev nD) (c : Fin τ.nSC) (i : Fin τ.nSub) (sm : DmaSem sig) (h : (SemLoc.dma sm : SemLoc sig).isScoped .scVector = true) :
    ((V d c i, SemLoc.dma sm) : GSem nD τ sig) ∈ (ownCells (V d c i) : Finset (GSem nD τ sig)) :=
  (mem_ownCells (g := (V d c i, SemLoc.dma sm))).mpr ⟨rfl, h⟩
omit [FloatOps F] in
theorem dmaCell_ne (d : Dev nD) (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

/-- the rest of the tile's own semaphores once the six the body uses are set apart -/
abbrev restCells (d : Dev nD) (c : Fin τ.nSC) (i : Fin τ.nSub) : Finset (GSem nD τ sig) :=
  ((((((ownCells (V d c i)).erase (g0cell d c i)).erase (g1cell d c i)).erase (o0cell d c i)).erase (o1cell d c i)).erase (xscell d c i)).erase (sccell d c i)

omit [FloatOps F] in
theorem ownSems0_V :
    (ownSems0 (V d (cV L) (jV L)) : sProp 𝕄)
      = iprop(semVal (g0cell d (cV L) (jV L)) 0 ∗ semVal (g1cell d (cV L) (jV L)) 0 ∗ semVal (o0cell d (cV L) (jV L)) 0
          ∗ semVal (o1cell d (cV L) (jV L)) 0 ∗ semVal (xscell d (cV L) (jV L)) 0 ∗ semVal (sccell d (cV L) (jV L)) 0
          ∗ bigSep (restCells d (cV L) (jV L)) fun g => semVal g 0) := by
  unfold SparseCore.Cfg.ownSems0
  have m0 := dmaCell_mem d (cV L) (jV L) cc1_scratch4.sem (by decide)
  have m1 := dmaCell_mem d (cV L) (jV L) cc1_scratch5.sem (by decide)
  have m2 := dmaCell_mem d (cV L) (jV L) cc1_scratch6.sem (by decide)
  have m3 := dmaCell_mem d (cV L) (jV L) cc1_scratch7.sem (by decide)
  have m4 := dmaCell_mem d (cV L) (jV L) cc1_scratch8.sem (by decide)
  have m5 := dmaCell_mem d (cV L) (jV L) cc1_scoped0.sem (by decide)
  have ne (a b : DmaSem sig) (h : a ≠ b) := dmaCell_ne d (cV L) (jV L) h
  rw [SparseCore.bigSep_erase' m0,
    SparseCore.bigSep_erase' (Finset.mem_erase.mpr ⟨ne cc1_scratch5.sem cc1_scratch4.sem (by decide), m1⟩),
    SparseCore.bigSep_erase' (Finset.mem_erase.mpr ⟨ne cc1_scratch6.sem cc1_scratch5.sem (by decide),
      Finset.mem_erase.mpr ⟨ne cc1_scratch6.sem cc1_scratch4.sem (by decide), m2⟩⟩),
    SparseCore.bigSep_erase' (Finset.mem_erase.mpr ⟨ne cc1_scratch7.sem cc1_scratch6.sem (by decide),
      Finset.mem_erase.mpr ⟨ne cc1_scratch7.sem cc1_scratch5.sem (by decide),
      Finset.mem_erase.mpr ⟨ne cc1_scratch7.sem cc1_scratch4.sem (by decide), m3⟩⟩⟩),
    SparseCore.bigSep_erase' (Finset.mem_erase.mpr ⟨ne cc1_scratch8.sem cc1_scratch7.sem (by decide),
      Finset.mem_erase.mpr ⟨ne cc1_scratch8.sem cc1_scratch6.sem (by decide),
      Finset.mem_erase.mpr ⟨ne cc1_scratch8.sem cc1_scratch5.sem (by decide),
      Finset.mem_erase.mpr ⟨ne cc1_scratch8.sem cc1_scratch4.sem (by decide), m4⟩⟩⟩⟩),
    SparseCore.bigSep_erase' (Finset.mem_erase.mpr ⟨ne cc1_scoped0.sem cc1_scratch8.sem (by decide),
      Finset.mem_erase.mpr ⟨ne cc1_scoped0.sem cc1_scratch7.sem (by decide),
      Finset.mem_erase.mpr ⟨ne cc1_scoped0.sem cc1_scratch6.sem (by decide),
      Finset.mem_erase.mpr ⟨ne cc1_scoped0.sem cc1_scratch5.sem (by decide),
      Finset.mem_erase.mpr ⟨ne cc1_scoped0.sem cc1_scratch4.sem (by decide), m5⟩⟩⟩⟩⟩)]

/-! ## The tile's own scratch buffers -/

abbrev restRefs (c : Fin τ.nSC) (i : Fin τ.nSub) : Finset (DevRef τ sig) :=
  (((ownRefs (τ := τ) (.scVector c i)).erase ((Proc.scVector c i).devRef cc1_scratch0)).erase ((Proc.scVector c i).devRef cc1_scratch1)).erase ((Proc.scVector c i).devRef cc1_scratch2)

omit [FloatOps F] in
/-- The token scratch, the list of row numbers and the staging scratch are among the subcore's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep (restRefs (cV L) (jV L)) fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have ne (a b : Ref sig .scVector) (h : a ≠ b) : (Proc.scVector (cV L) (jV L)).devRef a ≠ (Proc.scVector (cV L) (jV L)).devRef b :=
    fun e => h (Proc.devRef_injective _ e)
  rw [SparseCore.bigSep_erase' m0,
    SparseCore.bigSep_erase' (Finset.mem_erase.mpr ⟨ne cc1_scratch1 cc1_scratch0 (by decide), m1⟩),
    SparseCore.bigSep_erase' (Finset.mem_erase.mpr ⟨ne cc1_scratch2 cc1_scratch1 (by decide), Finset.mem_erase.mpr ⟨ne cc1_scratch2 cc1_scratch0 (by decide), m2⟩⟩)]

/-! ## What crosses the barrier: read shares of the shared copy of the table -/

/-- Tile 0, holding the sixteen read shares, hands one to each tile's round. -/
theorem pays_intro_zero (h0 : (jV L).val = 0) :
    (bigSep Finset.univ fun j : Fin 16 => shTok m d (cV L) j)
      ⊢ (bigSep Finset.univ fun j : Fin (grid1.bound 1) => (bRd (F := F) m).payload (bcell d (cV L) (j.castLE hsub1)) 0 (jV L).val : sProp 𝕄) := by
  refine Entails.of_eq (bigSep_congr fun j _ => ?_)
  show _ = bPay m (bcell d (cV L) (j.castLE hsub1)) (jV L).val
  unfold bPay; dsimp only
  rw [if_pos h0]
  rfl

/-- Any other tile hands over nothing. -/
theorem pays_intro_pos (h0 : (jV L).val ≠ 0) :
    (iprop(emp) : sProp 𝕄)
      ⊢ (bigSep Finset.univ fun j : Fin (grid1.bound 1) => (bRd (F := F) m).payload (bcell d (cV L) (j.castLE hsub1)) 0 (jV L).val : sProp 𝕄) := by
  rw [show (bigSep Finset.univ fun j : Fin (grid1.bound 1) => (bRd (F := F) m).payload (bcell d (cV L) (j.castLE hsub1)) 0 (jV L).val)
      = bigSep Finset.univ fun _ : Fin (grid1.bound 1) => (iprop(emp) : sProp 𝕄) from
      bigSep_congr fun j _ => by
        show bPay m (bcell d (cV L) (j.castLE hsub1)) (jV L).val = _
        unfold bPay; dsimp only
        rw [if_neg h0], bigSep_emp']

/-- After the barrier a tile's own round has collected its read share. -/
theorem pays_elim : (bigSep ((bRd (F := F) m).duties (bcell d (cV L) (jV L)) 0 \ ∅) fun n => (bRd (F := F) m).payload (bcell d (cV L) (jV L)) 0 n)
    ⊢ (shTok m d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

end Tile

end Cert.Proof.Lookup

end
-- ==== Proof.LoopInv.lean ====
/-
  The invariant of the tile's main loop.  The tile moves its 6400 rows in fifty chunks of 128 through two staging
  buffers.  Before round t (t < 25) the gathers of chunks 2 t and 2 t + 1 are under way into the two buffers, each
  holding its slice of the list of row numbers and a read share of the shared table; chunks below 2 t of the
  tile's block of the result hold the gathered rows, the others what they held at the start; nothing is being copied
  out.  After the last round the copies of chunks 48 and 49 out of the two buffers are still under way.
-/
import proofs.«208021_g30185030156587_cont_9to1_1229_25_alg».proof.Proof.Tile

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Loop

variable [FloatOps F]
variable (m : (ℓ : Loc nD τ sig) → Buf (Elt F) ℓ) (d : Dev nD) (L : grid1.Coords)

/-- the first row of the tile's block -/
def baseL (L : grid1.Coords) : ℕ := 6400 * (wL L).val

/-- The list of row numbers holds, at word p, the row of the combined table that row base + p of the result takes:
    (token mod 5) * 200 + position. -/
def IdxOK (fi : Buf (Elt F) ((V d (cV L) (jV L)).loc cc1_scratch1)) : Prop :=
  ∀ (p : S6400.Idx) (n : S204800.Idx), (n 0).val = baseL L + (p 0).val →
    (fi p).toNat = ((Xf m d n).toNat % 5) * 200 + (n 0).val % 200

/-- A staging buffer holds chunk k of the tile's block of the gathered rows. -/
def BufOK (dst : Memref sig .scVector .vmem S128x128 .f32) (k : ℕ) (fb : Buf (Elt F) (dst.view.loc (V d (cV L) (jV L)))) : Prop :=
  ∀ (x : S128x128.Idx) (i : S204800x128.Idx), (i 0).val = baseL L + 128 * k + (x 0).val → (i 1).val = (x 1).val →
    dst.view.read (Elt F) fb x = Go m d i

/-- slice k of the list of row numbers, for any number k -/
def idxSetN (k : ℕ) : Finset S6400.Idx := if h : k < 50 then idxSet ⟨k, h⟩ else ∅
/-- chunk k of the tile's block of the result, for any number k -/
def oSetN (L : grid1.Coords) (k : ℕ) : Finset S204800x128.Idx := if h : k < 50 then oSet (chunkOf (wL L) ⟨k, h⟩) else ∅

/-- the tile's read share of the shared table -/
abbrev qS (L : grid1.Coords) : PosShare TreeShare := Transfers.shareTok fullShare 16 (jL L)

/-- What the gather of chunk k into a staging buffer delivers: the buffer holding the chunk, and the shares of the
    shared table and of slice k of the list it borrowed. -/
def gDel (dst : Memref sig .scVector .vmem S128x128 .f32) (qs qi : PosShare TreeShare) (k : ℕ)
    (fi : Buf (Elt F) ((V d (cV L) (jV L)).loc cc1_scratch1)) : sProp 𝕄 :=
  iprop((∃ fb, (dst.view.loc (V d (cV L) (jV L)) ↦[dst.view.set]{fullShare} fb) ∗ ⌜BufOK m d L dst k fb⌝)
    ∗ (shLoc d (cV L) ↦{qs} (Cb m d : Buf (Elt F) (shLoc d (cV L))))
    ∗ ((V d (cV L) (jV L)).loc cc1_scratch1 ↦[idxSetN k]{qi} fi))

/-- What the copy of a staging buffer out to chunk k delivers: the chunk holding the gathered rows, and the buffer back. -/
def oDel (dst : Memref sig .scVector .vmem S128x128 .f32) (k : ℕ) : sProp 𝕄 :=
  iprop((oLoc d ↦[oSetN L k]{fullShare} Go m d)
    ∗ ∃ fb, dst.view.loc (V d (cV L) (jV L)) ↦[dst.view.set]{fullShare} fb)

/-- the tile's fifty chunks of the result before round t: those below 2 t done -/
def oMix (t : ℕ) : sProp 𝕄 :=
  bigSep Finset.univ fun j : Fin 50 => oChunk d (chunkOf (wL L) j) (if j.val < 2 * t then Go m d else m (oLoc d))

/-- Before round t < 25. -/
def Head (t : ℕ) (fi : Buf (Elt F) ((V d (cV L) (jV L)).loc cc1_scratch1)) : sProp 𝕄 :=
  iprop(Transfers.Flight countersEmb (V d (cV L) (jV L)) (.dma cc1_scratch4.sem) (default : HIx 1) (buf0K).view.dmaCredit
        (gDel m d L buf0K (qS L).left fullShare (2 * t) fi)
    ∗ Transfers.Flight countersEmb (V d (cV L) (jV L)) (.dma cc1_scratch5.sem) (default : HIx 1) (buf1K).view.dmaCredit
        (gDel m d L buf1K (qS L).right fullShare (2 * t + 1) fi)
    ∗ ((V d (cV L) (jV L)).loc cc1_scratch1 ↦[Finset.univ \ (idxSetN (2 * t) ∪ idxSetN (2 * t + 1))]{fullShare} fi)
    ∗ semVal (o0cell d (cV L) (jV L)) 0 ∗ semVal (o1cell d (cV L) (jV L)) 0
    ∗ oMix m d L t)

/-- After the last round. -/
def Exit (fi : Buf (Elt F) ((V d (cV L) (jV L)).loc cc1_scratch1)) : sProp 𝕄 :=
  iprop(semVal (g0cell d (cV L) (jV L)) 0 ∗ semVal (g1cell d (cV L) (jV L)) 0
    ∗ Transfers.Flight countersEmb (V d (cV L) (jV L)) (.dma cc1_scratch6.sem) (default : HIx 1) (buf0K).view.dmaCredit (oDel m d L buf0K 48)
    ∗ Transfers.Flight countersEmb (V d (cV L) (jV L)) (.dma cc1_scratch7.sem) (default : HIx 1) (buf1K).view.dmaCredit (oDel m d L buf1K 49)
    ∗ (shLoc d (cV L) ↦{(qS L).left} (Cb m d : Buf (Elt F) (shLoc d (cV L))))
    ∗ (shLoc d (cV L) ↦{(qS L).right} (Cb m d : Buf (Elt F) (shLoc d (cV L))))
    ∗ ((V d (cV L) (jV L)).loc cc1_scratch1 ↦{fullShare} fi)
    ∗ bigSep (((Finset.univ : Finset (Fin 50)).erase 48).erase 49) fun j => oChunk d (chunkOf (wL L) j) (Go m d))

/-- The invariant of the main loop, before round t: what the transfers hold, and what the tile owes. -/
def Inv (O : CellTallies nD τ sig (HIx 1)) (W : Waits sig (HIx 1)) (t : ℕ) : sProp 𝕄 :=
  iprop(∃ fi, ⌜IdxOK m d L fi⌝ ∗ (if t < 25 then Head m d L t fi else Exit m d L fi)
    ∗ ∃ W', ⌜∀ p ∈ W', p ∈ W ∨ p.2 = none ∨ p.2 = some (0 : Fin 1)⌝ ∗ owes (V d (cV L) (jV L)) O W')

/-- Before a round the invariant is the head form; -/
theorem Inv_head (O : CellTallies nD τ sig (HIx 1)) (W : Waits sig (HIx 1)) (t : ℕ) (ht : t < 25) :
    Inv m d L O W t = iprop(∃ fi, ⌜IdxOK m d L fi⌝ ∗ Head m d L t fi
      ∗ ∃ W', ⌜∀ p ∈ W', p ∈ W ∨ p.2 = none ∨ p.2 = some (0 : Fin 1)⌝ ∗ owes (V d (cV L) (jV L)) O W') := by
  unfold Inv; simp only [if_pos ht]
/-- after the last, the exit form. -/
theorem Inv_exit (O : CellTallies nD τ sig (HIx 1)) (W : Waits sig (HIx 1)) (t : ℕ) (ht : ¬ t < 25) :
    Inv m d L O W t = iprop(∃ fi, ⌜IdxOK m d L fi⌝ ∗ Exit m d L fi
      ∗ ∃ W', ⌜∀ p ∈ W', p ∈ W ∨ p.2 = none ∨ p.2 = some (0 : Fin 1)⌝ ∗ owes (V d (cV L) (jV L)) O W') := by
  unfold Inv; simp only [if_neg ht]

/-- Where the prologue hands over to the main loop. -/
abbrev Mid (O : CellTallies nD τ sig (HIx 1)) (W : Waits sig (HIx 1)) : sProp 𝕄 := Inv m d L O W 0

end Loop

end Cert.Proof.Lookup

end
-- ==== Proof.LaneMath.lean ====
/-
  Lane arithmetic of the index-building loops.

  The loops carry a vector of sixteen 32-bit lanes.  Lane j of the carried vector at a trip that has
  consumed n tokens is (n + j) mod 200: the position of the token within its sequence of 200.  This module
  states that closed form for the start value (the lane sequence 0..15), for the carried value after a trip
  (add sixteen, subtract 200 where the sum reaches 200), and for the word a trip stores
  (token word times 200 plus the lane), over the payload functions of the generated skeleton.
-/
import proofs.«208021_g30185030156587_cont_9to1_1229_25_alg».proof.Proof.Gen.KernelIdeal.Skeleton
import Idealize.ShloMosaic.Lib.Pipeline.Value

noncomputable section

namespace Cert.Proof.Lookup

open Idealize.ShloMosaic Cert.KernelIdeal Cert.KernelIdeal.Gen

variable {F : FTy → Type} [FloatOps F]

/-- Sixteen lanes: lane j holds (n + j) mod 200. -/
def L16 (n : ℕ) : IVec S16 32 := fun j => BitVec.ofNat 32 ((n + (j 0).val) % 200)

theorem L16_apply (n : ℕ) (j : S16.Idx) : L16 n j = BitVec.ofNat 32 ((n + (j 0).val) % 200) := rfl

/-- A lane of `L16` as a number: below 200, so the 32-bit word is the number itself. -/
theorem L16_toNat (n : ℕ) (j : S16.Idx) : (L16 n j).toNat = (n + (j 0).val) % 200 := by
  rw [L16_apply, BitVec.toNat_ofNat]
  exact Nat.mod_eq_of_lt (lt_trans (Nat.mod_lt _ (by decide)) (by decide))

/-- The lane sequence 0, 1, …, 15 is `L16 0`. -/
theorem iota_eq_L16 : iota .scVector S16 32 [0] iota_S16_d0_w32_scVector = L16 0 := by
  funext j
  rw [iota_single_apply, L16_apply, Nat.zero_add]
  have hj : (j 0).val < 16 := (j 0).isLt
  rw [Nat.mod_eq_of_lt (by omega)]

/-- Signed comparison of two words below 2^31 is comparison of the numbers. -/
theorem sle_small (a b : ℕ) (ha : a < 2 ^ 31) (hb : b < 2 ^ 31) :
    (BitVec.ofNat 32 a).sle (BitVec.ofNat 32 b) = decide (a ≤ b) := by
  rw [BitVec.sle_eq_decide]
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  rw [h1, h2]
  simp

/-- One word of the carried vector after a trip: add 16, and subtract 200 if the sum reaches 200. -/
theorem step_word (m : ℕ) (hm : m < 200) :
    Scalar.select (IntOp.cmpi .sge (IntOp.addi (BitVec.ofNat 32 m) 16#32) 200#32)
      (IntOp.subi (IntOp.addi (BitVec.ofNat 32 m) 16#32) 200#32)
      (IntOp.addi (BitVec.ofNat 32 m) 16#32) = BitVec.ofNat 32 ((m + 16) % 200) := by
  unfold Scalar.select IntOp.cmpi IntOp.addi IntOp.subi
  have ha : BitVec.ofNat 32 m + 16#32 = BitVec.ofNat 32 (m + 16) := by
    rw [BitVec.ofNat_add]
  rw [ha]
  show (if BitVec.ofBool ((BitVec.ofNat 32 200).sle (BitVec.ofNat 32 (m + 16))) = 1 then _ else _) = _
  rw [sle_small 200 (m + 16) (by omega) (by omega)]
  by_cases h : 200 ≤ m + 16
  · rw [decide_eq_true h]
    rw [if_pos (by rfl)]
    rw [show (m + 16) % 200 = m + 16 - 200 by omega]
    apply BitVec.eq_of_toNat_eq
    rw [BitVec.toNat_sub, BitVec.toNat_ofNat, BitVec.toNat_ofNat, BitVec.toNat_ofNat]
    omega
  · rw [decide_eq_false h]
    rw [if_neg (by decide)]
    rw [Nat.mod_eq_of_lt (by omega)]

/-- The carried vector after a trip of the first loop. -/
theorem pay2_L16 (n : ℕ) : k1_pay2 (L16 n) = L16 (n + 16) := by
  funext j
  show Scalar.select (IntOp.cmpi .sge (IntOp.addi (L16 n j) 16#32) 200#32)
      (IntOp.subi (IntOp.addi (L16 n j) 16#32) 200#32) (IntOp.addi (L16 n j) 16#32) = _
  rw [L16_apply, step_word _ (Nat.mod_lt _ (by decide)), L16_apply]
  congr 1
  omega

/-- The second loop's payloads are the first loop's. -/
theorem pay4_eq_pay2 : k1_pay4 = k1_pay2 := rfl
theorem pay3_eq_pay1 : k1_pay3 (F := F) = k1_pay1 (F := F) := rfl

/-- The carried vector after a trip of the second loop. -/
theorem pay4_L16 (n : ℕ) : k1_pay4 (L16 n) = L16 (n + 16) := pay2_L16 n

/-- The vector a trip stores: token words times 200 plus the carried lanes. -/
theorem pay1_apply (a : IVec S16 32) (xv : Vec F S16 .i32) (j : S16.Idx) :
    k1_pay1 a xv j = (xv j : BitVec 32) * 200#32 + a j := by
  show shapeCast S16 (addi (muli (shapeCast S16 xv shapeCasts_S16_S16) (broadcast S16 200#32)) a) shapeCasts_S16_S16 j = _
  rw [shapeCast_self, shapeCast_self]
  rfl

/-- The word a trip stores at lane j, for a token word below 5: no wrap-around. -/
theorem pay1_word (n : ℕ) (xv : Vec F S16 .i32) (j : S16.Idx) (h : (xv j : BitVec 32).toNat < 5) :
    k1_pay1 (L16 n) xv j = BitVec.ofNat 32 ((xv j : BitVec 32).toNat * 200 + (n + (j 0).val) % 200) := by
  rw [pay1_apply]
  apply BitVec.eq_of_toNat_eq
  rw [BitVec.toNat_add, BitVec.toNat_mul, L16_toNat, BitVec.toNat_ofNat, BitVec.toNat_ofNat]
  have hm : (n + (j 0).val) % 200 < 200 := Nat.mod_lt _ (by decide)
  omega

/-- The stored word names a row of the 1000-row table. -/
theorem pay1_word_lt (n : ℕ) (xv : Vec F S16 .i32) (j : S16.Idx) (h : (xv j : BitVec 32).toNat < 5) :
    (k1_pay1 (L16 n) xv j).toNat < 1000 := by
  have hm : (n + (j 0).val) % 200 < 200 := Nat.mod_lt _ (by decide)
  have hlt : (xv j : BitVec 32).toNat * 200 + (n + (j 0).val) % 200 < 1000 := by omega
  rw [pay1_word n xv j h, BitVec.toNat_ofNat, Nat.mod_eq_of_lt (lt_trans hlt (by decide))]
  exact hlt

theorem pay3_word (n : ℕ) (xv : Vec F S16 .i32) (j : S16.Idx) (h : (xv j : BitVec 32).toNat < 5) :
    k1_pay3 (L16 n) xv j = BitVec.ofNat 32 ((xv j : BitVec 32).toNat * 200 + (n + (j 0).val) % 200) :=
  pay1_word n xv j h

end Cert.Proof.Lookup

end
-- ==== Proof.Fill.lean ====
/-
  Filling the list of row numbers.  Word p of the tile's list is to hold (token base + p) * 200 + (p mod 200): the row
  of the combined table that row base + p of the result takes (base is a multiple of 200, so p mod 200 is the token's
  position in its sequence).  This module names the tile's tokens and that closed form, states the two index loops'
  invariants (the carried lanes and the list filled up to the trip), and proves the one step both loops share: a
  trip's store extends the filled part by sixteen words.
-/
import proofs.«208021_g30185030156587_cont_9to1_1229_25_alg».proof.Proof.LoopInv
import proofs.«208021_g30185030156587_cont_9to1_1229_25_alg».proof.Proof.LaneMath
import Idealize.ShloMosaic.Lib.WritesUnit

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Fill

variable [FloatOps F]
variable (m : (ℓ : Loc nD τ sig) → Buf (Elt F) ℓ) (d : Dev nD) (L : grid1.Coords)

omit [FloatOps F] in
theorem baseL_lt (p : S6400.Idx) : baseL L + (p 0).val < 204800 := by
  have h1 : (wL L).val < 32 := (wL L).isLt
  have h2 : (p 0).val < 6400 := (p 0).isLt
  unfold baseL; omega

/-- row base + p of the flattened tokens -/
def nOf (p : S6400.Idx) : S204800.Idx := ix1 ⟨baseL L + (p 0).val, baseL_lt L p⟩

/-- the tile's tokens, as its token buffer holds them once copied in -/
def xblk : Buf (Elt F) ((V d (cV L) (jV L)).loc cc1_scratch0) := fun p => Xf m d (nOf L p)

/-- the list of row numbers: word p is token p times 200 plus p mod 200 -/
def idxF : Buf (Elt F) ((V d (cV L) (jV L)).loc cc1_scratch1) :=
  fun p => BitVec.ofNat 32 ((Xf m d (nOf L p) : BitVec 32).toNat * 200 + (p 0).val % 200)

/-- The first loop's invariant before trip k: the carried lanes, the tokens, and the list filled below 16 k. -/
def inv1 (k : ℕ) (acc : IVec S16 32) : sProp 𝕄 :=
  iprop(⌜acc = L16 (16 * k)⌝ ∗ ((xV).view.loc (V d (cV L) (jV L)) ↦{fullShare} xblk m d L)
    ∗ ∃ f, ((idxV).view.loc (V d (cV L) (jV L)) ↦{fullShare} f) ∗ ⌜∀ p : S6400.Idx, (p 0).val < 16 * k → f p = idxF m d L p⌝)

/-- what is left of the list once the first two slices are lent to the gathers -/
abbrev idxRest : Finset S6400.Idx := Finset.univ \ (idxSet 0 ∪ idxSet 1)

/-- The second loop's invariant before trip k: as the first's, sixteen trips on, with only the rest of the list held. -/
def inv2 (k : ℕ) (acc : IVec S16 32) : sProp 𝕄 :=
  iprop(⌜acc = L16 (16 * (k + 16))⌝ ∗ ((xV).view.loc (V d (cV L) (jV L)) ↦{fullShare} xblk m d L)
    ∗ ∃ f, ((V d (cV L) (jV L)).loc cc1_scratch1 ↦[idxRest]{fullShare} f)
      ∗ ⌜∀ p : S6400.Idx, 256 ≤ (p 0).val → (p 0).val < 16 * (k + 16) → f p = idxF m d L p⌝)

/-- What the prologue holds beside the main loop's invariant: the tokens' block, the token buffer, the two DMA
    semaphores it has finished with, the tile's other semaphores and buffers, and on tile 0 the table's share and what
    is left of the shared copy. -/
def PRest : sProp 𝕄 :=
  iprop(xfBlk m d (wL L) ∗ (∃ f, (V d (cV L) (jV L)).loc cc1_scratch0 ↦{fullShare} f)
    ∗ semVal (xscell d (cV L) (jV L)) 0 ∗ semVal (sccell d (cV L) (jV L)) 0
    ∗ (bigSep (restCells d (cV L) (jV L)) fun g => semVal g 0)
    ∗ (bigSep (restRefs (cV L) (jV L)) fun b => iprop(∃ f, ((d, b) : Loc nD τ sig) ↦{fullShare} f))
    ∗ (if (jL L).val = 0 then iprop(combTok m d (cL L) ∗ shRest m d (cV L)) else iprop(emp)))

end Fill

section FillLemmas

variable [FloatOps F]
variable (m : (ℓ : Loc nD τ sig) → Buf (Elt F) ℓ) (d : Dev nD) (L : grid1.Coords)

/-- One trip's store extends the filled part of the list by the trip's sixteen words. -/
theorem fill_step (hx : ∀ n : S204800.Idx, (Xf m d n : BitVec 32).toNat < 5) (T : ℕ) (off : Fin 1 → ℕ)
    (inb : ∀ a, off a + S16.size a ≤ S6400.size a) (hoff : off = ![16 * T]) (acc : IVec S16 32) (hacc : acc = L16 (16 * T))
    (f : Buf (Elt F) ((V d (cV L) (jV L)).loc cc1_scratch1)) (lo : ℕ)
    (hf : ∀ p : S6400.Idx, lo ≤ (p 0).val → (p 0).val < 16 * T → f p = idxF m d L p) :
    ∀ p : S6400.Idx, lo ≤ (p 0).val → (p 0).val < 16 * (T + 1) →
      (idxV).view.writes (Elt F) f
        [⟨Rect.unit (s := S6400) off S16.size inb,
          k1_pay1 acc (View.readAt (Elt F) (xV).view (Rect.unit (s := S6400) off S16.size inb).toLoadRect (xblk m d L))⟩] p = idxF m d L p := by
  intro p hlo hhi
  have hrd : ∀ g : Buf (Elt F) ((V d (cV L) (jV L)).loc cc1_scratch1), (idxV).view.read (Elt F) g p = g p := fun g => rfl
  refine ((hrd _).symm.trans (View.read_writes_cons_unit (idxV).view f inb _ [] p hoff)).trans ?_
  split
  · next h =>
    subst hacc
    have h0 := h 0
    have hp0 : (![16 * T] : Fin 1 → ℕ) 0 = 16 * T := rfl
    rw [hp0] at h0
    have hidx : (Rect.unit (s := S6400) off S16.size inb).toLoadRect.idx (Rect.unitLocal (s := S6400) (off := ![16 * T]) (size := S16.size) p h) = p := by
      funext a
      match a with
      | 0 =>
        apply Fin.ext
        subst hoff
        show 16 * T + 1 * ((p 0).val - 16 * T) = (p 0).val
        omega
    have hv : View.readAt (Elt F) (xV).view (Rect.unit (s := S6400) off S16.size inb).toLoadRect (xblk m d L)
        (Rect.unitLocal (s := S6400) (off := ![16 * T]) (size := S16.size) p h) = Xf m d (nOf L p) := by
      rw [View.readAt_apply, hidx]; rfl
    rw [pay1_word (16 * T) _ _ (by rw [hv]; exact hx _), hv]
    unfold idxF
    congr 2
    show (16 * T + ((p 0).val - 16 * T)) % 200 = (p 0).val % 200
    congr 1; omega
  · next h =>
    rw [View.writes_nil, hrd]
    refine hf p hlo ?_
    by_contra hc
    exact h (fun a => by
      match a with
      | 0 =>
        show 16 * T ≤ (p 0).val ∧ (p 0).val < 16 * T + 16
        omega)

/-- The list as filled holds, at each word, the row number the result's row takes. -/
theorem idxOK_idxF (hx : ∀ n : S204800.Idx, (Xf m d n : BitVec 32).toNat < 5) : IdxOK m d L (idxF m d L) := by
  intro p n hn
  have hnp : n = nOf L p := by
    funext a
    match a with
    | 0 => exact Fin.ext hn
  subst hnp
  have h5 := hx (nOf L p)
  have hm : (p 0).val % 200 < 200 := Nat.mod_lt _ (by decide)
  have hlt : (Xf m d (nOf L p) : BitVec 32).toNat * 200 + (p 0).val % 200 < 1000 := by omega
  unfold idxF
  rw [BitVec.toNat_ofNat, Nat.mod_eq_of_lt (lt_trans hlt (by decide)), Nat.mod_eq_of_lt h5]
  congr 1
  show (p 0).val % 200 = (baseL L + (p 0).val) % 200
  unfold baseL; omega

/-- Every word of the list names a row of the 1000-row table. -/
theorem idxF_lt (hx : ∀ n : S204800.Idx, (Xf m d n : BitVec 32).toNat < 5) (p : S6400.Idx) : (idxF m d L p : BitVec 32).toNat < 1000 := by
  have h5 := hx (nOf L p)
  have hm : (p 0).val % 200 < 200 := Nat.mod_lt _ (by decide)
  have hlt : (Xf m d (nOf L p) : BitVec 32).toNat * 200 + (p 0).val % 200 < 1000 := by omega
  unfold idxF
  rw [BitVec.toNat_ofNat, Nat.mod_eq_of_lt (lt_trans hlt (by decide))]
  exact hlt

/-- A tile other than tile 0 holds nothing of the shared table before the barrier, and hands over nothing. -/
theorem pays_intro_neg (h0 : (jV L).val ≠ 0) :
    (if (jL L).val = 0 then iprop(combTok m d (cL L) ∗ ∃ f, shLoc d (cV L) ↦{fullShare} f) else iprop(emp) : sProp 𝕄)
      ⊢ (bigSep Finset.univ fun j : Fin (grid1.bound 1) => (bRd (F := F) m).payload (bcell d (cV L) (j.castLE hsub1)) 0 (jV L).val : sProp 𝕄) := by
  rw [if_neg (show ¬ ((jL L).val = 0) from h0)]
  exact pays_intro_pos (F := F) m d L h0

/-- The list held whole, filled below word 256, is its first two slices at the closed form and the rest. -/
theorem idx_three (f1 : Buf (Elt F) ((V d (cV L) (jV L)).loc cc1_scratch1)) (hf1 : ∀ p : S6400.Idx, (p 0).val < 256 → f1 p = idxF m d L p) :
    ((idxV).view.loc (V d (cV L) (jV L)) ↦{fullShare} f1 : sProp 𝕄)
      ⊢ iprop(((idx0K).view.loc (V d (cV L) (jV L)) ↦[(idx0K).view.set]{fullShare} idxF m d L)
          ∗ ((idx1K).view.loc (V d (cV L) (jV L)) ↦[(idx1K).view.set]{fullShare} idxF m d L)
          ∗ ((V d (cV L) (jV L)).loc cc1_scratch1 ↦[Finset.univ \ (idxSet 0 ∪ idxSet 1)]{fullShare} f1)) := by
  rw [set_idx0K, set_idx1K]
  have h01 : Disjoint (idxSet 0) (idxSet 1) := idxSets_disjoint 0 (Finset.mem_univ _) 1 (Finset.mem_univ _) (by decide)
  have hc0 : ((V d (cV L) (jV L)).loc cc1_scratch1 ↦[idxSet 0]{fullShare} f1 : sProp 𝕄) = (V d (cV L) (jV L)).loc cc1_scratch1 ↦[idxSet 0]{fullShare} idxF m d L :=
    pointsTo_congr (fun p hp => hf1 p (by have := (mem_idxSet 0 p).mp hp; simp at this; omega))
  have hc1 : ((V d (cV L) (jV L)).loc cc1_scratch1 ↦[idxSet 1]{fullShare} f1 : sProp 𝕄) = (V d (cV L) (jV L)).loc cc1_scratch1 ↦[idxSet 1]{fullShare} idxF m d L :=
    pointsTo_congr (fun p hp => hf1 p (by have := (mem_idxSet 1 p).mp hp; simp at this; omega))
  iintro H
  ihave H2 := (pointsTo_split_subset (Finset.subset_univ (idxSet 0 ∪ idxSet 1))).1 $$ H
  icases H2 with ⟨HI, HR⟩
  ihave H01 := (pointsTo_union h01).1 $$ HI
  icases H01 with ⟨H0, H1⟩
  isplitl [H0]; · iapply (Entails.of_eq hc0); iexact H0
  isplitl [H1]; · iapply (Entails.of_eq hc1); iexact H1
  iexact HR

end FillLemmas

end Cert.Proof.Lookup

end
-- ==== Proof.LoopVal.lean ====
/-
  What the transfers of the main loop carry.  A gather through slice k of the list of row numbers brings into a
  staging buffer, at row r, row list[128 k + r] of the shared table, which is row base + 128 k + r of the result as
  the claim names it; the copy of the buffer out to chunk k of the tile's block writes those rows there.
-/
import proofs.«208021_g30185030156587_cont_9to1_1229_25_alg».proof.Proof.LoopInv

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Val

variable [FloatOps F]
variable (m : (ℓ : Loc nD τ sig) → Buf (Elt F) ℓ) (d : Dev nD) (L : grid1.Coords)

/-- slice k of the list, addressed at any offsets that are 128 k -/
abbrev idxAt (off : Fin 1 → ℕ) (inb : ∀ a, off a + S128.size a ≤ S6400.size a) : Memref sig .scVector .vmem S128 .i32 :=
  (idxV).slice (Rect.unit (s := S6400) off S128.size inb) (fun _ => rfl)

omit [FloatOps F] in
theorem idxAt_emb (k : ℕ) (off : Fin 1 → ℕ) (inb : ∀ a, off a + S128.size a ≤ S6400.size a) (hoff : off = ![128 * k]) (y : S128.Idx) :
    (((idxAt off inb).view.emb y) 0).val = 128 * k + (y 0).val := by
  subst hoff
  show ((Rect.unit (s := S6400) ![128 * k] S128.size inb).emb y 0).val = _
  rw [Rect.emb_apply]
  simp

theorem gathered_val (k : ℕ) (hk : k < 50) (off : Fin 1 → ℕ) (inb : ∀ a, off a + S128.size a ≤ S6400.size a) (hoff : off = ![128 * k])
    (fo fi : Buf (Elt F) ((V d (cV L) (jV L)).loc cc1_scratch1)) (hag : ∀ p ∈ idxSetN k, fo p = fi p) (hfi : IdxOK m d L fi)
    (hin : ∀ x, ((idxAt off inb).view.read (Elt F) fo x).toNat < S1000x128.size gathers_S1000x128_S128x128.axis)
    (x : S128x128.Idx) (i : S204800x128.Idx) (hi0 : (i 0).val = baseL L + 128 * k + (x 0).val) (hi1 : (i 1).val = (x 1).val) :
    SparseCore.gatherPayload gathers_S1000x128_S128x128 ((shSK).view.read (Elt F) (Cb m d : Buf (Elt F) (shLoc d (cV L))))
        (SparseCore.rows ((idxAt off inb).view.read (Elt F) fo) rfl hin) x = Go m d i := by
  unfold SparseCore.gatherPayload
  rw [(View.read_apply _ _).trans (cast_eq _ _)]
  show (Cb m d) _ = gatherOut (F := F) (Cb m d) (Xf m d) i
  unfold gatherOut
  refine congrArg (Cb m d) ?_
  -- the shared table is addressed whole: its slice's indices are the table's
  have hsh : ∀ (Y : S1000x128.Idx) (a : Fin 2), ((shSK.view.emb Y) a).val = (Y a).val := by
    intro Y a
    show ((Rect.unit (s := S1000x128) ![0, 0] S1000x128.size inb_S1000x128_S1000x128_0_0).emb Y a).val = _
    rw [Rect.emb_apply]
    match a with
    | 0 => simp
    | 1 => simp
  -- the word of the list the gather reads for row x 0
  let y : S128.Idx := S128.rowMajor.symm ((x 0).cast rfl)
  have hy : (y 0).val = (x 0).val := by
    have h1 := Shape.rowMajor_val_one (d := ![128]) y
    have h2 : S128.rowMajor y = (x 0).cast rfl := Equiv.apply_symm_apply _ _
    rw [← h1]; exact congrArg Fin.val h2
  have hp0 : (((idxAt off inb).view.emb y) 0).val = 128 * k + (x 0).val := by rw [idxAt_emb k off inb hoff, hy]
  have hx0 : (x 0).val < 128 := (x 0).isLt
  have hmem : (idxAt off inb).view.emb y ∈ idxSetN k := by
    unfold idxSetN; rw [dif_pos hk, mem_idxSet]
    constructor
    · show 128 * k ≤ _; omega
    · show _ < 128 * k + 128; omega
  have hword : ((idxAt off inb).view.read (Elt F) fo y).toNat = (Xf m d (ix1 (i 0))).toNat % 5 * 200 + (i 0).val % 200 := by
    rw [(View.read_apply _ _).trans (cast_eq _ _), hag _ hmem]
    exact hfi _ (ix1 (i 0)) (by show (i 0).val = baseL L + _; omega)
  funext a
  apply Fin.ext
  match a with
  | ⟨0, _⟩ =>
    refine (hsh _ 0).trans ?_
    rw [show ((gathers_S1000x128_S128x128).idx (SparseCore.rows ((idxAt off inb).view.read (Elt F) fo) rfl hin) x 0)
        = SparseCore.rows ((idxAt off inb).view.read (Elt F) fo) rfl hin (x 0) from Shape.Gathers.idx_axis _ _ _]
    exact hword
  | ⟨1, _⟩ =>
    refine (hsh _ 1).trans ?_
    refine (Shape.Gathers.idx_of_ne gathers_S1000x128_S128x128 _ x 1 (by decide)).trans ?_
    exact hi1.symm
  | ⟨n + 2, h⟩ => exact absurd h (show ¬ n + 2 < 2 by omega)

omit [FloatOps F] in
theorem set_idxAt (k : ℕ) (hk : k < 50) (off : Fin 1 → ℕ) (inb : ∀ a, off a + S128.size a ≤ S6400.size a) (hoff : off = ![128 * k]) :
    (idxAt off inb).view.set = idxSetN k := by
  unfold idxSetN; rw [dif_pos hk]
  show ((idxV).view.slice (Rect.unit (s := S6400) off S128.size inb)).set = ((idxV).view.slice (Rect.part (s := S6400) (a₀ := 0) hdivI ⟨k, hk⟩)).set
  rw [idx_slice_set, idx_slice_set]
  exact congrArg (fun r : Rect S6400 => r.set) (idxR_eq ⟨k, hk⟩ _ _ hoff)

/-- What a gather through slice k of the list delivers is the staging buffer holding chunk k, and the shares it borrowed. -/
theorem gather_deliv (dst : Memref sig .scVector .vmem S128x128 .f32) (qs qi : PosShare TreeShare) (k : ℕ) (hk : k < 50)
    (off : Fin 1 → ℕ) (inb : ∀ a, off a + S128.size a ≤ S6400.size a) (hoff : off = ![128 * k])
    (fd : Buf (Elt F) (dst.view.loc (V d (cV L) (jV L)))) (fo fi : Buf (Elt F) ((V d (cV L) (jV L)).loc cc1_scratch1))
    (hag : ∀ p ∈ idxSetN k, fo p = fi p) (hfi : IdxOK m d L fi)
    (hin : ∀ x, ((idxAt off inb).view.read (Elt F) fo x).toNat < S1000x128.size gathers_S1000x128_S128x128.axis) :
    iprop((dst.view.loc (V d (cV L) (jV L)) ↦[dst.view.set]{fullShare}
            (dst.view.write (Elt F) fd (SparseCore.gatherPayload gathers_S1000x128_S128x128 ((shSK).view.read (Elt F) (Cb m d : Buf (Elt F) (shLoc d (cV L))))
              (SparseCore.rows ((idxAt off inb).view.read (Elt F) fo) rfl hin)) Finset.univ))
        ∗ ((shSK).view.loc (V d (cV L) (jV L)) ↦[(shSK).view.set]{qs} (Cb m d : Buf (Elt F) (shLoc d (cV L))))
        ∗ ((idxAt off inb).view.loc (V d (cV L) (jV L)) ↦[(idxAt off inb).view.set]{qi} fo))
      ⊢ (gDel m d L dst qs qi k fi : sProp 𝕄) := by
  unfold gDel
  rw [pts_shSK, set_idxAt k hk off inb hoff, show ((idxAt off inb).view.loc (V d (cV L) (jV L)) ↦[idxSetN k]{qi} fo : sProp 𝕄)
      = ((V d (cV L) (jV L)).loc cc1_scratch1 ↦[idxSetN k]{qi} fi) from pointsTo_congr hag]
  iintro ⟨Hd, Hs, Ho⟩
  isplitl [Hd]
  · iexists _
    isplitl [Hd]; · iexact Hd
    ipureintro
    intro x i h0 h1
    rw [View.read_write_univ]
    exact gathered_val m d L k hk off inb hoff fo fi hag hfi hin x i h0 h1
  isplitl [Hs]; · iexact Hs
  iexact Ho

omit [FloatOps F] in
theorem baseL_eq : baseL L = 12800 * (L 1).val + 6400 * (L 0).val := by
  unfold baseL
  show 6400 * (2 * (L 1).val + (L 0).val) = _
  omega

omit [FloatOps F] in
theorem oChunkK_emb (t : Fin k1_t3_loop.trips) (r : Fin 2) (x : S128x128.Idx) :
    (((oChunkK L t r).view.emb x) 0).val = baseL L + 128 * (2 * t.val + r.val) + (x 0).val
      ∧ (((oChunkK L t r).view.emb x) 1).val = (x 1).val := by
  have e0 : (((oChunkK L t r).view.emb x) 0).val = (k1_off4 L t (BitVec.ofNat 32 r.val)) 0 + 1 * (x 0).val := rfl
  have e1 : (((oChunkK L t r).view.emb x) 1).val = (k1_off4 L t (BitVec.ofNat 32 r.val)) 1 + 1 * (x 1).val := rfl
  rw [e0, e1, k1_off4_eq, baseL_eq]
  constructor
  · simp; omega
  · simp

omit [FloatOps F] in
theorem oSetN_eq (t : Fin k1_t3_loop.trips) (r : Fin 2) : oSetN L (2 * t.val + r.val) = (oChunkK L t r).view.set := by
  have h : 2 * t.val + r.val < 50 := (chunkIx t r).isLt
  unfold oSetN; rw [dif_pos h, set_oChunkK]; rfl

/-- The copy of a staging buffer holding chunk 2 t + r out to that chunk leaves the gathered rows there. -/
theorem out_val (t : Fin k1_t3_loop.trips) (r : Fin 2) (dst : Memref sig .scVector .vmem S128x128 .f32)
    (fb : Buf (Elt F) (dst.view.loc (V d (cV L) (jV L)))) (hb : BufOK m d L dst (2 * t.val + r.val) fb) (fo : Buf (Elt F) (oLoc d))
    (w : S128x128.Idx → Elt F .f32) (hw : w = ReadAs.same.apply (dst.view.read (Elt F) fb)) :
    ((oChunkK L t r).view.loc (V d (cV L) (jV L)) ↦[(oChunkK L t r).view.set]{fullShare}
        (oChunkK L t r).view.writes (Elt F) fo [⟨Rect.whole S128x128, w⟩] : sProp 𝕄)
      = oLoc d ↦[oSetN L (2 * t.val + r.val)]{fullShare} Go m d := by
  subst hw
  rw [oSetN_eq]
  refine pointsTo_congr fun i hi => ?_
  obtain ⟨x, -, rfl⟩ := Finset.mem_map.mp hi
  have h1 := View.read_writes_cons_emb (oChunkK L t r).view fo (Rect.whole S128x128) (ReadAs.same.apply (dst.view.read (Elt F) fb)) [] x
  rw [Rect.emb_whole_apply, (View.read_apply _ _).trans (cast_eq _ _)] at h1
  refine h1.trans ?_
  obtain ⟨e0, e1⟩ := oChunkK_emb L t r x
  exact hb x _ e0 e1

end Val

end Cert.Proof.Lookup

end
-- ==== Proof.Trip2.lean ====
/-
  One trip of the second index loop.  While the first two slices of the list of row numbers are lent to the two
  gathers under way, the tile holds only the rest of the list; a trip reads sixteen tokens, stores their row numbers in
  the next sixteen words past the first 256, and advances the carried lanes by sixteen positions.
-/
import proofs.«208021_g30185030156587_cont_9to1_1229_25_alg».proof.Proof.Fill

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Trip

variable [FloatOps F]
variable (m : (ℓ : Loc nD τ sig) → Buf (Elt F) ℓ) (d : Dev nD) (L : grid1.Coords)

omit [FloatOps F] in
/-- A trip of the second loop touches sixteen words past the first 256. -/
theorem rect3_mem (k : Fin k1_t2_loop.trips) (x : S6400.Idx)
    (hx : x ∈ (Rect.unit (s := S6400) (k1_off3 k) S16.size (k1_off3_inb k)).set) : x ∈ (idxRest : Finset S6400.Idx) := by
  rw [Rect.mem_set_unit] at hx
  have h0 := hx 0
  rw [k1_off3_eq k] at h0
  have h0' : 16 * k.val + 256 ≤ (x 0).val ∧ (x 0).val < 16 * k.val + 256 + 16 := h0
  refine Finset.mem_sdiff.mpr ⟨Finset.mem_univ _, ?_⟩
  rw [Finset.mem_union, mem_idxSet, mem_idxSet]
  simp only [Fin.val_zero, Fin.val_one]
  omega

omit [FloatOps F] in
theorem rect3_load_sub (k : Fin k1_t2_loop.trips) :
    (idxV).view.setOn (Rect.unit (s := S6400) (k1_off3 k) S16.size (k1_off3_inb k)).toLoadRect.set ⊆ (idxRest : Finset S6400.Idx) := by
  intro p hp
  obtain ⟨x, hx, rfl⟩ := Finset.mem_map.mp hp
  exact rect3_mem k x hx

omit [FloatOps F] in
theorem rect3_store_sub (k : Fin k1_t2_loop.trips) :
    ((idxV).access (Rect.unit (s := S6400) (k1_off3 k) S16.size (k1_off3_inb k))).set ⊆ (idxRest : Finset S6400.Idx) := by
  intro p hp
  have hp' : p ∈ ((idxV).view.slice (Rect.unit (s := S6400) (k1_off3 k) S16.size (k1_off3_inb k))).set := hp
  rw [idx_slice_set] at hp'
  exact rect3_mem k p hp'

set_option maxHeartbeats 1000000 in
/-- One trip of the second index loop: sixteen tokens read, their row numbers stored in the next sixteen words of the
    list, the carried lanes advanced. -/
theorem trip2 (hx : ∀ n : S204800.Idx, (Xf m d n : BitVec 32).toNat < 5) (k : Fin k1_t2_loop.trips) (acc : IVec S16 32) :
    inv2 m d L k.val acc ⊢ wp frame (wpE (defs₀ (F := F)) 𝒱₀ (V d (cV L) (jV L)) none) Set.univ
      (k1_t2_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 k acc) (fun acc' => inv2 m d L (k.val + 1) acc') := by
  unfold inv2
  iintro ⟨%hacc, Hx, %f, Hi, %hf⟩
  sl_unfold [k1_t2_body]
  rw [Prog.bind_lift]
  iapply (wp_load 𝒱₀ (V d (cV L) (jV L)) none Set.univ (Finset.subset_univ _)) $$ Hx
  iintro Hx
  rw [Prog.bind_lift]
  iapply (wp_load 𝒱₀ (V d (cV L) (jV L)) none Set.univ (m := idxV) (S := idxRest) (rect3_load_sub k)) $$ Hi
  iintro Hi
  rw [Prog.bind_lift]
  iapply (wp_store_writes₀ 𝒱₀ (V d (cV L) (jV L)) none Set.univ (m := idxV) (S := idxRest) (rect3_store_sub k)) $$ Hi
  iintro Hi
  rw [Prog.pure_eq_ret, wp_ret]; imodintro
  isplitr
  · ipureintro
    rw [hacc, pay4_L16]
    exact congrArg L16 (by omega)
  isplitl [Hx]; · iexact Hx
  iexists _
  isplitl [Hi]; · iexact Hi
  ipureintro
  intro p hlo hhi
  exact fill_step m d L hx (k.val + 16) (k1_off3 k) (k1_off3_inb k)
    ((k1_off3_eq k).trans (congrArg (fun x : ℕ => ![x]) (by omega))) acc hacc f 256 hf p hlo (by omega)

end Trip

end Cert.Proof.Lookup

end
-- ==== Proof.Prologue.lean ====
/-
  The tile's prologue: the run of the first part of the kernel body on tile (c, s), up to the main loop.  The tile
  copies its 6400 tokens in; tile 0 also copies the combined table into its SparseCore's shared memory and cuts the
  copy into sixteen read shares; the tile fills the first 256 words of its list of row numbers; the tiles meet at the
  barrier, where tile 0's arrival hands each tile its read share; the tile starts the gathers of its first two
  chunks, each borrowing half of the read share and its own slice of the list; and it fills the rest of the list
  while they run.  It ends in the main loop's invariant before round 0.
-/
import proofs.«208021_g30185030156587_cont_9to1_1229_25_alg».proof.Proof.Fill
import proofs.«208021_g30185030156587_cont_9to1_1229_25_alg».proof.Proof.LoopVal
import proofs.«208021_g30185030156587_cont_9to1_1229_25_alg».proof.Proof.Trip2
import Idealize.ShloMosaic.Lib.WritesUnit
import Idealize.ShloMosaic.Lib.WordExact

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section PrologueLemmas

variable [FloatOps F]
variable (m : (ℓ : Loc nD τ sig) → Buf (Elt F) ℓ) (d : Dev nD) (L : grid1.Coords)

/-- One write through the whole of a view, kept as a one-piece list, is the plain write. -/
theorem writes_whole_eq {sig' : RefSig} {κ : Kind} {sp : Space} {s : Shape} {e : EltTy} {Val : EltTy → Type}
    (v : View sig' κ sp s e) (f : v.ty.Contents Val) (w : s.Idx → Val e) :
    v.writes Val f [(⟨Rect.whole s, w⟩ : View.Piece Val s e)] = v.write Val f w Finset.univ := by
  rw [View.writes_singleton]
  have hemb : ∀ x : s.Idx, (v.slice (Rect.whole s)).emb x = v.emb x := fun x => by
    rw [View.emb_slice]
    show v.emb ((Rect.whole s).emb x) = v.emb x
    congr 1
    funext a
    apply Fin.ext
    show 0 + 1 * (x a).val = (x a).val
    omega
  funext i
  by_cases hi : i ∈ v.set
  · obtain ⟨x, -, rfl⟩ := Finset.mem_map.mp hi
    rw [View.write_emb_of_mem _ _ (Finset.mem_univ x)]
    conv_lhs => rw [← hemb x, View.write_emb_of_mem _ _ (Finset.mem_univ x)]
  · rw [View.write_of_not_mem _ _ _ (by rwa [View.setOn_univ, View.set_slice_rectWhole]), View.write_of_not_mem _ _ _ (by rwa [View.setOn_univ])]

/-- The tile's block of the tokens, read at word p, is token base + p. -/
theorem xblk_read (p : S6400.Idx) : (xBlkK L).view.read (Elt F) (Xf m d) p = Xf m d (nOf L p) := by
  show Xf m d ((xBlkK L).view.emb p) = Xf m d (nOf L p)
  congr 1
  funext a
  match a with
  | 0 =>
    apply Fin.ext
    show k1_off1 L 0 + 1 * (p 0).val = baseL L + (p 0).val
    rw [k1_off1_eq]
    simp [baseL, wid]
    omega

/-- A gather's delivery — the staging buffer written with the gathered rows, the list's slice, the table's share —
    is what the main loop's invariant keeps in flight: the buffer holds its chunk of the result. -/
theorem gdel_of_exec (dst : Memref sig .scVector .vmem S128x128 .f32) (q : PosShare TreeShare) (k : ℕ) (hk : k < 50)
    (off : Fin 1 → ℕ) (inb : ∀ a, off a + S128.size a ≤ S6400.size a) (hoff : off = ![128 * k])
    (hx : ∀ n : S204800.Idx, (Xf m d n : BitVec 32).toNat < 5)
    (fd : Buf (Elt F) (dst.view.loc (V d (cV L) (jV L))))
    (hin : ∀ x, ((idxAt off inb).view.read (Elt F) (idxF m d L) x).toNat < S1000x128.size gathers_S1000x128_S128x128.axis) :
    iprop(((dst.view.loc (V d (cV L) (jV L)) ↦[dst.view.set]{fullShare}
              dst.view.writes (Elt F) fd [⟨Rect.whole S128x128, SparseCore.gatherPayload gathers_S1000x128_S128x128
                ((shSK).view.read (Elt F) (Cb m d : Buf (Elt F) (shLoc d (cV L))))
                (SparseCore.rows ((idxAt off inb).view.read (Elt F) (idxF m d L)) rfl hin)⟩])
          ∗ ((idxAt off inb).view.loc (V d (cV L) (jV L)) ↦[(idxAt off inb).view.set]{fullShare} idxF m d L))
        ∗ ((shSK).view.loc (V d (cV L) (jV L)) ↦[(shSK).view.set]{q} (Cb m d : Buf (Elt F) (shLoc d (cV L)))))
      ⊢ (gDel m d L dst q fullShare k (idxF m d L) : sProp 𝕄) := by
  rw [writes_whole_eq]
  iintro ⟨⟨Hd, Ho⟩, Hs⟩
  iapply (gather_deliv m d L dst q fullShare k hk off inb hoff fd (idxF m d L) (idxF m d L) (fun _ _ => rfl) (idxOK_idxF m d L hx) hin)
  isplitl [Hd]; · iexact Hd
  isplitl [Hs]; · iexact Hs
  iexact Ho

end PrologueLemmas

section Prologue

variable [FloatOps F]
variable (m : (ℓ : Loc nD τ sig) → Buf (Elt F) ℓ) (d : Dev nD) (L : grid1.Coords)

/-- The part of the body from the first index loop on, in the program's own words. -/
def tailProg (L : grid1.Coords) :
    Prog (TpuEff nD τ sig (Elt F) Λ₀ (.scVector ((L 0).castLE hcore1) ((L 1).castLE hsub1))) (Σ' (v2 : BitVec 32), BitVec 32) := do
  let v12 : IVec S16 32 ← Scf.Loop.for k1_t1_loop k1_t1_ok (iota .scVector S16 32 [0] iota_S16_d0_w32_scVector)
    (k1_t1_body L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
  SparseCore.subcoreBarrier sc_bar0 (grid1.bound 1) hsub1
  let v13 : Memref sig .scVector .vmem S1x128x128 .f32 := (bufsV).slice (Rect.unit (s := S2x128x128) ![0, 0, 0] S1x128x128.size inb_S2x128x128_S1x128x128_0_0_0) (fun _ => rfl)
  let v14 : Memref sig .scVector .vmem S128x128 .f32 := v13.squeeze S128x128 squeezes_S1x128x128_S128x128
  let v15 : Memref sig .scVector .vmem S128 .i32 := (idxV).slice (Rect.unit (s := S6400) ![0] S128.size inb_S6400_S128_0) (fun _ => rfl)
  let v16 : Memref sig .scVector .shared S1000x128 .f32 := (shV).slice (Rect.unit (s := S1000x128) ![0, 0] S1000x128.size inb_S1000x128_S1000x128_0_0) (fun _ => rfl)
  SparseCore.enqueueIndirectGather rfl v16 v14 gathers_S1000x128_S128x128 v15 rfl cc1_scratch4.sem (View.wordExact_bits rfl) rfl (Or.inr rfl)
  let v17 : Memref sig .scVector .vmem S1x128x128 .f32 := (bufsV).slice (Rect.unit (s := S2x128x128) ![1, 0, 0] S1x128x128.size inb_S2x128x128_S1x128x128_1_0_0) (fun _ => rfl)
  let v18 : Memref sig .scVector .vmem S128x128 .f32 := v17.squeeze S128x128 squeezes_S1x128x128_S128x128
  let v19 : Memref sig .scVector .vmem S128 .i32 := (idxV).slice (Rect.unit (s := S6400) ![128] S128.size inb_S6400_S128_128) (fun _ => rfl)
  let v20 : Memref sig .scVector .shared S1000x128 .f32 := (shV).slice (Rect.unit (s := S1000x128) ![0, 0] S1000x128.size inb_S1000x128_S1000x128_0_0) (fun _ => rfl)
  SparseCore.enqueueIndirectGather rfl v20 v18 gathers_S1000x128_S128x128 v19 rfl cc1_scratch5.sem (View.wordExact_bits rfl) rfl (Or.inr rfl)
  let v22 : IVec S16 32 ← Scf.Loop.for k1_t2_loop k1_t2_ok v12
    (k1_t2_body L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
  pure ⟨Scalar.muli (Scalar.addi (Scalar.muli (BitVec.ofNat 32 (L 1).val) 2#32) (BitVec.ofNat 32 (L 0).val)) 6400#32, 0#32⟩

/-- What the prologue holds beside the main loop's invariant, with tile 0's extras left open. -/
def PRestX (X : sProp 𝕄) : sProp 𝕄 :=
  iprop(xfBlk m d (wL L) ∗ (∃ f, (V d (cV L) (jV L)).loc cc1_scratch0 ↦{fullShare} f)
    ∗ semVal (xscell d (cV L) (jV L)) 0 ∗ semVal (sccell d (cV L) (jV L)) 0
    ∗ (bigSep (restCells d (cV L) (jV L)) fun g => semVal g 0)
    ∗ (bigSep (restRefs (cV L) (jV L)) fun b => iprop(∃ f, ((d, b) : Loc nD τ sig) ↦{fullShare} f))
    ∗ X)

theorem PRest_eq : PRest m d L = PRestX m d L (if (jL L).val = 0 then iprop(combTok m d (cL L) ∗ shRest m d (cV L)) else iprop(emp)) := rfl

set_option maxHeartbeats 4000000 in
/-- From the first index loop to the main loop's invariant: the two index loops, the barrier (what the tile hands
    over to the other tiles' rounds is among the resources assumed), the two gathers. -/
theorem prologue_tail (p : Prog (TpuEff nD τ sig (Elt F) Λ₀ (.scVector ((L 0).castLE hcore1) ((L 1).castLE hsub1))) (Σ' (v2 : BitVec 32), BitVec 32))
    (hp : p = tailProg (F := F) L)
    (O : CellTallies nD τ sig (HIx 1)) (W W₁ : Waits sig (HIx 1))
    (hW₁ : ∀ q ∈ W₁, q ∈ W ∨ q.2 = none ∨ q.2 = some (0 : Fin 1))
    (hO : ∀ g, O g none = 0)
    (hOlev : ∀ g ι, 0 < O g ι → 8 * (0 : Fin 1).val + 6 ≤ (K (F := F)).lev g ι)
    (hx : ∀ n : S204800.Idx, (Xf m d n : BitVec 32).toNat < 5) (X : sProp 𝕄) :
    iprop(levAts (K (F := F)).L (K (F := F)).lev ∗ bkit m d (cV L) (jV L)
        ∗ (bigSep Finset.univ fun j : Fin (grid1.bound 1) => (bRd (F := F) m).payload (bcell d (cV L) (j.castLE hsub1)) 0 (jV L).val)
        ∗ X ∗ xfBlk m d (wL L) ∗ oBlk d (wL L) (m (oLoc d))
        ∗ ((xV).view.loc (V d (cV L) (jV L)) ↦{fullShare} xblk m d L)
        ∗ (∃ f, (V d (cV L) (jV L)).loc cc1_scratch1 ↦{fullShare} f)
        ∗ (∃ f, (V d (cV L) (jV L)).loc cc1_scratch2 ↦{fullShare} f)
        ∗ (bigSep (restRefs (cV L) (jV L)) fun b => iprop(∃ f, ((d, b) : Loc nD τ sig) ↦{fullShare} f))
        ∗ semVal (g0cell d (cV L) (jV L)) 0 ∗ semVal (g1cell d (cV L) (jV L)) 0 ∗ semVal (o0cell d (cV L) (jV L)) 0
        ∗ semVal (o1cell d (cV L) (jV L)) 0 ∗ semVal (xscell d (cV L) (jV L)) 0 ∗ semVal (sccell d (cV L) (jV L)) 0
        ∗ (bigSep (restCells d (cV L) (jV L)) fun g => semVal g 0)
        ∗ owes (V d (cV L) (jV L)) (O + oxV d (cV L)) W₁)
      ⊢ wp frame (wpE (defs₀ (F := F)) 𝒱₀ (V d (cV L) (jV L)) none) Set.univ p
          fun _ => iprop(Mid m d L O W ∗ PRestX m d L X) := by
  subst hp
  unfold tailProg bkit
  iintro ⟨#Hlv, ⟨⟨%κ, #Hinv⟩, Htoks, #Hrch, Hat, Hcred⟩, Hpays, HX, Hxf, Hob, Hx, ⟨%fi, Hi⟩, ⟨%fb, Hb⟩, Hbufs, Hg0, Hg1, Ho0, Ho1, Hxs, Hsc, Hsems, HO⟩
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxV (F := F) d L _).symm) $$ Hi
  -- the first index loop
  sl_for (inv1 m d L) $$ [Hx Hi']
  case region =>
    intro k acc
    unfold inv1
    iintro ⟨%hacc, Hx, %f, Hi, %hf⟩
    sl_exec
    sl_step
    isplitr
    · ipureintro; rw [hacc, pay2_L16]; congr 1
    isplitl [Hx]; · iexact Hx
    iexists _
    isplitl [Hi]; · iexact Hi
    ipureintro
    intro p hp
    exact fill_step m d L hx k.val _ _ (k1_off2_eq k) acc hacc f 0 (fun p _ h => hf p h) p (Nat.zero_le _) hp
  · unfold inv1
    isplitr
    · ipureintro; exact iota_eq_L16
    isplitl [Hx]; · iexact Hx
    iexists _
    isplitl [Hi']; · iexact Hi'
    ipureintro; intro p hp; exact absurd hp (by omega)
  iintro %v12 HI
  unfold inv1
  icases HI with ⟨%hv12, Hx, %f1, Hi, %hf1⟩
  have ht1 : Scf.trips k1_t1_loop.lb k1_t1_loop.ub k1_t1_loop.st = 16 := by decide
  rw [ht1] at hv12 hf1
  -- the barrier
  sl_unfold [prologue_tail.sl.prog.cont_1]
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim (F := F) m d L) $$ Hgot
  -- the two gathers: half of the read share, a staging buffer and a slice of the list each
  ihave Htok2 := (pointsTo_share (PosShare.mem_left_op_right (qS L))).1 $$ Htok
  icases Htok2 with ⟨HtA, HtB⟩
  ihave HtA' := (Entails.of_eq (pts_shSK (F := F) d L _ _).symm) $$ HtA
  ihave HtB' := (Entails.of_eq (pts_shSK (F := F) d L _ _).symm) $$ HtB
  ihave Hb2 := (bufs_halves (F := F) d L fb).1 $$ Hb
  icases Hb2 with ⟨Hb0, Hb1⟩
  ihave Hi2 := (idx_three (F := F) m d L f1 (fun p hp => hf1 p hp)) $$ Hi
  icases Hi2 with ⟨Hi0, Hi1, HiR⟩
  have hin0 : ∀ x, ((idx0K).view.read (Elt F) (idxF m d L) x).toNat < S1000x128.size gathers_S1000x128_S128x128.axis :=
    fun x => idxF_lt m d L hx _
  have hin1 : ∀ x, ((idx1K).view.read (Elt F) (idxF m d L) x).toNat < S1000x128.size gathers_S1000x128_S128x128.axis :=
    fun x => idxF_lt m d L hx _
  sl_exec
  -- the second index loop, on the rest of the list
  sl_for (inv2 m d L) $$ [Hx HiR]
  case region =>
    intro k acc
    exact trip2 m d L hx k acc
  · unfold inv2
    isplitr
    · ipureintro; exact hv12
    isplitl [Hx]; · iexact Hx
    iexists _
    isplitl [HiR]; · iexact HiR
    ipureintro; intro p h1 h2; exact absurd h2 (by omega)
  iintro %v22 HI
  unfold inv2
  icases HI with ⟨-, Hx, %f2, HiR, %hf2⟩
  have ht2 : Scf.trips k1_t2_loop.lb k1_t2_loop.ub k1_t2_loop.st = 384 := by decide
  rw [ht2] at hf2
  sl_exec
  sl_step
  have hN0 : idxSetN (2 * 0) = idxSet 0 := by unfold idxSetN; rw [dif_pos (by decide)]; rfl
  have hN1 : idxSetN (2 * 0 + 1) = idxSet 1 := by unfold idxSetN; rw [dif_pos (by decide)]; rfl
  have hrest : ∀ p ∈ (idxRest : Finset S6400.Idx), f2 p = idxF m d L p := fun p hp => by
    have hp' := (Finset.mem_sdiff.mp hp).2
    rw [Finset.mem_union, not_or, mem_idxSet, mem_idxSet] at hp'
    have h6 : (p 0).val < 6400 := (p 0).isLt
    exact hf2 p (by simp at hp'; omega) (by omega)
  isplitl [Hg0 Hg1 HiR Ho0 Ho1 Hob HO]
  · iapply (Entails.of_eq (Inv_head m d L O W 0 (by decide)).symm)
    iexists (idxF m d L)
    isplitr
    · ipureintro; exact idxOK_idxF m d L hx
    isplitl [Hg0 Hg1 HiR Ho0 Ho1 Hob]
    · unfold Head
      isplitl [Hg0]
      · iapply (Transfers.Flight_mono countersEmb (V d (cV L) (jV L))
          (gdel_of_exec m d L buf0K (qS L).left 0 (by decide) ![0] inb_S6400_S128_0 rfl hx fb hin0))
        iexact Hg0
      isplitl [Hg1]
      · iapply (Transfers.Flight_mono countersEmb (V d (cV L) (jV L))
          (gdel_of_exec m d L buf1K (qS L).right 1 (by decide) ![128] inb_S6400_S128_128 rfl hx fb hin1))
        iexact Hg1
      isplitl [HiR]
      · rw [hN0, hN1]
        iapply (Entails.of_eq (pointsTo_congr (f := f2) (g := idxF m d L) hrest))
        iexact HiR
      isplitl [Ho0]; · iexact Ho0
      isplitl [Ho1]; · iexact Ho1
      iapply (Entails.of_eq (show oBlk d (wL L) (m (oLoc d)) = oMix m d L 0 from
        bigSep_congr fun j _ => by rw [if_neg (by omega)]))
      iexact Hob
    iexists _; isplitr
    swap; · iexact HO
    ipureintro; intro q hq
    rcases Finset.mem_insert.mp hq with hq | hq
    · exact .inr (.inr (hq ▸ rfl))
    · exact hW₁ q hq
  · unfold PRestX
    isplitl [Hxf]; · iexact Hxf
    isplitl [Hx]; · iexists _; iapply (Entails.of_eq (pts_xV (F := F) d L _)); iexact Hx
    isplitl [Hxs]; · iexact Hxs
    isplitl [Hsc]; · iexact Hsc
    isplitl [Hsems]; · iexact Hsems
    isplitl [Hbufs]; · iexact Hbufs
    iexact HX

/-- The token buffer once the tile's block has landed in it holds the tile's tokens. -/
theorem xV_landed (fx : Buf (Elt F) ((V d (cV L) (jV L)).loc cc1_scratch0)) :
    ((xV).view.loc (V d (cV L) (jV L)) ↦{fullShare} View.write (Elt F) (xV).view fx ((xBlkK L).view.read (Elt F) (Xf m d)) Finset.univ : sProp 𝕄)
      ⊢ ((xV).view.loc (V d (cV L) (jV L)) ↦{fullShare} xblk m d L) :=
  Entails.of_eq (pointsTo_congr (fun p _ =>
    (View.write_emb_of_mem (v := (xV).view) fx ((xBlkK L).view.read (Elt F) (Xf m d)) (Finset.mem_univ p)).trans (xblk_read m d L p)))

/-- The shared copy once the combined table has landed in it holds the table. -/
theorem shV_landed (fs : Buf (Elt F) (shLoc d (cV L))) :
    ((shV).view.loc (V d (cV L) (jV L)) ↦{fullShare} View.write (Elt F) (shV).view fs ((combV).view.read (Elt F) (Cb m d)) Finset.univ : sProp 𝕄)
      ⊢ (shLoc d (cV L) ↦{fullShare} (Cb m d : Buf (Elt F) (shLoc d (cV L)))) :=
  Entails.of_eq (pointsTo_congr (fun p _ =>
    (View.write_emb_of_mem (v := (shV).view) fs ((combV).view.read (Elt F) (Cb m d)) (Finset.mem_univ p)).trans rfl))

omit [FloatOps F] in
/-- The body's test "subcore index is zero", as it computes it. -/
theorem cond_iff (j : Fin 16) :
    (Scalar.cmpi .ne (Scalar.extui (Scalar.cmpi .eq (BitVec.ofNat 32 j.val) 0#32)) 0#32 = 1#1) ↔ j.val = 0 := by
  revert j; decide

set_option maxHeartbeats 4000000 in
/-- The prologue on tile (L 0, L 1): from what the launch hands the tile to the main loop's invariant before round 0. -/
theorem prologue (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hx : ∀ n : S204800.Idx, (Xf m d n : BitVec 32).toNat < 5) :
    iprop(levAts (K (F := F)).L (K (F := F)).lev ∗ bkit m d (cV L) (jV L)
        ∗ (xfBlk m d (wL L) ∗ oBlk d (wL L) (m (oLoc d))
            ∗ (if (jL L).val = 0 then iprop(combTok m d (cL L) ∗ ∃ f, shLoc d (cV L) ↦{fullShare} f) else iprop(emp)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k1_part2 L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
          fun _ => iprop(Mid m d L O W ∗ PRest m d L) := by
  rw [PRest_eq]
  simp only [k1_part2_eq_skeleton]; unfold k1_part2_skel
  rw [(K (F := F)).scopedBufs_V hF d (cV L) (jV L), SparseCore.Cfg.scopedSems0_V (Val := Elt F) d (cV L) (jV L), ownSems0_V, ownBufs_V]
  iintro ⟨#Hlv, Hkit, ⟨Hxf, Hob, Hshz⟩, ⟨⟨%fx, Hx⟩, Hi, Hb, Hbufs⟩, ⟨Hg0, Hg1, Ho0, Ho1, Hxs, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hxf' := (Entails.of_eq (pts_xBlkK (F := F) d L _ _).symm) $$ Hxf
  ihave Hx' := (Entails.of_eq (pts_xV (F := F) d L _).symm) $$ Hx
  -- the tokens' copy is started; the body then tests whether this is tile 0
  sl_exec
  by_cases h7 : Scalar.cmpi .ne (Scalar.extui (Scalar.cmpi .eq (BitVec.ofNat 32 (L 1).val) 0#32)) 0#32 = 1#1
  · -- tile 0: the combined table into the shared copy, cut into sixteen read shares
    have h0 : (jL L).val = 0 := (cond_iff (jL L)).mp h7
    have h0' : (jV L).val = 0 := h0
    ihave Hshz' := (Entails.of_eq (if_pos h0)) $$ Hshz
    icases Hshz' with ⟨Hct, %fs, Hs⟩
    ihave Hct' := (Entails.of_eq (pts_combV (F := F) d L _ _).symm) $$ Hct
    ihave Hs' := (Entails.of_eq (pts_shV (F := F) d L _ _).symm) $$ Hs
    sl_exec
    sl_unfold_run_names
    ihave Hx2 := (xV_landed (F := F) m d L fx) $$ Hx'
    ihave Hs2 := (shV_landed (F := F) m d L fs) $$ Hs'
    ihave Hs3 := (Transfers.pointsTo_toks_split fullShare 16) $$ Hs2
    icases Hs3 with ⟨Hrest, Htoks16⟩
    ihave Hpays := (pays_intro_zero (F := F) m d L h0') $$ Htoks16
    ihave Hct := (Entails.of_eq (pts_combV (F := F) d L _ _)) $$ Hct'
    ihave Hxf := (Entails.of_eq (pts_xBlkK (F := F) d L _ _)) $$ Hxf'
    iapply (prologue_tail (F := F) m d L _ rfl O W (insert (SemLoc.dma cc1_scratch8.sem, (default : HIx 1)) (insert (SemLoc.dma cc1_scoped0.sem, (default : HIx 1)) W)) (fun q hq => by
        rcases Finset.mem_insert.mp hq with hq | hq
        · exact .inr (.inl (by rw [hq]; rfl))
        rcases Finset.mem_insert.mp hq with hq | hq
        · exact .inr (.inl (by rw [hq]; rfl))
        · exact .inl hq) hO hOlev hx
      (if (jL L).val = 0 then iprop(combTok m d (cL L) ∗ shRest m d (cV L)) else iprop(emp)))
    isplitr; · iexact Hlv
    isplitl [Hkit]; · iexact Hkit
    isplitl [Hpays]; · iexact Hpays
    isplitl [Hct Hrest]
    · iapply (Entails.of_eq (if_pos h0).symm)
      isplitl [Hct]; · iexact Hct
      iexact Hrest
    isplitl [Hxf]; · iexact Hxf
    isplitl [Hob]; · iexact Hob
    isplitl [Hx2]; · iexact Hx2
    isplitl [Hi]; · iexact Hi
    isplitl [Hb]; · iexact Hb
    isplitl [Hbufs]; · iexact Hbufs
    isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    isplitl [Hsems]; · iexact Hsems
    iexact HO
  · -- any other tile
    have h0 : ¬ (jL L).val = 0 := fun h => h7 ((cond_iff (jL L)).mpr h)
    have h0' : (jV L).val ≠ 0 := h0
    sl_exec
    sl_unfold_run_names
    ihave Hx2 := (xV_landed (F := F) m d L fx) $$ Hx'
    ihave Hpays := (pays_intro_neg (F := F) m d L h0') $$ Hshz
    ihave Hxf := (Entails.of_eq (pts_xBlkK (F := F) d L _ _)) $$ Hxf'
    iapply (prologue_tail (F := F) m d L _ rfl O W (insert (SemLoc.dma cc1_scratch8.sem, (default : HIx 1)) W) (fun q hq => by
        rcases Finset.mem_insert.mp hq with hq | hq
        · exact .inr (.inl (by rw [hq]; rfl))
        · exact .inl hq) hO hOlev hx
      (if (jL L).val = 0 then iprop(combTok m d (cL L) ∗ shRest m d (cV L)) else iprop(emp)))
    isplitr; · iexact Hlv
    isplitl [Hkit]; · iexact Hkit
    isplitl [Hpays]; · iexact Hpays
    isplitr
    · iapply (Entails.of_eq (if_neg h0).symm)
      iempintro
    isplitl [Hxf]; · iexact Hxf
    isplitl [Hob]; · iexact Hob
    isplitl [Hx2]; · iexact Hx2
    isplitl [Hi]; · iexact Hi
    isplitl [Hb]; · iexact Hb
    isplitl [Hbufs]; · iexact Hbufs
    isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    isplitl [Hsems]; · iexact Hsems
    iexact HO

end Prologue

end Cert.Proof.Lookup

end
-- ==== Proof.LoopRes.lean ====
/-
  How the tile's pieces of the list of row numbers and of the result move between the loop's invariant and the
  transfers of one round: a slice of the list handed back by a gather goes into the part nobody borrows and the next
  slice comes out of it; the two chunks of the result a round writes come out of the fifty and go back holding the
  gathered rows.
-/
import proofs.«208021_g30185030156587_cont_9to1_1229_25_alg».proof.Proof.LoopVal

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Res

variable [FloatOps F]
variable (m : (ℓ : Loc nD τ sig) → Buf (Elt F) ℓ) (d : Dev nD) (L : grid1.Coords)

omit [FloatOps F] in
theorem mem_idxSetN (k : ℕ) (hk : k < 50) (p : S6400.Idx) : p ∈ idxSetN k ↔ 128 * k ≤ (p 0).val ∧ (p 0).val < 128 * k + 128 := by
  unfold idxSetN; rw [dif_pos hk, mem_idxSet]

omit [FloatOps F] in
theorem idxSetN_disjoint (j j' : ℕ) (h : j ≠ j') : Disjoint (idxSetN j) (idxSetN j') := by
  by_cases hj : j < 50
  · by_cases hj' : j' < 50
    · rw [Finset.disjoint_left]
      intro p hp hp'
      rw [mem_idxSetN j hj] at hp
      rw [mem_idxSetN j' hj'] at hp'
      omega
    · unfold idxSetN; rw [dif_neg hj']; exact Finset.disjoint_empty_right _
  · unfold idxSetN; rw [dif_neg hj]; exact Finset.disjoint_empty_left _

section Pts

variable {ℓ : Loc nD τ sig} {q : PosShare TreeShare} {f : Buf (Elt F) ℓ}

omit [FloatOps F] in
/-- A set handed back joins what is held outside it and another. -/
theorem pts_out {X Y : Finset (Idx ℓ)} (hXY : Disjoint X Y) :
    (iprop((ℓ ↦[X]{q} f) ∗ ℓ ↦[Finset.univ \ (X ∪ Y)]{q} f) : sProp 𝕄) ⊣⊢ ℓ ↦[Finset.univ \ Y]{q} f := by
  have hd : Disjoint X (Finset.univ \ (X ∪ Y)) := by
    rw [Finset.disjoint_left]; intro p hp hp'
    exact (Finset.mem_sdiff.mp hp').2 (Finset.mem_union_left _ hp)
  have he : X ∪ (Finset.univ \ (X ∪ Y)) = Finset.univ \ Y := by
    ext p
    simp only [Finset.mem_union, Finset.mem_sdiff, Finset.mem_univ, true_and, not_or]
    constructor
    · rintro (hp | ⟨-, hp⟩)
      · exact fun hy => (Finset.disjoint_left.mp hXY hp) hy
      · exact hp
    · intro hp
      by_cases hx : p ∈ X
      · exact .inl hx
      · exact .inr ⟨hx, hp⟩
  have h : (ℓ ↦[X ∪ (Finset.univ \ (X ∪ Y))]{q} f : sProp 𝕄) ⊣⊢ iprop((ℓ ↦[X]{q} f) ∗ ℓ ↦[Finset.univ \ (X ∪ Y)]{q} f) :=
    pointsTo_union hd
  rw [he] at h
  exact ⟨h.2, h.1⟩

omit [FloatOps F] in
/-- One set handed back, another taken out. -/
theorem pts_swap {X Y Z : Finset (Idx ℓ)} (hXY : Disjoint X Y) (hZY : Disjoint Z Y) :
    (iprop((ℓ ↦[X]{q} f) ∗ ℓ ↦[Finset.univ \ (X ∪ Y)]{q} f) : sProp 𝕄) ⊢ iprop((ℓ ↦[Z]{q} f) ∗ ℓ ↦[Finset.univ \ (Y ∪ Z)]{q} f) := by
  refine (pts_out hXY).1.trans ?_
  rw [Finset.union_comm Y Z]
  exact (pts_out hZY).2

end Pts

/-! ## The fifty chunks of the result -/

/-- the two chunks round t writes -/
def jA (t : ℕ) (ht : t < 25) : Fin 50 := ⟨2 * t, by omega⟩
def jB (t : ℕ) (ht : t < 25) : Fin 50 := ⟨2 * t + 1, by omega⟩

/-- the chunks other than the two of round t, before round t -/
def oRest (t : ℕ) (ht : t < 25) : sProp 𝕄 :=
  bigSep (((Finset.univ : Finset (Fin 50)).erase (jA t ht)).erase (jB t ht)) fun j =>
    oChunk d (chunkOf (wL L) j) (if j.val < 2 * t then Go m d else m (oLoc d))

omit [FloatOps F] in
theorem oSetN_jA (t : ℕ) (ht : t < 25) : oSetN L (2 * t) = oSet (chunkOf (wL L) (jA t ht)) := by
  unfold oSetN; rw [dif_pos (show 2 * t < 50 by omega)]; rfl
omit [FloatOps F] in
theorem oSetN_jB (t : ℕ) (ht : t < 25) : oSetN L (2 * t + 1) = oSet (chunkOf (wL L) (jB t ht)) := by
  unfold oSetN; rw [dif_pos (show 2 * t + 1 < 50 by omega)]; rfl

omit [FloatOps F] in
theorem jB_mem (t : ℕ) (ht : t < 25) : jB t ht ∈ (Finset.univ : Finset (Fin 50)).erase (jA t ht) :=
  Finset.mem_erase.mpr ⟨fun e => by have := congrArg Fin.val e; simp [jA, jB] at this, Finset.mem_univ _⟩

/-- Before round t the two chunks it writes hold what they held at the start. -/
theorem oMix_take (t : ℕ) (ht : t < 25) :
    oMix m d L t = iprop((oLoc d ↦[oSetN L (2 * t)]{fullShare} m (oLoc d)) ∗ (oLoc d ↦[oSetN L (2 * t + 1)]{fullShare} m (oLoc d)) ∗ oRest m d L t ht) := by
  unfold oMix oRest
  rw [SparseCore.bigSep_erase' (Finset.mem_univ (jA t ht)), SparseCore.bigSep_erase' (jB_mem t ht), oSetN_jA L t ht, oSetN_jB L t ht]
  rw [show (if (jA t ht).val < 2 * t then Go m d else m (oLoc d)) = m (oLoc d) from if_neg (by show ¬ 2 * t < 2 * t; omega),
    show (if (jB t ht).val < 2 * t then Go m d else m (oLoc d)) = m (oLoc d) from if_neg (by show ¬ 2 * t + 1 < 2 * t; omega)]

/-- Holding the gathered rows they are, with the others, the fifty before the next round. -/
theorem oMix_put (t : ℕ) (ht : t < 25) :
    iprop((oLoc d ↦[oSetN L (2 * t)]{fullShare} Go m d) ∗ (oLoc d ↦[oSetN L (2 * t + 1)]{fullShare} Go m d) ∗ oRest m d L t ht) = oMix m d L (t + 1) := by
  unfold oMix oRest
  rw [SparseCore.bigSep_erase' (Finset.mem_univ (jA t ht)) (Φ := fun j : Fin 50 => oChunk d (chunkOf (wL L) j) (if j.val < 2 * (t + 1) then Go m d else m (oLoc d))),
    SparseCore.bigSep_erase' (jB_mem t ht), oSetN_jA L t ht, oSetN_jB L t ht]
  rw [show (if (jA t ht).val < 2 * (t + 1) then Go m d else m (oLoc d)) = Go m d from if_pos (by show 2 * t < 2 * (t + 1); omega),
    show (if (jB t ht).val < 2 * (t + 1) then Go m d else m (oLoc d)) = Go m d from if_pos (by show 2 * t + 1 < 2 * (t + 1); omega)]
  have hr : (bigSep (((Finset.univ : Finset (Fin 50)).erase (jA t ht)).erase (jB t ht)) fun j => oChunk d (chunkOf (wL L) j) (if j.val < 2 * t then Go m d else m (oLoc d)) : sProp 𝕄)
      = bigSep (((Finset.univ : Finset (Fin 50)).erase (jA t ht)).erase (jB t ht)) fun j => oChunk d (chunkOf (wL L) j) (if j.val < 2 * (t + 1) then Go m d else m (oLoc d)) := by
    refine bigSep_congr fun j hj => ?_
    have h1 : j ≠ jB t ht := (Finset.mem_erase.mp hj).1
    have h0 : j ≠ jA t ht := (Finset.mem_erase.mp (Finset.mem_erase.mp hj).2).1
    have h0' : j.val ≠ 2 * t := fun e => h0 (Fin.ext e)
    have h1' : j.val ≠ 2 * t + 1 := fun e => h1 (Fin.ext e)
    by_cases hlt : j.val < 2 * t
    · rw [if_pos hlt, if_pos (by omega)]
    · rw [if_neg hlt, if_neg (by omega)]
  rw [hr]

/-- After the last round every other chunk holds the gathered rows. -/
theorem oRest_last : oRest m d L 24 (by decide) = bigSep (((Finset.univ : Finset (Fin 50)).erase 48).erase 49) fun j => oChunk d (chunkOf (wL L) j) (Go m d) := by
  unfold oRest
  refine bigSep_congr fun j hj => ?_
  have h1 : j ≠ jB 24 (by decide) := (Finset.mem_erase.mp hj).1
  have h0 : j ≠ jA 24 (by decide) := (Finset.mem_erase.mp (Finset.mem_erase.mp hj).2).1
  have h0' : j.val ≠ 48 := fun e => h0 (Fin.ext e)
  have h1' : j.val ≠ 49 := fun e => h1 (Fin.ext e)
  rw [if_pos (by have := j.isLt; omega)]

end Res

end Cert.Proof.Lookup

end
-- ==== Proof.MainLoop.lean ====
/-
  The tile's main loop and its epilogue.  One round: the gather into the first staging buffer is awaited, the buffer
  is copied out to its chunk of the result and, unless it is the last round, that copy is awaited and the gather of
  the chunk two ahead is started into the buffer; the same for the second buffer.  After the last round the two
  copies still under way are awaited, and the tile holds its fifty chunks at the gathered rows.
-/
import proofs.«208021_g30185030156587_cont_9to1_1229_25_alg».proof.Proof.LoopRes

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Main

variable [FloatOps F]
variable (m : (ℓ : Loc nD τ sig) → Buf (Elt F) ℓ) (d : Dev nD) (L : grid1.Coords)

omit [FloatOps F] in
theorem cond2_iff (t : Fin k1_t3_loop.trips) : k1_cond2 t = 1#1 ↔ t.val < 24 := by revert t; decide
omit [FloatOps F] in
theorem cond3_iff (t : Fin k1_t3_loop.trips) : k1_cond3 t = 1#1 ↔ t.val < 24 := by revert t; decide

/-- every word of the list names a row of the table -/
theorem idxOK_lt (fi : Buf (Elt F) ((V d (cV L) (jV L)).loc cc1_scratch1)) (hfi : IdxOK m d L fi) (p : S6400.Idx) : (fi p).toNat < 1000 := by
  have hw : (wL L).val < 32 := (wL L).isLt
  have hp : (p 0).val < 6400 := (p 0).isLt
  have h := hfi p (ix1 ⟨baseL L + (p 0).val, by unfold baseL; omega⟩) rfl
  rw [h]; omega

theorem idx_hin (fi : Buf (Elt F) ((V d (cV L) (jV L)).loc cc1_scratch1)) (hfi : IdxOK m d L fi)
    (off : Fin 1 → ℕ) (inb : ∀ a, off a + S128.size a ≤ S6400.size a) :
    ∀ x, ((idxAt off inb).view.read (Elt F) fi x).toNat < S1000x128.size gathers_S1000x128_S128x128.axis := by
  intro x
  rw [(View.read_apply _ _).trans (cast_eq _ _)]
  exact idxOK_lt m d L fi hfi _

omit [FloatOps F] in
theorem hN0 : ∀ h : S1000x128.Gathers 0 S128x128, ∑ j, ((buf0K).slice (S128x128.rowRect h.axis' j) (S128x128.stride_rowRect h.axis' j)).view.dmaCredit
    = (buf0K).view.dmaCredit := by decide
omit [FloatOps F] in
theorem hN1 : ∀ h : S1000x128.Gathers 0 S128x128, ∑ j, ((buf1K).slice (S128x128.rowRect h.axis' j) (S128x128.stride_rowRect h.axis' j)).view.dmaCredit
    = (buf1K).view.dmaCredit := by decide

omit [FloatOps F] in
theorem off6_eq (t : Fin k1_t3_loop.trips) : k1_off6 t = ![128 * (2 * (t.val + 1))] :=
  (k1_off6_eq t).trans (congrArg (fun x : ℕ => ![x]) (by omega))
omit [FloatOps F] in
theorem off8_eq (t : Fin k1_t3_loop.trips) : k1_off8 t = ![128 * (2 * (t.val + 1) + 1)] :=
  (k1_off8_eq t).trans (congrArg (fun x : ℕ => ![x]) (by omega))

set_option maxHeartbeats 4000000 in
/-- A round that is not the last. -/
theorem trip_mid (O : CellTallies nD τ sig (HIx 1)) (W : Waits sig (HIx 1)) (t : Fin k1_t3_loop.trips) (h24 : t.val < 24) (v2 c0 : BitVec 32) :
    iprop(Transfers.MayWaits (V d (cV L) (jV L)) (default : HIx 1) O ∗ Inv m d L O W t.val)
      ⊢ wp frame (wpE (defs₀ (F := F)) 𝒱₀ (V d (cV L) (jV L)) none) Set.univ
          (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0 t ())
          fun _ => iprop(Transfers.MayWaits (V d (cV L) (jV L)) (default : HIx 1) O ∗ Inv m d L O W (t.val + 1)) := by
  have h2 : k1_cond2 t = 1#1 := (cond2_iff t).mpr h24
  have h3 : k1_cond3 t = 1#1 := (cond3_iff t).mpr h24
  have ht : t.val < 25 := by omega
  unfold k1_t3_body
  rw [Inv_head m d L O W t.val ht, Inv_head m d L O W (t.val + 1) (by omega)]
  unfold Head
  rw [oMix_take m d L t.val ht, ← oMix_put m d L t.val ht]
  unfold gDel
  iintro ⟨#Hmw, %fi, %hfi, ⟨HF0, HF1, Hir, Hs6, Hs7, Ho0, Ho1, Hrest⟩, %W', %hW', HO⟩
  ihave Ho0' := (Entails.of_eq (show (oLoc d ↦[oSetN L (2 * t.val)]{fullShare} m (oLoc d) : sProp 𝕄)
      = ((oChunkK L t 0).view.loc (V d (cV L) (jV L)) ↦[(oChunkK L t 0).view.set]{fullShare} m (oLoc d)) by rw [← oSetN_eq L t 0]; rfl)) $$ Ho0
  ihave Ho1' := (Entails.of_eq (show (oLoc d ↦[oSetN L (2 * t.val + 1)]{fullShare} m (oLoc d) : sProp 𝕄)
      = ((oChunkK L t 1).view.loc (V d (cV L) (jV L)) ↦[(oChunkK L t 1).view.set]{fullShare} m (oLoc d)) by rw [← oSetN_eq L t 1]; rfl)) $$ Ho1
  sl_exec
  -- the gather into the first buffer has landed
  iapply (Transfers.wp_waitLocalO countersEmb 𝒱₀ (V d (cV L) (jV L)) none (default : HIx 1) (rfl : (buf0K).view.dmaCredit = _)) $$ [HF0 HO]
  · isplitl [HF0]; · iexact HF0
    isplitl [HO]; · iexact HO
    iapply (Transfers.MayWaits.elim (SemLoc.dma cc1_scratch4.sem)) $$ Hmw
  iintro ⟨⟨⟨%fb0, Hb0, %hb0⟩, Hsh0, Hi0⟩, Hg0, HO⟩
  -- out it goes, the copy is awaited
  sl_exec
  -- slice 2 * t.val of the list back among what nobody borrows, slice 2 * (t.val + 1) out of it
  ihave Hsw := (pts_swap (F := F) (ℓ := (V d (cV L) (jV L)).loc cc1_scratch1) (q := fullShare) (f := fi) (X := idxSetN (2 * t.val)) (Y := idxSetN (2 * t.val + 1)) (Z := idxSetN (2 * (t.val + 1)))
      (idxSetN_disjoint _ _ (by omega)) (idxSetN_disjoint _ _ (by omega))) $$ [Hi0 Hir]
  · isplitl [Hi0] <;> iassumption
  icases Hsw with ⟨Hin, Hir⟩
  ihave Hin' := (Entails.of_eq (show ((V d (cV L) (jV L)).loc cc1_scratch1 ↦[idxSetN (2 * (t.val + 1))]{fullShare} fi : sProp 𝕄)
      = ((idxAt (k1_off6 t) (k1_off6_inb t h2)).view.loc (V d (cV L) (jV L)) ↦[(idxAt (k1_off6 t) (k1_off6_inb t h2)).view.set]{fullShare} fi)
      by rw [set_idxAt (2 * (t.val + 1)) (by omega) _ _ (off6_eq t)])) $$ Hin
  ihave Hsh' := (Entails.of_eq (pts_shSK (F := F) d L _ _).symm) $$ Hsh0
  iapply (SparseCore.wp_indirectGatherLocal countersEmb 𝒱₀ (V d (cV L) (jV L)) none (hg := gathers_S1000x128_S128x128) (default : HIx 1)
      (buf0K).view.dmaCredit (hN0 _) (by decide) (idx_hin m d L fi hfi (k1_off6 t) (k1_off6_inb t h2))) $$ [Hsh' Hb0 Hin' Hg0]
  · isplitl [Hsh']; · iexact Hsh'
    isplitl [Hb0]; · iexact Hb0
    isplitl [Hin']; · iexact Hin'
    iexact Hg0
  iintro Hfl
  ihave HF0 := (Transfers.Flight_mono countersEmb (V d (cV L) (jV L)) (gather_deliv m d L buf0K (qS L).left fullShare (2 * (t.val + 1)) (by omega)
      (k1_off6 t) (k1_off6_inb t h2) (off6_eq t) fb0 fi fi (fun _ _ => rfl) hfi (idx_hin m d L fi hfi _ _))) $$ Hfl

  sl_exec
  -- the gather into the second buffer has landed
  iapply (Transfers.wp_waitLocalO countersEmb 𝒱₀ (V d (cV L) (jV L)) none (default : HIx 1) (rfl : (buf1K).view.dmaCredit = _)) $$ [HF1 HO]
  · isplitl [HF1]; · iexact HF1
    isplitl [HO]; · iexact HO
    iapply (Transfers.MayWaits.elim (SemLoc.dma cc1_scratch5.sem)) $$ Hmw
  iintro ⟨⟨⟨%fb1, Hb1, %hb1⟩, Hsh1, Hi1⟩, Hg1, HO⟩
  sl_exec
  -- slice 2 * t.val + 1 of the list back among what nobody borrows, slice 2 * (t.val + 1) + 1 out of it
  ihave Hsw := (pts_swap (F := F) (ℓ := (V d (cV L) (jV L)).loc cc1_scratch1) (q := fullShare) (f := fi) (X := idxSetN (2 * t.val + 1)) (Y := idxSetN (2 * (t.val + 1))) (Z := idxSetN (2 * (t.val + 1) + 1))
      (idxSetN_disjoint _ _ (by omega)) (idxSetN_disjoint _ _ (by omega))) $$ [Hi1 Hir]
  · isplitl [Hi1] <;> iassumption
  icases Hsw with ⟨Hin, Hir⟩
  ihave Hin' := (Entails.of_eq (show ((V d (cV L) (jV L)).loc cc1_scratch1 ↦[idxSetN (2 * (t.val + 1) + 1)]{fullShare} fi : sProp 𝕄)
      = ((idxAt (k1_off8 t) (k1_off8_inb t h3)).view.loc (V d (cV L) (jV L)) ↦[(idxAt (k1_off8 t) (k1_off8_inb t h3)).view.set]{fullShare} fi)
      by rw [set_idxAt (2 * (t.val + 1) + 1) (by omega) _ _ (off8_eq t)])) $$ Hin
  ihave Hsh' := (Entails.of_eq (pts_shSK (F := F) d L _ _).symm) $$ Hsh1
  iapply (SparseCore.wp_indirectGatherLocal countersEmb 𝒱₀ (V d (cV L) (jV L)) none (hg := gathers_S1000x128_S128x128) (default : HIx 1)
      (buf1K).view.dmaCredit (hN1 _) (by decide) (idx_hin m d L fi hfi (k1_off8 t) (k1_off8_inb t h3))) $$ [Hsh' Hb1 Hin' Hg1]
  · isplitl [Hsh']; · iexact Hsh'
    isplitl [Hb1]; · iexact Hb1
    isplitl [Hin']; · iexact Hin'
    iexact Hg1
  iintro Hfl
  ihave HF1 := (Transfers.Flight_mono countersEmb (V d (cV L) (jV L)) (gather_deliv m d L buf1K (qS L).right fullShare (2 * (t.val + 1) + 1) (by omega)
      (k1_off8 t) (k1_off8_inb t h3) (off8_eq t) fb1 fi fi (fun _ _ => rfl) hfi (idx_hin m d L fi hfi _ _))) $$ Hfl

  sl_exec
  sl_step
  -- the two chunks hold the gathered rows
  ihave Ho0 := (Entails.of_eq (out_val m d L t 0 buf0K fb0 hb0 (m (oLoc d)) (trip_mid.sl.dma0 d L fb0) rfl)) $$ Ho0'
  ihave Ho1 := (Entails.of_eq (out_val m d L t 1 buf1K fb1 hb1 (m (oLoc d)) (trip_mid.sl.dma0_1 d L fb1) rfl)) $$ Ho1'
  isplitr; · iexact Hmw
  iexists fi
  isplitr; · ipureintro; exact hfi
  isplitl [HF0 HF1 Hir Hs6 Hs7 Ho0 Ho1 Hrest]
  · isplitl [HF0]; · iexact HF0
    isplitl [HF1]; · iexact HF1
    isplitl [Hir]; · iexact Hir
    isplitl [Hs6]; · iexact Hs6
    isplitl [Hs7]; · iexact Hs7
    isplitl [Ho0]; · iexact Ho0
    isplitl [Ho1]; · iexact Ho1
    iexact Hrest
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

omit [FloatOps F] in
/-- A set handed back beside everything else is the whole. -/
theorem pts_back {ℓ : Loc nD τ sig} {q : PosShare TreeShare} {f : Buf (Elt F) ℓ} {X : Finset (Idx ℓ)} :
    (iprop((ℓ ↦[X]{q} f) ∗ ℓ ↦[Finset.univ \ X]{q} f) : sProp 𝕄) ⊢ ℓ ↦{q} f :=
  (pointsTo_split_subset (Finset.subset_univ X)).2

/-- What the copy of a staging buffer holding chunk k out to that chunk delivers. -/
theorem out_deliv (t : Fin k1_t3_loop.trips) (r : Fin 2) (dst : Memref sig .scVector .vmem S128x128 .f32)
    (fb : Buf (Elt F) (dst.view.loc (V d (cV L) (jV L)))) (hb : BufOK m d L dst (2 * t.val + r.val) fb) (fo : Buf (Elt F) (oLoc d))
    (w : S128x128.Idx → Elt F .f32) (hw : w = ReadAs.same.apply (dst.view.read (Elt F) fb)) (k : ℕ) (hk : 2 * t.val + r.val = k) :
    iprop(((oChunkK L t r).view.loc (V d (cV L) (jV L)) ↦[(oChunkK L t r).view.set]{fullShare}
          (oChunkK L t r).view.writes (Elt F) fo [⟨Rect.whole S128x128, w⟩])
        ∗ (dst.view.loc (V d (cV L) (jV L)) ↦[dst.view.set]{fullShare} fb))
      ⊢ (oDel m d L dst k : sProp 𝕄) := by
  subst hk
  unfold oDel
  rw [out_val m d L t r dst fb hb fo w hw]
  iintro ⟨Ho, Hb⟩
  isplitl [Ho]; · iexact Ho
  iexists _; iexact Hb

omit [FloatOps F] in
/-- A transfer under way, its semaphore and amount spelt another way. -/
theorem flight_respell {c : Thread nD τ} {sm sm' : SemLoc sig} {N N' : ℕ} (hs : sm = sm') (hN : N = N') {D D' : sProp 𝕄} (h : D ⊢ D') :
    (Transfers.Flight countersEmb c sm (default : HIx 1) N D : sProp 𝕄) ⊢ Transfers.Flight countersEmb c sm' (default : HIx 1) N' D' := by
  subst hs hN; exact Transfers.Flight_mono countersEmb c h

set_option maxHeartbeats 4000000 in
/-- The last round: both copies out stay under way. -/
theorem trip_last (O : CellTallies nD τ sig (HIx 1)) (W : Waits sig (HIx 1)) (t : Fin k1_t3_loop.trips) (h24 : t.val = 24) (v2 c0 : BitVec 32) :
    iprop(Transfers.MayWaits (V d (cV L) (jV L)) (default : HIx 1) O ∗ Inv m d L O W t.val)
      ⊢ wp frame (wpE (defs₀ (F := F)) 𝒱₀ (V d (cV L) (jV L)) none) Set.univ
          (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0 t ())
          fun _ => iprop(Transfers.MayWaits (V d (cV L) (jV L)) (default : HIx 1) O ∗ Inv m d L O W (t.val + 1)) := by
  have h2 : ¬ k1_cond2 t = 1#1 := fun h => by have := (cond2_iff t).mp h; omega
  have h3 : ¬ k1_cond3 t = 1#1 := fun h => by have := (cond3_iff t).mp h; omega
  have ht : t.val < 25 := by omega
  have hrest : oRest m d L t.val ht = bigSep (((Finset.univ : Finset (Fin 50)).erase 48).erase 49) fun j => oChunk d (chunkOf (wL L) j) (Go m d) := by
    have e : t.val = 24 := h24
    revert ht; rw [e]; intro _; exact oRest_last m d L
  unfold k1_t3_body
  rw [Inv_head m d L O W t.val ht, Inv_exit m d L O W (t.val + 1) (by omega)]
  unfold Head Exit
  rw [oMix_take m d L t.val ht, hrest]
  unfold gDel
  iintro ⟨#Hmw, %fi, %hfi, ⟨HF0, HF1, Hir, Hs6, Hs7, Ho0, Ho1, Hrest⟩, %W', %hW', HO⟩
  ihave Ho0' := (Entails.of_eq (show (oLoc d ↦[oSetN L (2 * t.val)]{fullShare} m (oLoc d) : sProp 𝕄)
      = ((oChunkK L t 0).view.loc (V d (cV L) (jV L)) ↦[(oChunkK L t 0).view.set]{fullShare} m (oLoc d)) by rw [← oSetN_eq L t 0]; rfl)) $$ Ho0
  ihave Ho1' := (Entails.of_eq (show (oLoc d ↦[oSetN L (2 * t.val + 1)]{fullShare} m (oLoc d) : sProp 𝕄)
      = ((oChunkK L t 1).view.loc (V d (cV L) (jV L)) ↦[(oChunkK L t 1).view.set]{fullShare} m (oLoc d)) by rw [← oSetN_eq L t 1]; rfl)) $$ Ho1
  sl_exec
  iapply (Transfers.wp_waitLocalO countersEmb 𝒱₀ (V d (cV L) (jV L)) none (default : HIx 1) (rfl : (buf0K).view.dmaCredit = _)) $$ [HF0 HO]
  · isplitl [HF0]; · iexact HF0
    isplitl [HO]; · iexact HO
    iapply (Transfers.MayWaits.elim (SemLoc.dma cc1_scratch4.sem)) $$ Hmw
  iintro ⟨⟨⟨%fb0, Hb0, %hb0⟩, Hsh0, Hi0⟩, Hg0, HO⟩
  sl_exec
  iapply (Transfers.wp_waitLocalO countersEmb 𝒱₀ (V d (cV L) (jV L)) none (default : HIx 1) (rfl : (buf1K).view.dmaCredit = _)) $$ [HF1 HO]
  · isplitl [HF1]; · iexact HF1
    isplitl [HO]; · iexact HO
    iapply (Transfers.MayWaits.elim (SemLoc.dma cc1_scratch5.sem)) $$ Hmw
  iintro ⟨⟨⟨%fb1, Hb1, %hb1⟩, Hsh1, Hi1⟩, Hg1, HO⟩
  sl_exec
  sl_step
  -- the list whole again
  ihave Hi := (pts_out (F := F) (ℓ := ((V d (cV L) (jV L)).loc cc1_scratch1)) (q := fullShare) (f := fi) (X := idxSetN (2 * t.val)) (Y := idxSetN (2 * t.val + 1))
      (idxSetN_disjoint _ _ (by omega))).1 $$ [Hi0 Hir]
  · isplitl [Hi0] <;> iassumption
  ihave Hi := (pts_back (F := F) (ℓ := ((V d (cV L) (jV L)).loc cc1_scratch1)) (q := fullShare) (f := fi) (X := idxSetN (2 * t.val + 1))) $$ [Hi1 Hi]
  · isplitl [Hi1] <;> iassumption
  -- the copies under way deliver the two chunks
  ihave HF6 := (flight_respell (F := F) (c := (V d (cV L) (jV L))) (sm := SemLoc.dma ⟨5, _⟩) (sm' := SemLoc.dma cc1_scratch6.sem)
      (N := 524288) (N' := (buf0K).view.dmaCredit) rfl rfl
      (out_deliv m d L t 0 buf0K fb0 hb0 (m (oLoc d)) (trip_last.sl.dma0 d L fb0) rfl 48 (by rw [h24]; rfl))) $$ Hs6
  ihave HF7 := (flight_respell (F := F) (c := (V d (cV L) (jV L))) (sm := SemLoc.dma ⟨6, _⟩) (sm' := SemLoc.dma cc1_scratch7.sem)
      (N := 524288) (N' := (buf1K).view.dmaCredit) rfl rfl
      (out_deliv m d L t 1 buf1K fb1 hb1 (m (oLoc d)) (trip_last.sl.dma0_1 d L fb1) rfl 49 (by rw [h24]; rfl))) $$ Hs7
  isplitr; · iexact Hmw
  iexists fi
  isplitr; · ipureintro; exact hfi
  isplitl [Hg0 Hg1 HF6 HF7 Hsh0 Hsh1 Hi Hrest]
  · isplitl [Hg0]; · iexact Hg0
    isplitl [Hg1]; · iexact Hg1
    isplitl [HF6]; · iexact HF6
    isplitl [HF7]; · iexact HF7
    isplitl [Hsh0]; · iexact Hsh0
    isplitl [Hsh1]; · iexact Hsh1
    isplitl [Hi]; · iexact Hi
    iexact Hrest
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

/-- The kernel's body after its first part: the main loop and the two final waits, at the values the first part returns. -/
noncomputable def loopTail (L : grid1.Coords) (v2 c0 : BitVec 32) :
    Prog (TpuEff nD τ sig (Elt F) Λ₀ (.scVector ((L 0).castLE hcore1) ((L 1).castLE hsub1))) PUnit := do
  Scf.Loop.for k1_t3_loop k1_t3_ok ⟨⟩ (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0)
  let v27 : Memref sig .scVector .hbm S128x128 .f32 := (oV).slice (Rect.unit (s := S204800x128) (k1_off9 L) S128x128.size (k1_off9_inb L)) (fun _ => rfl)
  let v28 : Memref sig .scVector .vmem S1x128x128 .f32 := (bufsV).slice (Rect.unit (s := S2x128x128) ![0, 0, 0] S1x128x128.size inb_S2x128x128_S1x128x128_0_0_0) (fun _ => rfl)
  let v29 : Memref sig .scVector .vmem S128x128 .f32 := v28.squeeze S128x128 squeezes_S1x128x128_S128x128
  Prog.lift (.waitDma2 cc1_scratch6.sem v29 v27 ((View.wordExact_bits rfl).reshape _ _) (View.wordExact_bits rfl))
  let v33 : Memref sig .scVector .hbm S128x128 .f32 := (oV).slice (Rect.unit (s := S204800x128) (k1_off9 L) S128x128.size (k1_off9_inb L)) (fun _ => rfl)
  let v34 : Memref sig .scVector .vmem S1x128x128 .f32 := (bufsV).slice (Rect.unit (s := S2x128x128) ![1, 0, 0] S1x128x128.size inb_S2x128x128_S1x128x128_1_0_0) (fun _ => rfl)
  let v35 : Memref sig .scVector .vmem S128x128 .f32 := v34.squeeze S128x128 squeezes_S1x128x128_S128x128
  Prog.lift (.waitDma2 cc1_scratch7.sem v35 v33 ((View.wordExact_bits rfl).reshape _ _) (View.wordExact_bits rfl))
  pure ⟨⟩

/-- The kernel's body is its first part followed by that. -/
theorem body_eq_tail (L : grid1.Coords) :
    cc1__sc_gather_body_skel (F := F) L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0
      = (k1_part2 L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 >>= fun r => loopTail (F := F) L r.1 r.2) := rfl

omit [FloatOps F] in
theorem oSetN_48 : oSetN L 48 = oSet (chunkOf (wL L) 48) := by unfold oSetN; rw [dif_pos (by decide)]; rfl
omit [FloatOps F] in
theorem oSetN_49 : oSetN L 49 = oSet (chunkOf (wL L) 49) := by unfold oSetN; rw [dif_pos (by decide)]; rfl

set_option maxHeartbeats 4000000 in
/-- The main loop and the epilogue: from the invariant before the first round to the tile's fifty chunks holding the
    gathered rows, its buffers, shares and semaphores back. -/
theorem main_loop (O : CellTallies nD τ sig (HIx 1)) (W : Waits sig (HIx 1)) (v2 c0 : BitVec 32) :
    iprop(Transfers.MayWaits (V d (cV L) (jV L)) (default : HIx 1) O ∗ Inv m d L O W 0)
      ⊢ wp frame (wpE (defs₀ (F := F)) 𝒱₀ (V d (cV L) (jV L)) none) Set.univ (loopTail (F := F) L v2 c0)
          fun _ => iprop(oBlk d (wL L) (Go m d) ∗ shTok m d (cV L) (jL L)
            ∗ (∃ fi, (V d (cV L) (jV L)).loc cc1_scratch1 ↦{fullShare} fi)
            ∗ (∃ fb, (buf0K).view.loc (V d (cV L) (jV L)) ↦[(buf0K).view.set]{fullShare} fb)
            ∗ (∃ fb, (buf1K).view.loc (V d (cV L) (jV L)) ↦[(buf1K).view.set]{fullShare} fb)
            ∗ semVal (g0cell d (cV L) (jV L)) 0 ∗ semVal (g1cell d (cV L) (jV L)) 0
            ∗ semVal (o0cell d (cV L) (jV L)) 0 ∗ semVal (o1cell d (cV L) (jV L)) 0
            ∗ ∃ W', ⌜∀ p ∈ W', p ∈ W ∨ p.2 = none ∨ p.2 = some (0 : Fin 1)⌝ ∗ owes (V d (cV L) (jV L)) O W') := by
  unfold loopTail
  iintro ⟨#Hmw, HI⟩
  sl_for (fun (k : ℕ) (_ : Unit) => iprop(Transfers.MayWaits (V d (cV L) (jV L)) (default : HIx 1) O ∗ Inv m d L O W k)) $$ [HI]
  case region =>
    intro k acc
    have hk : k.val < 25 := lt_of_lt_of_eq k.isLt trips3
    by_cases h : k.val < 24
    · exact trip_mid m d L O W k h v2 c0
    · exact trip_last m d L O W k (by omega) v2 c0
  · isplitr; · iexact Hmw
    iexact HI
  iintro %acc ⟨-, HI⟩
  ihave HI' := (Entails.of_eq (Inv_exit m d L O W _ (by decide))) $$ HI
  unfold Exit oDel oBlk
  rw [SparseCore.bigSep_erase' (Finset.mem_univ (48 : Fin 50)) (Φ := fun j : Fin 50 => oChunk d (chunkOf (wL L) j) (Go m d)),
    SparseCore.bigSep_erase' (show (49 : Fin 50) ∈ (Finset.univ : Finset (Fin 50)).erase 48 by decide)]
  icases HI' with ⟨%fi, %hfi, ⟨Hg0, Hg1, HF6, HF7, Hsh0, Hsh1, Hi, Hrest⟩, %W', %hW', HO⟩
  sl_exec
  -- the copy of chunk 48 has landed
  iapply (Transfers.wp_waitLocalO countersEmb 𝒱₀ (V d (cV L) (jV L)) none (default : HIx 1) (rfl : ((oV).slice (Rect.unit (s := S204800x128) (k1_off9 L) S128x128.size (k1_off9_inb L)) (fun _ => rfl)).view.dmaCredit = (buf0K).view.dmaCredit)) $$ [HF6 HO]
  · isplitl [HF6]; · iexact HF6
    isplitl [HO]; · iexact HO
    iapply (Transfers.MayWaits.elim (SemLoc.dma cc1_scratch6.sem)) $$ Hmw
  iintro ⟨⟨Ho48, %fb0, Hb0⟩, Hs6, HO⟩
  sl_exec
  -- and that of chunk 49
  iapply (Transfers.wp_waitLocalO countersEmb 𝒱₀ (V d (cV L) (jV L)) none (default : HIx 1) (rfl : ((oV).slice (Rect.unit (s := S204800x128) (k1_off9 L) S128x128.size (k1_off9_inb L)) (fun _ => rfl)).view.dmaCredit = (buf1K).view.dmaCredit)) $$ [HF7 HO]
  · isplitl [HF7]; · iexact HF7
    isplitl [HO]; · iexact HO
    iapply (Transfers.MayWaits.elim (SemLoc.dma cc1_scratch7.sem)) $$ Hmw
  iintro ⟨⟨Ho49, %fb1, Hb1⟩, Hs7, HO⟩
  sl_exec
  sl_step
  ihave Ho48' := (Entails.of_eq (show (oLoc d ↦[oSetN L 48]{fullShare} Go m d : sProp 𝕄) = oChunk d (chunkOf (wL L) 48) (Go m d) by rw [oSetN_48])) $$ Ho48
  ihave Ho49' := (Entails.of_eq (show (oLoc d ↦[oSetN L 49]{fullShare} Go m d : sProp 𝕄) = oChunk d (chunkOf (wL L) 49) (Go m d) by rw [oSetN_49])) $$ Ho49
  isplitl [Ho48' Ho49' Hrest]
  · isplitl [Ho48']; · iexact Ho48'
    isplitl [Ho49']; · iexact Ho49'
    iexact Hrest
  isplitl [Hsh0 Hsh1]
  · iapply (pointsTo_share (PosShare.mem_left_op_right (qS L))).2
    isplitl [Hsh0] <;> iassumption
  isplitl [Hi]; · iexists _; iexact Hi
  isplitl [Hb0]; · iexists _; iexact Hb0
  isplitl [Hb1]; · iexists _; iexact Hb1
  isplitl [Hg0]; · iexact Hg0
  isplitl [Hg1]; · iexact Hg1
  isplitl [Hs6]; · iexact Hs6
  isplitl [Hs7]; · iexact Hs7
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

end Main

end Cert.Proof.Lookup

end
-- ==== Proof.KernelValue.lean ====
/-
  The kernel's result as a term of its arguments is the specification's function, index by index, for any float
  values. Entry (b, l, k) of the result is row 200 b + l, column k, of the gathered rows (the last reshape keeps the
  row-major order); row r = 200 b + l of the gathered rows is row (token r mod 5) * 200 + r mod 200 of the combined
  table, where token r is x (b, l) (the flattening keeps the row-major order) and r mod 200 = l; row v * 200 + l of the
  combined table is table row v plus position row l (the table broadcast along the positions, the positions along the
  table rows, then the first two axes merged); and position row l of the first 200 positions is row l of the position
  table. The row a token word names is its value mod 5 on both sides, so no range condition is needed.
-/
import proofs.«208021_g30185030156587_cont_9to1_1229_25_alg».proof.Proof.Common
import proofs.«208021_g30185030156587_cont_9to1_1229_25_alg».proof.Proof.Spec
import Idealize.ShloMosaic.Lib.ValueIdx
import Idealize.ShloMosaic.Lib.ValueLayout
import Idealize.ShloMosaic.Lib.Pipeline.Value

noncomputable section

namespace Cert.Proof.Lookup

open Cert.KernelIdeal Cert.KernelIdeal.Gen Idealize.ShloMosaic Idealize.ShloMosaic.ValueIdx

section Generic

variable {F : FTy → Type} [FloatOps F]

/-- Row 200 b + l of a [204800, _] array. -/
def rowAt (b : Fin 1024) (l : Fin 200) : Fin 204800 := ⟨b.val * 200 + l.val, by omega⟩

/-- Row v * 200 + l of the combined table. -/
def combRow (v : Fin 5) (l : Fin 200) : Fin 1000 := ⟨v.val * 200 + l.val, by omega⟩

/-- The last reshape keeps the row-major order: entry (b, l, k) is row 200 b + l, column k. -/
theorem resOf_apply (o : FVec F S204800x128 .f32) (b : Fin 1024) (l : Fin 200) (k : Fin 128) :
    resOf o (ix3 b l k) = o (ix2 (rowAt b l) k) := by
  unfold resOf
  exact shapeCast_apply _ _ _ _ (by
    rw [Shape.rowMajor_val_two, Shape.rowMajor_val_three]
    rfl)

/-- The flattened tokens at position 200 b + l are token (b, l). -/
theorem xfOf_apply (x : IVec S1024x200 32) (b : Fin 1024) (l : Fin 200) : xfOf x (ix1 (rowAt b l)) = x (ix2 b l) := by
  unfold xfOf
  exact shapeCast_apply _ _ _ _ (by
    rw [Shape.rowMajor_val_two, Shape.rowMajor_val_one]
    rfl)

/-- The first 200 positions, as a matrix, at (l, k): the position table at (0, l, k). -/
theorem pe2Of_apply (pe : FVec F S1x2048x128 .f32) (l : Fin 200) (k : Fin 128) :
    pe2Of pe (ix2 l k) = pe (ix3 (0 : Fin 1) (Cert.Spec.posOf l) k) := by
  unfold pe2Of
  refine (shapeCast_1ab_ab_apply _ _ l k).trans ?_
  exact slice3_axis1_apply 0 pe _ (0 : Fin 1) l k (Cert.Spec.posOf l) (Nat.zero_add _).symm

/-- The TensorCore region's payload at (v, l, k): table row v plus position row l, at column k. -/
theorem pay_apply (tab : FVec F S5x128 .f32) (pe2 : FVec F S200x128 .f32) (v : Fin 5) (l : Fin 200) (k : Fin 128) :
    k0_pay1 (F := F) tab pe2 (ix3 v l k) = FloatOps.addf (tab (ix2 v k)) (pe2 (ix2 l k)) := by
  have h5 : broadcastTo S5x200x128 (shapeCast S5x1x128 tab shapeCasts_S5x128_S5x1x128) broadcasts_S5x1x128_S5x200x128 (ix3 v l k)
      = tab (ix2 v k) := by
    refine (broadcastTo_apply _ _ (ix3 v l k) (ix3 v (0 : Fin 1) k) (fun a => by
      match a with
      | ⟨0, _⟩ => rfl
      | ⟨1, _⟩ => rfl
      | ⟨2, _⟩ => rfl)).trans ?_
    exact shapeCast_apply _ _ _ _ (by
      rw [Shape.rowMajor_val_two, Shape.rowMajor_val_three]
      show v.val * 128 + k.val = (v.val * 1 + 0) * 128 + k.val
      omega)
  have h6 : broadcastTo S5x200x128
        (shapeCast S1x200x128 (shapeCast S200x128 pe2 shapeCasts_S200x128_S200x128) shapeCasts_S200x128_S1x200x128)
        broadcasts_S1x200x128_S5x200x128 (ix3 v l k)
      = pe2 (ix2 l k) := by
    refine (broadcastTo_apply _ _ (ix3 v l k) (ix3 (0 : Fin 1) l k) (fun a => by
      match a with
      | ⟨0, _⟩ => rfl
      | ⟨1, _⟩ => rfl
      | ⟨2, _⟩ => rfl)).trans ?_
    rw [shapeCast_ab_1ab_apply, shapeCast_self]
  show FloatOps.addf
      (broadcastTo S5x200x128 (shapeCast S5x1x128 tab shapeCasts_S5x128_S5x1x128) broadcasts_S5x1x128_S5x200x128 (ix3 v l k))
      (broadcastTo S5x200x128
        (shapeCast S1x200x128 (shapeCast S200x128 pe2 shapeCasts_S200x128_S200x128) shapeCasts_S200x128_S1x200x128)
        broadcasts_S1x200x128_S5x200x128 (ix3 v l k)) = _
  rw [h5, h6]

/-- The combined table at row v * 200 + l, column k: table row v plus position row l. -/
theorem combOf_apply (tab : FVec F S5x128 .f32) (pe2 : FVec F S200x128 .f32) (v : Fin 5) (l : Fin 200) (k : Fin 128) :
    combOf tab pe2 (ix2 (combRow v l) k) = FloatOps.addf (tab (ix2 v k)) (pe2 (ix2 l k)) := by
  unfold combOf
  refine (shapeCast_apply _ _ (ix2 (combRow v l) k) (ix3 v l k) (by
    rw [Shape.rowMajor_val_two, Shape.rowMajor_val_three]
    rfl)).trans ?_
  exact pay_apply tab pe2 v l k

/-- Row 200 b + l of the gathered rows is the combined table's row (token mod 5) * 200 + l. -/
theorem gatherOut_apply (comb : FVec F S1000x128 .f32) (xf : IVec S204800 32) (b : Fin 1024) (l : Fin 200) (k : Fin 128) :
    gatherOut comb xf (ix2 (rowAt b l) k) = comb (ix2 (combRow (Cert.Spec.rowOf (xf (ix1 (rowAt b l)))) l) k) := by
  unfold gatherOut
  refine congrArg comb ?_
  refine congrArg (fun r : Fin 1000 => ix2 r k) (Fin.ext ?_)
  show (xf (ix1 (rowAt b l))).toNat % 5 * 200 + (b.val * 200 + l.val) % 200 = (xf (ix1 (rowAt b l))).toNat % 5 * 200 + l.val
  have := l.isLt
  omega

/-- The kernel's result is the specification's function, for any float values. -/
theorem kernelOut_eq_spec_any (x : IVec S1024x200 32) (tab : FVec F S5x128 .f32) (pe : FVec F S1x2048x128 .f32) :
    kernelOut (F := F) x tab pe = Cert.Spec.out (F := F) x tab pe := by
  funext j
  obtain ⟨b, l, k, rfl⟩ : ∃ (b : Fin 1024) (l : Fin 200) (k : Fin 128), j = ix3 b l k := ⟨j 0, j 1, j 2, eq_ix3 j⟩
  unfold kernelOut
  rw [resOf_apply, gatherOut_apply, xfOf_apply, combOf_apply, pe2Of_apply]
  rfl

end Generic

end Cert.Proof.Lookup

end
-- ==== Proof.TileObl.lean ====
/-
  The tile's task, whole.  The kernel's body is its first part — the tile's tokens copied in, the shared copy of the
  combined table made by tile 0, the list of row numbers filled, the barrier, the first two gathers started — followed
  by the main loop and the two final waits.  Joined, they take what the tile is handed (its block of the tokens, its
  fifty chunks of the result, on tile 0 the table's share and the shared buffer) to what it hands back (the block, the
  chunks holding the gathered rows, its read share of the shared copy), with its scratch and semaphores as found.
-/
import proofs.«208021_g30185030156587_cont_9to1_1229_25_alg».proof.Proof.Prologue
import proofs.«208021_g30185030156587_cont_9to1_1229_25_alg».proof.Proof.MainLoop
import proofs.«208021_g30185030156587_cont_9to1_1229_25_alg».proof.Proof.KernelValue

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.KernelIdeal.main_v3_scv : Memref Cert.KernelIdeal.sig Kind.scVector Space.hbm Cert.KernelIdeal.S1000x128 EltTy.f32)
local notation "xfV" => (Memref.whole Cert.KernelIdeal.main_v4_scv : Memref Cert.KernelIdeal.sig Kind.scVector Space.hbm Cert.KernelIdeal.S204800 EltTy.i32)
local notation "oV" => (Memref.whole Cert.KernelIdeal.main_v5_scv : Memref Cert.KernelIdeal.sig Kind.scVector Space.hbm Cert.KernelIdeal.S204800x128 EltTy.f32)
local notation "xV" => (Memref.whole Cert.KernelIdeal.cc1_scratch0 : Memref Cert.KernelIdeal.sig Kind.scVector Space.vmem Cert.KernelIdeal.S6400 EltTy.i32)
local notation "idxV" => (Memref.whole Cert.KernelIdeal.cc1_scratch1 : Memref Cert.KernelIdeal.sig Kind.scVector Space.vmem Cert.KernelIdeal.S6400 EltTy.i32)
local notation "bufsV" => (Memref.whole Cert.KernelIdeal.cc1_scratch2 : Memref Cert.KernelIdeal.sig Kind.scVector Space.vmem Cert.KernelIdeal.S2x128x128 EltTy.f32)
local notation "shV" => (Memref.whole Cert.KernelIdeal.cc1_scratch3 : Memref Cert.KernelIdeal.sig Kind.scVector Space.shared Cert.KernelIdeal.S1000x128 EltTy.f32)

section Body

variable [FloatOps F]
variable (m : (ℓ : Loc nD τ sig) → Buf (Elt F) ℓ) (d : Dev nD) (L : grid1.Coords)

/-- What a tile is handed, over its grid coordinates. -/
def goL : sProp 𝕄 :=
  iprop(xfBlk m d (wL L) ∗ oBlk d (wL L) (m (oLoc d))
    ∗ (if (jL L).val = 0 then iprop(combTok m d (cL L) ∗ ∃ f, shLoc d (cV L) ↦{fullShare} f) else iprop(emp)))

/-- What it hands back. -/
def tdL : sProp 𝕄 :=
  iprop(xfBlk m d (wL L) ∗ oBlk d (wL L) (Go m d)
    ∗ (if (jL L).val = 0 then iprop(combTok m d (cL L) ∗ shRest m d (cV L)) else iprop(emp))
    ∗ shTok m d (cV L) (jL L))

/-- Every flattened token names a table row. -/
theorem xf_inRange (hx : Cert.Spec.InRange (m (a0Loc d))) (n : S204800.Idx) : (Xf m d n : BitVec 32).toNat < 5 := by
  have hn : (n 0).val < 204800 := (n 0).isLt
  have e : n = ix1 (rowAt ⟨(n 0).val / 200, by omega⟩ ⟨(n 0).val % 200, Nat.mod_lt _ (by decide)⟩) := by
    refine (eq_ix1 n).trans (congrArg ix1 (Fin.ext ?_))
    show (n 0).val = (n 0).val / 200 * 200 + (n 0).val % 200
    omega
  rw [e]; unfold Xf; rw [xfOf_apply]; exact hx _

/-- The two halves of the staging scratch, each at contents of its own, are it whole at some contents. -/
theorem bufs_join :
    iprop((∃ fb, (buf0K).view.loc (V d (cV L) (jV L)) ↦[(buf0K).view.set]{fullShare} fb)
        ∗ (∃ fb, (buf1K).view.loc (V d (cV L) (jV L)) ↦[(buf1K).view.set]{fullShare} fb))
      ⊢ (iprop(∃ f, (V d (cV L) (jV L)).loc cc1_scratch2 ↦{fullShare} f) : sProp 𝕄) := by
  rw [set_buf0K, set_buf1K]
  iintro ⟨⟨%f0, H0⟩, ⟨%f1, H1⟩⟩
  ihave H := (pointsTo_join (ℓ := (V d (cV L) (jV L)).loc cc1_scratch2) (q := fullShare) (f := f0) (g := f1) bufSets_disjoint) $$ [H0 H1]
  · isplitl [H0]; · iexact H0
    iexact H1
  rw [bufSets_cover]
  iexists _; iexact H

set_option maxHeartbeats 1000000 in
/-- The task on vector subcore (L 0, L 1) of device d: the first part of the body — the tokens copied in, the table's
    shared copy made by tile 0, the list of row numbers filled, the barrier, the first two gathers started —, then the
    main loop and the two final waits. -/
theorem tile_body (hx : ∀ d : Dev nD, Cert.Spec.InRange (m (a0Loc d))) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goL m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_gather_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0)
          fun _ => iprop(tdL m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__sc_gather_body_eq_skeleton]
  rw [body_eq_tail, wp_bind]
  have hpro := prologue m d L hF O W hO hOlev (xf_inRange m d (hx d))
  unfold PRest at hpro
  unfold goL
  iintro ⟨#Hlv, Hrest⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ Set.univ)
  isplitl [Hrest]
  · iapply hpro
    isplitr; · iexact Hlv
    iexact Hrest
  iintro %r ⟨Hmid, Hxf, Hx0, Hxs, Hsc, Hsems, Hbufs, Hsh⟩
  iapply (wp_wand_r frame _ Set.univ)
  isplitl [Hmid Hmw]
  · iapply (main_loop m d L O W r.1 r.2)
    isplitl [Hmw]; · iexact Hmw
    iexact Hmid
  iintro %_ ⟨Hob, Hst, Hi, Hb0, Hb1, Hg0, Hg1, Ho0, Ho1, HO⟩
  ihave Hb := (bufs_join (F := F) d L) $$ [Hb0 Hb1]
  · isplitl [Hb0]; · iexact Hb0
    iexact Hb1
  rw [(K (F := F)).scopedBufs_V hF d (cV L) (jV L), SparseCore.Cfg.scopedSems0_V (Val := Elt F) d (cV L) (jV L), ownSems0_V, ownBufs_V]
  unfold tdL
  isplitl [Hxf Hob Hsh Hst]
  · isplitl [Hxf]; · iexact Hxf
    isplitl [Hob]; · iexact Hob
    isplitl [Hsh]; · iexact Hsh
    iexact Hst
  isplitl [Hx0 Hi Hb Hbufs]
  · isplitl [Hx0]; · iexact Hx0
    isplitl [Hi]; · iexact Hi
    isplitl [Hb]; · iexact Hb
    iexact Hbufs
  isplitl [Hg0 Hg1 Ho0 Ho1 Hxs Hsc Hsems]
  · isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    iexact Hsems
  iexact HO

/-! ## The obligation -/

theorem defs₀_vector (c : Fin τ.nSC) (s : Fin τ.nSub) :
    defs₀ (F := F) (.scVector c s) 1 ⟨⟩
      = SparseCore.onTile hcore1 hsub1 (fun c s => cc1__sc_gather_body (coordsV c s)
          combV (Memref.isWhole_whole _) xfV (Memref.isWhole_whole _) oV (Memref.isWhole_whole _) xV (Memref.isWhole_whole _)
          idxV (Memref.isWhole_whole _) bufsV (Memref.isWhole_whole _) shV (Memref.isWhole_whole _)
          cc1_scratch4 cc1_scratch5 cc1_scratch6 cc1_scratch7 cc1_scratch8 cc1_scoped0) ⟨⟩ c s := rfl

set_option maxRecDepth 16384 in
set_option maxHeartbeats 1000000 in
/-- The tile's task, as the launch theorem asks it: for every device, SparseCore and tile of the grid. -/
theorem tileObl (hx : ∀ d : Dev nD, Cert.Spec.InRange (m (a0Loc d))) (hF : (K (F := F)).Facts) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hx hF O W hO hOlev

end Body

end Cert.Proof.Lookup

end
-- ==== Proof.HandOver.lean ====
/-
  The SparseCore call's operands out of the whole arrays and its results back into them: the combined table through
  one read share per SparseCore, the flattened tokens block by block, the gathered rows chunk by chunk.
-/
import proofs.«208021_g30185030156587_cont_9to1_1229_25_alg».proof.Proof.Split

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

omit [FloatOps F] in
theorem bigSep_cores (Φ : Fin 2 → sProp 𝕄) :
    (bigSep Finset.univ fun c : Fin ((K (F := F)).nCore 0) => Φ (cF c)) = bigSep Finset.univ Φ :=
  bigSep_congr fun _ _ => congrArg Φ (Fin.ext rfl)

/-- The whole arrays are both SparseCores' operands, and what is left of the combined table's share. -/
theorem st_intro (d : Dev nD) :
    iprop((combLoc d ↦{fullShare} Cb m d) ∗ (xfLoc d ↦{fullShare} Xf m d) ∗ (oLoc d ↦{fullShare} m (oLoc d)))
      ⊢ (iprop((combLoc d ↦{Transfers.shareDrop fullShare 2} Cb m d) ∗ bigSep Finset.univ fun c : Fin ((K (F := F)).nCore 0) => (P m).st 0 d c) : sProp 𝕄) := by
  show _ ⊢ iprop((combLoc d ↦{Transfers.shareDrop fullShare 2} Cb m d) ∗ bigSep Finset.univ fun c : Fin ((K (F := F)).nCore 0) => stRes m d c)
  unfold stRes
  rw [bigSep_cores (F := F) (fun c => iprop(combTok m d c ∗ (bigSep Finset.univ fun s : Fin 16 => xfBlk m d (wid c s))
      ∗ bigSep Finset.univ fun s : Fin 16 => oBlk d (wid c s) (m (oLoc d)))), bigSep_sep', bigSep_sep', xfPts_split, oPts_split]
  iintro ⟨Hc, Hx, Ho⟩
  ihave Hc' := (combPts_split m d).1 $$ Hc
  icases Hc' with ⟨Hd, Ht⟩
  isplitl [Hd]; · iexact Hd
  isplitl [Ht]; · iexact Ht
  isplitl [Hx]; · iexact Hx
  iexact Ho

/-- Both SparseCores' results, with what was left of the combined table's share, are the whole arrays again, the rows gathered. -/
theorem dn_elim (d : Dev nD) :
    (iprop((combLoc d ↦{Transfers.shareDrop fullShare 2} Cb m d) ∗ bigSep Finset.univ fun c : Fin ((K (F := F)).nCore 0) => (P m).dn 0 d c) : sProp 𝕄)
      ⊢ iprop((combLoc d ↦{fullShare} Cb m d) ∗ (xfLoc d ↦{fullShare} Xf m d) ∗ (oLoc d ↦{fullShare} Go m d)) := by
  show iprop((combLoc d ↦{Transfers.shareDrop fullShare 2} Cb m d) ∗ bigSep Finset.univ fun c : Fin ((K (F := F)).nCore 0) => dnRes m d c) ⊢ _
  unfold dnRes
  rw [bigSep_cores (F := F) (fun c => iprop(combTok m d c ∗ (bigSep Finset.univ fun s : Fin 16 => xfBlk m d (wid c s))
      ∗ bigSep Finset.univ fun s : Fin 16 => oBlk d (wid c s) (Go m d))), bigSep_sep', bigSep_sep', xfPts_split, oPts_split]
  iintro ⟨Hd, Ht, Hx, Ho⟩
  isplitl [Hd Ht]
  · iapply (combPts_split m d).2
    isplitl [Hd]; · iexact Hd
    iexact Ht
  isplitl [Hx]; · iexact Hx
  iexact Ho

end Cert.Proof.Lookup

end
-- ==== Proof.Region.lean ====
/-
  The TensorCore's kernel region of @main: the one-point pipeline that stages the table and the position rows whole,
  adds them broadcast against each other, and writes the sum back whole. Its proof data, the body's triple, and what
  the written-back array holds: entry (v, l, k) of the result is table (v, k) plus position (l, k).
-/
import proofs.«208021_g30185030156587_cont_9to1_1229_25_alg».proof.Proof.Common
import proofs.«208021_g30185030156587_cont_9to1_1229_25_alg».proof.Proof.Gen.KernelIdeal.Launch
import proofs.«208021_g30185030156587_cont_9to1_1229_25_alg».proof.Proof.Gen.KernelIdeal.Points
import proofs.«208021_g30185030156587_cont_9to1_1229_25_alg».proof.Proof.Gen.KernelIdeal.Skeleton
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The host operations before the region, and what the TensorCore's arrays hold when it is entered -/

/-- the slice of the position table's first 200 rows -/
abbrev opSlice : HloOp τ sig (Elt F) :=
  StableHlo.unary main_arg2 main_v0 ((extractStridedSlice S1x200x128 ![0, 0, 0] · slices_S1x2048x128_S1x200x128_0_0_0) : (⟨S1x2048x128, .f32⟩ : BufTy).Contents (Elt F) → (⟨S1x200x128, .f32⟩ : BufTy).Contents (Elt F))
/-- its reshape to a matrix -/
abbrev opPe2 : HloOp τ sig (Elt F) := StableHlo.reshape main_v0 main_v1 rfl shapeCasts_S1x200x128_S200x128

/-- The device's arrays when the region is entered. -/
def Vent (d : Dev nD) : Valuation τ sig (Elt F) := StableHlo.after [opSlice, opPe2] (StableHlo.launchContents m d)
/-- The same, by the TensorCore's references. -/
abbrev VentR (d : Dev nD) (b : Ref sig .tc) : Buf (Elt F) ((d : Thread nD τ).loc b) := Vent m d (Proc.devRef .tc b)

theorem Vent_arg1 (d : Dev nD) : VentR m d main_arg1 = m (a1Loc d) := by
  unfold VentR Vent; after_results_simp
theorem Vent_v1 (d : Dev nD) : VentR m d main_v1 = pe2Of (m (a2Loc d)) := by
  unfold VentR Vent; after_results_simp; rfl
theorem Vent_v2 (d : Dev nD) : VentR m d main_v2 = m ((SparseCore.T d).loc main_v2) := by
  unfold VentR Vent; after_results_simp

/-! ## The proof data of the one pipeline -/

/-- Window `w`'s block at the one point, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (VentR m d (Pipeline.arrRef spec0 w))

abbrev r0 : Rect S5x128 := Rect.unit (s := S5x128) ![0, 0] S5x128.size inb_S5x128_S5x128_0_0
abbrev r1 : Rect S200x128 := Rect.unit (s := S200x128) ![0, 0] S200x128.size inb_S200x128_S200x128_0_0
abbrev r2 : Rect S5x200x128 := Rect.unit (s := S5x200x128) ![0, 0, 0] S5x200x128.size inb_S5x200x128_S5x200x128_0_0_0

/-- What the body leaves in the result's staging buffer: its one store, over what its two loads read. -/
def out2 (x0 : Vec F S5x128 .f32) (x1 : Vec F S200x128 .f32) : Vec F S5x200x128 .f32 :=
  View.canon [⟨r2, k0_pay1 (View.ld x0 r0) (View.ld x1 r1)⟩]

theorem hz2 : (![0, 0] : Fin 2 → Nat) = fun _ => 0 := funext fun a => by fin_cases a <;> rfl
theorem hz3 : (![0, 0, 0] : Fin 3 → Nat) = fun _ => 0 := funext fun a => by fin_cases a <;> rfl

/-- The store covers the buffer and the loads read their buffers whole: the sum itself. -/
theorem out2_eq (x0 : Vec F S5x128 .f32) (x1 : Vec F S200x128 .f32) : out2 x0 x1 = k0_pay1 x0 x1 := by
  unfold out2
  rw [View.canon_unit_zero hz3, View.ld_unit_zero (S := S5x128) hz2, View.ld_unit_zero (S := S200x128) hz2]

/-- The levels at or below which the TensorCore's recorded waits sit before the SparseCore call. -/
def recBelow (d : Dev nD) : Set (SemLoc sig × HIx 1) := {p | (K (F := F)).lev ((SparseCore.T d), p.1) p.2 ≤ 0}

/-- The proof data on device `d`: the arrays as the region finds them; after the body each input's buffer at its
    block and the result's at the sum; nothing in the invariant; full shares; the core owing throughout what it owes
    before the SparseCore call (the start signals), its recorded waits at level 0. -/
def dat (d : Dev nD) : Dat τ (Elt F) (HIx 1) ℕ UU ℕ cfg0 d where
  A w := VentR m d (Pipeline.arrRef spec0 w)
  after w t := match w with
    | ⟨0, _⟩ => iblk m d 0 t
    | ⟨1, _⟩ => iblk m d 1 t
    | ⟨2, _⟩ => out2 (iblk m d 0 t) (iblk m d 1 t)
  Φ _ := iprop(emp)
  q _ := fullShare
  owed _ := (K (F := F)).Otc d 0
  recorded _ := recBelow (F := F) d

theorem A_eq (d : Dev nD) (w : Fin cfg0.W) : (dat m d).A w = VentR m d (Pipeline.arrRef spec0 w) := by
  dsimp only [dat]
theorem after0 (d : Dev nD) (t : Fin cfg0.N) : (dat m d).after 0 t = iblk m d 0 t := by dsimp only [dat]
theorem after1 (d : Dev nD) (t : Fin cfg0.N) : (dat m d).after 1 t = iblk m d 1 t := by dsimp only [dat]
theorem after2 (d : Dev nD) (t : Fin cfg0.N) : (dat m d).after 2 t = out2 (iblk m d 0 t) (iblk m d 1 t) := by dsimp only [dat]

/-- Each input's staging buffer holds its block when the body is called. -/
theorem before0 (d : Dev nD) (t : Fin cfg0.N) (x) : (dat m d).before 0 t x = iblk m d 0 t :=
  ((dat m d).before_in_eq_fetched 0 rfl (fun _ => rfl) (fun _ _ _ => rfl) (fun t => by rw [after0]; unfold Dat.blockOf iblk; rw [A_eq]; try rfl) t x).trans
    (by unfold Dat.fetched Dat.blockOf iblk; rw [A_eq]; try rfl)
theorem before1 (d : Dev nD) (t : Fin cfg0.N) (x) : (dat m d).before 1 t x = iblk m d 1 t :=
  ((dat m d).before_in_eq_fetched 1 rfl (fun _ => rfl) (fun _ _ _ => rfl) (fun t => by rw [after1]; unfold Dat.blockOf iblk; rw [A_eq]; try rfl) t x).trans
    (by unfold Dat.fetched Dat.blockOf iblk; rw [A_eq]; try rfl)

/-! ## The body's triple -/

set_option maxHeartbeats 1000000 in
/-- The body on whole staging memrefs, the inputs' at read contents and the result's at anything, leaves the inputs'
    as they were and the result's at the sum. -/
theorem sound_kernel (d : Dev nD) (E : Set ℕ) (arg0 : Memref sig .tc .vmem S5x128 .f32) (harg0 : arg0.IsWhole) (arg1 : Memref sig .tc .vmem S200x128 .f32) (harg1 : arg1.IsWhole) (arg2 : Memref sig .tc .vmem S5x200x128 .f32) (harg2 : arg2.IsWhole)
    (x0 : Vec F S5x128 .f32) (x1 : Vec F S200x128 .f32) (Q : PUnit → sProp 𝕄) :
    iprop(owns (d : Thread nD τ) arg0 fullShare x0 ∗ owns (d : Thread nD τ) arg1 fullShare x1 ∗ (∃ y, owns (d : Thread nD τ) arg2 fullShare y)
        ∗ (iprop(owns (d : Thread nD τ) arg0 fullShare x0 ∗ owns (d : Thread nD τ) arg1 fullShare x1 ∗ owns (d : Thread nD τ) arg2 fullShare (out2 x0 x1)) -∗ Q ⟨⟩))
      ⊢ wp frame (wpE (defs₀ (F := F)) Variants.none d none) E (cc0__fuse_body arg0 harg0 arg1 harg1 arg2 harg2) Q := by
  simp only [cc0__fuse_body_eq_skeleton]; unfold cc0__fuse_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero hz3 inb_S5x200x128_S5x200x128_0_0_0 y⟩)

/-! ## The body obligation -/

theorem recBelow_waits (d : Dev nD) (t : Fin (cfg0.N + 1)) : (dat m d).bound none t = recBelow (F := F) d := by
  show recBelow (F := F) d ∪ cfg0.waitPairs none = recBelow (F := F) d
  refine Set.union_eq_self_of_subset_right ?_
  rintro p ⟨w, s, rfl⟩
  exact (Nat.le_refl 0 : (K (F := F)).lev ((SparseCore.T d), _) none ≤ 0)

/-- The body at the point: the inputs' memrefs hold their blocks, so `sound_kernel` applies; the core's `owes` passes
    through unread. -/
theorem body_obligation (d : Dev nD) : BodyObligation (dat (F := F) m d) (defs₀ (F := F)) Variants.none none Set.univ := fun t => by
  rw [bigSep_W0, bigSep_W0]
  show iprop((dat m d).Φ t.castSucc ∗ (dat m d).owesAt none t.castSucc
      ∗ (∃ x, owns (d : Thread nD τ) (st0_0 t) fullShare ((dat m d).before 0 t x))
      ∗ (∃ x, owns (d : Thread nD τ) (st0_1 t) fullShare ((dat m d).before 1 t x))
      ∗ (∃ x, owns (d : Thread nD τ) (st0_2 t) fullShare ((dat m d).before 2 t x)))
    ⊢ wp frame (wpE (defs₀ (F := F)) Variants.none d none) Set.univ (bodyAt0 t) fun _ =>
      iprop((dat m d).Φ t.succ ∗ (dat m d).owesAt none t.succ
        ∗ owns (d : Thread nD τ) (st0_0 t) fullShare ((dat m d).after 0 t)
        ∗ owns (d : Thread nD τ) (st0_1 t) fullShare ((dat m d).after 1 t)
        ∗ owns (d : Thread nD τ) (st0_2 t) fullShare ((dat m d).after 2 t))
  unfold bodyAt0
  simp only [before0, before1]
  rw [show (dat m d).Φ t.succ = (dat m d).Φ t.castSucc from rfl,
    show (dat m d).owesAt none t.succ = (dat m d).owesAt none t.castSucc from rfl,
    after0, after1, after2]
  iintro ⟨HΦ, Ho, ⟨%x0, H0⟩, ⟨%x1, H1⟩, ⟨%x2, H2⟩⟩
  iapply (sound_kernel d Set.univ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The region as a segment of @main -/

/-- the one admissible (empty) family of prefetched tables -/
abbrev adm : (p : Fin 1) → (pcfgs (F := F) p).Adm := fun p => (cfgs p).toPCfg_adm

/-- The proof data of the program's pipelines. -/
def dats (p : Fin 1) (d : Dev nD) : Dat τ (Elt F) (HIx 1) ℕ UU ℕ (Pipeline.pin (pcfgs (F := F)) adm p) d := dat m d

/-- What the TensorCore owes before the SparseCore call, its recorded waits at level 0. -/
abbrev owesT (d : Dev nD) : sProp 𝕄 :=
  iprop(∃ W, ⌜(K (F := F)).WBelow (SparseCore.T d) W (8 * 0)⌝ ∗ owes (SparseCore.T d) ((K (F := F)).Otc d 0) W)

theorem owesT_at (d : Dev nD) (t : Fin (cfg0.N + 1)) : (owesT (F := F) d : sProp 𝕄) ⊣⊢ (dat m d).owesAt none t := by
  unfold Dat.owesAt Pipeline.owesWithin
  rw [recBelow_waits]
  constructor
  · iintro ⟨%W, %hW, H⟩; iexists W; isplitr
    · ipureintro; exact fun p hp => hW p (Finset.mem_coe.mp hp)
    · iexact H
  · iintro ⟨%W, %hW, H⟩; iexists W; isplitr
    · ipureintro; exact fun p hp => hW (Finset.mem_coe.mpr hp)
    · iexact H

/-- The region of @main: entered from the TensorCore's arrays as the host operations left them and what it owes,
    it leaves the pipeline's arrays as the pipeline computes them, the other arrays untouched, and owes the same. -/
def regionSeg : Pipeline.RegionSeg (pcfgs (F := F)) adm (dats m) (none : HIx 1) defs₀ 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun d => (body_obligation m d).loose
  hwaits := fun d => Pipeline.cellsWaits_of_cut (Pipeline.pin (pcfgs (F := F)) adm) (dats m) none 0 d 0 ((K (F := F)).Otc d 0) (fun _ => rfl)
    (fun _ _ => Finset.mem_univ _) (fun _ _ => Nat.le_refl 0)
    (fun g i h => ⟨Finset.mem_univ _, lt_of_lt_of_le (Nat.succ_pos _) (SparseCore.Cfg.lev_of_Otc_pos h)⟩)
  pre := fun d => iprop(unscopedBufs d (VentR m d) ∗ owesT d)
  post := fun d => iprop((dat m d).arrays ((dat m d).arrAt · cfg0.N) ∗ Pipeline.unscopedRest spec0 d (VentR m d) ∗ owesT d)
  X := fun _ => iprop(emp)
  Y := fun _ => iprop(emp)
  Z := fun d => Pipeline.unscopedRest spec0 d (VentR m d)
  hentry := fun d => by
    iintro ⟨⟨Hb, Ho⟩, -, -⟩
    imodintro
    ihave H := (Pipeline.arrays_of_unscopedBufs (pcfgs (F := F)) adm (dats m) (p := 0) winFacts0 arr_whole0 d
      ((dat m d).share_full fun _ => rfl) (VentR m d) (A_eq m d)) $$ Hb
    icases H with ⟨Ha, Hr⟩
    isplitl [Ha]; · iexact Ha
    isplitr
    · unfold Pipeline.prefHeld; rw [Finset.univ_eq_empty, bigSep_empty]; iempintro
    isplitl [Ho]; · iapply (owesT_at m d 0).1; iexact Ho
    isplitr; · iempintro
    iexact Hr
  hin := fun d => by iintro -; iempintro
  hout := fun d => by
    iintro -
    isplitr; · iempintro
    isplitr
    · rw [Pipeline.ownSems0_none]; iempintro
    · rw [scopedRest0_eq]; iempintro
  hexit := fun d => by
    iintro ⟨Ha, Ho, -, Hz⟩
    imodintro
    isplitl [Ha]; · iexact Ha
    isplitl [Hz]; · iexact Hz
    iapply (owesT_at m d (Fin.last cfg0.N)).2; iexact Ho

/-! ## What the region leaves in its arrays -/

/-- Read through the one point's block, a whole window's array is itself. -/
theorem iblk0_eq (d : Dev nD) (t : Fin cfg0.N) : iblk m d 0 t = (VentR m d main_arg1 : Vec F S5x128 .f32) := by
  funext j
  show VentR m d main_arg1 (((cfg0.win 0).blk t).view.emb j) = VentR m d main_arg1 j
  congr 1
  funext a; apply Fin.ext
  match a with
  | ⟨0, _⟩ => show win0_0.index t (0 : Fin 2) * 5 + 1 * (j 0).val = (j 0).val; show 0 * 5 + 1 * (j 0).val = (j 0).val; omega
  | ⟨1, _⟩ => show win0_0.index t (1 : Fin 2) * 128 + 1 * (j 1).val = (j 1).val; show 0 * 128 + 1 * (j 1).val = (j 1).val; omega
theorem iblk1_eq (d : Dev nD) (t : Fin cfg0.N) : iblk m d 1 t = (VentR m d main_v1 : Vec F S200x128 .f32) := by
  funext j
  show VentR m d main_v1 (((cfg0.win 1).blk t).view.emb j) = VentR m d main_v1 j
  congr 1
  funext a; apply Fin.ext
  match a with
  | ⟨0, _⟩ => show win0_1.index t (0 : Fin 2) * 200 + 1 * (j 0).val = (j 0).val; show 0 * 200 + 1 * (j 0).val = (j 0).val; omega
  | ⟨1, _⟩ => show win0_1.index t (1 : Fin 2) * 128 + 1 * (j 1).val = (j 1).val; show 0 * 128 + 1 * (j 1).val = (j 1).val; omega

/-- The sum of the table's rows and the position rows, broadcast against each other. -/
abbrev sumOf (d : Dev nD) : FVec F S5x200x128 .f32 := k0_pay1 (F := F) (m (a1Loc d)) (pe2Of (m (a2Loc d)))

theorem blk2_emb (t : Fin cfg0.N) (j : S5x200x128.Idx) : ((cfg0.win 2).blk t).view.emb j = j := by
  funext a; apply Fin.ext
  match a with
  | ⟨0, _⟩ => show win0_2.index t (0 : Fin 3) * 5 + 1 * (j 0).val = (j 0).val; show 0 * 5 + 1 * (j 0).val = (j 0).val; omega
  | ⟨1, _⟩ => show win0_2.index t (1 : Fin 3) * 200 + 1 * (j 1).val = (j 1).val; show 0 * 200 + 1 * (j 1).val = (j 1).val; omega
  | ⟨2, _⟩ => show win0_2.index t (2 : Fin 3) * 128 + 1 * (j 2).val = (j 2).val; show 0 * 128 + 1 * (j 2).val = (j 2).val; omega

/-- What the one point writes back is the sum, whole. -/
theorem flushed2_eq (d : Dev nD) (t : Fin cfg0.N) :
    (dat m d).flushed 2 t = ((cfg0.win 2).blk t).view.read (Elt F) (sumOf m d) := by
  show (cfg0.win 2).cut (grid0.coords t) ((dat m d).after 2 t) = _
  rw [after2, out2_eq, iblk0_eq, iblk1_eq, Vent_arg1, Vent_v1]
  funext j
  show sumOf m d j = sumOf m d (((cfg0.win 2).blk t).view.emb j)
  rw [blk2_emb]

/-- The written-back array after the region: the sum. -/
theorem final2 (d : Dev nD) : (dat m d).arrAt 2 cfg0.N = sumOf m d :=
  (dat m d).arrAt_eq_of_cover 2 _ (fun t _ => flushed2_eq m d t) (fun i => ⟨t0_0, flush0_2 _, by
    rw [← blk2_emb t0_0 i]; exact ((cfg0.win 2).blk t0_0).view.emb_mem_set i⟩)
theorem final0 (d : Dev nD) : (dat m d).arrAt 0 cfg0.N = m (a1Loc d) :=
  ((dat m d).arrAt_in 0 rfl _).trans ((A_eq m d 0).trans (Vent_arg1 m d))
theorem final1 (d : Dev nD) : (dat m d).arrAt 1 cfg0.N = pe2Of (m (a2Loc d)) :=
  ((dat m d).arrAt_in 1 rfl _).trans ((A_eq m d 1).trans (Vent_v1 m d))

/-! ## The region run on the TensorCore inside the SparseCore program -/

theorem regionSeg_pre (d : Dev nD) : (regionSeg m).pre d = iprop(unscopedBufs d (VentR m d) ∗ owesT (F := F) d) := rfl
theorem regionSeg_post (d : Dev nD) : (regionSeg m).post d
    = iprop((dat m d).arrays ((dat m d).arrAt · cfg0.N) ∗ Pipeline.unscopedRest spec0 d (VentR m d) ∗ owesT (F := F) d) := rfl

/-- The region's entry, in the pipelines' own signature. -/
def regionProg : Prog (TpuEff nD τ sig (Elt F) (ΛP (F := F)) .tc) PUnit :=
  Prog.op (.customCall (Pipeline.entry 0) ()) fun x => .ret x

set_option backward.isDefEq.respectTransparency.types false in
/-- From the region boundary, the arrays as the host operations left them, what the TensorCore owes, the level facts
    and the staging cells' ghost state, the region runs and leaves the pipeline's arrays as computed, the rest
    untouched, the same owed. -/
theorem wp_region (d : Dev nD) (Φ : PUnit → sProp 𝕄) :
    iprop(boundary (SparseCore.T d) ∗ unscopedBufs d (VentR m d) ∗ owesT (F := F) d ∗ levAts (K (F := F)).L (K (F := F)).lev
        ∗ (Pipeline.cellsGhost cfgs (ER (F := F)) 0 d ∗ Pipeline.toksInit cfgs (ER (F := F)) 0 d)
        ∗ ((boundary (SparseCore.T d) ∗ (dat m d).arrays ((dat m d).arrAt · cfg0.N) ∗ Pipeline.unscopedRest spec0 d (VentR m d) ∗ owesT (F := F) d) -∗ Φ ⟨⟩))
      ⊢ wp frame (wpE ((K (F := F)).defs (D (F := F))) 𝒱 (SparseCore.T d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 1) .tc) PUnit)
      = SparseCore.liftProg (Q := 1) (regionProg (F := F)) := rfl
  rw [hprog]
  refine Idealize.SL.BI.BIBase.Entails.trans ?_ ((K (F := F)).wp_liftProg (D (F := F)) 𝒱 (SparseCore.T d) Set.univ none (regionProg (F := F)) Φ)
  unfold regionProg
  iintro ⟨Hb, Hbufs, Ho, #Hlev, Hg, Hk⟩
  have hR := Pipeline.RegionSeg.wp (pcfgs (F := F)) adm (dats m) (none : HIx 1) cellOf_inj (ER (F := F)) defs₀ 𝒱₀ (K (F := F)).L (K (F := F)).lev
    (regionSeg m) d none (fun u hu => nomatch hu) (fun x => .ret x) Φ
  rw [regionSeg_pre, regionSeg_post] at hR
  iapply hR
  isplitl [Hk]
  · iintro ⟨Hb, Ha, Hr, Ho⟩
    rw [wp_ret]; imodintro
    iapply Hk
    isplitl [Hb]; · iexact Hb
    isplitl [Ha]; · iexact Ha
    isplitl [Hr]; · iexact Hr
    iexact Ho
  isplitl [Hb]; · iexact Hb
  isplitl [Hbufs Ho]
  · isplitl [Hbufs]; · iexact Hbufs
    iexact Ho
  isplitr; · iexact Hlev
  iexact Hg

end Cert.Proof.Lookup

end
-- ==== Proof.Main.lean ====
/-
  @main on the TensorCore: the slice and reshape of the position rows, the kernel region that adds them to the table's
  rows, the two reshapes, the SparseCore call that gathers a row of the combined table per token, and the reshape of
  the gathered rows to the result. The arguments are left as launched and the result is the program's own term of them.
-/
import proofs.«208021_g30185030156587_cont_9to1_1229_25_alg».proof.Proof.FinRes
import proofs.«208021_g30185030156587_cont_9to1_1229_25_alg».proof.Proof.HandOver
import proofs.«208021_g30185030156587_cont_9to1_1229_25_alg».proof.Proof.Region

set_option maxRecDepth 16384

noncomputable section

namespace Cert.Proof.Lookup

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (g : Dev nD → PrngReg)

/-! ## The host operations after the region, and the arrays' contents stage by stage -/

/-- the sum reshaped to the combined table -/
abbrev opComb : HloOp τ sig (Elt F) := StableHlo.reshape main_v2 main_v3 rfl shapeCasts_S5x200x128_S1000x128
/-- the tokens flattened -/
abbrev opXf : HloOp τ sig (Elt F) := StableHlo.reshape main_arg0 main_v4 rfl shapeCasts_S1024x200_S204800
/-- the gathered rows reshaped to the result -/
abbrev opRes : HloOp τ sig (Elt F) := StableHlo.reshape main_v5 main_v6 rfl shapeCasts_S204800x128_S1024x200x128

/-- The device's arrays after the region: the sum written. -/
def V3 (d : Dev nD) : Valuation τ sig (Elt F) := (StableHlo.nullary (τ := τ) main_v2 (sumOf m d)).result (Vent m d)
/-- When the SparseCore call starts. -/
def V5 (d : Dev nD) : Valuation τ sig (Elt F) := StableHlo.after [opComb, opXf] (V3 m d)
/-- When it ends: the gathered rows written. -/
def V6 (d : Dev nD) : Valuation τ sig (Elt F) := (StableHlo.nullary (τ := τ) main_v5 (Go m d)).result (V5 m d)
/-- At the return. -/
def V7 (d : Dev nD) : Valuation τ sig (Elt F) := StableHlo.after [opRes] (V6 m d)

/-- A valuation read by the TensorCore's references. -/
abbrev byRef (d : Dev nD) (W : Valuation τ sig (Elt F)) (b : Ref sig .tc) : Buf (Elt F) ((d : Thread nD τ).loc b) := W (Proc.devRef .tc b)

/-- The TensorCore's unscoped buffers, one by one. -/
theorem unscopedBufs_eq (d : Dev nD) (W : (b : Ref sig .tc) → Buf (Elt F) ((d : Thread nD τ).loc b)) :
    (unscopedBufs d W : sProp 𝕄) = iprop((a0Loc d ↦{fullShare} W main_arg0) ∗ (a1Loc d ↦{fullShare} W main_arg1) ∗ (a2Loc d ↦{fullShare} W main_arg2)
      ∗ ((SparseCore.T d).loc main_v0 ↦{fullShare} W main_v0) ∗ ((SparseCore.T d).loc main_v1 ↦{fullShare} W main_v1) ∗ ((SparseCore.T d).loc main_v2 ↦{fullShare} W main_v2)
      ∗ (combLoc d ↦{fullShare} W main_v3) ∗ (xfLoc d ↦{fullShare} W main_v4) ∗ (oLoc d ↦{fullShare} W main_v5) ∗ resLoc d ↦{fullShare} W main_v6) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The unscoped buffers as device buffers. -/
def S10 : Finset (DevRef τ sig) := (Finset.univ.filter fun b : Ref sig .tc => ¬ b.isScoped).map ⟨Proc.devRef (sig := sig) (.tc : Proc τ), Proc.devRef_injective _⟩

theorem mem_S10 (b : Ref sig .tc) (h : b.isScoped = false) : Proc.devRef (τ := τ) .tc b ∈ S10 :=
  Finset.mem_map_of_mem _ (Finset.mem_filter.mpr ⟨Finset.mem_univ _, by rw [h]; exact Bool.false_ne_true⟩)

theorem unscopedBufs_held (d : Dev nD) (W : Valuation τ sig (Elt F)) :
    (unscopedBufs d (byRef d W) : sProp 𝕄) = StableHlo.held (SparseCore.T d) S10 W := by
  unfold unscopedBufs StableHlo.held S10
  rw [bigSep_map]; rfl

theorem sub_S10 (x y : Ref sig .tc) (hx : x.isScoped = false) (hy : y.isScoped = false) :
    ({Proc.devRef .tc x, Proc.devRef .tc y} : Finset (DevRef τ sig)) ⊆ S10 :=
  Finset.insert_subset (mem_S10 x hx) (Finset.singleton_subset_iff.mpr (mem_S10 y hy))

/-- One host operation on the TensorCore inside the SparseCore program, over the unscoped buffers. -/
theorem wp_host (d : Dev nD) (op : HloOp τ sig (Elt F)) (hS : op.bufs ⊆ S10) (hf : op.fresh = ∅) (W : Valuation τ sig (Elt F))
    {α : Type} (k : ((b : op.writes) → b.1.ty.Contents (Elt F)) → Prog (TpuEff nD τ sig (Elt F) (SparseCore.Sig (ΛP (F := F)) 1) .tc) α) (Q : α → sProp 𝕄) :
    iprop(boundary (SparseCore.T d) ∗ unscopedBufs d (byRef d W)
        ∗ ((boundary (SparseCore.T d) ∗ unscopedBufs d (byRef d (op.result W)))
            -∗ wp frame (wpE ((K (F := F)).defs (D (F := F))) 𝒱 (SparseCore.T d) none) Set.univ (k (op.fn fun b => W b.1)) Q))
      ⊢ wp frame (wpE ((K (F := F)).defs (D (F := F))) 𝒱 (SparseCore.T d) none) Set.univ (hlo rfl op k) Q := by
  rw [unscopedBufs_held, unscopedBufs_held]
  iintro ⟨Hb, Hh, Hk⟩
  iapply (StableHlo.wp_hlo_within 𝒱 (SparseCore.T d) none Set.univ hS (hf := hf)) $$ [Hb Hh]
  · isplitl [Hb]; · iexact Hb
    iexact Hh
  iexact Hk

/-! ## The contents, buffer by buffer -/
theorem V3_main_arg0 (d : Dev nD) : V3 m d (Proc.devRef .tc main_arg0) = Vent m d (Proc.devRef .tc main_arg0) := by
  unfold V3; after_results_simp
theorem V3_main_arg1 (d : Dev nD) : V3 m d (Proc.devRef .tc main_arg1) = Vent m d (Proc.devRef .tc main_arg1) := by
  unfold V3; after_results_simp
theorem V3_main_arg2 (d : Dev nD) : V3 m d (Proc.devRef .tc main_arg2) = Vent m d (Proc.devRef .tc main_arg2) := by
  unfold V3; after_results_simp
theorem V3_main_v0 (d : Dev nD) : V3 m d (Proc.devRef .tc main_v0) = Vent m d (Proc.devRef .tc main_v0) := by
  unfold V3; after_results_simp
theorem V3_main_v1 (d : Dev nD) : V3 m d (Proc.devRef .tc main_v1) = Vent m d (Proc.devRef .tc main_v1) := by
  unfold V3; after_results_simp
theorem V3_main_v2 (d : Dev nD) : V3 m d (Proc.devRef .tc main_v2) = sumOf m d := by
  unfold V3; after_results_simp
theorem V3_main_v3 (d : Dev nD) : V3 m d (Proc.devRef .tc main_v3) = Vent m d (Proc.devRef .tc main_v3) := by
  unfold V3; after_results_simp
theorem V3_main_v4 (d : Dev nD) : V3 m d (Proc.devRef .tc main_v4) = Vent m d (Proc.devRef .tc main_v4) := by
  unfold V3; after_results_simp
theorem V3_main_v5 (d : Dev nD) : V3 m d (Proc.devRef .tc main_v5) = Vent m d (Proc.devRef .tc main_v5) := by
  unfold V3; after_results_simp
theorem V3_main_v6 (d : Dev nD) : V3 m d (Proc.devRef .tc main_v6) = Vent m d (Proc.devRef .tc main_v6) := by
  unfold V3; after_results_simp

theorem V5_v3 (d : Dev nD) : V5 m d (Proc.devRef .tc main_v3) = Cb m d := by
  unfold V5 V3 Vent; after_results_simp; rfl
theorem V5_v4 (d : Dev nD) : V5 m d (Proc.devRef .tc main_v4) = Xf m d := by
  unfold V5 V3 Vent; after_results_simp; rfl
theorem V5_v5 (d : Dev nD) : V5 m d (Proc.devRef .tc main_v5) = m (oLoc d) := by
  unfold V5 V3 Vent; after_results_simp
theorem V6_main_arg0 (d : Dev nD) : V6 m d (Proc.devRef .tc main_arg0) = V5 m d (Proc.devRef .tc main_arg0) := by
  unfold V6; after_results_simp
theorem V6_main_arg1 (d : Dev nD) : V6 m d (Proc.devRef .tc main_arg1) = V5 m d (Proc.devRef .tc main_arg1) := by
  unfold V6; after_results_simp
theorem V6_main_arg2 (d : Dev nD) : V6 m d (Proc.devRef .tc main_arg2) = V5 m d (Proc.devRef .tc main_arg2) := by
  unfold V6; after_results_simp
theorem V6_main_v0 (d : Dev nD) : V6 m d (Proc.devRef .tc main_v0) = V5 m d (Proc.devRef .tc main_v0) := by
  unfold V6; after_results_simp
theorem V6_main_v1 (d : Dev nD) : V6 m d (Proc.devRef .tc main_v1) = V5 m d (Proc.devRef .tc main_v1) := by
  unfold V6; after_results_simp
theorem V6_main_v2 (d : Dev nD) : V6 m d (Proc.devRef .tc main_v2) = V5 m d (Proc.devRef .tc main_v2) := by
  unfold V6; after_results_simp
theorem V6_main_v3 (d : Dev nD) : V6 m d (Proc.devRef .tc main_v3) = V5 m d (Proc.devRef .tc main_v3) := by
  unfold V6; after_results_simp
theorem V6_main_v4 (d : Dev nD) : V6 m d (Proc.devRef .tc main_v4) = V5 m d (Proc.devRef .tc main_v4) := by
  unfold V6; after_results_simp
theorem V6_main_v5 (d : Dev nD) : V6 m d (Proc.devRef .tc main_v5) = Go m d := by
  unfold V6; after_results_simp
theorem V6_main_v6 (d : Dev nD) : V6 m d (Proc.devRef .tc main_v6) = V5 m d (Proc.devRef .tc main_v6) := by
  unfold V6; after_results_simp

theorem V7_arg0 (d : Dev nD) : V7 m d (Proc.devRef .tc main_arg0) = m (a0Loc d) := by
  unfold V7 V6 V5 V3 Vent; after_results_simp
theorem V7_arg1 (d : Dev nD) : V7 m d (Proc.devRef .tc main_arg1) = m (a1Loc d) := by
  unfold V7 V6 V5 V3 Vent; after_results_simp
theorem V7_arg2 (d : Dev nD) : V7 m d (Proc.devRef .tc main_arg2) = m (a2Loc d) := by
  unfold V7 V6 V5 V3 Vent; after_results_simp
theorem V7_v6 (d : Dev nD) : V7 m d (Proc.devRef .tc main_v6) = resOf (Go m d) := by
  unfold V7 V6; after_results_simp; rfl

/-! ## The arrays after the region, regrouped -/

/-- The pipeline's arrays as computed and the rest as found are the unscoped buffers with the sum written. -/
theorem region_post (d : Dev nD) :
    iprop((dat m d).arrays ((dat m d).arrAt · cfg0.N) ∗ Pipeline.unscopedRest spec0 d (VentR m d))
      ⊢ (unscopedBufs d (byRef d (V3 m d)) : sProp 𝕄) := by
  rw [Pipeline.arrays_eq (cfgs := cfgs) (dats := fun _ d => dat m d) (p := (0 : Fin 1)) d arr_whole0 ((dat m d).share_full fun _ => rfl),
    bigSep_W0, unscopedRest0_eq, unscopedBufs_eq]
  show iprop(((a1Loc d ↦{fullShare} (dat m d).arrAt 0 cfg0.N) ∗ ((SparseCore.T d).loc main_v1 ↦{fullShare} (dat m d).arrAt 1 cfg0.N)
        ∗ ((SparseCore.T d).loc main_v2 ↦{fullShare} (dat m d).arrAt 2 cfg0.N))
      ∗ ((a0Loc d ↦{fullShare} VentR m d main_arg0) ∗ (a2Loc d ↦{fullShare} VentR m d main_arg2) ∗ ((SparseCore.T d).loc main_v0 ↦{fullShare} VentR m d main_v0)
        ∗ (combLoc d ↦{fullShare} VentR m d main_v3) ∗ (xfLoc d ↦{fullShare} VentR m d main_v4) ∗ (oLoc d ↦{fullShare} VentR m d main_v5) ∗ (resLoc d ↦{fullShare} VentR m d main_v6)))
    ⊢ iprop((a0Loc d ↦{fullShare} V3 m d (Proc.devRef .tc main_arg0)) ∗ (a1Loc d ↦{fullShare} V3 m d (Proc.devRef .tc main_arg1)) ∗ (a2Loc d ↦{fullShare} V3 m d (Proc.devRef .tc main_arg2))
      ∗ ((SparseCore.T d).loc main_v0 ↦{fullShare} V3 m d (Proc.devRef .tc main_v0)) ∗ ((SparseCore.T d).loc main_v1 ↦{fullShare} V3 m d (Proc.devRef .tc main_v1)) ∗ ((SparseCore.T d).loc main_v2 ↦{fullShare} V3 m d (Proc.devRef .tc main_v2))
      ∗ (combLoc d ↦{fullShare} V3 m d (Proc.devRef .tc main_v3)) ∗ (xfLoc d ↦{fullShare} V3 m d (Proc.devRef .tc main_v4)) ∗ (oLoc d ↦{fullShare} V3 m d (Proc.devRef .tc main_v5)) ∗ resLoc d ↦{fullShare} V3 m d (Proc.devRef .tc main_v6))
  rw [final0, final1, final2, V3_main_arg0, V3_main_arg1, V3_main_arg2, V3_main_v0, V3_main_v1, V3_main_v2, V3_main_v3, V3_main_v4, V3_main_v5, V3_main_v6]
  rw [show Vent m d (Proc.devRef .tc main_arg1) = m (a1Loc d) from Vent_arg1 m d, show Vent m d (Proc.devRef .tc main_v1) = pe2Of (m (a2Loc d)) from Vent_v1 m d]
  iintro ⟨⟨H1, Hv1, Hv2⟩, H0, H2, Hv0, Hv3, Hv4, Hv5, Hv6⟩
  isplitl [H0]; · iexact H0
  isplitl [H1]; · iexact H1
  isplitl [H2]; · iexact H2
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  iexact Hv6

/-! ## The arrays around the SparseCore call, and at the return -/

/-- The unscoped buffers when the call starts: the combined table, the flattened tokens and the rows to write, named. -/
theorem bufs5_eq (d : Dev nD) :
    (unscopedBufs d (byRef d (V5 m d)) : sProp 𝕄) = iprop((a0Loc d ↦{fullShare} V5 m d (Proc.devRef .tc main_arg0)) ∗ (a1Loc d ↦{fullShare} V5 m d (Proc.devRef .tc main_arg1)) ∗ (a2Loc d ↦{fullShare} V5 m d (Proc.devRef .tc main_arg2))
      ∗ ((SparseCore.T d).loc main_v0 ↦{fullShare} V5 m d (Proc.devRef .tc main_v0)) ∗ ((SparseCore.T d).loc main_v1 ↦{fullShare} V5 m d (Proc.devRef .tc main_v1)) ∗ ((SparseCore.T d).loc main_v2 ↦{fullShare} V5 m d (Proc.devRef .tc main_v2))
      ∗ (combLoc d ↦{fullShare} Cb m d) ∗ (xfLoc d ↦{fullShare} Xf m d) ∗ (oLoc d ↦{fullShare} m (oLoc d)) ∗ resLoc d ↦{fullShare} V5 m d (Proc.devRef .tc main_v6)) := by
  rw [unscopedBufs_eq, ← V5_v3 m d, ← V5_v4 m d, ← V5_v5 m d]

/-- When it ends: the same with the gathered rows written. -/
theorem bufs6_eq (d : Dev nD) :
    (unscopedBufs d (byRef d (V6 m d)) : sProp 𝕄) = iprop((a0Loc d ↦{fullShare} V5 m d (Proc.devRef .tc main_arg0)) ∗ (a1Loc d ↦{fullShare} V5 m d (Proc.devRef .tc main_arg1)) ∗ (a2Loc d ↦{fullShare} V5 m d (Proc.devRef .tc main_arg2))
      ∗ ((SparseCore.T d).loc main_v0 ↦{fullShare} V5 m d (Proc.devRef .tc main_v0)) ∗ ((SparseCore.T d).loc main_v1 ↦{fullShare} V5 m d (Proc.devRef .tc main_v1)) ∗ ((SparseCore.T d).loc main_v2 ↦{fullShare} V5 m d (Proc.devRef .tc main_v2))
      ∗ (combLoc d ↦{fullShare} Cb m d) ∗ (xfLoc d ↦{fullShare} Xf m d) ∗ (oLoc d ↦{fullShare} Go m d) ∗ resLoc d ↦{fullShare} V5 m d (Proc.devRef .tc main_v6)) := by
  rw [unscopedBufs_eq, ← V5_v3 m d, ← V5_v4 m d, ← V6_main_arg0 m d, ← V6_main_arg1 m d, ← V6_main_arg2 m d, ← V6_main_v0 m d, ← V6_main_v1 m d, ← V6_main_v2 m d, ← V6_main_v3 m d, ← V6_main_v4 m d,
    ← V6_main_v5 m d, ← V6_main_v6 m d]

/-- At the return: the arguments as launched, the result the program's term of them. -/
theorem bufs7_fin (d : Dev nD) : (unscopedBufs d (byRef d (V7 m d)) : sProp 𝕄) ⊢ FIN m d := by
  rw [unscopedBufs_eq]
  show iprop((a0Loc d ↦{fullShare} V7 m d (Proc.devRef .tc main_arg0)) ∗ (a1Loc d ↦{fullShare} V7 m d (Proc.devRef .tc main_arg1)) ∗ (a2Loc d ↦{fullShare} V7 m d (Proc.devRef .tc main_arg2))
      ∗ ((SparseCore.T d).loc main_v0 ↦{fullShare} V7 m d (Proc.devRef .tc main_v0)) ∗ ((SparseCore.T d).loc main_v1 ↦{fullShare} V7 m d (Proc.devRef .tc main_v1)) ∗ ((SparseCore.T d).loc main_v2 ↦{fullShare} V7 m d (Proc.devRef .tc main_v2))
      ∗ (combLoc d ↦{fullShare} V7 m d (Proc.devRef .tc main_v3)) ∗ (xfLoc d ↦{fullShare} V7 m d (Proc.devRef .tc main_v4)) ∗ (oLoc d ↦{fullShare} V7 m d (Proc.devRef .tc main_v5)) ∗ resLoc d ↦{fullShare} V7 m d (Proc.devRef .tc main_v6)) ⊢ _
  rw [V7_arg0, V7_arg1, V7_arg2, V7_v6]
  iintro ⟨H0, H1, H2, -, -, -, -, -, -, H6⟩
  isplitl [H0]; · iexact H0
  isplitl [H1]; · iexact H1
  isplitl [H2]; · iexact H2
  iexact H6

/-! ## The TensorCore's handshake state before the call, in two parts -/

/-- All of it but what the TensorCore owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) : ((K (F := F)).tcSt EH d 0 : sProp 𝕄) = iprop(owesT (F := F) d ∗ tcRest (F := F) d) := by
  unfold SparseCore.Cfg.tcSt tcRest; rfl

theorem V5_eq (d : Dev nD) : (opXf (F := F)).result ((opComb (F := F)).result (V3 m d)) = V5 m d := rfl

/-! ## @main -/

set_option maxHeartbeats 1000000 in
/-- @main on device `d`'s TensorCore, from what the launch deals it and the region's ghost state: it leaves the
    arguments as launched and the result at the program's term of them. -/
theorem hmain (κ : GSem nD τ sig → ℕ) (d : Dev nD) :
    iprop((K (F := F)).ctx EH (P m) κ ∗ (K (F := F)).tcSt EH d 0 ∗ (K (F := F)).tcRes m g d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [tcSt_eq]
  simp only [main, wp_bind, wp_pure]
  iintro ⟨#Hctx, ⟨Ho, Hrest⟩, ⟨Hb, Hbufs, -, -⟩, Hg⟩
  ihave Hlev := (SparseCore.Cfg.ctx_levAts κ) $$ Hctx
  -- the slice of the position rows and its reshape
  iapply (wp_host d opSlice (sub_S10 main_arg2 main_v0 rfl rfl) rfl (StableHlo.launchContents m d))
  isplitl [Hb]; · iexact Hb
  isplitl [Hbufs]; · iexact Hbufs
  iintro ⟨Hb, Hbufs⟩
  rw [wp_ret]; imodintro
  iapply (wp_host d opPe2 (sub_S10 main_v0 main_v1 rfl rfl) rfl (opSlice.result (StableHlo.launchContents m d)))
  isplitl [Hb]; · iexact Hb
  isplitl [Hbufs]; · iexact Hbufs
  iintro ⟨Hb, Hbufs⟩
  rw [wp_ret]; imodintro
  -- the region
  iapply (wp_region m d _)
  isplitl [Hb]; · iexact Hb
  isplitl [Hbufs]; · iexact Hbufs
  isplitl [Ho]; · iexact Ho
  isplitr; · iexact Hlev
  isplitl [Hg]; · iexact Hg
  iintro ⟨Hb, Ha, Hr, Ho⟩
  ihave Hbufs := (region_post m d) $$ [Ha Hr]
  · isplitl [Ha]; · iexact Ha
    iexact Hr
  -- the combined table and the flattened tokens
  iapply (wp_host d opComb (sub_S10 main_v2 main_v3 rfl rfl) rfl (V3 m d))
  isplitl [Hb]; · iexact Hb
  isplitl [Hbufs]; · iexact Hbufs
  iintro ⟨Hb, Hbufs⟩
  rw [wp_ret]; imodintro
  iapply (wp_host d opXf (sub_S10 main_arg0 main_v4 rfl rfl) rfl (opComb.result (V3 m d)))
  isplitl [Hb]; · iexact Hb
  isplitl [Hbufs]; · iexact Hbufs
  iintro ⟨Hb, Hbufs⟩
  rw [wp_ret]; imodintro
  -- the SparseCore call
  rw [V5_eq m d]
  ihave Hbufs' := (Entails.of_eq (bufs5_eq m d)) $$ Hbufs
  icases Hbufs' with ⟨H0, H1, H2, Hv0, Hv1, Hv2, Hv3, Hv4, Hv5, Hv6⟩
  ihave Hst := (st_intro m d) $$ [Hv3 Hv4 Hv5]
  · isplitl [Hv3]; · iexact Hv3
    isplitl [Hv4]; · iexact Hv4
    iexact Hv5
  icases Hst with ⟨Hcr, Hst⟩
  iapply ((K (F := F)).wp_run (D (F := F)) 𝒱 (EH := EH) (P := P m) κ d 0)
  isplitr; · iexact Hctx
  isplitl [Ho Hrest]
  · iapply (Entails.of_eq (tcSt_eq (F := F) d).symm)
    isplitl [Ho]; · iexact Ho
    iexact Hrest
  isplitl [Hst]; · iexact Hst
  iintro ⟨Hst, Hdn⟩
  ihave Hj := (dn_elim m d) $$ [Hcr Hdn]
  · isplitl [Hcr]; · iexact Hcr
    iexact Hdn
  icases Hj with ⟨Hv3, Hv4, Hv5⟩
  ihave Hbufs := (Entails.of_eq (bufs6_eq m d).symm) $$ [H0 H1 H2 Hv0 Hv1 Hv2 Hv3 Hv4 Hv5 Hv6]
  · isplitl [H0]; · iexact H0
    isplitl [H1]; · iexact H1
    isplitl [H2]; · iexact H2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  -- the result
  iapply (wp_host d opRes (sub_S10 main_v5 main_v6 rfl rfl) rfl (V6 m d))
  isplitl [Hb]; · iexact Hb
  isplitl [Hbufs]; · iexact Hbufs
  iintro ⟨Hb, Hbufs⟩
  rw [wp_ret]; imodintro
  imodintro
  isplitl [Hst]; · iexact Hst
  iapply (bufs7_fin m d); iexact Hbufs

end Cert.Proof.Lookup

end
-- ==== Proof.Run.lean ====
/-
  The kernel's run. From a launch memory whose tokens name table rows, every weakly fair execution of @main on the
  TensorCore, the two sequencers' dispatch and the thirty-two tiles' tasks terminates without a fault; the result
  array ends at the kernel's term of the three arguments — the combined table's rows gathered by token and position —
  and the arguments end unchanged.
-/
import proofs.«208021_g30185030156587_cont_9to1_1229_25_alg».proof.Proof.FinRes
import proofs.«208021_g30185030156587_cont_9to1_1229_25_alg».proof.Proof.TileObl
import proofs.«208021_g30185030156587_cont_9to1_1229_25_alg».proof.Proof.Main

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

theorem run_main [∀ e, Nonempty (Elt F e)] (hx : ∀ d : Dev nD, Cert.Spec.InRange (m (a0Loc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hx facts)
    (fun q _ => match q with | 0 => vecSplit m)
    m ρ main (G (F := F)) (FIN m) (u₀ (F := F)) (hu₀ m) (hmain m ρ) (fq m) (hfin m) (QC m) (hQ m)

end Cert.Proof.Lookup

end
-- ==== Proof.Bits.Common.lean ====
/-
  The common vocabulary of the kernel's run: the program as the launch theorem sees it, the ghost state (the
  handshakes' rounds, the barrier cells' rounds, the TensorCore region's staging cells' rounds, the transfers'
  counters), the arrays a tile reads and writes, and the values they hold. A tile (c, s) of the 2 x 16 grid owns
  tokens [6400 w, 6400 (w + 1)) of the flattened token array, w = 2 s + c, and writes the same rows of the result;
  row r of the result is row (token r) * 200 + r mod 200 of the combined table, whose row v * 200 + l is table row v
  plus position row l. Everything is stated for any float instance.
-/
import proofs.«208021_g30185030156587_cont_9to1_1229_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«208021_g30185030156587_cont_9to1_1229_25_alg».proof.Proof.Gen.Kernel
import proofs.«208021_g30185030156587_cont_9to1_1229_25_alg».proof.Proof.Gen.Kernel.Skeleton
import proofs.«208021_g30185030156587_cont_9to1_1229_25_alg».proof.Proof.Spec

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds library. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays, their parts, and the values they hold -/

section Arrays

variable [FloatOps F]

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- the combined table [1000, 128] -/
abbrev combLoc (d : Dev nD) : Loc nD τ sig := (SparseCore.T d).loc main_v3
/-- the flattened tokens [204800] -/
abbrev xfLoc (d : Dev nD) : Loc nD τ sig := (SparseCore.T d).loc main_v4
/-- the gathered rows [204800, 128] -/
abbrev oLoc (d : Dev nD) : Loc nD τ sig := (SparseCore.T d).loc main_v5
/-- the result [1024, 200, 128] -/
abbrev resLoc (d : Dev nD) : Loc nD τ sig := (SparseCore.T d).loc main_v6
/-- SparseCore `c`'s shared copy of the combined table -/
abbrev shRef (c : Fin τ.nSC) : DevRef τ sig := ⟨.shared, ⟨0, by decide⟩, c⟩
abbrev shLoc (d : Dev nD) (c : Fin τ.nSC) : Loc nD τ sig := (d, shRef c)

/-- The first 200 positions of the position table as a [200, 128] matrix. -/
def pe2Of (pe : FVec F S1x2048x128 .f32) : FVec F S200x128 .f32 :=
  shapeCast S200x128 (extractStridedSlice S1x200x128 ![0, 0, 0] pe slices_S1x2048x128_S1x200x128_0_0_0) shapeCasts_S1x200x128_S200x128
/-- The combined table: row v * 200 + l is table row v plus position row l. -/
def combOf (tab : FVec F S5x128 .f32) (pe2 : FVec F S200x128 .f32) : FVec F S1000x128 .f32 :=
  shapeCast S1000x128 (k0_pay1 (F := F) tab pe2) shapeCasts_S5x200x128_S1000x128
/-- The tokens, flattened. -/
def xfOf (x : IVec S1024x200 32) : IVec S204800 32 := shapeCast S204800 x shapeCasts_S1024x200_S204800
/-- Row r of the gathered rows: row (token r) * 200 + r mod 200 of the combined table. -/
def gatherOut (comb : FVec F S1000x128 .f32) (xf : IVec S204800 32) : FVec F S204800x128 .f32 :=
  fun j => comb (ix2 (⟨((xf (ix1 (j 0))).toNat % 5) * 200 + (j 0).val % 200, by
    have h1 := Nat.mod_lt (xf (ix1 (j 0))).toNat (show 0 < 5 by decide)
    have h2 := Nat.mod_lt (j 0).val (show 0 < 200 by decide)
    omega⟩ : Fin 1000) (j 1))
/-- The gathered rows as the result's [1024, 200, 128]. -/
def resOf (o : FVec F S204800x128 .f32) : FVec F S1024x200x128 .f32 := shapeCast S1024x200x128 o shapeCasts_S204800x128_S1024x200x128
/-- What the kernel's program leaves in its result, as a term of its three arguments. -/
def kernelOut (x : IVec S1024x200 32) (tab : FVec F S5x128 .f32) (pe : FVec F S1x2048x128 .f32) : FVec F S1024x200x128 .f32 :=
  resOf (gatherOut (combOf tab (pe2Of pe)) (xfOf x))

variable (m : (ℓ : Loc nD τ sig) → Buf (Elt F) ℓ)

/-- The combined table's contents when the SparseCore call starts, of the launch memory; -/
def Cb (d : Dev nD) : Buf (Elt F) (combLoc d) := combOf (F := F) (m (a1Loc d)) (pe2Of (m (a2Loc d)))
/-- the flattened tokens'; -/
def Xf (d : Dev nD) : Buf (Elt F) (xfLoc d) := xfOf (m (a0Loc d))
/-- and the gathered rows when it ends. -/
def Go (d : Dev nD) : Buf (Elt F) (oLoc d) := gatherOut (F := F) (Cb m d) (Xf m d)

end Arrays

/-! ## The parts: token blocks and row chunks -/

/-- the flattened tokens split into the 32 tiles' blocks of 6400 -/
theorem hdivX : 32 ∣ S204800.size 0 := ⟨6400, rfl⟩
/-- the gathered rows split into 1600 chunks of 128 rows -/
theorem hdivO : 1600 ∣ S204800x128.size 0 := ⟨128, rfl⟩
abbrev xfPart (w : Fin 32) : Rect S204800 := Rect.part (s := S204800) (a₀ := 0) hdivX w
abbrev oPart (k : Fin 1600) : Rect S204800x128 := Rect.part (s := S204800x128) (a₀ := 0) hdivO k
abbrev xfSet (w : Fin 32) : Finset S204800.Idx := ((Memref.whole main_v4_scv : Memref sig .scVector .hbm S204800 .i32).view.slice (xfPart w)).set
abbrev oSet (k : Fin 1600) : Finset S204800x128.Idx := ((Memref.whole main_v5_scv : Memref sig .scVector .hbm S204800x128 .f32).view.slice (oPart k)).set
/-- tile (c, s) is worker 2 s + c -/
def wid (c : Fin 2) (s : Fin 16) : Fin 32 := ⟨2 * s.val + c.val, by omega⟩
/-- chunk j of worker w's block is chunk 50 w + j of the array -/
def chunkOf (w : Fin 32) (j : Fin 50) : Fin 1600 := ⟨50 * w.val + j.val, by omega⟩

/-! ## The barrier cells -/

section Barrier

variable [FloatOps F]
variable (m : (ℓ : Loc nD τ sig) → Buf (Elt F) ℓ)

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile j's read share of its SparseCore's shared copy of the combined table, at the table's contents. -/
abbrev shTok (d : Dev nD) (c : Fin τ.nSC) (j : Fin 16) : sProp 𝕄 := shLoc d c ↦{Transfers.shareTok fullShare 16 j} (Cb m d : Buf (Elt F) (shLoc d c))
/-- What is left of the shared copy after the sixteen read shares. -/
abbrev shRest (d : Dev nD) (c : Fin τ.nSC) : sProp 𝕄 := shLoc d c ↦{Transfers.shareDrop fullShare 16} (Cb m d : Buf (Elt F) (shLoc d c))

/-- What a duty in tile `j`'s round hands over: tile 0's arrival, tile j's read share of the loaded table; the others', nothing. -/
def bPay (g : GSem nD τ sig) (n : ℕ) : sProp 𝕄 :=
  match g with
  | ((d, .scVector c j), _) => if n = 0 then shTok m d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Barrier

end Cert.Proof.LookupBits

end
-- ==== Proof.Bits.Pay.lean ====
/-
  What the handshakes of the one SparseCore call carry. The call takes, per SparseCore c, a read share of the
  combined table, the sixteen token blocks of its tiles and the 16 x 50 row chunks they write; tile s of it is handed
  its block and its fifty chunks, and tile 0 also the table's share and the shared copy's buffer whole; each tile
  brings back its block, its chunks holding the gathered rows, and its read share of the shared copy (tile 0 also what
  is left of the shared copy and the table's share). Each tile's proof consumes its barrier kit and owes its arrivals.
-/
import proofs.«208021_g30185030156587_cont_9to1_1229_25_alg».proof.Proof.Bits.Common

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- the call's core number as a grid coordinate -/
abbrev cF (c : Fin ((K (F := F)).nCore 0)) : Fin 2 := Fin.cast nCore_zero c
/-- the call's subcore number as a grid coordinate -/
abbrev sF (i : Fin ((K (F := F)).nSub 0)) : Fin 16 := Fin.cast nSub_zero i

/-- core c's read share of the combined table in HBM -/
abbrev combTok (d : Dev nD) (c : Fin 2) : sProp 𝕄 := combLoc d ↦{Transfers.shareTok fullShare 2 c} Cb m d
/-- worker w's block of the flattened tokens -/
abbrev xfBlk (d : Dev nD) (w : Fin 32) : sProp 𝕄 := xfLoc d ↦[xfSet w]{fullShare} Xf m d
/-- chunk k of the gathered rows, at contents f -/
abbrev oChunk (d : Dev nD) (k : Fin 1600) (f : Buf (Elt F) (oLoc d)) : sProp 𝕄 := oLoc d ↦[oSet k]{fullShare} f
/-- worker w's fifty chunks -/
abbrev oBlk (d : Dev nD) (w : Fin 32) (f : Buf (Elt F) (oLoc d)) : sProp 𝕄 := bigSep Finset.univ fun j : Fin 50 => oChunk d (chunkOf w j) f

def goRes (d : Dev nD) (c : Fin ((K (F := F)).nCore 0)) (i : Fin ((K (F := F)).nSub 0)) : sProp 𝕄 :=
  iprop(xfBlk m d (wid (cF c) (sF i)) ∗ oBlk d (wid (cF c) (sF i)) (m (oLoc d))
    ∗ (if (sF i).val = 0 then iprop(combTok m d (cF c) ∗ ∃ f, shLoc d (coreOf c) ↦{fullShare} f) else iprop(emp)))

def tdRes (d : Dev nD) (c : Fin ((K (F := F)).nCore 0)) (i : Fin ((K (F := F)).nSub 0)) : sProp 𝕄 :=
  iprop(xfBlk m d (wid (cF c) (sF i)) ∗ oBlk d (wid (cF c) (sF i)) (Go m d)
    ∗ (if (sF i).val = 0 then iprop(combTok m d (cF c) ∗ shRest m d (coreOf c)) else iprop(emp))
    ∗ shTok m d (coreOf c) (sF i))

def stRes (d : Dev nD) (c : Fin ((K (F := F)).nCore 0)) : sProp 𝕄 :=
  iprop(combTok m d (cF c) ∗ (bigSep Finset.univ fun s : Fin 16 => xfBlk m d (wid (cF c) s))
    ∗ bigSep Finset.univ fun s : Fin 16 => oBlk d (wid (cF c) s) (m (oLoc d)))

def dnRes (d : Dev nD) (c : Fin ((K (F := F)).nCore 0)) : sProp 𝕄 :=
  iprop(combTok m d (cF c) ∗ (bigSep Finset.univ fun s : Fin 16 => xfBlk m d (wid (cF c) s))
    ∗ bigSep Finset.univ fun s : Fin 16 => oBlk d (wid (cF c) s) (Go m d))

def P : (K (F := F)).Pay (nD := nD) (Val := Elt F) (Name := ℕ) (U := UU) where
  st := fun q d c => match q with | 0 => stRes m d c
  dn := fun q d c => match q with | 0 => dnRes m d c
  go := fun q d c i => match q with | 0 => goRes m d c i
  td := fun q d c i => match q with | 0 => tdRes m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => by show BI.Storable (upEmb : UEmb _ 𝕄) (stRes m d c); unfold stRes; infer_instance
  dn q d c := match q with
    | 0 => by show BI.Storable (upEmb : UEmb _ 𝕄) (dnRes m d c); unfold dnRes; infer_instance
  go q d c i := match q with
    | 0 => by show BI.Storable (upEmb : UEmb _ 𝕄) (goRes m d c i); unfold goRes; split <;> infer_instance
  td q d c i := match q with
    | 0 => by show BI.Storable (upEmb : UEmb _ 𝕄) (tdRes m d c i); unfold tdRes; split <;> infer_instance

end Cert.Proof.LookupBits

end
-- ==== Proof.Bits.Split.lean ====
/-
  Splitting and joining. The flattened tokens are the 32 workers' blocks, the gathered rows the 1600 chunks of 128
  rows, worker 2 s + c being tile (c, s) and chunk 50 w + j being worker w's j-th; the combined table is read
  through two read shares, one per SparseCore, and a SparseCore's shared copy through sixteen, one per tile. With
  these a SparseCore's operands split into its tiles' and the tiles' results join.
-/
import proofs.«208021_g30185030156587_cont_9to1_1229_25_alg».proof.Proof.Bits.Pay

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Workers and chunks -/

/-- worker numbers are the (core, subcore) pairs -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    exact Prod.ext (Fin.ext (by show (2 * s.val + c.val) % 2 = c.val; omega)) (Fin.ext (by show (2 * s.val + c.val) / 2 = s.val; omega))
  right_inv := fun w => Fin.ext (by show 2 * (w.val / 2) + w.val % 2 = w.val; omega)

/-- chunk numbers are the (worker, chunk of the worker) pairs -/
def chunkEquiv : Fin 32 × Fin 50 ≃ Fin 1600 where
  toFun p := chunkOf p.1 p.2
  invFun k := (⟨k.val / 50, by have := k.isLt; omega⟩, ⟨k.val % 50, Nat.mod_lt _ (by decide)⟩)
  left_inv := fun ⟨w, j⟩ => by
    have hw := w.isLt; have hj := j.isLt
    exact Prod.ext (Fin.ext (by show (50 * w.val + j.val) / 50 = w.val; omega)) (Fin.ext (by show (50 * w.val + j.val) % 50 = j.val; omega))
  right_inv := fun k => Fin.ext (by show 50 * (k.val / 50) + k.val % 50 = k.val; omega)

theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_chunks (Φ : Fin 1600 → sProp 𝕄) :
    bigSep Finset.univ Φ = bigSep Finset.univ fun w : Fin 32 => bigSep Finset.univ fun j : Fin 50 => Φ (chunkOf w j) := by
  rw [bigSep_univ_equiv chunkEquiv Φ, bigSep_univ_prod]; rfl

/-! ## The arrays in parts -/

theorem xfSet_eq (w : Fin 32) : xfSet w = (xfPart w).set := by
  show ((View.whole (main_v4_scv : Ref sig .scVector)).slice (xfPart w)).set = _
  rw [View.set_slice]; exact Finset.map_refl
theorem xf_disjoint : ∀ i ∈ (Finset.univ : Finset (Fin 32)), ∀ j ∈ (Finset.univ : Finset (Fin 32)), i ≠ j → Disjoint (xfSet i) (xfSet j) :=
  fun i _ j _ h => by rw [xfSet_eq, xfSet_eq]; exact Rect.part_disjoint hdivX h
theorem xf_cover : (Finset.univ : Finset (Fin 32)).biUnion xfSet = Finset.univ :=
  (Finset.biUnion_congr rfl fun i _ => xfSet_eq i).trans (Rect.biUnion_part hdivX)

theorem oSet_eq (k : Fin 1600) : oSet k = (oPart k).set := by
  show ((View.whole (main_v5_scv : Ref sig .scVector)).slice (oPart k)).set = _
  rw [View.set_slice]; exact Finset.map_refl
theorem o_disjoint : ∀ i ∈ (Finset.univ : Finset (Fin 1600)), ∀ j ∈ (Finset.univ : Finset (Fin 1600)), i ≠ j → Disjoint (oSet i) (oSet j) :=
  fun i _ j _ h => by rw [oSet_eq, oSet_eq]; exact Rect.part_disjoint hdivO h
theorem o_cover : (Finset.univ : Finset (Fin 1600)).biUnion oSet = Finset.univ :=
  (Finset.biUnion_congr rfl fun i _ => oSet_eq i).trans (Rect.biUnion_part hdivO)

/-- The flattened tokens are the tiles' blocks. -/
theorem xfPts_split (d : Dev nD) (f : Buf (Elt F) (xfLoc d)) :
    (xfLoc d ↦{fullShare} f : sProp 𝕄) = bigSep Finset.univ fun c : Fin 2 => bigSep Finset.univ fun s : Fin 16 => xfLoc d ↦[xfSet (wid c s)]{fullShare} f := by
  rw [← bigSep_workers (F := F) (fun w => xfLoc d ↦[xfSet w]{fullShare} f), ← pointsTo_biUnion Finset.univ (ℓ := xfLoc d) xfSet xf_disjoint, xf_cover]; try rfl

/-- The gathered rows are the tiles' chunks. -/
theorem oPts_split (d : Dev nD) (f : Buf (Elt F) (oLoc d)) :
    (oLoc d ↦{fullShare} f : sProp 𝕄) = bigSep Finset.univ fun c : Fin 2 => bigSep Finset.univ fun s : Fin 16 => oBlk d (wid c s) f := by
  rw [← bigSep_workers (F := F) (fun w => oBlk d w f)]
  unfold oBlk oChunk
  rw [← bigSep_chunks (F := F) (fun k => oLoc d ↦[oSet k]{fullShare} f), ← pointsTo_biUnion Finset.univ (ℓ := oLoc d) oSet o_disjoint, o_cover]; try rfl

/-- The combined table through one read share per SparseCore, and the rest. -/
theorem combPts_split [FloatOps F] (m : (ℓ : Loc nD τ sig) → Buf (Elt F) ℓ) (d : Dev nD) :
    (combLoc d ↦{fullShare} Cb m d : sProp 𝕄) ⊣⊢ iprop((combLoc d ↦{Transfers.shareDrop fullShare 2} Cb m d) ∗ bigSep Finset.univ fun c : Fin 2 => combTok m d c) :=
  Transfers.pointsTo_toks fullShare 2

end Cert.Proof.LookupBits

end
-- ==== Proof.Bits.VecSplit.lean ====
/-
  How a SparseCore's operands split into its sixteen tiles' and the tiles' results join: the token blocks and the
  row chunks tile by tile; the table's read share and the shared copy's buffer to tile 0, which loads the copy; the
  sixteen read shares the tiles bring back, with what tile 0 kept, are the shared copy whole again.
-/
import proofs.«208021_g30185030156587_cont_9to1_1229_25_alg».proof.Proof.Bits.Split

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

omit [FloatOps F] in
theorem bigSep_tasks (Φ : Fin 16 → sProp 𝕄) :
    (bigSep Finset.univ fun i : Fin ((K (F := F)).nSub 0) => Φ (sF i)) = bigSep Finset.univ Φ :=
  bigSep_congr fun _ _ => congrArg Φ (Fin.ext rfl)

omit [FloatOps F] in
/-- A resource only tile 0 is handed is that resource. -/
theorem bigSep_ite_zero (A : sProp 𝕄) :
    (bigSep Finset.univ fun s : Fin 16 => (if s.val = 0 then A else iprop(emp) : sProp 𝕄)) = iprop(A ∗ emp) := by
  rw [BI.bigSep_univ_split (0 : Fin 16),
    show (bigSep (Finset.univ.erase (0 : Fin 16)) fun s : Fin 16 => (if s.val = 0 then A else iprop(emp) : sProp 𝕄))
      = bigSep (Finset.univ.erase (0 : Fin 16)) fun _ => (iprop(emp) : sProp 𝕄) from
      bigSep_congr fun s hs => if_neg fun h => (Finset.mem_erase.mp hs).1 (Fin.ext h), bigSep_emp']
  rfl

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d c ∗ ownBufs (S d (coreOf c))) ⊢ |={Set.univ}=> iprop((bigSep Finset.univ fun i : Fin ((K (F := F)).nSub 0) => goRes m d c i)
      ∗ ((bigSep Finset.univ fun i : Fin ((K (F := F)).nSub 0) => tdRes m d c i) -∗ iprop(dnRes m d c ∗ ownBufs (S d (coreOf c)))))
  unfold goRes tdRes stRes dnRes
  rw [bigSep_tasks (F := F) (fun s => iprop(xfBlk m d (wid (cF c) s) ∗ oBlk d (wid (cF c) s) (m (oLoc d))
        ∗ (if s.val = 0 then iprop(combTok m d (cF c) ∗ ∃ f, shLoc d (coreOf c) ↦{fullShare} f) else iprop(emp)))),
    bigSep_tasks (F := F) (fun s => iprop(xfBlk m d (wid (cF c) s) ∗ oBlk d (wid (cF c) s) (Go m d)
        ∗ (if s.val = 0 then iprop(combTok m d (cF c) ∗ shRest m d (coreOf c)) else iprop(emp)) ∗ shTok m d (coreOf c) s)),
    bigSep_sep', bigSep_sep', bigSep_sep', bigSep_sep', bigSep_sep', bigSep_ite_zero, bigSep_ite_zero, ownBufs_S]
  iintro ⟨⟨Hc, Hx, Ho⟩, ⟨%fsh, Hsh⟩, Hrest⟩; imodintro
  isplitl [Hc Hx Ho Hsh]
  · isplitl [Hx]; · iexact Hx
    isplitl [Ho]; · iexact Ho
    isplitl [Hc Hsh]
    · isplitl [Hc]; · iexact Hc
      iexists fsh; iexact Hsh
    · iempintro
  iintro ⟨Hx, Ho, ⟨⟨Hc, Hr⟩, -⟩, Htoks⟩
  isplitl [Hc Hx Ho]
  · isplitl [Hc]; · iexact Hc
    isplitl [Hx]; · iexact Hx
    iexact Ho
  isplitl [Hr Htoks]
  · iexists (Cb m d : Buf (Elt F) (shLoc d (coreOf c)))
    iapply (Transfers.pointsTo_toks_join fullShare 16)
    isplitl [Hr]; · iexact Hr
    iexact Htoks
  iexact Hrest

end Cert.Proof.LookupBits

end
-- ==== Proof.Bits.LaunchElem.lean ====
/-
  The launch element of the ghost state and what the launch hands over: the handshakes' rounds; the barrier cells'
  rounds, funded and allocated for every tile at once and dealt as each tile's kit (every cell's invariant of its
  SparseCore, its own position, its duty token in every tile's round, the credit for the sixteen units of its own
  round); and the TensorCore region's staging cells' rounds, funded for @main.
-/
import proofs.«208021_g30185030156587_cont_9to1_1229_25_alg».proof.Proof.Bits.VecSplit
import proofs.«208021_g30185030156587_cont_9to1_1229_25_alg».proof.Proof.Gen.Kernel.Launch

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The region's staging cells and the tokens of the transfers its loops issue. -/
abbrev rCells : Finset (GSem nD τ sig) := Pipeline.cells (nD := nD) (τ := τ) cfgs cellOf_inj
abbrev rToks : Finset (GSem nD τ sig × ℕ × Unit) := Pipeline.launchToks (nD := nD) (τ := τ) cfgs cellOf_inj
def u₀ : UU := (initOf (K (F := F)).hsCells (K (F := F)).hsToks, (initOf bCells bToks, (initOf rCells rToks, 1)))

/-- What @main's proof starts from beside the launch's deal: the region's staging cells' ghost state and duty tokens. -/
abbrev G (d : Dev nD) : sProp 𝕄 := iprop(Pipeline.cellsGhost cfgs (ER (F := F)) 0 d ∗ Pipeline.toksInit cfgs (ER (F := F)) 0 d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a) ∗ ownU ((1, (b, (r, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (ownU ((1, (b, (r, 1))) : UU) : sProp 𝕄) ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((r, 1) : UR × Counters)))))
  iintro H
  ihave H' := h1 $$ H
  icases H' with ⟨HH, Hrest⟩
  isplitl [HH]; · iexact HH
  iapply h2; iexact Hrest

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The region's staging cells' ghost state and duty tokens, per device. -/
theorem ghost_r : (BI.own (ER (F := F) (initOf rCells rToks)) : sProp 𝕄) ⊢ |==> bigSep Finset.univ fun d : Dev nD => G (F := F) d := by
  refine (Pipeline.fund_ghost (nD := nD) (τ := τ) cfgs (ER (F := F)) cellOf_inj).trans ?_
  iintro H
  imod H with ⟨Hg, Ht⟩
  imodintro
  unfold G
  rw [bigSep_sep']
  isplitl [Hg]
  · iapply (Entails.of_eq (bigSep_congr fun d _ => (bigSep_univ_of_subsingleton (0 : Fin 1) (Φ := fun p => Pipeline.cellsGhost cfgs (ER (F := F)) p d)))); iexact Hg
  · iapply (Entails.of_eq (bigSep_congr fun d _ => (bigSep_univ_of_subsingleton (0 : Fin 1) (Φ := fun p => Pipeline.toksInit cfgs (ER (F := F)) p d)))); iexact Ht

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HR⟩
  imod (Rounds.fund EB (bRd (F := F) m) bCells bToks) $$ HB with ⟨Hst, #Hr, Hat, Htok⟩
  imod (ghost_r (F := F)) $$ HR with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Proof.LookupBits

end
-- ==== Proof.Bits.FinRes.lean ====
/-
  What @main's proof ends with on the TensorCore, and how it reads the claim off the final memory: the three
  arguments at their launch contents and the result at the kernel's term of them.
-/
import proofs.«208021_g30185030156587_cont_9to1_1229_25_alg».proof.Proof.Bits.LaunchElem

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

/-- The arguments as launched and the result holding the gathered rows of the launch memory, reshaped. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ resLoc d ↦{fullShare} (resOf (F := F) (Go m d) : Buf (Elt F) (resLoc d)))

def fq (d : Dev nD) (s' : Phys nD τ sig (Elt F)) : Prop :=
  s'.mem.mem (resLoc d) = (resOf (F := F) (Go m d) : Buf (Elt F) (resLoc d))
    ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave %h0 := (SI_pointsTo_agree (st := s') (ℓ := a0Loc d) (I := Finset.univ) (q := fullShare) (f := m (a0Loc d))) $$ [HSI H0]
  · isplitl [HSI] <;> iassumption
  ihave %h1 := (SI_pointsTo_agree (st := s') (ℓ := a1Loc d) (I := Finset.univ) (q := fullShare) (f := m (a1Loc d))) $$ [HSI H1]
  · isplitl [HSI] <;> iassumption
  ihave %h2 := (SI_pointsTo_agree (st := s') (ℓ := a2Loc d) (I := Finset.univ) (q := fullShare) (f := m (a2Loc d))) $$ [HSI H2]
  · isplitl [HSI] <;> iassumption
  ihave %hr := (SI_pointsTo_agree (st := s') (ℓ := resLoc d) (I := Finset.univ) (q := fullShare) (f := (resOf (F := F) (Go m d) : Buf (Elt F) (resLoc d)))) $$ [HSI Hr]
  · isplitl [HSI] <;> iassumption
  ipureintro
  exact ⟨funext fun i => hr i (Finset.mem_univ i), funext fun i => h0 i (Finset.mem_univ i), funext fun i => h1 i (Finset.mem_univ i), funext fun i => h2 i (Finset.mem_univ i)⟩

/-- The run's post: on every device the result is the kernel's term of the launch memory's arguments, which are unchanged. -/
def QC : PUnit × MemSt nD τ sig (Elt F) → Prop := fun r => ∀ c : Dev nD,
  r.2.mem (resLoc c) = (kernelOut (F := F) (m (a0Loc c)) (m (a1Loc c)) (m (a2Loc c)) : Buf (Elt F) (resLoc c))
    ∧ r.2.mem (a0Loc c) = m (a0Loc c) ∧ r.2.mem (a1Loc c) = m (a1Loc c) ∧ r.2.mem (a2Loc c) = m (a2Loc c)

theorem hQ (s' : Phys nD τ sig (Elt F)) (h : ∀ d, fq m d s') : QC m (⟨⟩, s'.mem) := fun c => h c

end Cert.Proof.LookupBits

end
-- ==== Proof.Bits.Tile.lean ====
/-
  The tile-level vocabulary of the kernel body.  Tile (c, s) of the 2 x 16 grid is worker w = 2 s + c.  It reads
  tokens [6400 w, 6400 (w + 1)) of the flattened token array, fills its own list of 6400 row numbers, and
  gathers rows of its SparseCore's shared copy of the combined table, 128 at a time through two staging buffers,
  into rows [6400 w + 128 k, 6400 w + 128 (k + 1)), k < 50, of the result.  This module names each slice the body
  addresses exactly as the program spells it, gives the set of elements each slice covers in the terms the
  launch hands them over in (the worker's block, its fifty chunks), and states how the tile's own scratch
  buffers and DMA semaphores come out of what the launch theorem provides.
-/
import proofs.«208021_g30185030156587_cont_9to1_1229_25_alg».proof.Proof.Bits.Pay

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Tile

variable [FloatOps F]
variable (m : (ℓ : Loc nD τ sig) → Buf (Elt F) ℓ) (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)
/-- the tile's worker number 2 s + c -/
abbrev wL (L : grid1.Coords) : Fin 32 := wid (cL L) (jL L)

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
theorem trips3 : k1_t3_loop.trips = 25 := by decide

/-! ## The worker's block of the tokens -/

abbrev xBlkR (L : grid1.Coords) : Rect S204800 := Rect.unit (s := S204800) (k1_off1 L) S6400.size (k1_off1_inb L)
/-- the block of the flattened tokens the tile copies in, as the program slices it -/
abbrev xBlkK (L : grid1.Coords) : Memref sig .scVector .hbm S6400 .i32 := (xfV).slice (xBlkR L) (fun _ => rfl)

omit [FloatOps F] in
theorem xBlkR_eq : xBlkR L = xfPart (wL L) := by
  unfold xBlkR xfPart Rect.part Rect.block
  congr 1 <;> funext a
  · rw [k1_off1_eq]
    match a with
    | 0 => simp [Shape.partIx, Shape.partSize, wid]; omega
  · match a with
    | 0 => simp [Shape.partSize]

omit [FloatOps F] in
theorem set_xBlkK : (xBlkK L).view.set = xfSet (wL L) := by
  show ((xfV).view.slice (xBlkR L)).set = ((xfV).view.slice (xfPart (wL L))).set
  rw [xBlkR_eq]

/-! ## The fifty chunks of the result the tile writes -/

abbrev oChunkR (L : grid1.Coords) (t : Fin k1_t3_loop.trips) (r : Fin 2) : Rect S204800x128 :=
  Rect.unit (s := S204800x128) (k1_off4 L t (BitVec.ofNat 32 r.val)) S128x128.size (k1_off4_inb L t r)
/-- the chunk of 128 rows of the result that trip t writes out of staging buffer r, as the program slices it -/
abbrev oChunkK (L : grid1.Coords) (t : Fin k1_t3_loop.trips) (r : Fin 2) : Memref sig .scVector .hbm S128x128 .f32 :=
  (oV).slice (oChunkR L t r) (fun _ => rfl)

/-- trip t, buffer r is the worker's chunk 2 t + r -/
def chunkIx (t : Fin k1_t3_loop.trips) (r : Fin 2) : Fin 50 := ⟨2 * t.val + r.val, by have h : t.val < 25 := lt_of_lt_of_eq t.isLt trips3; omega⟩

omit [FloatOps F] in
theorem oChunkR_eq (t : Fin k1_t3_loop.trips) (r : Fin 2) : oChunkR L t r = oPart (chunkOf (wL L) (chunkIx t r)) := by
  unfold oChunkR oPart Rect.part Rect.block
  congr 1 <;> funext a
  · rw [k1_off4_eq]
    match a with
    | 0 => simp [Shape.partIx, Shape.partSize, wid, chunkOf, chunkIx]; omega
    | 1 => simp [Shape.partIx, Shape.partSize]
  · match a with
    | 0 => simp [Shape.partSize]
    | 1 => simp [Shape.partSize]

omit [FloatOps F] in
theorem set_oChunkK (t : Fin k1_t3_loop.trips) (r : Fin 2) : (oChunkK L t r).view.set = oSet (chunkOf (wL L) (chunkIx t r)) := by
  show ((oV).view.slice (oChunkR L t r)).set = ((oV).view.slice (oPart (chunkOf (wL L) (chunkIx t r)))).set
  rw [oChunkR_eq]

/-! ## The two staging buffers: the halves of the tile's [2, 128, 128] scratch -/

abbrev buf0K : Memref sig .scVector .vmem S128x128 .f32 :=
  ((bufsV).slice (Rect.unit (s := S2x128x128) ![0, 0, 0] S1x128x128.size inb_S2x128x128_S1x128x128_0_0_0) (fun _ => rfl)).squeeze S128x128 squeezes_S1x128x128_S128x128
abbrev buf1K : Memref sig .scVector .vmem S128x128 .f32 :=
  ((bufsV).slice (Rect.unit (s := S2x128x128) ![1, 0, 0] S1x128x128.size inb_S2x128x128_S1x128x128_1_0_0) (fun _ => rfl)).squeeze S128x128 squeezes_S1x128x128_S128x128

omit [FloatOps F] in
theorem hdivB : 2 ∣ S2x128x128.size 0 := ⟨1, rfl⟩
abbrev bufSet (b : Fin 2) : Finset S2x128x128.Idx := ((bufsV).view.slice (Rect.part (s := S2x128x128) (a₀ := 0) hdivB b)).set

omit [FloatOps F] in
theorem buf0R_eq : Rect.unit (s := S2x128x128) ![0, 0, 0] S1x128x128.size inb_S2x128x128_S1x128x128_0_0_0 = Rect.part (s := S2x128x128) (a₀ := 0) hdivB 0 := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem buf1R_eq : Rect.unit (s := S2x128x128) ![1, 0, 0] S1x128x128.size inb_S2x128x128_S1x128x128_1_0_0 = Rect.part (s := S2x128x128) (a₀ := 0) hdivB 1 := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_buf0K : (buf0K).view.set = bufSet 0 := by
  show (((View.whole (cc1_scratch2 : Ref sig .scVector)).slice (Rect.unit (s := S2x128x128) ![0, 0, 0] S1x128x128.size inb_S2x128x128_S1x128x128_0_0_0)).reshape S128x128 squeezes_S1x128x128_S128x128.numel_eq).set
    = ((View.whole (cc1_scratch2 : Ref sig .scVector)).slice (Rect.part (s := S2x128x128) (a₀ := 0) hdivB 0)).set
  rw [View.set_reshape, View.set_slice_whole, View.set_slice_whole]
  exact congrArg (fun r : Rect S2x128x128 => r.set) buf0R_eq
omit [FloatOps F] in
theorem set_buf1K : (buf1K).view.set = bufSet 1 := by
  show (((View.whole (cc1_scratch2 : Ref sig .scVector)).slice (Rect.unit (s := S2x128x128) ![1, 0, 0] S1x128x128.size inb_S2x128x128_S1x128x128_1_0_0)).reshape S128x128 squeezes_S1x128x128_S128x128.numel_eq).set
    = ((View.whole (cc1_scratch2 : Ref sig .scVector)).slice (Rect.part (s := S2x128x128) (a₀ := 0) hdivB 1)).set
  rw [View.set_reshape, View.set_slice_whole, View.set_slice_whole]
  exact congrArg (fun r : Rect S2x128x128 => r.set) buf1R_eq

omit [FloatOps F] in
theorem bufSet_eq (b : Fin 2) : bufSet b = (Rect.part (s := S2x128x128) (a₀ := 0) hdivB b).set := by
  show ((View.whole (cc1_scratch2 : Ref sig .scVector)).slice _).set = _
  rw [View.set_slice]; exact Finset.map_refl
omit [FloatOps F] in
theorem bufSets_disjoint : Disjoint (bufSet 0) (bufSet 1) := by
  rw [bufSet_eq, bufSet_eq]; exact Rect.part_disjoint hdivB (by decide)
omit [FloatOps F] in
theorem bufSets_cover : bufSet 0 ∪ bufSet 1 = Finset.univ := by
  have h := Rect.biUnion_part (s := S2x128x128) (a₀ := 0) hdivB
  rw [← h, bufSet_eq, bufSet_eq]
  ext x; simp [Fin.exists_fin_two]

/-- the staging scratch, held whole, is its two halves -/
theorem bufs_halves (f : Buf (Elt F) ((V d (cV L) (jV L)).loc cc1_scratch2)) :
    ((V d (cV L) (jV L)).loc cc1_scratch2 ↦{fullShare} f : sProp 𝕄)
      ⊣⊢ iprop(((buf0K).view.loc (V d (cV L) (jV L)) ↦[(buf0K).view.set]{fullShare} f) ∗ ((buf1K).view.loc (V d (cV L) (jV L)) ↦[(buf1K).view.set]{fullShare} f)) := by
  rw [set_buf0K, set_buf1K]
  show (_ ↦[Finset.univ]{fullShare} f : sProp 𝕄) ⊣⊢ _
  rw [← bufSets_cover]
  exact pointsTo_union bufSets_disjoint

/-! ## The list of row numbers, in fifty slices of 128 -/

omit [FloatOps F] in
theorem hdivI : 50 ∣ S6400.size 0 := ⟨128, rfl⟩
/-- words [128 k, 128 (k + 1)) of the tile's list of row numbers -/
abbrev idxSet (k : Fin 50) : Finset S6400.Idx := ((idxV).view.slice (Rect.part (s := S6400) (a₀ := 0) hdivI k)).set

/-- the first two slices, whose gathers the prologue starts -/
abbrev idx0K : Memref sig .scVector .vmem S128 .i32 := (idxV).slice (Rect.unit (s := S6400) ![0] S128.size inb_S6400_S128_0) (fun _ => rfl)
abbrev idx1K : Memref sig .scVector .vmem S128 .i32 := (idxV).slice (Rect.unit (s := S6400) ![128] S128.size inb_S6400_S128_128) (fun _ => rfl)
/-- the slices the main loop's trip t starts gathers from -/
abbrev idxAK (t : Fin k1_t3_loop.trips) (h2 : k1_cond2 t = 1#1) : Memref sig .scVector .vmem S128 .i32 :=
  (idxV).slice (Rect.unit (s := S6400) (k1_off6 t) S128.size (k1_off6_inb t h2)) (fun _ => rfl)
abbrev idxBK (t : Fin k1_t3_loop.trips) (h3 : k1_cond3 t = 1#1) : Memref sig .scVector .vmem S128 .i32 :=
  (idxV).slice (Rect.unit (s := S6400) (k1_off8 t) S128.size (k1_off8_inb t h3)) (fun _ => rfl)

omit [FloatOps F] in
theorem cond2_lt (t : Fin k1_t3_loop.trips) (h2 : k1_cond2 t = 1#1) : 2 * t.val + 2 < 50 := by
  revert t; decide
omit [FloatOps F] in
theorem cond3_lt (t : Fin k1_t3_loop.trips) (h3 : k1_cond3 t = 1#1) : 2 * t.val + 3 < 50 := by
  revert t; decide

omit [FloatOps F] in
theorem idxR_eq (k : Fin 50) (off : Fin 1 → ℕ) (inb : ∀ a, off a + S128.size a ≤ S6400.size a) (h : off = ![128 * k.val]) :
    Rect.unit (s := S6400) off S128.size inb = Rect.part (s := S6400) (a₀ := 0) hdivI k := by
  subst h
  unfold Rect.part Rect.block
  congr 1 <;> funext a
  · match a with
    | 0 => simp [Shape.partIx, Shape.partSize]; omega
  · match a with
    | 0 => simp [Shape.partSize]

omit [FloatOps F] in
theorem idx_slice_set (r : Rect S6400) : ((idxV).view.slice r).set = r.set := by
  show ((View.whole (cc1_scratch1 : Ref sig .scVector)).slice r).set = r.set
  exact View.set_slice_whole (cc1_scratch1 : Ref sig .scVector) r

omit [FloatOps F] in
theorem set_idx0K : (idx0K).view.set = idxSet 0 := by
  show ((idxV).view.slice (Rect.unit (s := S6400) ![0] S128.size inb_S6400_S128_0)).set = ((idxV).view.slice (Rect.part (s := S6400) (a₀ := 0) hdivI 0)).set
  rw [idx_slice_set, idx_slice_set]
  exact congrArg (fun r : Rect S6400 => r.set) (idxR_eq 0 _ _ rfl)
omit [FloatOps F] in
theorem set_idx1K : (idx1K).view.set = idxSet 1 := by
  show ((idxV).view.slice (Rect.unit (s := S6400) ![128] S128.size inb_S6400_S128_128)).set = ((idxV).view.slice (Rect.part (s := S6400) (a₀ := 0) hdivI 1)).set
  rw [idx_slice_set, idx_slice_set]
  exact congrArg (fun r : Rect S6400 => r.set) (idxR_eq 1 _ _ rfl)
omit [FloatOps F] in
theorem set_idxAK (t : Fin k1_t3_loop.trips) (h2 : k1_cond2 t = 1#1) : (idxAK t h2).view.set = idxSet ⟨2 * t.val + 2, cond2_lt t h2⟩ := by
  show ((idxV).view.slice (Rect.unit (s := S6400) (k1_off6 t) S128.size (k1_off6_inb t h2))).set
    = ((idxV).view.slice (Rect.part (s := S6400) (a₀ := 0) hdivI ⟨2 * t.val + 2, cond2_lt t h2⟩)).set
  rw [idx_slice_set, idx_slice_set]
  exact congrArg (fun r : Rect S6400 => r.set) (idxR_eq ⟨2 * t.val + 2, cond2_lt t h2⟩ _ _
    ((k1_off6_eq t).trans (congrArg (fun x : ℕ => ![x]) (by show 256 * t.val + 256 = 128 * (2 * t.val + 2); omega))))
omit [FloatOps F] in
theorem set_idxBK (t : Fin k1_t3_loop.trips) (h3 : k1_cond3 t = 1#1) : (idxBK t h3).view.set = idxSet ⟨2 * t.val + 3, cond3_lt t h3⟩ := by
  show ((idxV).view.slice (Rect.unit (s := S6400) (k1_off8 t) S128.size (k1_off8_inb t h3))).set
    = ((idxV).view.slice (Rect.part (s := S6400) (a₀ := 0) hdivI ⟨2 * t.val + 3, cond3_lt t h3⟩)).set
  rw [idx_slice_set, idx_slice_set]
  exact congrArg (fun r : Rect S6400 => r.set) (idxR_eq ⟨2 * t.val + 3, cond3_lt t h3⟩ _ _
    ((k1_off8_eq t).trans (congrArg (fun x : ℕ => ![x]) (by show 256 * t.val + 384 = 128 * (2 * t.val + 3); omega))))

omit [FloatOps F] in
theorem idxSet_eq (k : Fin 50) : idxSet k = (Rect.part (s := S6400) (a₀ := 0) hdivI k).set := idx_slice_set _
omit [FloatOps F] in
theorem idxSets_disjoint : ∀ i ∈ (Finset.univ : Finset (Fin 50)), ∀ j ∈ (Finset.univ : Finset (Fin 50)), i ≠ j → Disjoint (idxSet i) (idxSet j) :=
  fun i _ j _ h => by rw [idxSet_eq, idxSet_eq]; exact Rect.part_disjoint hdivI h
omit [FloatOps F] in
theorem idxSets_cover : (Finset.univ : Finset (Fin 50)).biUnion idxSet = Finset.univ :=
  (Finset.biUnion_congr rfl fun i _ => idxSet_eq i).trans (Rect.biUnion_part hdivI)
omit [FloatOps F] in
theorem mem_idxSet (k : Fin 50) (p : S6400.Idx) : p ∈ idxSet k ↔ 128 * k.val ≤ (p 0).val ∧ (p 0).val < 128 * k.val + 128 := by
  rw [idxSet_eq, Rect.mem_set_unit]
  constructor
  · intro h; have := h 0; simp [Shape.partIx, Shape.partSize] at this; omega
  · intro h a
    match a with
    | 0 => simp [Shape.partIx, Shape.partSize]; omega

/-- the list, held whole, is its fifty slices -/
theorem idx_slices (f : Buf (Elt F) ((V d (cV L) (jV L)).loc cc1_scratch1)) :
    ((V d (cV L) (jV L)).loc cc1_scratch1 ↦{fullShare} f : sProp 𝕄)
      = bigSep Finset.univ fun k : Fin 50 => (V d (cV L) (jV L)).loc cc1_scratch1 ↦[idxSet k]{fullShare} f := by
  rw [← pointsTo_biUnion Finset.univ (ℓ := (V d (cV L) (jV L)).loc cc1_scratch1) idxSet idxSets_disjoint, idxSets_cover]

/-! ## The shared copy of the combined table, as the gathers address it -/

abbrev shSK : Memref sig .scVector .shared S1000x128 .f32 :=
  (shV).slice (Rect.unit (s := S1000x128) ![0, 0] S1000x128.size inb_S1000x128_S1000x128_0_0) (fun _ => rfl)

omit [FloatOps F] in
theorem set_shSK : (shSK).view.set = Finset.univ := by
  show ((View.whole (cc1_scratch3 : Ref sig .scVector)).slice _).set = _
  rw [View.set_slice_whole]
  ext x
  simp only [Finset.mem_univ, iff_true]
  exact Rect.mem_set_unit.mpr (fun a => by
    match a with
    | 0 => exact ⟨Nat.zero_le _, lt_of_lt_of_eq (x 0).isLt (Nat.zero_add _).symm⟩
    | 1 => exact ⟨Nat.zero_le _, lt_of_lt_of_eq (x 1).isLt (Nat.zero_add _).symm⟩)

omit [FloatOps F] in
theorem pts_shSK (q : PosShare TreeShare) (f : Buf (Elt F) (shLoc d (cV L))) :
    ((shSK).view.loc (V d (cV L) (jV L)) ↦[(shSK).view.set]{q} f : sProp 𝕄) = shLoc d (cV L) ↦{q} f := by
  rw [set_shSK]; rfl

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-! ## The HBM arrays as the tile addresses them -/

omit [FloatOps F] in
theorem pts_xBlkK (q : PosShare TreeShare) (f : Buf (Elt F) (xfLoc d)) :
    ((xBlkK L).view.loc (V d (cV L) (jV L)) ↦[(xBlkK L).view.set]{q} f : sProp 𝕄) = xfLoc d ↦[xfSet (wL L)]{q} f := by
  rw [set_xBlkK]
omit [FloatOps F] in
theorem pts_oChunkK (t : Fin k1_t3_loop.trips) (r : Fin 2) (q : PosShare TreeShare) (f : Buf (Elt F) (oLoc d)) :
    ((oChunkK L t r).view.loc (V d (cV L) (jV L)) ↦[(oChunkK L t r).view.set]{q} f : sProp 𝕄) = oLoc d ↦[oSet (chunkOf (wL L) (chunkIx t r))]{q} f := by
  rw [set_oChunkK]
omit [FloatOps F] in
theorem pts_combV (q : PosShare TreeShare) (f : Buf (Elt F) (combLoc d)) :
    ((combV).view.loc (V d (cV L) (jV L)) ↦{q} f : sProp 𝕄) = combLoc d ↦{q} f := rfl
omit [FloatOps F] in
theorem pts_xV (f : Buf (Elt F) ((V d (cV L) (jV L)).loc cc1_scratch0)) :
    ((xV).view.loc (V d (cV L) (jV L)) ↦{fullShare} f : sProp 𝕄) = (V d (cV L) (jV L)).loc cc1_scratch0 ↦{fullShare} f := rfl
omit [FloatOps F] in
theorem pts_idxV (f : Buf (Elt F) ((V d (cV L) (jV L)).loc cc1_scratch1)) :
    ((idxV).view.loc (V d (cV L) (jV L)) ↦{fullShare} f : sProp 𝕄) = (V d (cV L) (jV L)).loc cc1_scratch1 ↦{fullShare} f := rfl

/-! ## The tile's DMA semaphores -/

/-- the two gather semaphores, the two copy-out semaphores, the token copy's, and the scoped one of the table's copy -/
abbrev g0cell (d : Dev nD) (c : Fin τ.nSC) (i : Fin τ.nSub) : GSem nD τ sig := (V d c i, .dma cc1_scratch4.sem)
abbrev g1cell (d : Dev nD) (c : Fin τ.nSC) (i : Fin τ.nSub) : GSem nD τ sig := (V d c i, .dma cc1_scratch5.sem)
abbrev o0cell (d : Dev nD) (c : Fin τ.nSC) (i : Fin τ.nSub) : GSem nD τ sig := (V d c i, .dma cc1_scratch6.sem)
abbrev o1cell (d : Dev nD) (c : Fin τ.nSC) (i : Fin τ.nSub) : GSem nD τ sig := (V d c i, .dma cc1_scratch7.sem)
abbrev xscell (d : Dev nD) (c : Fin τ.nSC) (i : Fin τ.nSub) : GSem nD τ sig := (V d c i, .dma cc1_scratch8.sem)
abbrev sccell (d : Dev nD) (c : Fin τ.nSC) (i : Fin τ.nSub) : GSem nD τ sig := (V d c i, .dma cc1_scoped0.sem)

omit [FloatOps F] in
theorem dmaCell_mem (d : Dev nD) (c : Fin τ.nSC) (i : Fin τ.nSub) (sm : DmaSem sig) (h : (SemLoc.dma sm : SemLoc sig).isScoped .scVector = true) :
    ((V d c i, SemLoc.dma sm) : GSem nD τ sig) ∈ (ownCells (V d c i) : Finset (GSem nD τ sig)) :=
  (mem_ownCells (g := (V d c i, SemLoc.dma sm))).mpr ⟨rfl, h⟩
omit [FloatOps F] in
theorem dmaCell_ne (d : Dev nD) (c : Fin τ.nSC) (i : Fin τ.nSub) {a b : DmaSem sig} (h : a ≠ b) :
    ((V d c i, SemLoc.dma a) : GSem nD τ sig) ≠ (V d c i, SemLoc.dma b) :=
  fun e => h (SemLoc.dma.inj (Prod.mk.inj e).2)

/-- the rest of the tile's own semaphores once the six the body uses are set apart -/
abbrev restCells (d : Dev nD) (c : Fin τ.nSC) (i : Fin τ.nSub) : Finset (GSem nD τ sig) :=
  ((((((ownCells (V d c i)).erase (g0cell d c i)).erase (g1cell d c i)).erase (o0cell d c i)).erase (o1cell d c i)).erase (xscell d c i)).erase (sccell d c i)

omit [FloatOps F] in
theorem ownSems0_V :
    (ownSems0 (V d (cV L) (jV L)) : sProp 𝕄)
      = iprop(semVal (g0cell d (cV L) (jV L)) 0 ∗ semVal (g1cell d (cV L) (jV L)) 0 ∗ semVal (o0cell d (cV L) (jV L)) 0
          ∗ semVal (o1cell d (cV L) (jV L)) 0 ∗ semVal (xscell d (cV L) (jV L)) 0 ∗ semVal (sccell d (cV L) (jV L)) 0
          ∗ bigSep (restCells d (cV L) (jV L)) fun g => semVal g 0) := by
  unfold SparseCore.Cfg.ownSems0
  have m0 := dmaCell_mem d (cV L) (jV L) cc1_scratch4.sem (by decide)
  have m1 := dmaCell_mem d (cV L) (jV L) cc1_scratch5.sem (by decide)
  have m2 := dmaCell_mem d (cV L) (jV L) cc1_scratch6.sem (by decide)
  have m3 := dmaCell_mem d (cV L) (jV L) cc1_scratch7.sem (by decide)
  have m4 := dmaCell_mem d (cV L) (jV L) cc1_scratch8.sem (by decide)
  have m5 := dmaCell_mem d (cV L) (jV L) cc1_scoped0.sem (by decide)
  have ne (a b : DmaSem sig) (h : a ≠ b) := dmaCell_ne d (cV L) (jV L) h
  rw [SparseCore.bigSep_erase' m0,
    SparseCore.bigSep_erase' (Finset.mem_erase.mpr ⟨ne cc1_scratch5.sem cc1_scratch4.sem (by decide), m1⟩),
    SparseCore.bigSep_erase' (Finset.mem_erase.mpr ⟨ne cc1_scratch6.sem cc1_scratch5.sem (by decide),
      Finset.mem_erase.mpr ⟨ne cc1_scratch6.sem cc1_scratch4.sem (by decide), m2⟩⟩),
    SparseCore.bigSep_erase' (Finset.mem_erase.mpr ⟨ne cc1_scratch7.sem cc1_scratch6.sem (by decide),
      Finset.mem_erase.mpr ⟨ne cc1_scratch7.sem cc1_scratch5.sem (by decide),
      Finset.mem_erase.mpr ⟨ne cc1_scratch7.sem cc1_scratch4.sem (by decide), m3⟩⟩⟩),
    SparseCore.bigSep_erase' (Finset.mem_erase.mpr ⟨ne cc1_scratch8.sem cc1_scratch7.sem (by decide),
      Finset.mem_erase.mpr ⟨ne cc1_scratch8.sem cc1_scratch6.sem (by decide),
      Finset.mem_erase.mpr ⟨ne cc1_scratch8.sem cc1_scratch5.sem (by decide),
      Finset.mem_erase.mpr ⟨ne cc1_scratch8.sem cc1_scratch4.sem (by decide), m4⟩⟩⟩⟩),
    SparseCore.bigSep_erase' (Finset.mem_erase.mpr ⟨ne cc1_scoped0.sem cc1_scratch8.sem (by decide),
      Finset.mem_erase.mpr ⟨ne cc1_scoped0.sem cc1_scratch7.sem (by decide),
      Finset.mem_erase.mpr ⟨ne cc1_scoped0.sem cc1_scratch6.sem (by decide),
      Finset.mem_erase.mpr ⟨ne cc1_scoped0.sem cc1_scratch5.sem (by decide),
      Finset.mem_erase.mpr ⟨ne cc1_scoped0.sem cc1_scratch4.sem (by decide), m5⟩⟩⟩⟩⟩)]

/-! ## The tile's own scratch buffers -/

abbrev restRefs (c : Fin τ.nSC) (i : Fin τ.nSub) : Finset (DevRef τ sig) :=
  (((ownRefs (τ := τ) (.scVector c i)).erase ((Proc.scVector c i).devRef cc1_scratch0)).erase ((Proc.scVector c i).devRef cc1_scratch1)).erase ((Proc.scVector c i).devRef cc1_scratch2)

omit [FloatOps F] in
/-- The token scratch, the list of row numbers and the staging scratch are among the subcore's own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep (restRefs (cV L) (jV L)) fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have ne (a b : Ref sig .scVector) (h : a ≠ b) : (Proc.scVector (cV L) (jV L)).devRef a ≠ (Proc.scVector (cV L) (jV L)).devRef b :=
    fun e => h (Proc.devRef_injective _ e)
  rw [SparseCore.bigSep_erase' m0,
    SparseCore.bigSep_erase' (Finset.mem_erase.mpr ⟨ne cc1_scratch1 cc1_scratch0 (by decide), m1⟩),
    SparseCore.bigSep_erase' (Finset.mem_erase.mpr ⟨ne cc1_scratch2 cc1_scratch1 (by decide), Finset.mem_erase.mpr ⟨ne cc1_scratch2 cc1_scratch0 (by decide), m2⟩⟩)]

/-! ## What crosses the barrier: read shares of the shared copy of the table -/

/-- Tile 0, holding the sixteen read shares, hands one to each tile's round. -/
theorem pays_intro_zero (h0 : (jV L).val = 0) :
    (bigSep Finset.univ fun j : Fin 16 => shTok m d (cV L) j)
      ⊢ (bigSep Finset.univ fun j : Fin (grid1.bound 1) => (bRd (F := F) m).payload (bcell d (cV L) (j.castLE hsub1)) 0 (jV L).val : sProp 𝕄) := by
  refine Entails.of_eq (bigSep_congr fun j _ => ?_)
  show _ = bPay m (bcell d (cV L) (j.castLE hsub1)) (jV L).val
  unfold bPay; dsimp only
  rw [if_pos h0]
  rfl

/-- Any other tile hands over nothing. -/
theorem pays_intro_pos (h0 : (jV L).val ≠ 0) :
    (iprop(emp) : sProp 𝕄)
      ⊢ (bigSep Finset.univ fun j : Fin (grid1.bound 1) => (bRd (F := F) m).payload (bcell d (cV L) (j.castLE hsub1)) 0 (jV L).val : sProp 𝕄) := by
  rw [show (bigSep Finset.univ fun j : Fin (grid1.bound 1) => (bRd (F := F) m).payload (bcell d (cV L) (j.castLE hsub1)) 0 (jV L).val)
      = bigSep Finset.univ fun _ : Fin (grid1.bound 1) => (iprop(emp) : sProp 𝕄) from
      bigSep_congr fun j _ => by
        show bPay m (bcell d (cV L) (j.castLE hsub1)) (jV L).val = _
        unfold bPay; dsimp only
        rw [if_neg h0], bigSep_emp']

/-- After the barrier a tile's own round has collected its read share. -/
theorem pays_elim : (bigSep ((bRd (F := F) m).duties (bcell d (cV L) (jV L)) 0 \ ∅) fun n => (bRd (F := F) m).payload (bcell d (cV L) (jV L)) 0 n)
    ⊢ (shTok m d (cV L) (jL L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

end Tile

end Cert.Proof.LookupBits

end
-- ==== Proof.Bits.LoopInv.lean ====
/-
  The invariant of the tile's main loop.  The tile moves its 6400 rows in fifty chunks of 128 through two staging
  buffers.  Before round t (t < 25) the gathers of chunks 2 t and 2 t + 1 are under way into the two buffers, each
  holding its slice of the list of row numbers and a read share of the shared table; chunks below 2 t of the
  tile's block of the result hold the gathered rows, the others what they held at the start; nothing is being copied
  out.  After the last round the copies of chunks 48 and 49 out of the two buffers are still under way.
-/
import proofs.«208021_g30185030156587_cont_9to1_1229_25_alg».proof.Proof.Bits.Tile

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Loop

variable [FloatOps F]
variable (m : (ℓ : Loc nD τ sig) → Buf (Elt F) ℓ) (d : Dev nD) (L : grid1.Coords)

/-- the first row of the tile's block -/
def baseL (L : grid1.Coords) : ℕ := 6400 * (wL L).val

/-- The list of row numbers holds, at word p, the row of the combined table that row base + p of the result takes:
    (token mod 5) * 200 + position. -/
def IdxOK (fi : Buf (Elt F) ((V d (cV L) (jV L)).loc cc1_scratch1)) : Prop :=
  ∀ (p : S6400.Idx) (n : S204800.Idx), (n 0).val = baseL L + (p 0).val →
    (fi p).toNat = ((Xf m d n).toNat % 5) * 200 + (n 0).val % 200

/-- A staging buffer holds chunk k of the tile's block of the gathered rows. -/
def BufOK (dst : Memref sig .scVector .vmem S128x128 .f32) (k : ℕ) (fb : Buf (Elt F) (dst.view.loc (V d (cV L) (jV L)))) : Prop :=
  ∀ (x : S128x128.Idx) (i : S204800x128.Idx), (i 0).val = baseL L + 128 * k + (x 0).val → (i 1).val = (x 1).val →
    dst.view.read (Elt F) fb x = Go m d i

/-- slice k of the list of row numbers, for any number k -/
def idxSetN (k : ℕ) : Finset S6400.Idx := if h : k < 50 then idxSet ⟨k, h⟩ else ∅
/-- chunk k of the tile's block of the result, for any number k -/
def oSetN (L : grid1.Coords) (k : ℕ) : Finset S204800x128.Idx := if h : k < 50 then oSet (chunkOf (wL L) ⟨k, h⟩) else ∅

/-- the tile's read share of the shared table -/
abbrev qS (L : grid1.Coords) : PosShare TreeShare := Transfers.shareTok fullShare 16 (jL L)

/-- What the gather of chunk k into a staging buffer delivers: the buffer holding the chunk, and the shares of the
    shared table and of slice k of the list it borrowed. -/
def gDel (dst : Memref sig .scVector .vmem S128x128 .f32) (qs qi : PosShare TreeShare) (k : ℕ)
    (fi : Buf (Elt F) ((V d (cV L) (jV L)).loc cc1_scratch1)) : sProp 𝕄 :=
  iprop((∃ fb, (dst.view.loc (V d (cV L) (jV L)) ↦[dst.view.set]{fullShare} fb) ∗ ⌜BufOK m d L dst k fb⌝)
    ∗ (shLoc d (cV L) ↦{qs} (Cb m d : Buf (Elt F) (shLoc d (cV L))))
    ∗ ((V d (cV L) (jV L)).loc cc1_scratch1 ↦[idxSetN k]{qi} fi))

/-- What the copy of a staging buffer out to chunk k delivers: the chunk holding the gathered rows, and the buffer back. -/
def oDel (dst : Memref sig .scVector .vmem S128x128 .f32) (k : ℕ) : sProp 𝕄 :=
  iprop((oLoc d ↦[oSetN L k]{fullShare} Go m d)
    ∗ ∃ fb, dst.view.loc (V d (cV L) (jV L)) ↦[dst.view.set]{fullShare} fb)

/-- the tile's fifty chunks of the result before round t: those below 2 t done -/
def oMix (t : ℕ) : sProp 𝕄 :=
  bigSep Finset.univ fun j : Fin 50 => oChunk d (chunkOf (wL L) j) (if j.val < 2 * t then Go m d else m (oLoc d))

/-- Before round t < 25. -/
def Head (t : ℕ) (fi : Buf (Elt F) ((V d (cV L) (jV L)).loc cc1_scratch1)) : sProp 𝕄 :=
  iprop(Transfers.Flight countersEmb (V d (cV L) (jV L)) (.dma cc1_scratch4.sem) (default : HIx 1) (buf0K).view.dmaCredit
        (gDel m d L buf0K (qS L).left fullShare (2 * t) fi)
    ∗ Transfers.Flight countersEmb (V d (cV L) (jV L)) (.dma cc1_scratch5.sem) (default : HIx 1) (buf1K).view.dmaCredit
        (gDel m d L buf1K (qS L).right fullShare (2 * t + 1) fi)
    ∗ ((V d (cV L) (jV L)).loc cc1_scratch1 ↦[Finset.univ \ (idxSetN (2 * t) ∪ idxSetN (2 * t + 1))]{fullShare} fi)
    ∗ semVal (o0cell d (cV L) (jV L)) 0 ∗ semVal (o1cell d (cV L) (jV L)) 0
    ∗ oMix m d L t)

/-- After the last round. -/
def Exit (fi : Buf (Elt F) ((V d (cV L) (jV L)).loc cc1_scratch1)) : sProp 𝕄 :=
  iprop(semVal (g0cell d (cV L) (jV L)) 0 ∗ semVal (g1cell d (cV L) (jV L)) 0
    ∗ Transfers.Flight countersEmb (V d (cV L) (jV L)) (.dma cc1_scratch6.sem) (default : HIx 1) (buf0K).view.dmaCredit (oDel m d L buf0K 48)
    ∗ Transfers.Flight countersEmb (V d (cV L) (jV L)) (.dma cc1_scratch7.sem) (default : HIx 1) (buf1K).view.dmaCredit (oDel m d L buf1K 49)
    ∗ (shLoc d (cV L) ↦{(qS L).left} (Cb m d : Buf (Elt F) (shLoc d (cV L))))
    ∗ (shLoc d (cV L) ↦{(qS L).right} (Cb m d : Buf (Elt F) (shLoc d (cV L))))
    ∗ ((V d (cV L) (jV L)).loc cc1_scratch1 ↦{fullShare} fi)
    ∗ bigSep (((Finset.univ : Finset (Fin 50)).erase 48).erase 49) fun j => oChunk d (chunkOf (wL L) j) (Go m d))

/-- The invariant of the main loop, before round t: what the transfers hold, and what the tile owes. -/
def Inv (O : CellTallies nD τ sig (HIx 1)) (W : Waits sig (HIx 1)) (t : ℕ) : sProp 𝕄 :=
  iprop(∃ fi, ⌜IdxOK m d L fi⌝ ∗ (if t < 25 then Head m d L t fi else Exit m d L fi)
    ∗ ∃ W', ⌜∀ p ∈ W', p ∈ W ∨ p.2 = none ∨ p.2 = some (0 : Fin 1)⌝ ∗ owes (V d (cV L) (jV L)) O W')

/-- Before a round the invariant is the head form; -/
theorem Inv_head (O : CellTallies nD τ sig (HIx 1)) (W : Waits sig (HIx 1)) (t : ℕ) (ht : t < 25) :
    Inv m d L O W t = iprop(∃ fi, ⌜IdxOK m d L fi⌝ ∗ Head m d L t fi
      ∗ ∃ W', ⌜∀ p ∈ W', p ∈ W ∨ p.2 = none ∨ p.2 = some (0 : Fin 1)⌝ ∗ owes (V d (cV L) (jV L)) O W') := by
  unfold Inv; simp only [if_pos ht]
/-- after the last, the exit form. -/
theorem Inv_exit (O : CellTallies nD τ sig (HIx 1)) (W : Waits sig (HIx 1)) (t : ℕ) (ht : ¬ t < 25) :
    Inv m d L O W t = iprop(∃ fi, ⌜IdxOK m d L fi⌝ ∗ Exit m d L fi
      ∗ ∃ W', ⌜∀ p ∈ W', p ∈ W ∨ p.2 = none ∨ p.2 = some (0 : Fin 1)⌝ ∗ owes (V d (cV L) (jV L)) O W') := by
  unfold Inv; simp only [if_neg ht]

/-- Where the prologue hands over to the main loop. -/
abbrev Mid (O : CellTallies nD τ sig (HIx 1)) (W : Waits sig (HIx 1)) : sProp 𝕄 := Inv m d L O W 0

end Loop

end Cert.Proof.LookupBits

end
-- ==== Proof.Bits.LaneMath.lean ====
/-
  Lane arithmetic of the index-building loops.

  The loops carry a vector of sixteen 32-bit lanes.  Lane j of the carried vector at a trip that has
  consumed n tokens is (n + j) mod 200: the position of the token within its sequence of 200.  This module
  states that closed form for the start value (the lane sequence 0..15), for the carried value after a trip
  (add sixteen, subtract 200 where the sum reaches 200), and for the word a trip stores
  (token word times 200 plus the lane), over the payload functions of the generated skeleton.
-/
import proofs.«208021_g30185030156587_cont_9to1_1229_25_alg».proof.Proof.Gen.Kernel.Skeleton
import Idealize.ShloMosaic.Lib.Pipeline.Value

noncomputable section

namespace Cert.Proof.LookupBits

open Idealize.ShloMosaic Cert.Kernel Cert.Kernel.Gen

variable {F : FTy → Type} [FloatOps F]

/-- Sixteen lanes: lane j holds (n + j) mod 200. -/
def L16 (n : ℕ) : IVec S16 32 := fun j => BitVec.ofNat 32 ((n + (j 0).val) % 200)

theorem L16_apply (n : ℕ) (j : S16.Idx) : L16 n j = BitVec.ofNat 32 ((n + (j 0).val) % 200) := rfl

/-- A lane of `L16` as a number: below 200, so the 32-bit word is the number itself. -/
theorem L16_toNat (n : ℕ) (j : S16.Idx) : (L16 n j).toNat = (n + (j 0).val) % 200 := by
  rw [L16_apply, BitVec.toNat_ofNat]
  exact Nat.mod_eq_of_lt (lt_trans (Nat.mod_lt _ (by decide)) (by decide))

/-- The lane sequence 0, 1, …, 15 is `L16 0`. -/
theorem iota_eq_L16 : iota .scVector S16 32 [0] iota_S16_d0_w32_scVector = L16 0 := by
  funext j
  rw [iota_single_apply, L16_apply, Nat.zero_add]
  have hj : (j 0).val < 16 := (j 0).isLt
  rw [Nat.mod_eq_of_lt (by omega)]

/-- Signed comparison of two words below 2^31 is comparison of the numbers. -/
theorem sle_small (a b : ℕ) (ha : a < 2 ^ 31) (hb : b < 2 ^ 31) :
    (BitVec.ofNat 32 a).sle (BitVec.ofNat 32 b) = decide (a ≤ b) := by
  rw [BitVec.sle_eq_decide]
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  rw [h1, h2]
  simp

/-- One word of the carried vector after a trip: add 16, and subtract 200 if the sum reaches 200. -/
theorem step_word (m : ℕ) (hm : m < 200) :
    Scalar.select (IntOp.cmpi .sge (IntOp.addi (BitVec.ofNat 32 m) 16#32) 200#32)
      (IntOp.subi (IntOp.addi (BitVec.ofNat 32 m) 16#32) 200#32)
      (IntOp.addi (BitVec.ofNat 32 m) 16#32) = BitVec.ofNat 32 ((m + 16) % 200) := by
  unfold Scalar.select IntOp.cmpi IntOp.addi IntOp.subi
  have ha : BitVec.ofNat 32 m + 16#32 = BitVec.ofNat 32 (m + 16) := by
    rw [BitVec.ofNat_add]
  rw [ha]
  show (if BitVec.ofBool ((BitVec.ofNat 32 200).sle (BitVec.ofNat 32 (m + 16))) = 1 then _ else _) = _
  rw [sle_small 200 (m + 16) (by omega) (by omega)]
  by_cases h : 200 ≤ m + 16
  · rw [decide_eq_true h]
    rw [if_pos (by rfl)]
    rw [show (m + 16) % 200 = m + 16 - 200 by omega]
    apply BitVec.eq_of_toNat_eq
    rw [BitVec.toNat_sub, BitVec.toNat_ofNat, BitVec.toNat_ofNat, BitVec.toNat_ofNat]
    omega
  · rw [decide_eq_false h]
    rw [if_neg (by decide)]
    rw [Nat.mod_eq_of_lt (by omega)]

/-- The carried vector after a trip of the first loop. -/
theorem pay2_L16 (n : ℕ) : k1_pay2 (L16 n) = L16 (n + 16) := by
  funext j
  show Scalar.select (IntOp.cmpi .sge (IntOp.addi (L16 n j) 16#32) 200#32)
      (IntOp.subi (IntOp.addi (L16 n j) 16#32) 200#32) (IntOp.addi (L16 n j) 16#32) = _
  rw [L16_apply, step_word _ (Nat.mod_lt _ (by decide)), L16_apply]
  congr 1
  omega

/-- The second loop's payloads are the first loop's. -/
theorem pay4_eq_pay2 : k1_pay4 = k1_pay2 := rfl
theorem pay3_eq_pay1 : k1_pay3 (F := F) = k1_pay1 (F := F) := rfl

/-- The carried vector after a trip of the second loop. -/
theorem pay4_L16 (n : ℕ) : k1_pay4 (L16 n) = L16 (n + 16) := pay2_L16 n

/-- The vector a trip stores: token words times 200 plus the carried lanes. -/
theorem pay1_apply (a : IVec S16 32) (xv : Vec F S16 .i32) (j : S16.Idx) :
    k1_pay1 a xv j = (xv j : BitVec 32) * 200#32 + a j := by
  show shapeCast S16 (addi (muli (shapeCast S16 xv shapeCasts_S16_S16) (broadcast S16 200#32)) a) shapeCasts_S16_S16 j = _
  rw [shapeCast_self, shapeCast_self]
  rfl

/-- The word a trip stores at lane j, for a token word below 5: no wrap-around. -/
theorem pay1_word (n : ℕ) (xv : Vec F S16 .i32) (j : S16.Idx) (h : (xv j : BitVec 32).toNat < 5) :
    k1_pay1 (L16 n) xv j = BitVec.ofNat 32 ((xv j : BitVec 32).toNat * 200 + (n + (j 0).val) % 200) := by
  rw [pay1_apply]
  apply BitVec.eq_of_toNat_eq
  rw [BitVec.toNat_add, BitVec.toNat_mul, L16_toNat, BitVec.toNat_ofNat, BitVec.toNat_ofNat]
  have hm : (n + (j 0).val) % 200 < 200 := Nat.mod_lt _ (by decide)
  omega

/-- The stored word names a row of the 1000-row table. -/
theorem pay1_word_lt (n : ℕ) (xv : Vec F S16 .i32) (j : S16.Idx) (h : (xv j : BitVec 32).toNat < 5) :
    (k1_pay1 (L16 n) xv j).toNat < 1000 := by
  have hm : (n + (j 0).val) % 200 < 200 := Nat.mod_lt _ (by decide)
  have hlt : (xv j : BitVec 32).toNat * 200 + (n + (j 0).val) % 200 < 1000 := by omega
  rw [pay1_word n xv j h, BitVec.toNat_ofNat, Nat.mod_eq_of_lt (lt_trans hlt (by decide))]
  exact hlt

theorem pay3_word (n : ℕ) (xv : Vec F S16 .i32) (j : S16.Idx) (h : (xv j : BitVec 32).toNat < 5) :
    k1_pay3 (L16 n) xv j = BitVec.ofNat 32 ((xv j : BitVec 32).toNat * 200 + (n + (j 0).val) % 200) :=
  pay1_word n xv j h

end Cert.Proof.LookupBits

end
-- ==== Proof.Bits.Fill.lean ====
/-
  Filling the list of row numbers.  Word p of the tile's list is to hold (token base + p) * 200 + (p mod 200): the row
  of the combined table that row base + p of the result takes (base is a multiple of 200, so p mod 200 is the token's
  position in its sequence).  This module names the tile's tokens and that closed form, states the two index loops'
  invariants (the carried lanes and the list filled up to the trip), and proves the one step both loops share: a
  trip's store extends the filled part by sixteen words.
-/
import proofs.«208021_g30185030156587_cont_9to1_1229_25_alg».proof.Proof.Bits.LoopInv
import proofs.«208021_g30185030156587_cont_9to1_1229_25_alg».proof.Proof.Bits.LaneMath
import Idealize.ShloMosaic.Lib.WritesUnit

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Fill

variable [FloatOps F]
variable (m : (ℓ : Loc nD τ sig) → Buf (Elt F) ℓ) (d : Dev nD) (L : grid1.Coords)

omit [FloatOps F] in
theorem baseL_lt (p : S6400.Idx) : baseL L + (p 0).val < 204800 := by
  have h1 : (wL L).val < 32 := (wL L).isLt
  have h2 : (p 0).val < 6400 := (p 0).isLt
  unfold baseL; omega

/-- row base + p of the flattened tokens -/
def nOf (p : S6400.Idx) : S204800.Idx := ix1 ⟨baseL L + (p 0).val, baseL_lt L p⟩

/-- the tile's tokens, as its token buffer holds them once copied in -/
def xblk : Buf (Elt F) ((V d (cV L) (jV L)).loc cc1_scratch0) := fun p => Xf m d (nOf L p)

/-- the list of row numbers: word p is token p times 200 plus p mod 200 -/
def idxF : Buf (Elt F) ((V d (cV L) (jV L)).loc cc1_scratch1) :=
  fun p => BitVec.ofNat 32 ((Xf m d (nOf L p) : BitVec 32).toNat * 200 + (p 0).val % 200)

/-- The first loop's invariant before trip k: the carried lanes, the tokens, and the list filled below 16 k. -/
def inv1 (k : ℕ) (acc : IVec S16 32) : sProp 𝕄 :=
  iprop(⌜acc = L16 (16 * k)⌝ ∗ ((xV).view.loc (V d (cV L) (jV L)) ↦{fullShare} xblk m d L)
    ∗ ∃ f, ((idxV).view.loc (V d (cV L) (jV L)) ↦{fullShare} f) ∗ ⌜∀ p : S6400.Idx, (p 0).val < 16 * k → f p = idxF m d L p⌝)

/-- what is left of the list once the first two slices are lent to the gathers -/
abbrev idxRest : Finset S6400.Idx := Finset.univ \ (idxSet 0 ∪ idxSet 1)

/-- The second loop's invariant before trip k: as the first's, sixteen trips on, with only the rest of the list held. -/
def inv2 (k : ℕ) (acc : IVec S16 32) : sProp 𝕄 :=
  iprop(⌜acc = L16 (16 * (k + 16))⌝ ∗ ((xV).view.loc (V d (cV L) (jV L)) ↦{fullShare} xblk m d L)
    ∗ ∃ f, ((V d (cV L) (jV L)).loc cc1_scratch1 ↦[idxRest]{fullShare} f)
      ∗ ⌜∀ p : S6400.Idx, 256 ≤ (p 0).val → (p 0).val < 16 * (k + 16) → f p = idxF m d L p⌝)

/-- What the prologue holds beside the main loop's invariant: the tokens' block, the token buffer, the two DMA
    semaphores it has finished with, the tile's other semaphores and buffers, and on tile 0 the table's share and what
    is left of the shared copy. -/
def PRest : sProp 𝕄 :=
  iprop(xfBlk m d (wL L) ∗ (∃ f, (V d (cV L) (jV L)).loc cc1_scratch0 ↦{fullShare} f)
    ∗ semVal (xscell d (cV L) (jV L)) 0 ∗ semVal (sccell d (cV L) (jV L)) 0
    ∗ (bigSep (restCells d (cV L) (jV L)) fun g => semVal g 0)
    ∗ (bigSep (restRefs (cV L) (jV L)) fun b => iprop(∃ f, ((d, b) : Loc nD τ sig) ↦{fullShare} f))
    ∗ (if (jL L).val = 0 then iprop(combTok m d (cL L) ∗ shRest m d (cV L)) else iprop(emp)))

end Fill

section FillLemmas

variable [FloatOps F]
variable (m : (ℓ : Loc nD τ sig) → Buf (Elt F) ℓ) (d : Dev nD) (L : grid1.Coords)

/-- One trip's store extends the filled part of the list by the trip's sixteen words. -/
theorem fill_step (hx : ∀ n : S204800.Idx, (Xf m d n : BitVec 32).toNat < 5) (T : ℕ) (off : Fin 1 → ℕ)
    (inb : ∀ a, off a + S16.size a ≤ S6400.size a) (hoff : off = ![16 * T]) (acc : IVec S16 32) (hacc : acc = L16 (16 * T))
    (f : Buf (Elt F) ((V d (cV L) (jV L)).loc cc1_scratch1)) (lo : ℕ)
    (hf : ∀ p : S6400.Idx, lo ≤ (p 0).val → (p 0).val < 16 * T → f p = idxF m d L p) :
    ∀ p : S6400.Idx, lo ≤ (p 0).val → (p 0).val < 16 * (T + 1) →
      (idxV).view.writes (Elt F) f
        [⟨Rect.unit (s := S6400) off S16.size inb,
          k1_pay1 acc (View.readAt (Elt F) (xV).view (Rect.unit (s := S6400) off S16.size inb).toLoadRect (xblk m d L))⟩] p = idxF m d L p := by
  intro p hlo hhi
  have hrd : ∀ g : Buf (Elt F) ((V d (cV L) (jV L)).loc cc1_scratch1), (idxV).view.read (Elt F) g p = g p := fun g => rfl
  refine ((hrd _).symm.trans (View.read_writes_cons_unit (idxV).view f inb _ [] p hoff)).trans ?_
  split
  · next h =>
    subst hacc
    have h0 := h 0
    have hp0 : (![16 * T] : Fin 1 → ℕ) 0 = 16 * T := rfl
    rw [hp0] at h0
    have hidx : (Rect.unit (s := S6400) off S16.size inb).toLoadRect.idx (Rect.unitLocal (s := S6400) (off := ![16 * T]) (size := S16.size) p h) = p := by
      funext a
      match a with
      | 0 =>
        apply Fin.ext
        subst hoff
        show 16 * T + 1 * ((p 0).val - 16 * T) = (p 0).val
        omega
    have hv : View.readAt (Elt F) (xV).view (Rect.unit (s := S6400) off S16.size inb).toLoadRect (xblk m d L)
        (Rect.unitLocal (s := S6400) (off := ![16 * T]) (size := S16.size) p h) = Xf m d (nOf L p) := by
      rw [View.readAt_apply, hidx]; rfl
    rw [pay1_word (16 * T) _ _ (by rw [hv]; exact hx _), hv]
    unfold idxF
    congr 2
    show (16 * T + ((p 0).val - 16 * T)) % 200 = (p 0).val % 200
    congr 1; omega
  · next h =>
    rw [View.writes_nil, hrd]
    refine hf p hlo ?_
    by_contra hc
    exact h (fun a => by
      match a with
      | 0 =>
        show 16 * T ≤ (p 0).val ∧ (p 0).val < 16 * T + 16
        omega)

/-- The list as filled holds, at each word, the row number the result's row takes. -/
theorem idxOK_idxF (hx : ∀ n : S204800.Idx, (Xf m d n : BitVec 32).toNat < 5) : IdxOK m d L (idxF m d L) := by
  intro p n hn
  have hnp : n = nOf L p := by
    funext a
    match a with
    | 0 => exact Fin.ext hn
  subst hnp
  have h5 := hx (nOf L p)
  have hm : (p 0).val % 200 < 200 := Nat.mod_lt _ (by decide)
  have hlt : (Xf m d (nOf L p) : BitVec 32).toNat * 200 + (p 0).val % 200 < 1000 := by omega
  unfold idxF
  rw [BitVec.toNat_ofNat, Nat.mod_eq_of_lt (lt_trans hlt (by decide)), Nat.mod_eq_of_lt h5]
  congr 1
  show (p 0).val % 200 = (baseL L + (p 0).val) % 200
  unfold baseL; omega

/-- Every word of the list names a row of the 1000-row table. -/
theorem idxF_lt (hx : ∀ n : S204800.Idx, (Xf m d n : BitVec 32).toNat < 5) (p : S6400.Idx) : (idxF m d L p : BitVec 32).toNat < 1000 := by
  have h5 := hx (nOf L p)
  have hm : (p 0).val % 200 < 200 := Nat.mod_lt _ (by decide)
  have hlt : (Xf m d (nOf L p) : BitVec 32).toNat * 200 + (p 0).val % 200 < 1000 := by omega
  unfold idxF
  rw [BitVec.toNat_ofNat, Nat.mod_eq_of_lt (lt_trans hlt (by decide))]
  exact hlt

/-- A tile other than tile 0 holds nothing of the shared table before the barrier, and hands over nothing. -/
theorem pays_intro_neg (h0 : (jV L).val ≠ 0) :
    (if (jL L).val = 0 then iprop(combTok m d (cL L) ∗ ∃ f, shLoc d (cV L) ↦{fullShare} f) else iprop(emp) : sProp 𝕄)
      ⊢ (bigSep Finset.univ fun j : Fin (grid1.bound 1) => (bRd (F := F) m).payload (bcell d (cV L) (j.castLE hsub1)) 0 (jV L).val : sProp 𝕄) := by
  rw [if_neg (show ¬ ((jL L).val = 0) from h0)]
  exact pays_intro_pos (F := F) m d L h0

/-- The list held whole, filled below word 256, is its first two slices at the closed form and the rest. -/
theorem idx_three (f1 : Buf (Elt F) ((V d (cV L) (jV L)).loc cc1_scratch1)) (hf1 : ∀ p : S6400.Idx, (p 0).val < 256 → f1 p = idxF m d L p) :
    ((idxV).view.loc (V d (cV L) (jV L)) ↦{fullShare} f1 : sProp 𝕄)
      ⊢ iprop(((idx0K).view.loc (V d (cV L) (jV L)) ↦[(idx0K).view.set]{fullShare} idxF m d L)
          ∗ ((idx1K).view.loc (V d (cV L) (jV L)) ↦[(idx1K).view.set]{fullShare} idxF m d L)
          ∗ ((V d (cV L) (jV L)).loc cc1_scratch1 ↦[Finset.univ \ (idxSet 0 ∪ idxSet 1)]{fullShare} f1)) := by
  rw [set_idx0K, set_idx1K]
  have h01 : Disjoint (idxSet 0) (idxSet 1) := idxSets_disjoint 0 (Finset.mem_univ _) 1 (Finset.mem_univ _) (by decide)
  have hc0 : ((V d (cV L) (jV L)).loc cc1_scratch1 ↦[idxSet 0]{fullShare} f1 : sProp 𝕄) = (V d (cV L) (jV L)).loc cc1_scratch1 ↦[idxSet 0]{fullShare} idxF m d L :=
    pointsTo_congr (fun p hp => hf1 p (by have := (mem_idxSet 0 p).mp hp; simp at this; omega))
  have hc1 : ((V d (cV L) (jV L)).loc cc1_scratch1 ↦[idxSet 1]{fullShare} f1 : sProp 𝕄) = (V d (cV L) (jV L)).loc cc1_scratch1 ↦[idxSet 1]{fullShare} idxF m d L :=
    pointsTo_congr (fun p hp => hf1 p (by have := (mem_idxSet 1 p).mp hp; simp at this; omega))
  iintro H
  ihave H2 := (pointsTo_split_subset (Finset.subset_univ (idxSet 0 ∪ idxSet 1))).1 $$ H
  icases H2 with ⟨HI, HR⟩
  ihave H01 := (pointsTo_union h01).1 $$ HI
  icases H01 with ⟨H0, H1⟩
  isplitl [H0]; · iapply (Entails.of_eq hc0); iexact H0
  isplitl [H1]; · iapply (Entails.of_eq hc1); iexact H1
  iexact HR

end FillLemmas

end Cert.Proof.LookupBits

end
-- ==== Proof.Bits.LoopVal.lean ====
/-
  What the transfers of the main loop carry.  A gather through slice k of the list of row numbers brings into a
  staging buffer, at row r, row list[128 k + r] of the shared table, which is row base + 128 k + r of the result as
  the claim names it; the copy of the buffer out to chunk k of the tile's block writes those rows there.
-/
import proofs.«208021_g30185030156587_cont_9to1_1229_25_alg».proof.Proof.Bits.LoopInv

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Val

variable [FloatOps F]
variable (m : (ℓ : Loc nD τ sig) → Buf (Elt F) ℓ) (d : Dev nD) (L : grid1.Coords)

/-- slice k of the list, addressed at any offsets that are 128 k -/
abbrev idxAt (off : Fin 1 → ℕ) (inb : ∀ a, off a + S128.size a ≤ S6400.size a) : Memref sig .scVector .vmem S128 .i32 :=
  (idxV).slice (Rect.unit (s := S6400) off S128.size inb) (fun _ => rfl)

omit [FloatOps F] in
theorem idxAt_emb (k : ℕ) (off : Fin 1 → ℕ) (inb : ∀ a, off a + S128.size a ≤ S6400.size a) (hoff : off = ![128 * k]) (y : S128.Idx) :
    (((idxAt off inb).view.emb y) 0).val = 128 * k + (y 0).val := by
  subst hoff
  show ((Rect.unit (s := S6400) ![128 * k] S128.size inb).emb y 0).val = _
  rw [Rect.emb_apply]
  simp

theorem gathered_val (k : ℕ) (hk : k < 50) (off : Fin 1 → ℕ) (inb : ∀ a, off a + S128.size a ≤ S6400.size a) (hoff : off = ![128 * k])
    (fo fi : Buf (Elt F) ((V d (cV L) (jV L)).loc cc1_scratch1)) (hag : ∀ p ∈ idxSetN k, fo p = fi p) (hfi : IdxOK m d L fi)
    (hin : ∀ x, ((idxAt off inb).view.read (Elt F) fo x).toNat < S1000x128.size gathers_S1000x128_S128x128.axis)
    (x : S128x128.Idx) (i : S204800x128.Idx) (hi0 : (i 0).val = baseL L + 128 * k + (x 0).val) (hi1 : (i 1).val = (x 1).val) :
    SparseCore.gatherPayload gathers_S1000x128_S128x128 ((shSK).view.read (Elt F) (Cb m d : Buf (Elt F) (shLoc d (cV L))))
        (SparseCore.rows ((idxAt off inb).view.read (Elt F) fo) rfl hin) x = Go m d i := by
  unfold SparseCore.gatherPayload
  rw [(View.read_apply _ _).trans (cast_eq _ _)]
  show (Cb m d) _ = gatherOut (F := F) (Cb m d) (Xf m d) i
  unfold gatherOut
  refine congrArg (Cb m d) ?_
  -- the shared table is addressed whole: its slice's indices are the table's
  have hsh : ∀ (Y : S1000x128.Idx) (a : Fin 2), ((shSK.view.emb Y) a).val = (Y a).val := by
    intro Y a
    show ((Rect.unit (s := S1000x128) ![0, 0] S1000x128.size inb_S1000x128_S1000x128_0_0).emb Y a).val = _
    rw [Rect.emb_apply]
    match a with
    | 0 => simp
    | 1 => simp
  -- the word of the list the gather reads for row x 0
  let y : S128.Idx := S128.rowMajor.symm ((x 0).cast rfl)
  have hy : (y 0).val = (x 0).val := by
    have h1 := Shape.rowMajor_val_one (d := ![128]) y
    have h2 : S128.rowMajor y = (x 0).cast rfl := Equiv.apply_symm_apply _ _
    rw [← h1]; exact congrArg Fin.val h2
  have hp0 : (((idxAt off inb).view.emb y) 0).val = 128 * k + (x 0).val := by rw [idxAt_emb k off inb hoff, hy]
  have hx0 : (x 0).val < 128 := (x 0).isLt
  have hmem : (idxAt off inb).view.emb y ∈ idxSetN k := by
    unfold idxSetN; rw [dif_pos hk, mem_idxSet]
    constructor
    · show 128 * k ≤ _; omega
    · show _ < 128 * k + 128; omega
  have hword : ((idxAt off inb).view.read (Elt F) fo y).toNat = (Xf m d (ix1 (i 0))).toNat % 5 * 200 + (i 0).val % 200 := by
    rw [(View.read_apply _ _).trans (cast_eq _ _), hag _ hmem]
    exact hfi _ (ix1 (i 0)) (by show (i 0).val = baseL L + _; omega)
  funext a
  apply Fin.ext
  match a with
  | ⟨0, _⟩ =>
    refine (hsh _ 0).trans ?_
    rw [show ((gathers_S1000x128_S128x128).idx (SparseCore.rows ((idxAt off inb).view.read (Elt F) fo) rfl hin) x 0)
        = SparseCore.rows ((idxAt off inb).view.read (Elt F) fo) rfl hin (x 0) from Shape.Gathers.idx_axis _ _ _]
    exact hword
  | ⟨1, _⟩ =>
    refine (hsh _ 1).trans ?_
    refine (Shape.Gathers.idx_of_ne gathers_S1000x128_S128x128 _ x 1 (by decide)).trans ?_
    exact hi1.symm
  | ⟨n + 2, h⟩ => exact absurd h (show ¬ n + 2 < 2 by omega)

omit [FloatOps F] in
theorem set_idxAt (k : ℕ) (hk : k < 50) (off : Fin 1 → ℕ) (inb : ∀ a, off a + S128.size a ≤ S6400.size a) (hoff : off = ![128 * k]) :
    (idxAt off inb).view.set = idxSetN k := by
  unfold idxSetN; rw [dif_pos hk]
  show ((idxV).view.slice (Rect.unit (s := S6400) off S128.size inb)).set = ((idxV).view.slice (Rect.part (s := S6400) (a₀ := 0) hdivI ⟨k, hk⟩)).set
  rw [idx_slice_set, idx_slice_set]
  exact congrArg (fun r : Rect S6400 => r.set) (idxR_eq ⟨k, hk⟩ _ _ hoff)

/-- What a gather through slice k of the list delivers is the staging buffer holding chunk k, and the shares it borrowed. -/
theorem gather_deliv (dst : Memref sig .scVector .vmem S128x128 .f32) (qs qi : PosShare TreeShare) (k : ℕ) (hk : k < 50)
    (off : Fin 1 → ℕ) (inb : ∀ a, off a + S128.size a ≤ S6400.size a) (hoff : off = ![128 * k])
    (fd : Buf (Elt F) (dst.view.loc (V d (cV L) (jV L)))) (fo fi : Buf (Elt F) ((V d (cV L) (jV L)).loc cc1_scratch1))
    (hag : ∀ p ∈ idxSetN k, fo p = fi p) (hfi : IdxOK m d L fi)
    (hin : ∀ x, ((idxAt off inb).view.read (Elt F) fo x).toNat < S1000x128.size gathers_S1000x128_S128x128.axis) :
    iprop((dst.view.loc (V d (cV L) (jV L)) ↦[dst.view.set]{fullShare}
            (dst.view.write (Elt F) fd (SparseCore.gatherPayload gathers_S1000x128_S128x128 ((shSK).view.read (Elt F) (Cb m d : Buf (Elt F) (shLoc d (cV L))))
              (SparseCore.rows ((idxAt off inb).view.read (Elt F) fo) rfl hin)) Finset.univ))
        ∗ ((shSK).view.loc (V d (cV L) (jV L)) ↦[(shSK).view.set]{qs} (Cb m d : Buf (Elt F) (shLoc d (cV L))))
        ∗ ((idxAt off inb).view.loc (V d (cV L) (jV L)) ↦[(idxAt off inb).view.set]{qi} fo))
      ⊢ (gDel m d L dst qs qi k fi : sProp 𝕄) := by
  unfold gDel
  rw [pts_shSK, set_idxAt k hk off inb hoff, show ((idxAt off inb).view.loc (V d (cV L) (jV L)) ↦[idxSetN k]{qi} fo : sProp 𝕄)
      = ((V d (cV L) (jV L)).loc cc1_scratch1 ↦[idxSetN k]{qi} fi) from pointsTo_congr hag]
  iintro ⟨Hd, Hs, Ho⟩
  isplitl [Hd]
  · iexists _
    isplitl [Hd]; · iexact Hd
    ipureintro
    intro x i h0 h1
    rw [View.read_write_univ]
    exact gathered_val m d L k hk off inb hoff fo fi hag hfi hin x i h0 h1
  isplitl [Hs]; · iexact Hs
  iexact Ho

omit [FloatOps F] in
theorem baseL_eq : baseL L = 12800 * (L 1).val + 6400 * (L 0).val := by
  unfold baseL
  show 6400 * (2 * (L 1).val + (L 0).val) = _
  omega

omit [FloatOps F] in
theorem oChunkK_emb (t : Fin k1_t3_loop.trips) (r : Fin 2) (x : S128x128.Idx) :
    (((oChunkK L t r).view.emb x) 0).val = baseL L + 128 * (2 * t.val + r.val) + (x 0).val
      ∧ (((oChunkK L t r).view.emb x) 1).val = (x 1).val := by
  have e0 : (((oChunkK L t r).view.emb x) 0).val = (k1_off4 L t (BitVec.ofNat 32 r.val)) 0 + 1 * (x 0).val := rfl
  have e1 : (((oChunkK L t r).view.emb x) 1).val = (k1_off4 L t (BitVec.ofNat 32 r.val)) 1 + 1 * (x 1).val := rfl
  rw [e0, e1, k1_off4_eq, baseL_eq]
  constructor
  · simp; omega
  · simp

omit [FloatOps F] in
theorem oSetN_eq (t : Fin k1_t3_loop.trips) (r : Fin 2) : oSetN L (2 * t.val + r.val) = (oChunkK L t r).view.set := by
  have h : 2 * t.val + r.val < 50 := (chunkIx t r).isLt
  unfold oSetN; rw [dif_pos h, set_oChunkK]; rfl

/-- The copy of a staging buffer holding chunk 2 t + r out to that chunk leaves the gathered rows there. -/
theorem out_val (t : Fin k1_t3_loop.trips) (r : Fin 2) (dst : Memref sig .scVector .vmem S128x128 .f32)
    (fb : Buf (Elt F) (dst.view.loc (V d (cV L) (jV L)))) (hb : BufOK m d L dst (2 * t.val + r.val) fb) (fo : Buf (Elt F) (oLoc d))
    (w : S128x128.Idx → Elt F .f32) (hw : w = ReadAs.same.apply (dst.view.read (Elt F) fb)) :
    ((oChunkK L t r).view.loc (V d (cV L) (jV L)) ↦[(oChunkK L t r).view.set]{fullShare}
        (oChunkK L t r).view.writes (Elt F) fo [⟨Rect.whole S128x128, w⟩] : sProp 𝕄)
      = oLoc d ↦[oSetN L (2 * t.val + r.val)]{fullShare} Go m d := by
  subst hw
  rw [oSetN_eq]
  refine pointsTo_congr fun i hi => ?_
  obtain ⟨x, -, rfl⟩ := Finset.mem_map.mp hi
  have h1 := View.read_writes_cons_emb (oChunkK L t r).view fo (Rect.whole S128x128) (ReadAs.same.apply (dst.view.read (Elt F) fb)) [] x
  rw [Rect.emb_whole_apply, (View.read_apply _ _).trans (cast_eq _ _)] at h1
  refine h1.trans ?_
  obtain ⟨e0, e1⟩ := oChunkK_emb L t r x
  exact hb x _ e0 e1

end Val

end Cert.Proof.LookupBits

end
-- ==== Proof.Bits.Trip2.lean ====
/-
  One trip of the second index loop.  While the first two slices of the list of row numbers are lent to the two
  gathers under way, the tile holds only the rest of the list; a trip reads sixteen tokens, stores their row numbers in
  the next sixteen words past the first 256, and advances the carried lanes by sixteen positions.
-/
import proofs.«208021_g30185030156587_cont_9to1_1229_25_alg».proof.Proof.Bits.Fill

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Trip

variable [FloatOps F]
variable (m : (ℓ : Loc nD τ sig) → Buf (Elt F) ℓ) (d : Dev nD) (L : grid1.Coords)

omit [FloatOps F] in
/-- A trip of the second loop touches sixteen words past the first 256. -/
theorem rect3_mem (k : Fin k1_t2_loop.trips) (x : S6400.Idx)
    (hx : x ∈ (Rect.unit (s := S6400) (k1_off3 k) S16.size (k1_off3_inb k)).set) : x ∈ (idxRest : Finset S6400.Idx) := by
  rw [Rect.mem_set_unit] at hx
  have h0 := hx 0
  rw [k1_off3_eq k] at h0
  have h0' : 16 * k.val + 256 ≤ (x 0).val ∧ (x 0).val < 16 * k.val + 256 + 16 := h0
  refine Finset.mem_sdiff.mpr ⟨Finset.mem_univ _, ?_⟩
  rw [Finset.mem_union, mem_idxSet, mem_idxSet]
  simp only [Fin.val_zero, Fin.val_one]
  omega

omit [FloatOps F] in
theorem rect3_load_sub (k : Fin k1_t2_loop.trips) :
    (idxV).view.setOn (Rect.unit (s := S6400) (k1_off3 k) S16.size (k1_off3_inb k)).toLoadRect.set ⊆ (idxRest : Finset S6400.Idx) := by
  intro p hp
  obtain ⟨x, hx, rfl⟩ := Finset.mem_map.mp hp
  exact rect3_mem k x hx

omit [FloatOps F] in
theorem rect3_store_sub (k : Fin k1_t2_loop.trips) :
    ((idxV).access (Rect.unit (s := S6400) (k1_off3 k) S16.size (k1_off3_inb k))).set ⊆ (idxRest : Finset S6400.Idx) := by
  intro p hp
  have hp' : p ∈ ((idxV).view.slice (Rect.unit (s := S6400) (k1_off3 k) S16.size (k1_off3_inb k))).set := hp
  rw [idx_slice_set] at hp'
  exact rect3_mem k p hp'

set_option maxHeartbeats 1000000 in
/-- One trip of the second index loop: sixteen tokens read, their row numbers stored in the next sixteen words of the
    list, the carried lanes advanced. -/
theorem trip2 (hx : ∀ n : S204800.Idx, (Xf m d n : BitVec 32).toNat < 5) (k : Fin k1_t2_loop.trips) (acc : IVec S16 32) :
    inv2 m d L k.val acc ⊢ wp frame (wpE (defs₀ (F := F)) 𝒱₀ (V d (cV L) (jV L)) none) Set.univ
      (k1_t2_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 k acc) (fun acc' => inv2 m d L (k.val + 1) acc') := by
  unfold inv2
  iintro ⟨%hacc, Hx, %f, Hi, %hf⟩
  sl_unfold [k1_t2_body]
  rw [Prog.bind_lift]
  iapply (wp_load 𝒱₀ (V d (cV L) (jV L)) none Set.univ (Finset.subset_univ _)) $$ Hx
  iintro Hx
  rw [Prog.bind_lift]
  iapply (wp_load 𝒱₀ (V d (cV L) (jV L)) none Set.univ (m := idxV) (S := idxRest) (rect3_load_sub k)) $$ Hi
  iintro Hi
  rw [Prog.bind_lift]
  iapply (wp_store_writes₀ 𝒱₀ (V d (cV L) (jV L)) none Set.univ (m := idxV) (S := idxRest) (rect3_store_sub k)) $$ Hi
  iintro Hi
  rw [Prog.pure_eq_ret, wp_ret]; imodintro
  isplitr
  · ipureintro
    rw [hacc, pay4_L16]
    exact congrArg L16 (by omega)
  isplitl [Hx]; · iexact Hx
  iexists _
  isplitl [Hi]; · iexact Hi
  ipureintro
  intro p hlo hhi
  exact fill_step m d L hx (k.val + 16) (k1_off3 k) (k1_off3_inb k)
    ((k1_off3_eq k).trans (congrArg (fun x : ℕ => ![x]) (by omega))) acc hacc f 256 hf p hlo (by omega)

end Trip

end Cert.Proof.LookupBits

end
-- ==== Proof.Bits.Prologue.lean ====
/-
  The tile's prologue: the run of the first part of the kernel body on tile (c, s), up to the main loop.  The tile
  copies its 6400 tokens in; tile 0 also copies the combined table into its SparseCore's shared memory and cuts the
  copy into sixteen read shares; the tile fills the first 256 words of its list of row numbers; the tiles meet at the
  barrier, where tile 0's arrival hands each tile its read share; the tile starts the gathers of its first two
  chunks, each borrowing half of the read share and its own slice of the list; and it fills the rest of the list
  while they run.  It ends in the main loop's invariant before round 0.
-/
import proofs.«208021_g30185030156587_cont_9to1_1229_25_alg».proof.Proof.Bits.Fill
import proofs.«208021_g30185030156587_cont_9to1_1229_25_alg».proof.Proof.Bits.LoopVal
import proofs.«208021_g30185030156587_cont_9to1_1229_25_alg».proof.Proof.Bits.Trip2
import Idealize.ShloMosaic.Lib.WritesUnit
import Idealize.ShloMosaic.Lib.WordExact

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section PrologueLemmas

variable [FloatOps F]
variable (m : (ℓ : Loc nD τ sig) → Buf (Elt F) ℓ) (d : Dev nD) (L : grid1.Coords)

/-- One write through the whole of a view, kept as a one-piece list, is the plain write. -/
theorem writes_whole_eq {sig' : RefSig} {κ : Kind} {sp : Space} {s : Shape} {e : EltTy} {Val : EltTy → Type}
    (v : View sig' κ sp s e) (f : v.ty.Contents Val) (w : s.Idx → Val e) :
    v.writes Val f [(⟨Rect.whole s, w⟩ : View.Piece Val s e)] = v.write Val f w Finset.univ := by
  rw [View.writes_singleton]
  have hemb : ∀ x : s.Idx, (v.slice (Rect.whole s)).emb x = v.emb x := fun x => by
    rw [View.emb_slice]
    show v.emb ((Rect.whole s).emb x) = v.emb x
    congr 1
    funext a
    apply Fin.ext
    show 0 + 1 * (x a).val = (x a).val
    omega
  funext i
  by_cases hi : i ∈ v.set
  · obtain ⟨x, -, rfl⟩ := Finset.mem_map.mp hi
    rw [View.write_emb_of_mem _ _ (Finset.mem_univ x)]
    conv_lhs => rw [← hemb x, View.write_emb_of_mem _ _ (Finset.mem_univ x)]
  · rw [View.write_of_not_mem _ _ _ (by rwa [View.setOn_univ, View.set_slice_rectWhole]), View.write_of_not_mem _ _ _ (by rwa [View.setOn_univ])]

/-- The tile's block of the tokens, read at word p, is token base + p. -/
theorem xblk_read (p : S6400.Idx) : (xBlkK L).view.read (Elt F) (Xf m d) p = Xf m d (nOf L p) := by
  show Xf m d ((xBlkK L).view.emb p) = Xf m d (nOf L p)
  congr 1
  funext a
  match a with
  | 0 =>
    apply Fin.ext
    show k1_off1 L 0 + 1 * (p 0).val = baseL L + (p 0).val
    rw [k1_off1_eq]
    simp [baseL, wid]
    omega

/-- A gather's delivery — the staging buffer written with the gathered rows, the list's slice, the table's share —
    is what the main loop's invariant keeps in flight: the buffer holds its chunk of the result. -/
theorem gdel_of_exec (dst : Memref sig .scVector .vmem S128x128 .f32) (q : PosShare TreeShare) (k : ℕ) (hk : k < 50)
    (off : Fin 1 → ℕ) (inb : ∀ a, off a + S128.size a ≤ S6400.size a) (hoff : off = ![128 * k])
    (hx : ∀ n : S204800.Idx, (Xf m d n : BitVec 32).toNat < 5)
    (fd : Buf (Elt F) (dst.view.loc (V d (cV L) (jV L))))
    (hin : ∀ x, ((idxAt off inb).view.read (Elt F) (idxF m d L) x).toNat < S1000x128.size gathers_S1000x128_S128x128.axis) :
    iprop(((dst.view.loc (V d (cV L) (jV L)) ↦[dst.view.set]{fullShare}
              dst.view.writes (Elt F) fd [⟨Rect.whole S128x128, SparseCore.gatherPayload gathers_S1000x128_S128x128
                ((shSK).view.read (Elt F) (Cb m d : Buf (Elt F) (shLoc d (cV L))))
                (SparseCore.rows ((idxAt off inb).view.read (Elt F) (idxF m d L)) rfl hin)⟩])
          ∗ ((idxAt off inb).view.loc (V d (cV L) (jV L)) ↦[(idxAt off inb).view.set]{fullShare} idxF m d L))
        ∗ ((shSK).view.loc (V d (cV L) (jV L)) ↦[(shSK).view.set]{q} (Cb m d : Buf (Elt F) (shLoc d (cV L)))))
      ⊢ (gDel m d L dst q fullShare k (idxF m d L) : sProp 𝕄) := by
  rw [writes_whole_eq]
  iintro ⟨⟨Hd, Ho⟩, Hs⟩
  iapply (gather_deliv m d L dst q fullShare k hk off inb hoff fd (idxF m d L) (idxF m d L) (fun _ _ => rfl) (idxOK_idxF m d L hx) hin)
  isplitl [Hd]; · iexact Hd
  isplitl [Hs]; · iexact Hs
  iexact Ho

end PrologueLemmas

section Prologue

variable [FloatOps F]
variable (m : (ℓ : Loc nD τ sig) → Buf (Elt F) ℓ) (d : Dev nD) (L : grid1.Coords)

/-- The part of the body from the first index loop on, in the program's own words. -/
def tailProg (L : grid1.Coords) :
    Prog (TpuEff nD τ sig (Elt F) Λ₀ (.scVector ((L 0).castLE hcore1) ((L 1).castLE hsub1))) (Σ' (v2 : BitVec 32), BitVec 32) := do
  let v12 : IVec S16 32 ← Scf.Loop.for k1_t1_loop k1_t1_ok (iota .scVector S16 32 [0] iota_S16_d0_w32_scVector)
    (k1_t1_body L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
  SparseCore.subcoreBarrier sc_bar0 (grid1.bound 1) hsub1
  let v13 : Memref sig .scVector .vmem S1x128x128 .f32 := (bufsV).slice (Rect.unit (s := S2x128x128) ![0, 0, 0] S1x128x128.size inb_S2x128x128_S1x128x128_0_0_0) (fun _ => rfl)
  let v14 : Memref sig .scVector .vmem S128x128 .f32 := v13.squeeze S128x128 squeezes_S1x128x128_S128x128
  let v15 : Memref sig .scVector .vmem S128 .i32 := (idxV).slice (Rect.unit (s := S6400) ![0] S128.size inb_S6400_S128_0) (fun _ => rfl)
  let v16 : Memref sig .scVector .shared S1000x128 .f32 := (shV).slice (Rect.unit (s := S1000x128) ![0, 0] S1000x128.size inb_S1000x128_S1000x128_0_0) (fun _ => rfl)
  SparseCore.enqueueIndirectGather rfl v16 v14 gathers_S1000x128_S128x128 v15 rfl cc1_scratch4.sem (View.wordExact_bits rfl) rfl (Or.inr rfl)
  let v17 : Memref sig .scVector .vmem S1x128x128 .f32 := (bufsV).slice (Rect.unit (s := S2x128x128) ![1, 0, 0] S1x128x128.size inb_S2x128x128_S1x128x128_1_0_0) (fun _ => rfl)
  let v18 : Memref sig .scVector .vmem S128x128 .f32 := v17.squeeze S128x128 squeezes_S1x128x128_S128x128
  let v19 : Memref sig .scVector .vmem S128 .i32 := (idxV).slice (Rect.unit (s := S6400) ![128] S128.size inb_S6400_S128_128) (fun _ => rfl)
  let v20 : Memref sig .scVector .shared S1000x128 .f32 := (shV).slice (Rect.unit (s := S1000x128) ![0, 0] S1000x128.size inb_S1000x128_S1000x128_0_0) (fun _ => rfl)
  SparseCore.enqueueIndirectGather rfl v20 v18 gathers_S1000x128_S128x128 v19 rfl cc1_scratch5.sem (View.wordExact_bits rfl) rfl (Or.inr rfl)
  let v22 : IVec S16 32 ← Scf.Loop.for k1_t2_loop k1_t2_ok v12
    (k1_t2_body L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
  pure ⟨Scalar.muli (Scalar.addi (Scalar.muli (BitVec.ofNat 32 (L 1).val) 2#32) (BitVec.ofNat 32 (L 0).val)) 6400#32, 0#32⟩

/-- What the prologue holds beside the main loop's invariant, with tile 0's extras left open. -/
def PRestX (X : sProp 𝕄) : sProp 𝕄 :=
  iprop(xfBlk m d (wL L) ∗ (∃ f, (V d (cV L) (jV L)).loc cc1_scratch0 ↦{fullShare} f)
    ∗ semVal (xscell d (cV L) (jV L)) 0 ∗ semVal (sccell d (cV L) (jV L)) 0
    ∗ (bigSep (restCells d (cV L) (jV L)) fun g => semVal g 0)
    ∗ (bigSep (restRefs (cV L) (jV L)) fun b => iprop(∃ f, ((d, b) : Loc nD τ sig) ↦{fullShare} f))
    ∗ X)

theorem PRest_eq : PRest m d L = PRestX m d L (if (jL L).val = 0 then iprop(combTok m d (cL L) ∗ shRest m d (cV L)) else iprop(emp)) := rfl

set_option maxHeartbeats 4000000 in
/-- From the first index loop to the main loop's invariant: the two index loops, the barrier (what the tile hands
    over to the other tiles' rounds is among the resources assumed), the two gathers. -/
theorem prologue_tail (p : Prog (TpuEff nD τ sig (Elt F) Λ₀ (.scVector ((L 0).castLE hcore1) ((L 1).castLE hsub1))) (Σ' (v2 : BitVec 32), BitVec 32))
    (hp : p = tailProg (F := F) L)
    (O : CellTallies nD τ sig (HIx 1)) (W W₁ : Waits sig (HIx 1))
    (hW₁ : ∀ q ∈ W₁, q ∈ W ∨ q.2 = none ∨ q.2 = some (0 : Fin 1))
    (hO : ∀ g, O g none = 0)
    (hOlev : ∀ g ι, 0 < O g ι → 8 * (0 : Fin 1).val + 6 ≤ (K (F := F)).lev g ι)
    (hx : ∀ n : S204800.Idx, (Xf m d n : BitVec 32).toNat < 5) (X : sProp 𝕄) :
    iprop(levAts (K (F := F)).L (K (F := F)).lev ∗ bkit m d (cV L) (jV L)
        ∗ (bigSep Finset.univ fun j : Fin (grid1.bound 1) => (bRd (F := F) m).payload (bcell d (cV L) (j.castLE hsub1)) 0 (jV L).val)
        ∗ X ∗ xfBlk m d (wL L) ∗ oBlk d (wL L) (m (oLoc d))
        ∗ ((xV).view.loc (V d (cV L) (jV L)) ↦{fullShare} xblk m d L)
        ∗ (∃ f, (V d (cV L) (jV L)).loc cc1_scratch1 ↦{fullShare} f)
        ∗ (∃ f, (V d (cV L) (jV L)).loc cc1_scratch2 ↦{fullShare} f)
        ∗ (bigSep (restRefs (cV L) (jV L)) fun b => iprop(∃ f, ((d, b) : Loc nD τ sig) ↦{fullShare} f))
        ∗ semVal (g0cell d (cV L) (jV L)) 0 ∗ semVal (g1cell d (cV L) (jV L)) 0 ∗ semVal (o0cell d (cV L) (jV L)) 0
        ∗ semVal (o1cell d (cV L) (jV L)) 0 ∗ semVal (xscell d (cV L) (jV L)) 0 ∗ semVal (sccell d (cV L) (jV L)) 0
        ∗ (bigSep (restCells d (cV L) (jV L)) fun g => semVal g 0)
        ∗ owes (V d (cV L) (jV L)) (O + oxV d (cV L)) W₁)
      ⊢ wp frame (wpE (defs₀ (F := F)) 𝒱₀ (V d (cV L) (jV L)) none) Set.univ p
          fun _ => iprop(Mid m d L O W ∗ PRestX m d L X) := by
  subst hp
  unfold tailProg bkit
  iintro ⟨#Hlv, ⟨⟨%κ, #Hinv⟩, Htoks, #Hrch, Hat, Hcred⟩, Hpays, HX, Hxf, Hob, Hx, ⟨%fi, Hi⟩, ⟨%fb, Hb⟩, Hbufs, Hg0, Hg1, Ho0, Ho1, Hxs, Hsc, Hsems, HO⟩
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idxV (F := F) d L _).symm) $$ Hi
  -- the first index loop
  sl_for (inv1 m d L) $$ [Hx Hi']
  case region =>
    intro k acc
    unfold inv1
    iintro ⟨%hacc, Hx, %f, Hi, %hf⟩
    sl_exec
    sl_step
    isplitr
    · ipureintro; rw [hacc, pay2_L16]; congr 1
    isplitl [Hx]; · iexact Hx
    iexists _
    isplitl [Hi]; · iexact Hi
    ipureintro
    intro p hp
    exact fill_step m d L hx k.val _ _ (k1_off2_eq k) acc hacc f 0 (fun p _ h => hf p h) p (Nat.zero_le _) hp
  · unfold inv1
    isplitr
    · ipureintro; exact iota_eq_L16
    isplitl [Hx]; · iexact Hx
    iexists _
    isplitl [Hi']; · iexact Hi'
    ipureintro; intro p hp; exact absurd hp (by omega)
  iintro %v12 HI
  unfold inv1
  icases HI with ⟨%hv12, Hx, %f1, Hi, %hf1⟩
  have ht1 : Scf.trips k1_t1_loop.lb k1_t1_loop.ub k1_t1_loop.st = 16 := by decide
  rw [ht1] at hv12 hf1
  -- the barrier
  sl_unfold [prologue_tail.sl.prog.cont_1]
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htok := (pays_elim (F := F) m d L) $$ Hgot
  -- the two gathers: half of the read share, a staging buffer and a slice of the list each
  ihave Htok2 := (pointsTo_share (PosShare.mem_left_op_right (qS L))).1 $$ Htok
  icases Htok2 with ⟨HtA, HtB⟩
  ihave HtA' := (Entails.of_eq (pts_shSK (F := F) d L _ _).symm) $$ HtA
  ihave HtB' := (Entails.of_eq (pts_shSK (F := F) d L _ _).symm) $$ HtB
  ihave Hb2 := (bufs_halves (F := F) d L fb).1 $$ Hb
  icases Hb2 with ⟨Hb0, Hb1⟩
  ihave Hi2 := (idx_three (F := F) m d L f1 (fun p hp => hf1 p hp)) $$ Hi
  icases Hi2 with ⟨Hi0, Hi1, HiR⟩
  have hin0 : ∀ x, ((idx0K).view.read (Elt F) (idxF m d L) x).toNat < S1000x128.size gathers_S1000x128_S128x128.axis :=
    fun x => idxF_lt m d L hx _
  have hin1 : ∀ x, ((idx1K).view.read (Elt F) (idxF m d L) x).toNat < S1000x128.size gathers_S1000x128_S128x128.axis :=
    fun x => idxF_lt m d L hx _
  sl_exec
  -- the second index loop, on the rest of the list
  sl_for (inv2 m d L) $$ [Hx HiR]
  case region =>
    intro k acc
    exact trip2 m d L hx k acc
  · unfold inv2
    isplitr
    · ipureintro; exact hv12
    isplitl [Hx]; · iexact Hx
    iexists _
    isplitl [HiR]; · iexact HiR
    ipureintro; intro p h1 h2; exact absurd h2 (by omega)
  iintro %v22 HI
  unfold inv2
  icases HI with ⟨-, Hx, %f2, HiR, %hf2⟩
  have ht2 : Scf.trips k1_t2_loop.lb k1_t2_loop.ub k1_t2_loop.st = 384 := by decide
  rw [ht2] at hf2
  sl_exec
  sl_step
  have hN0 : idxSetN (2 * 0) = idxSet 0 := by unfold idxSetN; rw [dif_pos (by decide)]; rfl
  have hN1 : idxSetN (2 * 0 + 1) = idxSet 1 := by unfold idxSetN; rw [dif_pos (by decide)]; rfl
  have hrest : ∀ p ∈ (idxRest : Finset S6400.Idx), f2 p = idxF m d L p := fun p hp => by
    have hp' := (Finset.mem_sdiff.mp hp).2
    rw [Finset.mem_union, not_or, mem_idxSet, mem_idxSet] at hp'
    have h6 : (p 0).val < 6400 := (p 0).isLt
    exact hf2 p (by simp at hp'; omega) (by omega)
  isplitl [Hg0 Hg1 HiR Ho0 Ho1 Hob HO]
  · iapply (Entails.of_eq (Inv_head m d L O W 0 (by decide)).symm)
    iexists (idxF m d L)
    isplitr
    · ipureintro; exact idxOK_idxF m d L hx
    isplitl [Hg0 Hg1 HiR Ho0 Ho1 Hob]
    · unfold Head
      isplitl [Hg0]
      · iapply (Transfers.Flight_mono countersEmb (V d (cV L) (jV L))
          (gdel_of_exec m d L buf0K (qS L).left 0 (by decide) ![0] inb_S6400_S128_0 rfl hx fb hin0))
        iexact Hg0
      isplitl [Hg1]
      · iapply (Transfers.Flight_mono countersEmb (V d (cV L) (jV L))
          (gdel_of_exec m d L buf1K (qS L).right 1 (by decide) ![128] inb_S6400_S128_128 rfl hx fb hin1))
        iexact Hg1
      isplitl [HiR]
      · rw [hN0, hN1]
        iapply (Entails.of_eq (pointsTo_congr (f := f2) (g := idxF m d L) hrest))
        iexact HiR
      isplitl [Ho0]; · iexact Ho0
      isplitl [Ho1]; · iexact Ho1
      iapply (Entails.of_eq (show oBlk d (wL L) (m (oLoc d)) = oMix m d L 0 from
        bigSep_congr fun j _ => by rw [if_neg (by omega)]))
      iexact Hob
    iexists _; isplitr
    swap; · iexact HO
    ipureintro; intro q hq
    rcases Finset.mem_insert.mp hq with hq | hq
    · exact .inr (.inr (hq ▸ rfl))
    · exact hW₁ q hq
  · unfold PRestX
    isplitl [Hxf]; · iexact Hxf
    isplitl [Hx]; · iexists _; iapply (Entails.of_eq (pts_xV (F := F) d L _)); iexact Hx
    isplitl [Hxs]; · iexact Hxs
    isplitl [Hsc]; · iexact Hsc
    isplitl [Hsems]; · iexact Hsems
    isplitl [Hbufs]; · iexact Hbufs
    iexact HX

/-- The token buffer once the tile's block has landed in it holds the tile's tokens. -/
theorem xV_landed (fx : Buf (Elt F) ((V d (cV L) (jV L)).loc cc1_scratch0)) :
    ((xV).view.loc (V d (cV L) (jV L)) ↦{fullShare} View.write (Elt F) (xV).view fx ((xBlkK L).view.read (Elt F) (Xf m d)) Finset.univ : sProp 𝕄)
      ⊢ ((xV).view.loc (V d (cV L) (jV L)) ↦{fullShare} xblk m d L) :=
  Entails.of_eq (pointsTo_congr (fun p _ =>
    (View.write_emb_of_mem (v := (xV).view) fx ((xBlkK L).view.read (Elt F) (Xf m d)) (Finset.mem_univ p)).trans (xblk_read m d L p)))

/-- The shared copy once the combined table has landed in it holds the table. -/
theorem shV_landed (fs : Buf (Elt F) (shLoc d (cV L))) :
    ((shV).view.loc (V d (cV L) (jV L)) ↦{fullShare} View.write (Elt F) (shV).view fs ((combV).view.read (Elt F) (Cb m d)) Finset.univ : sProp 𝕄)
      ⊢ (shLoc d (cV L) ↦{fullShare} (Cb m d : Buf (Elt F) (shLoc d (cV L)))) :=
  Entails.of_eq (pointsTo_congr (fun p _ =>
    (View.write_emb_of_mem (v := (shV).view) fs ((combV).view.read (Elt F) (Cb m d)) (Finset.mem_univ p)).trans rfl))

omit [FloatOps F] in
/-- The body's test "subcore index is zero", as it computes it. -/
theorem cond_iff (j : Fin 16) :
    (Scalar.cmpi .ne (Scalar.extui (Scalar.cmpi .eq (BitVec.ofNat 32 j.val) 0#32)) 0#32 = 1#1) ↔ j.val = 0 := by
  revert j; decide

set_option maxHeartbeats 4000000 in
/-- The prologue on tile (L 0, L 1): from what the launch hands the tile to the main loop's invariant before round 0. -/
theorem prologue (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hx : ∀ n : S204800.Idx, (Xf m d n : BitVec 32).toNat < 5) :
    iprop(levAts (K (F := F)).L (K (F := F)).lev ∗ bkit m d (cV L) (jV L)
        ∗ (xfBlk m d (wL L) ∗ oBlk d (wL L) (m (oLoc d))
            ∗ (if (jL L).val = 0 then iprop(combTok m d (cL L) ∗ ∃ f, shLoc d (cV L) ↦{fullShare} f) else iprop(emp)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (k1_part2 L combV (Memref.isWhole_whole _) xfV (Memref.isWhole_whole _) oV (Memref.isWhole_whole _) xV (Memref.isWhole_whole _) idxV (Memref.isWhole_whole _) bufsV (Memref.isWhole_whole _) shV (Memref.isWhole_whole _) cc1_scratch4 cc1_scratch5 cc1_scratch6 cc1_scratch7 cc1_scratch8 cc1_scoped0)
          fun _ => iprop(Mid m d L O W ∗ PRest m d L) := by
  rw [PRest_eq]
  simp only [k1_part2_eq_skeleton]; unfold k1_part2_skel
  rw [(K (F := F)).scopedBufs_V hF d (cV L) (jV L), SparseCore.Cfg.scopedSems0_V (Val := Elt F) d (cV L) (jV L), ownSems0_V, ownBufs_V]
  iintro ⟨#Hlv, Hkit, ⟨Hxf, Hob, Hshz⟩, ⟨⟨%fx, Hx⟩, Hi, Hb, Hbufs⟩, ⟨Hg0, Hg1, Ho0, Ho1, Hxs, Hsc, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hxf' := (Entails.of_eq (pts_xBlkK (F := F) d L _ _).symm) $$ Hxf
  ihave Hx' := (Entails.of_eq (pts_xV (F := F) d L _).symm) $$ Hx
  -- the tokens' copy is started; the body then tests whether this is tile 0
  sl_exec
  by_cases h7 : Scalar.cmpi .ne (Scalar.extui (Scalar.cmpi .eq (BitVec.ofNat 32 (L 1).val) 0#32)) 0#32 = 1#1
  · -- tile 0: the combined table into the shared copy, cut into sixteen read shares
    have h0 : (jL L).val = 0 := (cond_iff (jL L)).mp h7
    have h0' : (jV L).val = 0 := h0
    ihave Hshz' := (Entails.of_eq (if_pos h0)) $$ Hshz
    icases Hshz' with ⟨Hct, %fs, Hs⟩
    ihave Hct' := (Entails.of_eq (pts_combV (F := F) d L _ _).symm) $$ Hct
    ihave Hs' := (Entails.of_eq (pts_shV (F := F) d L _ _).symm) $$ Hs
    sl_exec
    sl_unfold_run_names
    ihave Hx2 := (xV_landed (F := F) m d L fx) $$ Hx'
    ihave Hs2 := (shV_landed (F := F) m d L fs) $$ Hs'
    ihave Hs3 := (Transfers.pointsTo_toks_split fullShare 16) $$ Hs2
    icases Hs3 with ⟨Hrest, Htoks16⟩
    ihave Hpays := (pays_intro_zero (F := F) m d L h0') $$ Htoks16
    ihave Hct := (Entails.of_eq (pts_combV (F := F) d L _ _)) $$ Hct'
    ihave Hxf := (Entails.of_eq (pts_xBlkK (F := F) d L _ _)) $$ Hxf'
    iapply (prologue_tail (F := F) m d L _ rfl O W (insert (SemLoc.dma cc1_scratch8.sem, (default : HIx 1)) (insert (SemLoc.dma cc1_scoped0.sem, (default : HIx 1)) W)) (fun q hq => by
        rcases Finset.mem_insert.mp hq with hq | hq
        · exact .inr (.inl (by rw [hq]; rfl))
        rcases Finset.mem_insert.mp hq with hq | hq
        · exact .inr (.inl (by rw [hq]; rfl))
        · exact .inl hq) hO hOlev hx
      (if (jL L).val = 0 then iprop(combTok m d (cL L) ∗ shRest m d (cV L)) else iprop(emp)))
    isplitr; · iexact Hlv
    isplitl [Hkit]; · iexact Hkit
    isplitl [Hpays]; · iexact Hpays
    isplitl [Hct Hrest]
    · iapply (Entails.of_eq (if_pos h0).symm)
      isplitl [Hct]; · iexact Hct
      iexact Hrest
    isplitl [Hxf]; · iexact Hxf
    isplitl [Hob]; · iexact Hob
    isplitl [Hx2]; · iexact Hx2
    isplitl [Hi]; · iexact Hi
    isplitl [Hb]; · iexact Hb
    isplitl [Hbufs]; · iexact Hbufs
    isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    isplitl [Hsems]; · iexact Hsems
    iexact HO
  · -- any other tile
    have h0 : ¬ (jL L).val = 0 := fun h => h7 ((cond_iff (jL L)).mpr h)
    have h0' : (jV L).val ≠ 0 := h0
    sl_exec
    sl_unfold_run_names
    ihave Hx2 := (xV_landed (F := F) m d L fx) $$ Hx'
    ihave Hpays := (pays_intro_neg (F := F) m d L h0') $$ Hshz
    ihave Hxf := (Entails.of_eq (pts_xBlkK (F := F) d L _ _)) $$ Hxf'
    iapply (prologue_tail (F := F) m d L _ rfl O W (insert (SemLoc.dma cc1_scratch8.sem, (default : HIx 1)) W) (fun q hq => by
        rcases Finset.mem_insert.mp hq with hq | hq
        · exact .inr (.inl (by rw [hq]; rfl))
        · exact .inl hq) hO hOlev hx
      (if (jL L).val = 0 then iprop(combTok m d (cL L) ∗ shRest m d (cV L)) else iprop(emp)))
    isplitr; · iexact Hlv
    isplitl [Hkit]; · iexact Hkit
    isplitl [Hpays]; · iexact Hpays
    isplitr
    · iapply (Entails.of_eq (if_neg h0).symm)
      iempintro
    isplitl [Hxf]; · iexact Hxf
    isplitl [Hob]; · iexact Hob
    isplitl [Hx2]; · iexact Hx2
    isplitl [Hi]; · iexact Hi
    isplitl [Hb]; · iexact Hb
    isplitl [Hbufs]; · iexact Hbufs
    isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    isplitl [Hsems]; · iexact Hsems
    iexact HO

end Prologue

end Cert.Proof.LookupBits

end
-- ==== Proof.Bits.LoopRes.lean ====
/-
  How the tile's pieces of the list of row numbers and of the result move between the loop's invariant and the
  transfers of one round: a slice of the list handed back by a gather goes into the part nobody borrows and the next
  slice comes out of it; the two chunks of the result a round writes come out of the fifty and go back holding the
  gathered rows.
-/
import proofs.«208021_g30185030156587_cont_9to1_1229_25_alg».proof.Proof.Bits.LoopVal

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Res

variable [FloatOps F]
variable (m : (ℓ : Loc nD τ sig) → Buf (Elt F) ℓ) (d : Dev nD) (L : grid1.Coords)

omit [FloatOps F] in
theorem mem_idxSetN (k : ℕ) (hk : k < 50) (p : S6400.Idx) : p ∈ idxSetN k ↔ 128 * k ≤ (p 0).val ∧ (p 0).val < 128 * k + 128 := by
  unfold idxSetN; rw [dif_pos hk, mem_idxSet]

omit [FloatOps F] in
theorem idxSetN_disjoint (j j' : ℕ) (h : j ≠ j') : Disjoint (idxSetN j) (idxSetN j') := by
  by_cases hj : j < 50
  · by_cases hj' : j' < 50
    · rw [Finset.disjoint_left]
      intro p hp hp'
      rw [mem_idxSetN j hj] at hp
      rw [mem_idxSetN j' hj'] at hp'
      omega
    · unfold idxSetN; rw [dif_neg hj']; exact Finset.disjoint_empty_right _
  · unfold idxSetN; rw [dif_neg hj]; exact Finset.disjoint_empty_left _

section Pts

variable {ℓ : Loc nD τ sig} {q : PosShare TreeShare} {f : Buf (Elt F) ℓ}

omit [FloatOps F] in
/-- A set handed back joins what is held outside it and another. -/
theorem pts_out {X Y : Finset (Idx ℓ)} (hXY : Disjoint X Y) :
    (iprop((ℓ ↦[X]{q} f) ∗ ℓ ↦[Finset.univ \ (X ∪ Y)]{q} f) : sProp 𝕄) ⊣⊢ ℓ ↦[Finset.univ \ Y]{q} f := by
  have hd : Disjoint X (Finset.univ \ (X ∪ Y)) := by
    rw [Finset.disjoint_left]; intro p hp hp'
    exact (Finset.mem_sdiff.mp hp').2 (Finset.mem_union_left _ hp)
  have he : X ∪ (Finset.univ \ (X ∪ Y)) = Finset.univ \ Y := by
    ext p
    simp only [Finset.mem_union, Finset.mem_sdiff, Finset.mem_univ, true_and, not_or]
    constructor
    · rintro (hp | ⟨-, hp⟩)
      · exact fun hy => (Finset.disjoint_left.mp hXY hp) hy
      · exact hp
    · intro hp
      by_cases hx : p ∈ X
      · exact .inl hx
      · exact .inr ⟨hx, hp⟩
  have h : (ℓ ↦[X ∪ (Finset.univ \ (X ∪ Y))]{q} f : sProp 𝕄) ⊣⊢ iprop((ℓ ↦[X]{q} f) ∗ ℓ ↦[Finset.univ \ (X ∪ Y)]{q} f) :=
    pointsTo_union hd
  rw [he] at h
  exact ⟨h.2, h.1⟩

omit [FloatOps F] in
/-- One set handed back, another taken out. -/
theorem pts_swap {X Y Z : Finset (Idx ℓ)} (hXY : Disjoint X Y) (hZY : Disjoint Z Y) :
    (iprop((ℓ ↦[X]{q} f) ∗ ℓ ↦[Finset.univ \ (X ∪ Y)]{q} f) : sProp 𝕄) ⊢ iprop((ℓ ↦[Z]{q} f) ∗ ℓ ↦[Finset.univ \ (Y ∪ Z)]{q} f) := by
  refine (pts_out hXY).1.trans ?_
  rw [Finset.union_comm Y Z]
  exact (pts_out hZY).2

end Pts

/-! ## The fifty chunks of the result -/

/-- the two chunks round t writes -/
def jA (t : ℕ) (ht : t < 25) : Fin 50 := ⟨2 * t, by omega⟩
def jB (t : ℕ) (ht : t < 25) : Fin 50 := ⟨2 * t + 1, by omega⟩

/-- the chunks other than the two of round t, before round t -/
def oRest (t : ℕ) (ht : t < 25) : sProp 𝕄 :=
  bigSep (((Finset.univ : Finset (Fin 50)).erase (jA t ht)).erase (jB t ht)) fun j =>
    oChunk d (chunkOf (wL L) j) (if j.val < 2 * t then Go m d else m (oLoc d))

omit [FloatOps F] in
theorem oSetN_jA (t : ℕ) (ht : t < 25) : oSetN L (2 * t) = oSet (chunkOf (wL L) (jA t ht)) := by
  unfold oSetN; rw [dif_pos (show 2 * t < 50 by omega)]; rfl
omit [FloatOps F] in
theorem oSetN_jB (t : ℕ) (ht : t < 25) : oSetN L (2 * t + 1) = oSet (chunkOf (wL L) (jB t ht)) := by
  unfold oSetN; rw [dif_pos (show 2 * t + 1 < 50 by omega)]; rfl

omit [FloatOps F] in
theorem jB_mem (t : ℕ) (ht : t < 25) : jB t ht ∈ (Finset.univ : Finset (Fin 50)).erase (jA t ht) :=
  Finset.mem_erase.mpr ⟨fun e => by have := congrArg Fin.val e; simp [jA, jB] at this, Finset.mem_univ _⟩

/-- Before round t the two chunks it writes hold what they held at the start. -/
theorem oMix_take (t : ℕ) (ht : t < 25) :
    oMix m d L t = iprop((oLoc d ↦[oSetN L (2 * t)]{fullShare} m (oLoc d)) ∗ (oLoc d ↦[oSetN L (2 * t + 1)]{fullShare} m (oLoc d)) ∗ oRest m d L t ht) := by
  unfold oMix oRest
  rw [SparseCore.bigSep_erase' (Finset.mem_univ (jA t ht)), SparseCore.bigSep_erase' (jB_mem t ht), oSetN_jA L t ht, oSetN_jB L t ht]
  rw [show (if (jA t ht).val < 2 * t then Go m d else m (oLoc d)) = m (oLoc d) from if_neg (by show ¬ 2 * t < 2 * t; omega),
    show (if (jB t ht).val < 2 * t then Go m d else m (oLoc d)) = m (oLoc d) from if_neg (by show ¬ 2 * t + 1 < 2 * t; omega)]

/-- Holding the gathered rows they are, with the others, the fifty before the next round. -/
theorem oMix_put (t : ℕ) (ht : t < 25) :
    iprop((oLoc d ↦[oSetN L (2 * t)]{fullShare} Go m d) ∗ (oLoc d ↦[oSetN L (2 * t + 1)]{fullShare} Go m d) ∗ oRest m d L t ht) = oMix m d L (t + 1) := by
  unfold oMix oRest
  rw [SparseCore.bigSep_erase' (Finset.mem_univ (jA t ht)) (Φ := fun j : Fin 50 => oChunk d (chunkOf (wL L) j) (if j.val < 2 * (t + 1) then Go m d else m (oLoc d))),
    SparseCore.bigSep_erase' (jB_mem t ht), oSetN_jA L t ht, oSetN_jB L t ht]
  rw [show (if (jA t ht).val < 2 * (t + 1) then Go m d else m (oLoc d)) = Go m d from if_pos (by show 2 * t < 2 * (t + 1); omega),
    show (if (jB t ht).val < 2 * (t + 1) then Go m d else m (oLoc d)) = Go m d from if_pos (by show 2 * t + 1 < 2 * (t + 1); omega)]
  have hr : (bigSep (((Finset.univ : Finset (Fin 50)).erase (jA t ht)).erase (jB t ht)) fun j => oChunk d (chunkOf (wL L) j) (if j.val < 2 * t then Go m d else m (oLoc d)) : sProp 𝕄)
      = bigSep (((Finset.univ : Finset (Fin 50)).erase (jA t ht)).erase (jB t ht)) fun j => oChunk d (chunkOf (wL L) j) (if j.val < 2 * (t + 1) then Go m d else m (oLoc d)) := by
    refine bigSep_congr fun j hj => ?_
    have h1 : j ≠ jB t ht := (Finset.mem_erase.mp hj).1
    have h0 : j ≠ jA t ht := (Finset.mem_erase.mp (Finset.mem_erase.mp hj).2).1
    have h0' : j.val ≠ 2 * t := fun e => h0 (Fin.ext e)
    have h1' : j.val ≠ 2 * t + 1 := fun e => h1 (Fin.ext e)
    by_cases hlt : j.val < 2 * t
    · rw [if_pos hlt, if_pos (by omega)]
    · rw [if_neg hlt, if_neg (by omega)]
  rw [hr]

/-- After the last round every other chunk holds the gathered rows. -/
theorem oRest_last : oRest m d L 24 (by decide) = bigSep (((Finset.univ : Finset (Fin 50)).erase 48).erase 49) fun j => oChunk d (chunkOf (wL L) j) (Go m d) := by
  unfold oRest
  refine bigSep_congr fun j hj => ?_
  have h1 : j ≠ jB 24 (by decide) := (Finset.mem_erase.mp hj).1
  have h0 : j ≠ jA 24 (by decide) := (Finset.mem_erase.mp (Finset.mem_erase.mp hj).2).1
  have h0' : j.val ≠ 48 := fun e => h0 (Fin.ext e)
  have h1' : j.val ≠ 49 := fun e => h1 (Fin.ext e)
  rw [if_pos (by have := j.isLt; omega)]

end Res

end Cert.Proof.LookupBits

end
-- ==== Proof.Bits.MainLoop.lean ====
/-
  The tile's main loop and its epilogue.  One round: the gather into the first staging buffer is awaited, the buffer
  is copied out to its chunk of the result and, unless it is the last round, that copy is awaited and the gather of
  the chunk two ahead is started into the buffer; the same for the second buffer.  After the last round the two
  copies still under way are awaited, and the tile holds its fifty chunks at the gathered rows.
-/
import proofs.«208021_g30185030156587_cont_9to1_1229_25_alg».proof.Proof.Bits.LoopRes

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Main

variable [FloatOps F]
variable (m : (ℓ : Loc nD τ sig) → Buf (Elt F) ℓ) (d : Dev nD) (L : grid1.Coords)

omit [FloatOps F] in
theorem cond2_iff (t : Fin k1_t3_loop.trips) : k1_cond2 t = 1#1 ↔ t.val < 24 := by revert t; decide
omit [FloatOps F] in
theorem cond3_iff (t : Fin k1_t3_loop.trips) : k1_cond3 t = 1#1 ↔ t.val < 24 := by revert t; decide

/-- every word of the list names a row of the table -/
theorem idxOK_lt (fi : Buf (Elt F) ((V d (cV L) (jV L)).loc cc1_scratch1)) (hfi : IdxOK m d L fi) (p : S6400.Idx) : (fi p).toNat < 1000 := by
  have hw : (wL L).val < 32 := (wL L).isLt
  have hp : (p 0).val < 6400 := (p 0).isLt
  have h := hfi p (ix1 ⟨baseL L + (p 0).val, by unfold baseL; omega⟩) rfl
  rw [h]; omega

theorem idx_hin (fi : Buf (Elt F) ((V d (cV L) (jV L)).loc cc1_scratch1)) (hfi : IdxOK m d L fi)
    (off : Fin 1 → ℕ) (inb : ∀ a, off a + S128.size a ≤ S6400.size a) :
    ∀ x, ((idxAt off inb).view.read (Elt F) fi x).toNat < S1000x128.size gathers_S1000x128_S128x128.axis := by
  intro x
  rw [(View.read_apply _ _).trans (cast_eq _ _)]
  exact idxOK_lt m d L fi hfi _

omit [FloatOps F] in
theorem hN0 : ∀ h : S1000x128.Gathers 0 S128x128, ∑ j, ((buf0K).slice (S128x128.rowRect h.axis' j) (S128x128.stride_rowRect h.axis' j)).view.dmaCredit
    = (buf0K).view.dmaCredit := by decide
omit [FloatOps F] in
theorem hN1 : ∀ h : S1000x128.Gathers 0 S128x128, ∑ j, ((buf1K).slice (S128x128.rowRect h.axis' j) (S128x128.stride_rowRect h.axis' j)).view.dmaCredit
    = (buf1K).view.dmaCredit := by decide

omit [FloatOps F] in
theorem off6_eq (t : Fin k1_t3_loop.trips) : k1_off6 t = ![128 * (2 * (t.val + 1))] :=
  (k1_off6_eq t).trans (congrArg (fun x : ℕ => ![x]) (by omega))
omit [FloatOps F] in
theorem off8_eq (t : Fin k1_t3_loop.trips) : k1_off8 t = ![128 * (2 * (t.val + 1) + 1)] :=
  (k1_off8_eq t).trans (congrArg (fun x : ℕ => ![x]) (by omega))

set_option maxHeartbeats 4000000 in
/-- A round that is not the last. -/
theorem trip_mid (O : CellTallies nD τ sig (HIx 1)) (W : Waits sig (HIx 1)) (t : Fin k1_t3_loop.trips) (h24 : t.val < 24) (v2 c0 : BitVec 32) :
    iprop(Transfers.MayWaits (V d (cV L) (jV L)) (default : HIx 1) O ∗ Inv m d L O W t.val)
      ⊢ wp frame (wpE (defs₀ (F := F)) 𝒱₀ (V d (cV L) (jV L)) none) Set.univ
          (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0 t ())
          fun _ => iprop(Transfers.MayWaits (V d (cV L) (jV L)) (default : HIx 1) O ∗ Inv m d L O W (t.val + 1)) := by
  have h2 : k1_cond2 t = 1#1 := (cond2_iff t).mpr h24
  have h3 : k1_cond3 t = 1#1 := (cond3_iff t).mpr h24
  have ht : t.val < 25 := by omega
  unfold k1_t3_body
  rw [Inv_head m d L O W t.val ht, Inv_head m d L O W (t.val + 1) (by omega)]
  unfold Head
  rw [oMix_take m d L t.val ht, ← oMix_put m d L t.val ht]
  unfold gDel
  iintro ⟨#Hmw, %fi, %hfi, ⟨HF0, HF1, Hir, Hs6, Hs7, Ho0, Ho1, Hrest⟩, %W', %hW', HO⟩
  ihave Ho0' := (Entails.of_eq (show (oLoc d ↦[oSetN L (2 * t.val)]{fullShare} m (oLoc d) : sProp 𝕄)
      = ((oChunkK L t 0).view.loc (V d (cV L) (jV L)) ↦[(oChunkK L t 0).view.set]{fullShare} m (oLoc d)) by rw [← oSetN_eq L t 0]; rfl)) $$ Ho0
  ihave Ho1' := (Entails.of_eq (show (oLoc d ↦[oSetN L (2 * t.val + 1)]{fullShare} m (oLoc d) : sProp 𝕄)
      = ((oChunkK L t 1).view.loc (V d (cV L) (jV L)) ↦[(oChunkK L t 1).view.set]{fullShare} m (oLoc d)) by rw [← oSetN_eq L t 1]; rfl)) $$ Ho1
  sl_exec
  -- the gather into the first buffer has landed
  iapply (Transfers.wp_waitLocalO countersEmb 𝒱₀ (V d (cV L) (jV L)) none (default : HIx 1) (rfl : (buf0K).view.dmaCredit = _)) $$ [HF0 HO]
  · isplitl [HF0]; · iexact HF0
    isplitl [HO]; · iexact HO
    iapply (Transfers.MayWaits.elim (SemLoc.dma cc1_scratch4.sem)) $$ Hmw
  iintro ⟨⟨⟨%fb0, Hb0, %hb0⟩, Hsh0, Hi0⟩, Hg0, HO⟩
  -- out it goes, the copy is awaited
  sl_exec
  -- slice 2 * t.val of the list back among what nobody borrows, slice 2 * (t.val + 1) out of it
  ihave Hsw := (pts_swap (F := F) (ℓ := (V d (cV L) (jV L)).loc cc1_scratch1) (q := fullShare) (f := fi) (X := idxSetN (2 * t.val)) (Y := idxSetN (2 * t.val + 1)) (Z := idxSetN (2 * (t.val + 1)))
      (idxSetN_disjoint _ _ (by omega)) (idxSetN_disjoint _ _ (by omega))) $$ [Hi0 Hir]
  · isplitl [Hi0] <;> iassumption
  icases Hsw with ⟨Hin, Hir⟩
  ihave Hin' := (Entails.of_eq (show ((V d (cV L) (jV L)).loc cc1_scratch1 ↦[idxSetN (2 * (t.val + 1))]{fullShare} fi : sProp 𝕄)
      = ((idxAt (k1_off6 t) (k1_off6_inb t h2)).view.loc (V d (cV L) (jV L)) ↦[(idxAt (k1_off6 t) (k1_off6_inb t h2)).view.set]{fullShare} fi)
      by rw [set_idxAt (2 * (t.val + 1)) (by omega) _ _ (off6_eq t)])) $$ Hin
  ihave Hsh' := (Entails.of_eq (pts_shSK (F := F) d L _ _).symm) $$ Hsh0
  iapply (SparseCore.wp_indirectGatherLocal countersEmb 𝒱₀ (V d (cV L) (jV L)) none (hg := gathers_S1000x128_S128x128) (default : HIx 1)
      (buf0K).view.dmaCredit (hN0 _) (by decide) (idx_hin m d L fi hfi (k1_off6 t) (k1_off6_inb t h2))) $$ [Hsh' Hb0 Hin' Hg0]
  · isplitl [Hsh']; · iexact Hsh'
    isplitl [Hb0]; · iexact Hb0
    isplitl [Hin']; · iexact Hin'
    iexact Hg0
  iintro Hfl
  ihave HF0 := (Transfers.Flight_mono countersEmb (V d (cV L) (jV L)) (gather_deliv m d L buf0K (qS L).left fullShare (2 * (t.val + 1)) (by omega)
      (k1_off6 t) (k1_off6_inb t h2) (off6_eq t) fb0 fi fi (fun _ _ => rfl) hfi (idx_hin m d L fi hfi _ _))) $$ Hfl

  sl_exec
  -- the gather into the second buffer has landed
  iapply (Transfers.wp_waitLocalO countersEmb 𝒱₀ (V d (cV L) (jV L)) none (default : HIx 1) (rfl : (buf1K).view.dmaCredit = _)) $$ [HF1 HO]
  · isplitl [HF1]; · iexact HF1
    isplitl [HO]; · iexact HO
    iapply (Transfers.MayWaits.elim (SemLoc.dma cc1_scratch5.sem)) $$ Hmw
  iintro ⟨⟨⟨%fb1, Hb1, %hb1⟩, Hsh1, Hi1⟩, Hg1, HO⟩
  sl_exec
  -- slice 2 * t.val + 1 of the list back among what nobody borrows, slice 2 * (t.val + 1) + 1 out of it
  ihave Hsw := (pts_swap (F := F) (ℓ := (V d (cV L) (jV L)).loc cc1_scratch1) (q := fullShare) (f := fi) (X := idxSetN (2 * t.val + 1)) (Y := idxSetN (2 * (t.val + 1))) (Z := idxSetN (2 * (t.val + 1) + 1))
      (idxSetN_disjoint _ _ (by omega)) (idxSetN_disjoint _ _ (by omega))) $$ [Hi1 Hir]
  · isplitl [Hi1] <;> iassumption
  icases Hsw with ⟨Hin, Hir⟩
  ihave Hin' := (Entails.of_eq (show ((V d (cV L) (jV L)).loc cc1_scratch1 ↦[idxSetN (2 * (t.val + 1) + 1)]{fullShare} fi : sProp 𝕄)
      = ((idxAt (k1_off8 t) (k1_off8_inb t h3)).view.loc (V d (cV L) (jV L)) ↦[(idxAt (k1_off8 t) (k1_off8_inb t h3)).view.set]{fullShare} fi)
      by rw [set_idxAt (2 * (t.val + 1) + 1) (by omega) _ _ (off8_eq t)])) $$ Hin
  ihave Hsh' := (Entails.of_eq (pts_shSK (F := F) d L _ _).symm) $$ Hsh1
  iapply (SparseCore.wp_indirectGatherLocal countersEmb 𝒱₀ (V d (cV L) (jV L)) none (hg := gathers_S1000x128_S128x128) (default : HIx 1)
      (buf1K).view.dmaCredit (hN1 _) (by decide) (idx_hin m d L fi hfi (k1_off8 t) (k1_off8_inb t h3))) $$ [Hsh' Hb1 Hin' Hg1]
  · isplitl [Hsh']; · iexact Hsh'
    isplitl [Hb1]; · iexact Hb1
    isplitl [Hin']; · iexact Hin'
    iexact Hg1
  iintro Hfl
  ihave HF1 := (Transfers.Flight_mono countersEmb (V d (cV L) (jV L)) (gather_deliv m d L buf1K (qS L).right fullShare (2 * (t.val + 1) + 1) (by omega)
      (k1_off8 t) (k1_off8_inb t h3) (off8_eq t) fb1 fi fi (fun _ _ => rfl) hfi (idx_hin m d L fi hfi _ _))) $$ Hfl

  sl_exec
  sl_step
  -- the two chunks hold the gathered rows
  ihave Ho0 := (Entails.of_eq (out_val m d L t 0 buf0K fb0 hb0 (m (oLoc d)) (trip_mid.sl.dma0 d L fb0) rfl)) $$ Ho0'
  ihave Ho1 := (Entails.of_eq (out_val m d L t 1 buf1K fb1 hb1 (m (oLoc d)) (trip_mid.sl.dma0_1 d L fb1) rfl)) $$ Ho1'
  isplitr; · iexact Hmw
  iexists fi
  isplitr; · ipureintro; exact hfi
  isplitl [HF0 HF1 Hir Hs6 Hs7 Ho0 Ho1 Hrest]
  · isplitl [HF0]; · iexact HF0
    isplitl [HF1]; · iexact HF1
    isplitl [Hir]; · iexact Hir
    isplitl [Hs6]; · iexact Hs6
    isplitl [Hs7]; · iexact Hs7
    isplitl [Ho0]; · iexact Ho0
    isplitl [Ho1]; · iexact Ho1
    iexact Hrest
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

omit [FloatOps F] in
/-- A set handed back beside everything else is the whole. -/
theorem pts_back {ℓ : Loc nD τ sig} {q : PosShare TreeShare} {f : Buf (Elt F) ℓ} {X : Finset (Idx ℓ)} :
    (iprop((ℓ ↦[X]{q} f) ∗ ℓ ↦[Finset.univ \ X]{q} f) : sProp 𝕄) ⊢ ℓ ↦{q} f :=
  (pointsTo_split_subset (Finset.subset_univ X)).2

/-- What the copy of a staging buffer holding chunk k out to that chunk delivers. -/
theorem out_deliv (t : Fin k1_t3_loop.trips) (r : Fin 2) (dst : Memref sig .scVector .vmem S128x128 .f32)
    (fb : Buf (Elt F) (dst.view.loc (V d (cV L) (jV L)))) (hb : BufOK m d L dst (2 * t.val + r.val) fb) (fo : Buf (Elt F) (oLoc d))
    (w : S128x128.Idx → Elt F .f32) (hw : w = ReadAs.same.apply (dst.view.read (Elt F) fb)) (k : ℕ) (hk : 2 * t.val + r.val = k) :
    iprop(((oChunkK L t r).view.loc (V d (cV L) (jV L)) ↦[(oChunkK L t r).view.set]{fullShare}
          (oChunkK L t r).view.writes (Elt F) fo [⟨Rect.whole S128x128, w⟩])
        ∗ (dst.view.loc (V d (cV L) (jV L)) ↦[dst.view.set]{fullShare} fb))
      ⊢ (oDel m d L dst k : sProp 𝕄) := by
  subst hk
  unfold oDel
  rw [out_val m d L t r dst fb hb fo w hw]
  iintro ⟨Ho, Hb⟩
  isplitl [Ho]; · iexact Ho
  iexists _; iexact Hb

omit [FloatOps F] in
/-- A transfer under way, its semaphore and amount spelt another way. -/
theorem flight_respell {c : Thread nD τ} {sm sm' : SemLoc sig} {N N' : ℕ} (hs : sm = sm') (hN : N = N') {D D' : sProp 𝕄} (h : D ⊢ D') :
    (Transfers.Flight countersEmb c sm (default : HIx 1) N D : sProp 𝕄) ⊢ Transfers.Flight countersEmb c sm' (default : HIx 1) N' D' := by
  subst hs hN; exact Transfers.Flight_mono countersEmb c h

set_option maxHeartbeats 4000000 in
/-- The last round: both copies out stay under way. -/
theorem trip_last (O : CellTallies nD τ sig (HIx 1)) (W : Waits sig (HIx 1)) (t : Fin k1_t3_loop.trips) (h24 : t.val = 24) (v2 c0 : BitVec 32) :
    iprop(Transfers.MayWaits (V d (cV L) (jV L)) (default : HIx 1) O ∗ Inv m d L O W t.val)
      ⊢ wp frame (wpE (defs₀ (F := F)) 𝒱₀ (V d (cV L) (jV L)) none) Set.univ
          (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0 t ())
          fun _ => iprop(Transfers.MayWaits (V d (cV L) (jV L)) (default : HIx 1) O ∗ Inv m d L O W (t.val + 1)) := by
  have h2 : ¬ k1_cond2 t = 1#1 := fun h => by have := (cond2_iff t).mp h; omega
  have h3 : ¬ k1_cond3 t = 1#1 := fun h => by have := (cond3_iff t).mp h; omega
  have ht : t.val < 25 := by omega
  have hrest : oRest m d L t.val ht = bigSep (((Finset.univ : Finset (Fin 50)).erase 48).erase 49) fun j => oChunk d (chunkOf (wL L) j) (Go m d) := by
    have e : t.val = 24 := h24
    revert ht; rw [e]; intro _; exact oRest_last m d L
  unfold k1_t3_body
  rw [Inv_head m d L O W t.val ht, Inv_exit m d L O W (t.val + 1) (by omega)]
  unfold Head Exit
  rw [oMix_take m d L t.val ht, hrest]
  unfold gDel
  iintro ⟨#Hmw, %fi, %hfi, ⟨HF0, HF1, Hir, Hs6, Hs7, Ho0, Ho1, Hrest⟩, %W', %hW', HO⟩
  ihave Ho0' := (Entails.of_eq (show (oLoc d ↦[oSetN L (2 * t.val)]{fullShare} m (oLoc d) : sProp 𝕄)
      = ((oChunkK L t 0).view.loc (V d (cV L) (jV L)) ↦[(oChunkK L t 0).view.set]{fullShare} m (oLoc d)) by rw [← oSetN_eq L t 0]; rfl)) $$ Ho0
  ihave Ho1' := (Entails.of_eq (show (oLoc d ↦[oSetN L (2 * t.val + 1)]{fullShare} m (oLoc d) : sProp 𝕄)
      = ((oChunkK L t 1).view.loc (V d (cV L) (jV L)) ↦[(oChunkK L t 1).view.set]{fullShare} m (oLoc d)) by rw [← oSetN_eq L t 1]; rfl)) $$ Ho1
  sl_exec
  iapply (Transfers.wp_waitLocalO countersEmb 𝒱₀ (V d (cV L) (jV L)) none (default : HIx 1) (rfl : (buf0K).view.dmaCredit = _)) $$ [HF0 HO]
  · isplitl [HF0]; · iexact HF0
    isplitl [HO]; · iexact HO
    iapply (Transfers.MayWaits.elim (SemLoc.dma cc1_scratch4.sem)) $$ Hmw
  iintro ⟨⟨⟨%fb0, Hb0, %hb0⟩, Hsh0, Hi0⟩, Hg0, HO⟩
  sl_exec
  iapply (Transfers.wp_waitLocalO countersEmb 𝒱₀ (V d (cV L) (jV L)) none (default : HIx 1) (rfl : (buf1K).view.dmaCredit = _)) $$ [HF1 HO]
  · isplitl [HF1]; · iexact HF1
    isplitl [HO]; · iexact HO
    iapply (Transfers.MayWaits.elim (SemLoc.dma cc1_scratch5.sem)) $$ Hmw
  iintro ⟨⟨⟨%fb1, Hb1, %hb1⟩, Hsh1, Hi1⟩, Hg1, HO⟩
  sl_exec
  sl_step
  -- the list whole again
  ihave Hi := (pts_out (F := F) (ℓ := ((V d (cV L) (jV L)).loc cc1_scratch1)) (q := fullShare) (f := fi) (X := idxSetN (2 * t.val)) (Y := idxSetN (2 * t.val + 1))
      (idxSetN_disjoint _ _ (by omega))).1 $$ [Hi0 Hir]
  · isplitl [Hi0] <;> iassumption
  ihave Hi := (pts_back (F := F) (ℓ := ((V d (cV L) (jV L)).loc cc1_scratch1)) (q := fullShare) (f := fi) (X := idxSetN (2 * t.val + 1))) $$ [Hi1 Hi]
  · isplitl [Hi1] <;> iassumption
  -- the copies under way deliver the two chunks
  ihave HF6 := (flight_respell (F := F) (c := (V d (cV L) (jV L))) (sm := SemLoc.dma ⟨5, _⟩) (sm' := SemLoc.dma cc1_scratch6.sem)
      (N := 524288) (N' := (buf0K).view.dmaCredit) rfl rfl
      (out_deliv m d L t 0 buf0K fb0 hb0 (m (oLoc d)) (trip_last.sl.dma0 d L fb0) rfl 48 (by rw [h24]; rfl))) $$ Hs6
  ihave HF7 := (flight_respell (F := F) (c := (V d (cV L) (jV L))) (sm := SemLoc.dma ⟨6, _⟩) (sm' := SemLoc.dma cc1_scratch7.sem)
      (N := 524288) (N' := (buf1K).view.dmaCredit) rfl rfl
      (out_deliv m d L t 1 buf1K fb1 hb1 (m (oLoc d)) (trip_last.sl.dma0_1 d L fb1) rfl 49 (by rw [h24]; rfl))) $$ Hs7
  isplitr; · iexact Hmw
  iexists fi
  isplitr; · ipureintro; exact hfi
  isplitl [Hg0 Hg1 HF6 HF7 Hsh0 Hsh1 Hi Hrest]
  · isplitl [Hg0]; · iexact Hg0
    isplitl [Hg1]; · iexact Hg1
    isplitl [HF6]; · iexact HF6
    isplitl [HF7]; · iexact HF7
    isplitl [Hsh0]; · iexact Hsh0
    isplitl [Hsh1]; · iexact Hsh1
    isplitl [Hi]; · iexact Hi
    iexact Hrest
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

/-- The kernel's body after its first part: the main loop and the two final waits, at the values the first part returns. -/
noncomputable def loopTail (L : grid1.Coords) (v2 c0 : BitVec 32) :
    Prog (TpuEff nD τ sig (Elt F) Λ₀ (.scVector ((L 0).castLE hcore1) ((L 1).castLE hsub1))) PUnit := do
  Scf.Loop.for k1_t3_loop k1_t3_ok ⟨⟩ (k1_t3_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 v2 c0)
  let v27 : Memref sig .scVector .hbm S128x128 .f32 := (oV).slice (Rect.unit (s := S204800x128) (k1_off9 L) S128x128.size (k1_off9_inb L)) (fun _ => rfl)
  let v28 : Memref sig .scVector .vmem S1x128x128 .f32 := (bufsV).slice (Rect.unit (s := S2x128x128) ![0, 0, 0] S1x128x128.size inb_S2x128x128_S1x128x128_0_0_0) (fun _ => rfl)
  let v29 : Memref sig .scVector .vmem S128x128 .f32 := v28.squeeze S128x128 squeezes_S1x128x128_S128x128
  Prog.lift (.waitDma2 cc1_scratch6.sem v29 v27 ((View.wordExact_bits rfl).reshape _ _) (View.wordExact_bits rfl))
  let v33 : Memref sig .scVector .hbm S128x128 .f32 := (oV).slice (Rect.unit (s := S204800x128) (k1_off9 L) S128x128.size (k1_off9_inb L)) (fun _ => rfl)
  let v34 : Memref sig .scVector .vmem S1x128x128 .f32 := (bufsV).slice (Rect.unit (s := S2x128x128) ![1, 0, 0] S1x128x128.size inb_S2x128x128_S1x128x128_1_0_0) (fun _ => rfl)
  let v35 : Memref sig .scVector .vmem S128x128 .f32 := v34.squeeze S128x128 squeezes_S1x128x128_S128x128
  Prog.lift (.waitDma2 cc1_scratch7.sem v35 v33 ((View.wordExact_bits rfl).reshape _ _) (View.wordExact_bits rfl))
  pure ⟨⟩

/-- The kernel's body is its first part followed by that. -/
theorem body_eq_tail (L : grid1.Coords) :
    cc1__sc_gather_body_skel (F := F) L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0
      = (k1_part2 L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0 >>= fun r => loopTail (F := F) L r.1 r.2) := rfl

omit [FloatOps F] in
theorem oSetN_48 : oSetN L 48 = oSet (chunkOf (wL L) 48) := by unfold oSetN; rw [dif_pos (by decide)]; rfl
omit [FloatOps F] in
theorem oSetN_49 : oSetN L 49 = oSet (chunkOf (wL L) 49) := by unfold oSetN; rw [dif_pos (by decide)]; rfl

set_option maxHeartbeats 4000000 in
/-- The main loop and the epilogue: from the invariant before the first round to the tile's fifty chunks holding the
    gathered rows, its buffers, shares and semaphores back. -/
theorem main_loop (O : CellTallies nD τ sig (HIx 1)) (W : Waits sig (HIx 1)) (v2 c0 : BitVec 32) :
    iprop(Transfers.MayWaits (V d (cV L) (jV L)) (default : HIx 1) O ∗ Inv m d L O W 0)
      ⊢ wp frame (wpE (defs₀ (F := F)) 𝒱₀ (V d (cV L) (jV L)) none) Set.univ (loopTail (F := F) L v2 c0)
          fun _ => iprop(oBlk d (wL L) (Go m d) ∗ shTok m d (cV L) (jL L)
            ∗ (∃ fi, (V d (cV L) (jV L)).loc cc1_scratch1 ↦{fullShare} fi)
            ∗ (∃ fb, (buf0K).view.loc (V d (cV L) (jV L)) ↦[(buf0K).view.set]{fullShare} fb)
            ∗ (∃ fb, (buf1K).view.loc (V d (cV L) (jV L)) ↦[(buf1K).view.set]{fullShare} fb)
            ∗ semVal (g0cell d (cV L) (jV L)) 0 ∗ semVal (g1cell d (cV L) (jV L)) 0
            ∗ semVal (o0cell d (cV L) (jV L)) 0 ∗ semVal (o1cell d (cV L) (jV L)) 0
            ∗ ∃ W', ⌜∀ p ∈ W', p ∈ W ∨ p.2 = none ∨ p.2 = some (0 : Fin 1)⌝ ∗ owes (V d (cV L) (jV L)) O W') := by
  unfold loopTail
  iintro ⟨#Hmw, HI⟩
  sl_for (fun (k : ℕ) (_ : Unit) => iprop(Transfers.MayWaits (V d (cV L) (jV L)) (default : HIx 1) O ∗ Inv m d L O W k)) $$ [HI]
  case region =>
    intro k acc
    have hk : k.val < 25 := lt_of_lt_of_eq k.isLt trips3
    by_cases h : k.val < 24
    · exact trip_mid m d L O W k h v2 c0
    · exact trip_last m d L O W k (by omega) v2 c0
  · isplitr; · iexact Hmw
    iexact HI
  iintro %acc ⟨-, HI⟩
  ihave HI' := (Entails.of_eq (Inv_exit m d L O W _ (by decide))) $$ HI
  unfold Exit oDel oBlk
  rw [SparseCore.bigSep_erase' (Finset.mem_univ (48 : Fin 50)) (Φ := fun j : Fin 50 => oChunk d (chunkOf (wL L) j) (Go m d)),
    SparseCore.bigSep_erase' (show (49 : Fin 50) ∈ (Finset.univ : Finset (Fin 50)).erase 48 by decide)]
  icases HI' with ⟨%fi, %hfi, ⟨Hg0, Hg1, HF6, HF7, Hsh0, Hsh1, Hi, Hrest⟩, %W', %hW', HO⟩
  sl_exec
  -- the copy of chunk 48 has landed
  iapply (Transfers.wp_waitLocalO countersEmb 𝒱₀ (V d (cV L) (jV L)) none (default : HIx 1) (rfl : ((oV).slice (Rect.unit (s := S204800x128) (k1_off9 L) S128x128.size (k1_off9_inb L)) (fun _ => rfl)).view.dmaCredit = (buf0K).view.dmaCredit)) $$ [HF6 HO]
  · isplitl [HF6]; · iexact HF6
    isplitl [HO]; · iexact HO
    iapply (Transfers.MayWaits.elim (SemLoc.dma cc1_scratch6.sem)) $$ Hmw
  iintro ⟨⟨Ho48, %fb0, Hb0⟩, Hs6, HO⟩
  sl_exec
  -- and that of chunk 49
  iapply (Transfers.wp_waitLocalO countersEmb 𝒱₀ (V d (cV L) (jV L)) none (default : HIx 1) (rfl : ((oV).slice (Rect.unit (s := S204800x128) (k1_off9 L) S128x128.size (k1_off9_inb L)) (fun _ => rfl)).view.dmaCredit = (buf1K).view.dmaCredit)) $$ [HF7 HO]
  · isplitl [HF7]; · iexact HF7
    isplitl [HO]; · iexact HO
    iapply (Transfers.MayWaits.elim (SemLoc.dma cc1_scratch7.sem)) $$ Hmw
  iintro ⟨⟨Ho49, %fb1, Hb1⟩, Hs7, HO⟩
  sl_exec
  sl_step
  ihave Ho48' := (Entails.of_eq (show (oLoc d ↦[oSetN L 48]{fullShare} Go m d : sProp 𝕄) = oChunk d (chunkOf (wL L) 48) (Go m d) by rw [oSetN_48])) $$ Ho48
  ihave Ho49' := (Entails.of_eq (show (oLoc d ↦[oSetN L 49]{fullShare} Go m d : sProp 𝕄) = oChunk d (chunkOf (wL L) 49) (Go m d) by rw [oSetN_49])) $$ Ho49
  isplitl [Ho48' Ho49' Hrest]
  · isplitl [Ho48']; · iexact Ho48'
    isplitl [Ho49']; · iexact Ho49'
    iexact Hrest
  isplitl [Hsh0 Hsh1]
  · iapply (pointsTo_share (PosShare.mem_left_op_right (qS L))).2
    isplitl [Hsh0] <;> iassumption
  isplitl [Hi]; · iexists _; iexact Hi
  isplitl [Hb0]; · iexists _; iexact Hb0
  isplitl [Hb1]; · iexists _; iexact Hb1
  isplitl [Hg0]; · iexact Hg0
  isplitl [Hg1]; · iexact Hg1
  isplitl [Hs6]; · iexact Hs6
  isplitl [Hs7]; · iexact Hs7
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

end Main

end Cert.Proof.LookupBits

end
-- ==== Proof.Bits.KernelValue.lean ====
/-
  The kernel's result as a term of its arguments is the specification's function, index by index, for any float
  values. Entry (b, l, k) of the result is row 200 b + l, column k, of the gathered rows (the last reshape keeps the
  row-major order); row r = 200 b + l of the gathered rows is row (token r mod 5) * 200 + r mod 200 of the combined
  table, where token r is x (b, l) (the flattening keeps the row-major order) and r mod 200 = l; row v * 200 + l of the
  combined table is table row v plus position row l (the table broadcast along the positions, the positions along the
  table rows, then the first two axes merged); and position row l of the first 200 positions is row l of the position
  table. The row a token word names is its value mod 5 on both sides, so no range condition is needed.
-/
import proofs.«208021_g30185030156587_cont_9to1_1229_25_alg».proof.Proof.Bits.Common
import proofs.«208021_g30185030156587_cont_9to1_1229_25_alg».proof.Proof.Spec
import Idealize.ShloMosaic.Lib.ValueIdx
import Idealize.ShloMosaic.Lib.ValueLayout
import Idealize.ShloMosaic.Lib.Pipeline.Value

noncomputable section

namespace Cert.Proof.LookupBits

open Cert.Kernel Cert.Kernel.Gen Idealize.ShloMosaic Idealize.ShloMosaic.ValueIdx

section Generic

variable {F : FTy → Type} [FloatOps F]

/-- Row 200 b + l of a [204800, _] array. -/
def rowAt (b : Fin 1024) (l : Fin 200) : Fin 204800 := ⟨b.val * 200 + l.val, by omega⟩

/-- Row v * 200 + l of the combined table. -/
def combRow (v : Fin 5) (l : Fin 200) : Fin 1000 := ⟨v.val * 200 + l.val, by omega⟩

/-- The last reshape keeps the row-major order: entry (b, l, k) is row 200 b + l, column k. -/
theorem resOf_apply (o : FVec F S204800x128 .f32) (b : Fin 1024) (l : Fin 200) (k : Fin 128) :
    resOf o (ix3 b l k) = o (ix2 (rowAt b l) k) := by
  unfold resOf
  exact shapeCast_apply _ _ _ _ (by
    rw [Shape.rowMajor_val_two, Shape.rowMajor_val_three]
    rfl)

/-- The flattened tokens at position 200 b + l are token (b, l). -/
theorem xfOf_apply (x : IVec S1024x200 32) (b : Fin 1024) (l : Fin 200) : xfOf x (ix1 (rowAt b l)) = x (ix2 b l) := by
  unfold xfOf
  exact shapeCast_apply _ _ _ _ (by
    rw [Shape.rowMajor_val_two, Shape.rowMajor_val_one]
    rfl)

/-- The first 200 positions, as a matrix, at (l, k): the position table at (0, l, k). -/
theorem pe2Of_apply (pe : FVec F S1x2048x128 .f32) (l : Fin 200) (k : Fin 128) :
    pe2Of pe (ix2 l k) = pe (ix3 (0 : Fin 1) (Cert.Spec.posOf l) k) := by
  unfold pe2Of
  refine (shapeCast_1ab_ab_apply _ _ l k).trans ?_
  exact slice3_axis1_apply 0 pe _ (0 : Fin 1) l k (Cert.Spec.posOf l) (Nat.zero_add _).symm

/-- The TensorCore region's payload at (v, l, k): table row v plus position row l, at column k. -/
theorem pay_apply (tab : FVec F S5x128 .f32) (pe2 : FVec F S200x128 .f32) (v : Fin 5) (l : Fin 200) (k : Fin 128) :
    k0_pay1 (F := F) tab pe2 (ix3 v l k) = FloatOps.addf (tab (ix2 v k)) (pe2 (ix2 l k)) := by
  have h5 : broadcastTo S5x200x128 (shapeCast S5x1x128 tab shapeCasts_S5x128_S5x1x128) broadcasts_S5x1x128_S5x200x128 (ix3 v l k)
      = tab (ix2 v k) := by
    refine (broadcastTo_apply _ _ (ix3 v l k) (ix3 v (0 : Fin 1) k) (fun a => by
      match a with
      | ⟨0, _⟩ => rfl
      | ⟨1, _⟩ => rfl
      | ⟨2, _⟩ => rfl)).trans ?_
    exact shapeCast_apply _ _ _ _ (by
      rw [Shape.rowMajor_val_two, Shape.rowMajor_val_three]
      show v.val * 128 + k.val = (v.val * 1 + 0) * 128 + k.val
      omega)
  have h6 : broadcastTo S5x200x128
        (shapeCast S1x200x128 (shapeCast S200x128 pe2 shapeCasts_S200x128_S200x128) shapeCasts_S200x128_S1x200x128)
        broadcasts_S1x200x128_S5x200x128 (ix3 v l k)
      = pe2 (ix2 l k) := by
    refine (broadcastTo_apply _ _ (ix3 v l k) (ix3 (0 : Fin 1) l k) (fun a => by
      match a with
      | ⟨0, _⟩ => rfl
      | ⟨1, _⟩ => rfl
      | ⟨2, _⟩ => rfl)).trans ?_
    rw [shapeCast_ab_1ab_apply, shapeCast_self]
  show FloatOps.addf
      (broadcastTo S5x200x128 (shapeCast S5x1x128 tab shapeCasts_S5x128_S5x1x128) broadcasts_S5x1x128_S5x200x128 (ix3 v l k))
      (broadcastTo S5x200x128
        (shapeCast S1x200x128 (shapeCast S200x128 pe2 shapeCasts_S200x128_S200x128) shapeCasts_S200x128_S1x200x128)
        broadcasts_S1x200x128_S5x200x128 (ix3 v l k)) = _
  rw [h5, h6]

/-- The combined table at row v * 200 + l, column k: table row v plus position row l. -/
theorem combOf_apply (tab : FVec F S5x128 .f32) (pe2 : FVec F S200x128 .f32) (v : Fin 5) (l : Fin 200) (k : Fin 128) :
    combOf tab pe2 (ix2 (combRow v l) k) = FloatOps.addf (tab (ix2 v k)) (pe2 (ix2 l k)) := by
  unfold combOf
  refine (shapeCast_apply _ _ (ix2 (combRow v l) k) (ix3 v l k) (by
    rw [Shape.rowMajor_val_two, Shape.rowMajor_val_three]
    rfl)).trans ?_
  exact pay_apply tab pe2 v l k

/-- Row 200 b + l of the gathered rows is the combined table's row (token mod 5) * 200 + l. -/
theorem gatherOut_apply (comb : FVec F S1000x128 .f32) (xf : IVec S204800 32) (b : Fin 1024) (l : Fin 200) (k : Fin 128) :
    gatherOut comb xf (ix2 (rowAt b l) k) = comb (ix2 (combRow (Cert.Spec.rowOf (xf (ix1 (rowAt b l)))) l) k) := by
  unfold gatherOut
  refine congrArg comb ?_
  refine congrArg (fun r : Fin 1000 => ix2 r k) (Fin.ext ?_)
  show (xf (ix1 (rowAt b l))).toNat % 5 * 200 + (b.val * 200 + l.val) % 200 = (xf (ix1 (rowAt b l))).toNat % 5 * 200 + l.val
  have := l.isLt
  omega

/-- The kernel's result is the specification's function, for any float values. -/
theorem kernelOut_eq_spec_any (x : IVec S1024x200 32) (tab : FVec F S5x128 .f32) (pe : FVec F S1x2048x128 .f32) :
    kernelOut (F := F) x tab pe = Cert.Spec.out (F := F) x tab pe := by
  funext j
  obtain ⟨b, l, k, rfl⟩ : ∃ (b : Fin 1024) (l : Fin 200) (k : Fin 128), j = ix3 b l k := ⟨j 0, j 1, j 2, eq_ix3 j⟩
  unfold kernelOut
  rw [resOf_apply, gatherOut_apply, xfOf_apply, combOf_apply, pe2Of_apply]
  rfl

end Generic

end Cert.Proof.LookupBits

end
-- ==== Proof.Bits.TileObl.lean ====
/-
  The tile's task, whole.  The kernel's body is its first part — the tile's tokens copied in, the shared copy of the
  combined table made by tile 0, the list of row numbers filled, the barrier, the first two gathers started — followed
  by the main loop and the two final waits.  Joined, they take what the tile is handed (its block of the tokens, its
  fifty chunks of the result, on tile 0 the table's share and the shared buffer) to what it hands back (the block, the
  chunks holding the gathered rows, its read share of the shared copy), with its scratch and semaphores as found.
-/
import proofs.«208021_g30185030156587_cont_9to1_1229_25_alg».proof.Proof.Bits.Prologue
import proofs.«208021_g30185030156587_cont_9to1_1229_25_alg».proof.Proof.Bits.MainLoop
import proofs.«208021_g30185030156587_cont_9to1_1229_25_alg».proof.Proof.Bits.KernelValue

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "combV" => (Memref.whole Cert.Kernel.main_v3_scv : Memref Cert.Kernel.sig Kind.scVector Space.hbm Cert.Kernel.S1000x128 EltTy.f32)
local notation "xfV" => (Memref.whole Cert.Kernel.main_v4_scv : Memref Cert.Kernel.sig Kind.scVector Space.hbm Cert.Kernel.S204800 EltTy.i32)
local notation "oV" => (Memref.whole Cert.Kernel.main_v5_scv : Memref Cert.Kernel.sig Kind.scVector Space.hbm Cert.Kernel.S204800x128 EltTy.f32)
local notation "xV" => (Memref.whole Cert.Kernel.cc1_scratch0 : Memref Cert.Kernel.sig Kind.scVector Space.vmem Cert.Kernel.S6400 EltTy.i32)
local notation "idxV" => (Memref.whole Cert.Kernel.cc1_scratch1 : Memref Cert.Kernel.sig Kind.scVector Space.vmem Cert.Kernel.S6400 EltTy.i32)
local notation "bufsV" => (Memref.whole Cert.Kernel.cc1_scratch2 : Memref Cert.Kernel.sig Kind.scVector Space.vmem Cert.Kernel.S2x128x128 EltTy.f32)
local notation "shV" => (Memref.whole Cert.Kernel.cc1_scratch3 : Memref Cert.Kernel.sig Kind.scVector Space.shared Cert.Kernel.S1000x128 EltTy.f32)

section Body

variable [FloatOps F]
variable (m : (ℓ : Loc nD τ sig) → Buf (Elt F) ℓ) (d : Dev nD) (L : grid1.Coords)

/-- What a tile is handed, over its grid coordinates. -/
def goL : sProp 𝕄 :=
  iprop(xfBlk m d (wL L) ∗ oBlk d (wL L) (m (oLoc d))
    ∗ (if (jL L).val = 0 then iprop(combTok m d (cL L) ∗ ∃ f, shLoc d (cV L) ↦{fullShare} f) else iprop(emp)))

/-- What it hands back. -/
def tdL : sProp 𝕄 :=
  iprop(xfBlk m d (wL L) ∗ oBlk d (wL L) (Go m d)
    ∗ (if (jL L).val = 0 then iprop(combTok m d (cL L) ∗ shRest m d (cV L)) else iprop(emp))
    ∗ shTok m d (cV L) (jL L))

/-- Every flattened token names a table row. -/
theorem xf_inRange (hx : Cert.Spec.InRange (m (a0Loc d))) (n : S204800.Idx) : (Xf m d n : BitVec 32).toNat < 5 := by
  have hn : (n 0).val < 204800 := (n 0).isLt
  have e : n = ix1 (rowAt ⟨(n 0).val / 200, by omega⟩ ⟨(n 0).val % 200, Nat.mod_lt _ (by decide)⟩) := by
    refine (eq_ix1 n).trans (congrArg ix1 (Fin.ext ?_))
    show (n 0).val = (n 0).val / 200 * 200 + (n 0).val % 200
    omega
  rw [e]; unfold Xf; rw [xfOf_apply]; exact hx _

/-- The two halves of the staging scratch, each at contents of its own, are it whole at some contents. -/
theorem bufs_join :
    iprop((∃ fb, (buf0K).view.loc (V d (cV L) (jV L)) ↦[(buf0K).view.set]{fullShare} fb)
        ∗ (∃ fb, (buf1K).view.loc (V d (cV L) (jV L)) ↦[(buf1K).view.set]{fullShare} fb))
      ⊢ (iprop(∃ f, (V d (cV L) (jV L)).loc cc1_scratch2 ↦{fullShare} f) : sProp 𝕄) := by
  rw [set_buf0K, set_buf1K]
  iintro ⟨⟨%f0, H0⟩, ⟨%f1, H1⟩⟩
  ihave H := (pointsTo_join (ℓ := (V d (cV L) (jV L)).loc cc1_scratch2) (q := fullShare) (f := f0) (g := f1) bufSets_disjoint) $$ [H0 H1]
  · isplitl [H0]; · iexact H0
    iexact H1
  rw [bufSets_cover]
  iexists _; iexact H

set_option maxHeartbeats 1000000 in
/-- The task on vector subcore (L 0, L 1) of device d: the first part of the body — the tokens copied in, the table's
    shared copy made by tile 0, the list of row numbers filled, the barrier, the first two gathers started —, then the
    main loop and the two final waits. -/
theorem tile_body (hx : ∀ d : Dev nD, Cert.Spec.InRange (m (a0Loc d))) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goL m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_gather_body L combV (Memref.isWhole_whole _) xfV (Memref.isWhole_whole _) oV (Memref.isWhole_whole _) xV (Memref.isWhole_whole _)
            idxV (Memref.isWhole_whole _) bufsV (Memref.isWhole_whole _) shV (Memref.isWhole_whole _)
            cc1_scratch4 cc1_scratch5 cc1_scratch6 cc1_scratch7 cc1_scratch8 cc1_scoped0)
          fun _ => iprop(tdL m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__sc_gather_body_eq_skeleton]
  rw [body_eq_tail, wp_bind]
  have hpro := prologue m d L hF O W hO hOlev (xf_inRange m d (hx d))
  unfold PRest at hpro
  unfold goL
  iintro ⟨#Hlv, Hrest⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ Set.univ)
  isplitl [Hrest]
  · iapply hpro
    isplitr; · iexact Hlv
    iexact Hrest
  iintro %r ⟨Hmid, Hxf, Hx0, Hxs, Hsc, Hsems, Hbufs, Hsh⟩
  iapply (wp_wand_r frame _ Set.univ)
  isplitl [Hmid Hmw]
  · iapply (main_loop m d L O W r.1 r.2)
    isplitl [Hmw]; · iexact Hmw
    iexact Hmid
  iintro %_ ⟨Hob, Hst, Hi, Hb0, Hb1, Hg0, Hg1, Ho0, Ho1, HO⟩
  ihave Hb := (bufs_join (F := F) d L) $$ [Hb0 Hb1]
  · isplitl [Hb0]; · iexact Hb0
    iexact Hb1
  rw [(K (F := F)).scopedBufs_V hF d (cV L) (jV L), SparseCore.Cfg.scopedSems0_V (Val := Elt F) d (cV L) (jV L), ownSems0_V, ownBufs_V]
  unfold tdL
  isplitl [Hxf Hob Hsh Hst]
  · isplitl [Hxf]; · iexact Hxf
    isplitl [Hob]; · iexact Hob
    isplitl [Hsh]; · iexact Hsh
    iexact Hst
  isplitl [Hx0 Hi Hb Hbufs]
  · isplitl [Hx0]; · iexact Hx0
    isplitl [Hi]; · iexact Hi
    isplitl [Hb]; · iexact Hb
    iexact Hbufs
  isplitl [Hg0 Hg1 Ho0 Ho1 Hxs Hsc Hsems]
  · isplitl [Hg0]; · iexact Hg0
    isplitl [Hg1]; · iexact Hg1
    isplitl [Ho0]; · iexact Ho0
    isplitl [Ho1]; · iexact Ho1
    isplitl [Hxs]; · iexact Hxs
    isplitl [Hsc]; · iexact Hsc
    iexact Hsems
  iexact HO

/-! ## The obligation -/

theorem defs₀_vector (c : Fin τ.nSC) (s : Fin τ.nSub) :
    defs₀ (F := F) (.scVector c s) 1 ⟨⟩
      = SparseCore.onTile hcore1 hsub1 (fun c s => cc1__sc_gather_body (coordsV c s)
          combV (Memref.isWhole_whole _) xfV (Memref.isWhole_whole _) oV (Memref.isWhole_whole _) xV (Memref.isWhole_whole _)
          idxV (Memref.isWhole_whole _) bufsV (Memref.isWhole_whole _) shV (Memref.isWhole_whole _)
          cc1_scratch4 cc1_scratch5 cc1_scratch6 cc1_scratch7 cc1_scratch8 cc1_scoped0) ⟨⟩ c s := rfl

set_option maxRecDepth 16384 in
set_option maxHeartbeats 1000000 in
/-- The tile's task, as the launch theorem asks it: for every device, SparseCore and tile of the grid. -/
theorem tileObl (hx : ∀ d : Dev nD, Cert.Spec.InRange (m (a0Loc d))) (hF : (K (F := F)).Facts) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hx hF O W hO hOlev

end Body

end Cert.Proof.LookupBits

end
-- ==== Proof.Bits.HandOver.lean ====
/-
  The SparseCore call's operands out of the whole arrays and its results back into them: the combined table through
  one read share per SparseCore, the flattened tokens block by block, the gathered rows chunk by chunk.
-/
import proofs.«208021_g30185030156587_cont_9to1_1229_25_alg».proof.Proof.Bits.Split

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

omit [FloatOps F] in
theorem bigSep_cores (Φ : Fin 2 → sProp 𝕄) :
    (bigSep Finset.univ fun c : Fin ((K (F := F)).nCore 0) => Φ (cF c)) = bigSep Finset.univ Φ :=
  bigSep_congr fun _ _ => congrArg Φ (Fin.ext rfl)

/-- The whole arrays are both SparseCores' operands, and what is left of the combined table's share. -/
theorem st_intro (d : Dev nD) :
    iprop((combLoc d ↦{fullShare} Cb m d) ∗ (xfLoc d ↦{fullShare} Xf m d) ∗ (oLoc d ↦{fullShare} m (oLoc d)))
      ⊢ (iprop((combLoc d ↦{Transfers.shareDrop fullShare 2} Cb m d) ∗ bigSep Finset.univ fun c : Fin ((K (F := F)).nCore 0) => (P m).st 0 d c) : sProp 𝕄) := by
  show _ ⊢ iprop((combLoc d ↦{Transfers.shareDrop fullShare 2} Cb m d) ∗ bigSep Finset.univ fun c : Fin ((K (F := F)).nCore 0) => stRes m d c)
  unfold stRes
  rw [bigSep_cores (F := F) (fun c => iprop(combTok m d c ∗ (bigSep Finset.univ fun s : Fin 16 => xfBlk m d (wid c s))
      ∗ bigSep Finset.univ fun s : Fin 16 => oBlk d (wid c s) (m (oLoc d)))), bigSep_sep', bigSep_sep', xfPts_split, oPts_split]
  iintro ⟨Hc, Hx, Ho⟩
  ihave Hc' := (combPts_split m d).1 $$ Hc
  icases Hc' with ⟨Hd, Ht⟩
  isplitl [Hd]; · iexact Hd
  isplitl [Ht]; · iexact Ht
  isplitl [Hx]; · iexact Hx
  iexact Ho

/-- Both SparseCores' results, with what was left of the combined table's share, are the whole arrays again, the rows gathered. -/
theorem dn_elim (d : Dev nD) :
    (iprop((combLoc d ↦{Transfers.shareDrop fullShare 2} Cb m d) ∗ bigSep Finset.univ fun c : Fin ((K (F := F)).nCore 0) => (P m).dn 0 d c) : sProp 𝕄)
      ⊢ iprop((combLoc d ↦{fullShare} Cb m d) ∗ (xfLoc d ↦{fullShare} Xf m d) ∗ (oLoc d ↦{fullShare} Go m d)) := by
  show iprop((combLoc d ↦{Transfers.shareDrop fullShare 2} Cb m d) ∗ bigSep Finset.univ fun c : Fin ((K (F := F)).nCore 0) => dnRes m d c) ⊢ _
  unfold dnRes
  rw [bigSep_cores (F := F) (fun c => iprop(combTok m d c ∗ (bigSep Finset.univ fun s : Fin 16 => xfBlk m d (wid c s))
      ∗ bigSep Finset.univ fun s : Fin 16 => oBlk d (wid c s) (Go m d))), bigSep_sep', bigSep_sep', xfPts_split, oPts_split]
  iintro ⟨Hd, Ht, Hx, Ho⟩
  isplitl [Hd Ht]
  · iapply (combPts_split m d).2
    isplitl [Hd]; · iexact Hd
    iexact Ht
  isplitl [Hx]; · iexact Hx
  iexact Ho

end Cert.Proof.LookupBits

end
-- ==== Proof.Bits.Region.lean ====
/-
  The TensorCore's kernel region of @main: the one-point pipeline that stages the table and the position rows whole,
  adds them broadcast against each other, and writes the sum back whole. Its proof data, the body's triple, and what
  the written-back array holds: entry (v, l, k) of the result is table (v, k) plus position (l, k).
-/
import proofs.«208021_g30185030156587_cont_9to1_1229_25_alg».proof.Proof.Bits.Common
import proofs.«208021_g30185030156587_cont_9to1_1229_25_alg».proof.Proof.Gen.Kernel.Launch
import proofs.«208021_g30185030156587_cont_9to1_1229_25_alg».proof.Proof.Gen.Kernel.Points
import proofs.«208021_g30185030156587_cont_9to1_1229_25_alg».proof.Proof.Gen.Kernel.Skeleton
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Proof.LookupBits

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The host operations before the region, and what the TensorCore's arrays hold when it is entered -/

/-- the slice of the position table's first 200 rows -/
abbrev opSlice : HloOp τ sig (Elt F) :=
  StableHlo.unary main_arg2 main_v0 ((extractStridedSlice S1x200x128 ![0, 0, 0] · slices_S1x2048x128_S1x200x128_0_0_0) : (⟨S1x2048x128, .f32⟩ : BufTy).Contents (Elt F) → (⟨S1x200x128, .f32⟩ : BufTy).Contents (Elt F))
/-- its reshape to a matrix -/
abbrev opPe2 : HloOp τ sig (Elt F) := StableHlo.reshape main_v0 main_v1 rfl shapeCasts_S1x200x128_S200x128

/-- The device's arrays when the region is entered. -/
def Vent (d : Dev nD) : Valuation τ sig (Elt F) := StableHlo.after [opSlice, opPe2] (StableHlo.launchContents m d)
/-- The same, by the TensorCore's references. -/
abbrev VentR (d : Dev nD) (b : Ref sig .tc) : Buf (Elt F) ((d : Thread nD τ).loc b) := Vent m d (Proc.devRef .tc b)

theorem Vent_arg1 (d : Dev nD) : VentR m d main_arg1 = m (a1Loc d) := by
  unfold VentR Vent; after_results_simp
theorem Vent_v1 (d : Dev nD) : VentR m d main_v1 = pe2Of (m (a2Loc d)) := by
  unfold VentR Vent; after_results_simp; rfl
theorem Vent_v2 (d : Dev nD) : VentR m d main_v2 = m ((SparseCore.T d).loc main_v2) := by
  unfold VentR Vent; after_results_simp

/-! ## The proof data of the one pipeline -/

/-- Window `w`'s block at the one point, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (VentR m d (Pipeline.arrRef spec0 w))

abbrev r0 : Rect S5x128 := Rect.unit (s := S5x128) ![0, 0] S5x128.size inb_S5x128_S5x128_0_0
abbrev r1 : Rect S200x128 := Rect.unit (s := S200x128) ![0, 0] S200x128.size inb_S200x128_S200x128_0_0
abbrev r2 : Rect S5x200x128 := Rect.unit (s := S5x200x128) ![0, 0, 0] S5x200x128.size inb_S5x200x128_S5x200x128_0_0_0

/-- What the body leaves in the result's staging buffer: its one store, over what its two loads read. -/
def out2 (x0 : Vec F S5x128 .f32) (x1 : Vec F S200x128 .f32) : Vec F S5x200x128 .f32 :=
  View.canon [⟨r2, k0_pay1 (View.ld x0 r0) (View.ld x1 r1)⟩]

theorem hz2 : (![0, 0] : Fin 2 → Nat) = fun _ => 0 := funext fun a => by fin_cases a <;> rfl
theorem hz3 : (![0, 0, 0] : Fin 3 → Nat) = fun _ => 0 := funext fun a => by fin_cases a <;> rfl

/-- The store covers the buffer and the loads read their buffers whole: the sum itself. -/
theorem out2_eq (x0 : Vec F S5x128 .f32) (x1 : Vec F S200x128 .f32) : out2 x0 x1 = k0_pay1 x0 x1 := by
  unfold out2
  rw [View.canon_unit_zero hz3, View.ld_unit_zero (S := S5x128) hz2, View.ld_unit_zero (S := S200x128) hz2]

/-- The levels at or below which the TensorCore's recorded waits sit before the SparseCore call. -/
def recBelow (d : Dev nD) : Set (SemLoc sig × HIx 1) := {p | (K (F := F)).lev ((SparseCore.T d), p.1) p.2 ≤ 0}

/-- The proof data on device `d`: the arrays as the region finds them; after the body each input's buffer at its
    block and the result's at the sum; nothing in the invariant; full shares; the core owing throughout what it owes
    before the SparseCore call (the start signals), its recorded waits at level 0. -/
def dat (d : Dev nD) : Dat τ (Elt F) (HIx 1) ℕ UU ℕ cfg0 d where
  A w := VentR m d (Pipeline.arrRef spec0 w)
  after w t := match w with
    | ⟨0, _⟩ => iblk m d 0 t
    | ⟨1, _⟩ => iblk m d 1 t
    | ⟨2, _⟩ => out2 (iblk m d 0 t) (iblk m d 1 t)
  Φ _ := iprop(emp)
  q _ := fullShare
  owed _ := (K (F := F)).Otc d 0
  recorded _ := recBelow (F := F) d

theorem A_eq (d : Dev nD) (w : Fin cfg0.W) : (dat m d).A w = VentR m d (Pipeline.arrRef spec0 w) := by
  dsimp only [dat]
theorem after0 (d : Dev nD) (t : Fin cfg0.N) : (dat m d).after 0 t = iblk m d 0 t := by dsimp only [dat]
theorem after1 (d : Dev nD) (t : Fin cfg0.N) : (dat m d).after 1 t = iblk m d 1 t := by dsimp only [dat]
theorem after2 (d : Dev nD) (t : Fin cfg0.N) : (dat m d).after 2 t = out2 (iblk m d 0 t) (iblk m d 1 t) := by dsimp only [dat]

/-- Each input's staging buffer holds its block when the body is called. -/
theorem before0 (d : Dev nD) (t : Fin cfg0.N) (x) : (dat m d).before 0 t x = iblk m d 0 t :=
  ((dat m d).before_in_eq_fetched 0 rfl (fun _ => rfl) (fun _ _ _ => rfl) (fun t => by rw [after0]; unfold Dat.blockOf iblk; rw [A_eq]; try rfl) t x).trans
    (by unfold Dat.fetched Dat.blockOf iblk; rw [A_eq]; try rfl)
theorem before1 (d : Dev nD) (t : Fin cfg0.N) (x) : (dat m d).before 1 t x = iblk m d 1 t :=
  ((dat m d).before_in_eq_fetched 1 rfl (fun _ => rfl) (fun _ _ _ => rfl) (fun t => by rw [after1]; unfold Dat.blockOf iblk; rw [A_eq]; try rfl) t x).trans
    (by unfold Dat.fetched Dat.blockOf iblk; rw [A_eq]; try rfl)

/-! ## The body's triple -/

set_option maxHeartbeats 1000000 in
/-- The body on whole staging memrefs, the inputs' at read contents and the result's at anything, leaves the inputs'
    as they were and the result's at the sum. -/
theorem sound_kernel (d : Dev nD) (E : Set ℕ) (arg0 : Memref sig .tc .vmem S5x128 .f32) (harg0 : arg0.IsWhole) (arg1 : Memref sig .tc .vmem S200x128 .f32) (harg1 : arg1.IsWhole) (arg2 : Memref sig .tc .vmem S5x200x128 .f32) (harg2 : arg2.IsWhole)
    (x0 : Vec F S5x128 .f32) (x1 : Vec F S200x128 .f32) (Q : PUnit → sProp 𝕄) :
    iprop(owns (d : Thread nD τ) arg0 fullShare x0 ∗ owns (d : Thread nD τ) arg1 fullShare x1 ∗ (∃ y, owns (d : Thread nD τ) arg2 fullShare y)
        ∗ (iprop(owns (d : Thread nD τ) arg0 fullShare x0 ∗ owns (d : Thread nD τ) arg1 fullShare x1 ∗ owns (d : Thread nD τ) arg2 fullShare (out2 x0 x1)) -∗ Q ⟨⟩))
      ⊢ wp frame (wpE (defs₀ (F := F)) Variants.none d none) E (cc0__fuse_body arg0 harg0 arg1 harg1 arg2 harg2) Q := by
  simp only [cc0__fuse_body_eq_skeleton]; unfold cc0__fuse_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero hz3 inb_S5x200x128_S5x200x128_0_0_0 y⟩)

/-! ## The body obligation -/

theorem recBelow_waits (d : Dev nD) (t : Fin (cfg0.N + 1)) : (dat m d).bound none t = recBelow (F := F) d := by
  show recBelow (F := F) d ∪ cfg0.waitPairs none = recBelow (F := F) d
  refine Set.union_eq_self_of_subset_right ?_
  rintro p ⟨w, s, rfl⟩
  exact (Nat.le_refl 0 : (K (F := F)).lev ((SparseCore.T d), _) none ≤ 0)

/-- The body at the point: the inputs' memrefs hold their blocks, so `sound_kernel` applies; the core's `owes` passes
    through unread. -/
theorem body_obligation (d : Dev nD) : BodyObligation (dat (F := F) m d) (defs₀ (F := F)) Variants.none none Set.univ := fun t => by
  rw [bigSep_W0, bigSep_W0]
  show iprop((dat m d).Φ t.castSucc ∗ (dat m d).owesAt none t.castSucc
      ∗ (∃ x, owns (d : Thread nD τ) (st0_0 t) fullShare ((dat m d).before 0 t x))
      ∗ (∃ x, owns (d : Thread nD τ) (st0_1 t) fullShare ((dat m d).before 1 t x))
      ∗ (∃ x, owns (d : Thread nD τ) (st0_2 t) fullShare ((dat m d).before 2 t x)))
    ⊢ wp frame (wpE (defs₀ (F := F)) Variants.none d none) Set.univ (bodyAt0 t) fun _ =>
      iprop((dat m d).Φ t.succ ∗ (dat m d).owesAt none t.succ
        ∗ owns (d : Thread nD τ) (st0_0 t) fullShare ((dat m d).after 0 t)
        ∗ owns (d : Thread nD τ) (st0_1 t) fullShare ((dat m d).after 1 t)
        ∗ owns (d : Thread nD τ) (st0_2 t) fullShare ((dat m d).after 2 t))
  unfold bodyAt0
  simp only [before0, before1]
  rw [show (dat m d).Φ t.succ = (dat m d).Φ t.castSucc from rfl,
    show (dat m d).owesAt none t.succ = (dat m d).owesAt none t.castSucc from rfl,
    after0, after1, after2]
  iintro ⟨HΦ, Ho, ⟨%x0, H0⟩, ⟨%x1, H1⟩, ⟨%x2, H2⟩⟩
  iapply (sound_kernel d Set.univ _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The region as a segment of @main -/

/-- the one admissible (empty) family of prefetched tables -/
abbrev adm : (p : Fin 1) → (pcfgs (F := F) p).Adm := fun p => (cfgs p).toPCfg_adm

/-- The proof data of the program's pipelines. -/
def dats (p : Fin 1) (d : Dev nD) : Dat τ (Elt F) (HIx 1) ℕ UU ℕ (Pipeline.pin (pcfgs (F := F)) adm p) d := dat m d

/-- What the TensorCore owes before the SparseCore call, its recorded waits at level 0. -/
abbrev owesT (d : Dev nD) : sProp 𝕄 :=
  iprop(∃ W, ⌜(K (F := F)).WBelow (SparseCore.T d) W (8 * 0)⌝ ∗ owes (SparseCore.T d) ((K (F := F)).Otc d 0) W)

theorem owesT_at (d : Dev nD) (t : Fin (cfg0.N + 1)) : (owesT (F := F) d : sProp 𝕄) ⊣⊢ (dat m d).owesAt none t := by
  unfold Dat.owesAt Pipeline.owesWithin
  rw [recBelow_waits]
  constructor
  · iintro ⟨%W, %hW, H⟩; iexists W; isplitr
    · ipureintro; exact fun p hp => hW p (Finset.mem_coe.mp hp)
    · iexact H
  · iintro ⟨%W, %hW, H⟩; iexists W; isplitr
    · ipureintro; exact fun p hp => hW (Finset.mem_coe.mpr hp)
    · iexact H

/-- The region of @main: entered from the TensorCore's arrays as the host operations left them and what it owes,
    it leaves the pipeline's arrays as the pipeline computes them, the other arrays untouched, and owes the same. -/
def regionSeg : Pipeline.RegionSeg (pcfgs (F := F)) adm (dats m) (none : HIx 1) defs₀ 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun d => (body_obligation m d).loose
  hwaits := fun d => Pipeline.cellsWaits_of_cut (Pipeline.pin (pcfgs (F := F)) adm) (dats m) none 0 d 0 ((K (F := F)).Otc d 0) (fun _ => rfl)
    (fun _ _ => Finset.mem_univ _) (fun _ _ => Nat.le_refl 0)
    (fun g i h => ⟨Finset.mem_univ _, lt_of_lt_of_le (Nat.succ_pos _) (SparseCore.Cfg.lev_of_Otc_pos h)⟩)
  pre := fun d => iprop(unscopedBufs d (VentR m d) ∗ owesT d)
  post := fun d => iprop((dat m d).arrays ((dat m d).arrAt · cfg0.N) ∗ Pipeline.unscopedRest spec0 d (VentR m d) ∗ owesT d)
  X := fun _ => iprop(emp)
  Y := fun _ => iprop(emp)
  Z := fun d => Pipeline.unscopedRest spec0 d (VentR m d)
  hentry := fun d => by
    iintro ⟨⟨Hb, Ho⟩, -, -⟩
    imodintro
    ihave H := (Pipeline.arrays_of_unscopedBufs (pcfgs (F := F)) adm (dats m) (p := 0) winFacts0 arr_whole0 d
      ((dat m d).share_full fun _ => rfl) (VentR m d) (A_eq m d)) $$ Hb
    icases H with ⟨Ha, Hr⟩
    isplitl [Ha]; · iexact Ha
    isplitr
    · unfold Pipeline.prefHeld; rw [Finset.univ_eq_empty, bigSep_empty]; iempintro
    isplitl [Ho]; · iapply (owesT_at m d 0).1; iexact Ho
    isplitr; · iempintro
    iexact Hr
  hin := fun d => by iintro -; iempintro
  hout := fun d => by
    iintro -
    isplitr; · iempintro
    isplitr
    · rw [Pipeline.ownSems0_none]; iempintro
    · rw [scopedRest0_eq]; iempintro
  hexit := fun d => by
    iintro ⟨Ha, Ho, -, Hz⟩
    imodintro
    isplitl [Ha]; · iexact Ha
    isplitl [Hz]; · iexact Hz
    iapply (owesT_at m d (Fin.last cfg0.N)).2; iexact Ho

/-! ## What the region leaves in its arrays -/

/-- Read through the one point's block, a whole window's array is itself. -/
theorem iblk0_eq (d : Dev nD) (t : Fin cfg0.N) : iblk m d 0 t = (VentR m d main_arg1 : Vec F S5x128 .f32) := by
  funext j
  show VentR m d main_arg1 (((cfg0.win 0).blk t).view.emb j) = VentR m d main_arg1 j
  congr 1
  funext a; apply Fin.ext
  match a with
  | ⟨0, _⟩ => show win0_0.index t (0 : Fin 2) * 5 + 1 * (j 0).val = (j 0).val; show 0 * 5 + 1 * (j 0).val = (j 0).val; omega
  | ⟨1, _⟩ => show win0_0.index t (1 : Fin 2) * 128 + 1 * (j 1).val = (j 1).val; show 0 * 128 + 1 * (j 1).val = (j 1).val; omega
theorem iblk1_eq (d : Dev nD) (t : Fin cfg0.N) : iblk m d 1 t = (VentR m d main_v1 : Vec F S200x128 .f32) := by
  funext j
  show VentR m d main_v1 (((cfg0.win 1).blk t).view.emb j) = VentR m d main_v1 j
  congr 1
  funext a; apply Fin.ext
  match a with
  | ⟨0, _⟩ => show win0_1.index t (0 : Fin 2) * 200 + 1 * (j 0).val = (j 0).val; show 0 * 200 + 1 * (j 0).val = (j 0).val; omega
  | ⟨1, _⟩ => show win0_1.index t (1 : Fin 2) * 128 + 1 * (j 1).val = (j 1).val; show 0 * 128 + 1 * (j 1).val = (j 1).val; omega

/-- The sum of the table's rows and the position rows, broadcast against each other. -/
abbrev sumOf (d : Dev nD) : FVec F S5x200x128 .f32 := k0_pay1 (F := F) (m (a1Loc d)) (pe2Of (m (a2Loc d)))

theorem blk2_emb (t : Fin cfg0.N) (j : S5x200x128.Idx) : ((cfg0.win 2).blk t).view.emb j = j := by
  funext a; apply Fin.ext
  match a with
  | ⟨0, _⟩ => show win0_2.index t (0 : Fin 3) * 5 + 1 * (j 0).val = (j 0).val; show 0 * 5 + 1 * (j 0).val = (j 0).val; omega
  | ⟨1, _⟩ => show win0_2.index t (1 : Fin 3) * 200 + 1 * (j 1).val = (j 1).val; show 0 * 200 + 1 * (j 1).val = (j 1).val; omega
  | ⟨2, _⟩ => show win0_2.index t (2 : Fin 3) * 128 + 1 * (j 2).val = (j 2).val; show 0 * 128 + 1 * (j 2).val = (j 2).val; omega

/-- What the one point writes back is the sum, whole. -/
theorem flushed2_eq (d : Dev nD) (t : Fin cfg0.N) :
    (dat m d).flushed 2 t = ((cfg0.win 2).blk t).view.read (Elt F) (sumOf m d) := by
  show (cfg0.win 2).cut (grid0.coords t) ((dat m d).after 2 t) = _
  rw [after2, out2_eq, iblk0_eq, iblk1_eq, Vent_arg1, Vent_v1]
  funext j
  show sumOf m d j = sumOf m d (((cfg0.win 2).blk t).view.emb j)
  rw [blk2_emb]

/-- The written-back array after the region: the sum. -/
theorem final2 (d : Dev nD) : (dat m d).arrAt 2 cfg0.N = sumOf m d :=
  (dat m d).arrAt_eq_of_cover 2 _ (fun t _ => flushed2_eq m d t) (fun i => ⟨t0_0, flush0_2 _, by
    rw [← blk2_emb t0_0 i]; exact ((cfg0.win 2).blk t0_0).view.emb_mem_set i⟩)
theorem final0 (d : Dev nD) : (dat m d).arrAt 0 cfg0.N = m (a1Loc d) :=
  ((dat m d).arrAt_in 0 rfl _).trans ((A_eq m d 0).trans (Vent_arg1 m d))
theorem final1 (d : Dev nD) : (dat m d).arrAt 1 cfg0.N = pe2Of (m (a2Loc d)) :=
  ((dat m d).arrAt_in 1 rfl _).trans ((A_eq m d 1).trans (Vent_v1 m d))

/-! ## The region run on the TensorCore inside the SparseCore program -/

theorem regionSeg_pre (d : Dev nD) : (regionSeg m).pre d = iprop(unscopedBufs d (VentR m d) ∗ owesT (F := F) d) := rfl
theorem regionSeg_post (d : Dev nD) : (regionSeg m).post d
    = iprop((dat m d).arrays ((dat m d).arrAt · cfg0.N) ∗ Pipeline.unscopedRest spec0 d (VentR m d) ∗ owesT (F := F) d) := rfl

/-- The region's entry, in the pipelines' own signature. -/
def regionProg : Prog (TpuEff nD τ sig (Elt F) (ΛP (F := F)) .tc) PUnit :=
  Prog.op (.customCall (Pipeline.entry 0) ()) fun x => .ret x

set_option backward.isDefEq.respectTransparency.types false in
/-- From the region boundary, the arrays as the host operations left them, what the TensorCore owes, the level facts
    and the staging cells' ghost state, the region runs and leaves the pipeline's arrays as computed, the rest
    untouched, the same owed. -/
theorem wp_region (d : Dev nD) (Φ : PUnit → sProp 𝕄) :
    iprop(boundary (SparseCore.T d) ∗ unscopedBufs d (VentR m d) ∗ owesT (F := F) d ∗ levAts (K (F := F)).L (K (F := F)).lev
        ∗ (Pipeline.cellsGhost cfgs (ER (F := F)) 0 d ∗ Pipeline.toksInit cfgs (ER (F := F)) 0 d)
        ∗ ((boundary (SparseCore.T d) ∗ (dat m d).arrays ((dat m d).arrAt · cfg0.N) ∗ Pipeline.unscopedRest spec0 d (VentR m d) ∗ owesT (F := F) d) -∗ Φ ⟨⟩))
      ⊢ wp frame (wpE ((K (F := F)).defs (D (F := F))) 𝒱 (SparseCore.T d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 1) .tc) PUnit)
      = SparseCore.liftProg (Q := 1) (regionProg (F := F)) := rfl
  rw [hprog]
  refine Idealize.SL.BI.BIBase.Entails.trans ?_ ((K (F := F)).wp_liftProg (D (F := F)) 𝒱 (SparseCore.T d) Set.univ none (regionProg (F := F)) Φ)
  unfold regionProg
  iintro ⟨Hb, Hbufs, Ho, #Hlev, Hg, Hk⟩
  have hR := Pipeline.RegionSeg.wp (pcfgs (F := F)) adm (dats m) (none : HIx 1) cellOf_inj (ER (F := F)) defs₀ 𝒱₀ (K (F := F)).L (K (F := F)).lev
    (regionSeg m) d none (fun u hu => nomatch hu) (fun x => .ret x) Φ
  rw [regionSeg_pre, regionSeg_post] at hR
  iapply hR
  isplitl [Hk]
  · iintro ⟨Hb, Ha, Hr, Ho⟩
    rw [wp_ret]; imodintro
    iapply Hk
    isplitl [Hb]; · iexact Hb
    isplitl [Ha]; · iexact Ha
    isplitl [Hr]; · iexact Hr
    iexact Ho
  isplitl [Hb]; · iexact Hb
  isplitl [Hbufs Ho]
  · isplitl [Hbufs]; · iexact Hbufs
    iexact Ho
  isplitr; · iexact Hlev
  iexact Hg

end Cert.Proof.LookupBits

end
-- ==== Proof.Bits.Main.lean ====
/-
  @main on the TensorCore: the slice and reshape of the position rows, the kernel region that adds them to the table's
  rows, the two reshapes, the SparseCore call that gathers a row of the combined table per token, and the reshape of
  the gathered rows to the result. The arguments are left as launched and the result is the program's own term of them.
-/
import proofs.«208021_g30185030156587_cont_9to1_1229_25_alg».proof.Proof.Bits.FinRes
import proofs.«208021_g30185030156587_cont_9to1_1229_25_alg».proof.Proof.Bits.HandOver
import proofs.«208021_g30185030156587_cont_9to1_1229_25_alg».proof.Proof.Bits.Region

set_option maxRecDepth 16384

noncomputable section

namespace Cert.Proof.LookupBits

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (g : Dev nD → PrngReg)

/-! ## The host operations after the region, and the arrays' contents stage by stage -/

/-- the sum reshaped to the combined table -/
abbrev opComb : HloOp τ sig (Elt F) := StableHlo.reshape main_v2 main_v3 rfl shapeCasts_S5x200x128_S1000x128
/-- the tokens flattened -/
abbrev opXf : HloOp τ sig (Elt F) := StableHlo.reshape main_arg0 main_v4 rfl shapeCasts_S1024x200_S204800
/-- the gathered rows reshaped to the result -/
abbrev opRes : HloOp τ sig (Elt F) := StableHlo.reshape main_v5 main_v6 rfl shapeCasts_S204800x128_S1024x200x128

/-- The device's arrays after the region: the sum written. -/
def V3 (d : Dev nD) : Valuation τ sig (Elt F) := (StableHlo.nullary (τ := τ) main_v2 (sumOf m d)).result (Vent m d)
/-- When the SparseCore call starts. -/
def V5 (d : Dev nD) : Valuation τ sig (Elt F) := StableHlo.after [opComb, opXf] (V3 m d)
/-- When it ends: the gathered rows written. -/
def V6 (d : Dev nD) : Valuation τ sig (Elt F) := (StableHlo.nullary (τ := τ) main_v5 (Go m d)).result (V5 m d)
/-- At the return. -/
def V7 (d : Dev nD) : Valuation τ sig (Elt F) := StableHlo.after [opRes] (V6 m d)

/-- A valuation read by the TensorCore's references. -/
abbrev byRef (d : Dev nD) (W : Valuation τ sig (Elt F)) (b : Ref sig .tc) : Buf (Elt F) ((d : Thread nD τ).loc b) := W (Proc.devRef .tc b)

/-- The TensorCore's unscoped buffers, one by one. -/
theorem unscopedBufs_eq (d : Dev nD) (W : (b : Ref sig .tc) → Buf (Elt F) ((d : Thread nD τ).loc b)) :
    (unscopedBufs d W : sProp 𝕄) = iprop((a0Loc d ↦{fullShare} W main_arg0) ∗ (a1Loc d ↦{fullShare} W main_arg1) ∗ (a2Loc d ↦{fullShare} W main_arg2)
      ∗ ((SparseCore.T d).loc main_v0 ↦{fullShare} W main_v0) ∗ ((SparseCore.T d).loc main_v1 ↦{fullShare} W main_v1) ∗ ((SparseCore.T d).loc main_v2 ↦{fullShare} W main_v2)
      ∗ (combLoc d ↦{fullShare} W main_v3) ∗ (xfLoc d ↦{fullShare} W main_v4) ∗ (oLoc d ↦{fullShare} W main_v5) ∗ resLoc d ↦{fullShare} W main_v6) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The unscoped buffers as device buffers. -/
def S10 : Finset (DevRef τ sig) := (Finset.univ.filter fun b : Ref sig .tc => ¬ b.isScoped).map ⟨Proc.devRef (sig := sig) (.tc : Proc τ), Proc.devRef_injective _⟩

theorem mem_S10 (b : Ref sig .tc) (h : b.isScoped = false) : Proc.devRef (τ := τ) .tc b ∈ S10 :=
  Finset.mem_map_of_mem _ (Finset.mem_filter.mpr ⟨Finset.mem_univ _, by rw [h]; exact Bool.false_ne_true⟩)

theorem unscopedBufs_held (d : Dev nD) (W : Valuation τ sig (Elt F)) :
    (unscopedBufs d (byRef d W) : sProp 𝕄) = StableHlo.held (SparseCore.T d) S10 W := by
  unfold unscopedBufs StableHlo.held S10
  rw [bigSep_map]; rfl

theorem sub_S10 (x y : Ref sig .tc) (hx : x.isScoped = false) (hy : y.isScoped = false) :
    ({Proc.devRef .tc x, Proc.devRef .tc y} : Finset (DevRef τ sig)) ⊆ S10 :=
  Finset.insert_subset (mem_S10 x hx) (Finset.singleton_subset_iff.mpr (mem_S10 y hy))

/-- One host operation on the TensorCore inside the SparseCore program, over the unscoped buffers. -/
theorem wp_host (d : Dev nD) (op : HloOp τ sig (Elt F)) (hS : op.bufs ⊆ S10) (hf : op.fresh = ∅) (W : Valuation τ sig (Elt F))
    {α : Type} (k : ((b : op.writes) → b.1.ty.Contents (Elt F)) → Prog (TpuEff nD τ sig (Elt F) (SparseCore.Sig (ΛP (F := F)) 1) .tc) α) (Q : α → sProp 𝕄) :
    iprop(boundary (SparseCore.T d) ∗ unscopedBufs d (byRef d W)
        ∗ ((boundary (SparseCore.T d) ∗ unscopedBufs d (byRef d (op.result W)))
            -∗ wp frame (wpE ((K (F := F)).defs (D (F := F))) 𝒱 (SparseCore.T d) none) Set.univ (k (op.fn fun b => W b.1)) Q))
      ⊢ wp frame (wpE ((K (F := F)).defs (D (F := F))) 𝒱 (SparseCore.T d) none) Set.univ (hlo rfl op k) Q := by
  rw [unscopedBufs_held, unscopedBufs_held]
  iintro ⟨Hb, Hh, Hk⟩
  iapply (StableHlo.wp_hlo_within 𝒱 (SparseCore.T d) none Set.univ hS (hf := hf)) $$ [Hb Hh]
  · isplitl [Hb]; · iexact Hb
    iexact Hh
  iexact Hk

/-! ## The contents, buffer by buffer -/
theorem V3_main_arg0 (d : Dev nD) : V3 m d (Proc.devRef .tc main_arg0) = Vent m d (Proc.devRef .tc main_arg0) := by
  unfold V3; after_results_simp
theorem V3_main_arg1 (d : Dev nD) : V3 m d (Proc.devRef .tc main_arg1) = Vent m d (Proc.devRef .tc main_arg1) := by
  unfold V3; after_results_simp
theorem V3_main_arg2 (d : Dev nD) : V3 m d (Proc.devRef .tc main_arg2) = Vent m d (Proc.devRef .tc main_arg2) := by
  unfold V3; after_results_simp
theorem V3_main_v0 (d : Dev nD) : V3 m d (Proc.devRef .tc main_v0) = Vent m d (Proc.devRef .tc main_v0) := by
  unfold V3; after_results_simp
theorem V3_main_v1 (d : Dev nD) : V3 m d (Proc.devRef .tc main_v1) = Vent m d (Proc.devRef .tc main_v1) := by
  unfold V3; after_results_simp
theorem V3_main_v2 (d : Dev nD) : V3 m d (Proc.devRef .tc main_v2) = sumOf m d := by
  unfold V3; after_results_simp
theorem V3_main_v3 (d : Dev nD) : V3 m d (Proc.devRef .tc main_v3) = Vent m d (Proc.devRef .tc main_v3) := by
  unfold V3; after_results_simp
theorem V3_main_v4 (d : Dev nD) : V3 m d (Proc.devRef .tc main_v4) = Vent m d (Proc.devRef .tc main_v4) := by
  unfold V3; after_results_simp
theorem V3_main_v5 (d : Dev nD) : V3 m d (Proc.devRef .tc main_v5) = Vent m d (Proc.devRef .tc main_v5) := by
  unfold V3; after_results_simp
theorem V3_main_v6 (d : Dev nD) : V3 m d (Proc.devRef .tc main_v6) = Vent m d (Proc.devRef .tc main_v6) := by
  unfold V3; after_results_simp

theorem V5_v3 (d : Dev nD) : V5 m d (Proc.devRef .tc main_v3) = Cb m d := by
  unfold V5 V3 Vent; after_results_simp; rfl
theorem V5_v4 (d : Dev nD) : V5 m d (Proc.devRef .tc main_v4) = Xf m d := by
  unfold V5 V3 Vent; after_results_simp; rfl
theorem V5_v5 (d : Dev nD) : V5 m d (Proc.devRef .tc main_v5) = m (oLoc d) := by
  unfold V5 V3 Vent; after_results_simp
theorem V6_main_arg0 (d : Dev nD) : V6 m d (Proc.devRef .tc main_arg0) = V5 m d (Proc.devRef .tc main_arg0) := by
  unfold V6; after_results_simp
theorem V6_main_arg1 (d : Dev nD) : V6 m d (Proc.devRef .tc main_arg1) = V5 m d (Proc.devRef .tc main_arg1) := by
  unfold V6; after_results_simp
theorem V6_main_arg2 (d : Dev nD) : V6 m d (Proc.devRef .tc main_arg2) = V5 m d (Proc.devRef .tc main_arg2) := by
  unfold V6; after_results_simp
theorem V6_main_v0 (d : Dev nD) : V6 m d (Proc.devRef .tc main_v0) = V5 m d (Proc.devRef .tc main_v0) := by
  unfold V6; after_results_simp
theorem V6_main_v1 (d : Dev nD) : V6 m d (Proc.devRef .tc main_v1) = V5 m d (Proc.devRef .tc main_v1) := by
  unfold V6; after_results_simp
theorem V6_main_v2 (d : Dev nD) : V6 m d (Proc.devRef .tc main_v2) = V5 m d (Proc.devRef .tc main_v2) := by
  unfold V6; after_results_simp
theorem V6_main_v3 (d : Dev nD) : V6 m d (Proc.devRef .tc main_v3) = V5 m d (Proc.devRef .tc main_v3) := by
  unfold V6; after_results_simp
theorem V6_main_v4 (d : Dev nD) : V6 m d (Proc.devRef .tc main_v4) = V5 m d (Proc.devRef .tc main_v4) := by
  unfold V6; after_results_simp
theorem V6_main_v5 (d : Dev nD) : V6 m d (Proc.devRef .tc main_v5) = Go m d := by
  unfold V6; after_results_simp
theorem V6_main_v6 (d : Dev nD) : V6 m d (Proc.devRef .tc main_v6) = V5 m d (Proc.devRef .tc main_v6) := by
  unfold V6; after_results_simp

theorem V7_arg0 (d : Dev nD) : V7 m d (Proc.devRef .tc main_arg0) = m (a0Loc d) := by
  unfold V7 V6 V5 V3 Vent; after_results_simp
theorem V7_arg1 (d : Dev nD) : V7 m d (Proc.devRef .tc main_arg1) = m (a1Loc d) := by
  unfold V7 V6 V5 V3 Vent; after_results_simp
theorem V7_arg2 (d : Dev nD) : V7 m d (Proc.devRef .tc main_arg2) = m (a2Loc d) := by
  unfold V7 V6 V5 V3 Vent; after_results_simp
theorem V7_v6 (d : Dev nD) : V7 m d (Proc.devRef .tc main_v6) = resOf (Go m d) := by
  unfold V7 V6; after_results_simp; rfl

/-! ## The arrays after the region, regrouped -/

/-- The pipeline's arrays as computed and the rest as found are the unscoped buffers with the sum written. -/
theorem region_post (d : Dev nD) :
    iprop((dat m d).arrays ((dat m d).arrAt · cfg0.N) ∗ Pipeline.unscopedRest spec0 d (VentR m d))
      ⊢ (unscopedBufs d (byRef d (V3 m d)) : sProp 𝕄) := by
  rw [Pipeline.arrays_eq (cfgs := cfgs) (dats := fun _ d => dat m d) (p := (0 : Fin 1)) d arr_whole0 ((dat m d).share_full fun _ => rfl),
    bigSep_W0, unscopedRest0_eq, unscopedBufs_eq]
  show iprop(((a1Loc d ↦{fullShare} (dat m d).arrAt 0 cfg0.N) ∗ ((SparseCore.T d).loc main_v1 ↦{fullShare} (dat m d).arrAt 1 cfg0.N)
        ∗ ((SparseCore.T d).loc main_v2 ↦{fullShare} (dat m d).arrAt 2 cfg0.N))
      ∗ ((a0Loc d ↦{fullShare} VentR m d main_arg0) ∗ (a2Loc d ↦{fullShare} VentR m d main_arg2) ∗ ((SparseCore.T d).loc main_v0 ↦{fullShare} VentR m d main_v0)
        ∗ (combLoc d ↦{fullShare} VentR m d main_v3) ∗ (xfLoc d ↦{fullShare} VentR m d main_v4) ∗ (oLoc d ↦{fullShare} VentR m d main_v5) ∗ (resLoc d ↦{fullShare} VentR m d main_v6)))
    ⊢ iprop((a0Loc d ↦{fullShare} V3 m d (Proc.devRef .tc main_arg0)) ∗ (a1Loc d ↦{fullShare} V3 m d (Proc.devRef .tc main_arg1)) ∗ (a2Loc d ↦{fullShare} V3 m d (Proc.devRef .tc main_arg2))
      ∗ ((SparseCore.T d).loc main_v0 ↦{fullShare} V3 m d (Proc.devRef .tc main_v0)) ∗ ((SparseCore.T d).loc main_v1 ↦{fullShare} V3 m d (Proc.devRef .tc main_v1)) ∗ ((SparseCore.T d).loc main_v2 ↦{fullShare} V3 m d (Proc.devRef .tc main_v2))
      ∗ (combLoc d ↦{fullShare} V3 m d (Proc.devRef .tc main_v3)) ∗ (xfLoc d ↦{fullShare} V3 m d (Proc.devRef .tc main_v4)) ∗ (oLoc d ↦{fullShare} V3 m d (Proc.devRef .tc main_v5)) ∗ resLoc d ↦{fullShare} V3 m d (Proc.devRef .tc main_v6))
  rw [final0, final1, final2, V3_main_arg0, V3_main_arg1, V3_main_arg2, V3_main_v0, V3_main_v1, V3_main_v2, V3_main_v3, V3_main_v4, V3_main_v5, V3_main_v6]
  rw [show Vent m d (Proc.devRef .tc main_arg1) = m (a1Loc d) from Vent_arg1 m d, show Vent m d (Proc.devRef .tc main_v1) = pe2Of (m (a2Loc d)) from Vent_v1 m d]
  iintro ⟨⟨H1, Hv1, Hv2⟩, H0, H2, Hv0, Hv3, Hv4, Hv5, Hv6⟩
  isplitl [H0]; · iexact H0
  isplitl [H1]; · iexact H1
  isplitl [H2]; · iexact H2
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  iexact Hv6

/-! ## The arrays around the SparseCore call, and at the return -/

/-- The unscoped buffers when the call starts: the combined table, the flattened tokens and the rows to write, named. -/
theorem bufs5_eq (d : Dev nD) :
    (unscopedBufs d (byRef d (V5 m d)) : sProp 𝕄) = iprop((a0Loc d ↦{fullShare} V5 m d (Proc.devRef .tc main_arg0)) ∗ (a1Loc d ↦{fullShare} V5 m d (Proc.devRef .tc main_arg1)) ∗ (a2Loc d ↦{fullShare} V5 m d (Proc.devRef .tc main_arg2))
      ∗ ((SparseCore.T d).loc main_v0 ↦{fullShare} V5 m d (Proc.devRef .tc main_v0)) ∗ ((SparseCore.T d).loc main_v1 ↦{fullShare} V5 m d (Proc.devRef .tc main_v1)) ∗ ((SparseCore.T d).loc main_v2 ↦{fullShare} V5 m d (Proc.devRef .tc main_v2))
      ∗ (combLoc d ↦{fullShare} Cb m d) ∗ (xfLoc d ↦{fullShare} Xf m d) ∗ (oLoc d ↦{fullShare} m (oLoc d)) ∗ resLoc d ↦{fullShare} V5 m d (Proc.devRef .tc main_v6)) := by
  rw [unscopedBufs_eq, ← V5_v3 m d, ← V5_v4 m d, ← V5_v5 m d]

/-- When it ends: the same with the gathered rows written. -/
theorem bufs6_eq (d : Dev nD) :
    (unscopedBufs d (byRef d (V6 m d)) : sProp 𝕄) = iprop((a0Loc d ↦{fullShare} V5 m d (Proc.devRef .tc main_arg0)) ∗ (a1Loc d ↦{fullShare} V5 m d (Proc.devRef .tc main_arg1)) ∗ (a2Loc d ↦{fullShare} V5 m d (Proc.devRef .tc main_arg2))
      ∗ ((SparseCore.T d).loc main_v0 ↦{fullShare} V5 m d (Proc.devRef .tc main_v0)) ∗ ((SparseCore.T d).loc main_v1 ↦{fullShare} V5 m d (Proc.devRef .tc main_v1)) ∗ ((SparseCore.T d).loc main_v2 ↦{fullShare} V5 m d (Proc.devRef .tc main_v2))
      ∗ (combLoc d ↦{fullShare} Cb m d) ∗ (xfLoc d ↦{fullShare} Xf m d) ∗ (oLoc d ↦{fullShare} Go m d) ∗ resLoc d ↦{fullShare} V5 m d (Proc.devRef .tc main_v6)) := by
  rw [unscopedBufs_eq, ← V5_v3 m d, ← V5_v4 m d, ← V6_main_arg0 m d, ← V6_main_arg1 m d, ← V6_main_arg2 m d, ← V6_main_v0 m d, ← V6_main_v1 m d, ← V6_main_v2 m d, ← V6_main_v3 m d, ← V6_main_v4 m d,
    ← V6_main_v5 m d, ← V6_main_v6 m d]

/-- At the return: the arguments as launched, the result the program's term of them. -/
theorem bufs7_fin (d : Dev nD) : (unscopedBufs d (byRef d (V7 m d)) : sProp 𝕄) ⊢ FIN m d := by
  rw [unscopedBufs_eq]
  show iprop((a0Loc d ↦{fullShare} V7 m d (Proc.devRef .tc main_arg0)) ∗ (a1Loc d ↦{fullShare} V7 m d (Proc.devRef .tc main_arg1)) ∗ (a2Loc d ↦{fullShare} V7 m d (Proc.devRef .tc main_arg2))
      ∗ ((SparseCore.T d).loc main_v0 ↦{fullShare} V7 m d (Proc.devRef .tc main_v0)) ∗ ((SparseCore.T d).loc main_v1 ↦{fullShare} V7 m d (Proc.devRef .tc main_v1)) ∗ ((SparseCore.T d).loc main_v2 ↦{fullShare} V7 m d (Proc.devRef .tc main_v2))
      ∗ (combLoc d ↦{fullShare} V7 m d (Proc.devRef .tc main_v3)) ∗ (xfLoc d ↦{fullShare} V7 m d (Proc.devRef .tc main_v4)) ∗ (oLoc d ↦{fullShare} V7 m d (Proc.devRef .tc main_v5)) ∗ resLoc d ↦{fullShare} V7 m d (Proc.devRef .tc main_v6)) ⊢ _
  rw [V7_arg0, V7_arg1, V7_arg2, V7_v6]
  iintro ⟨H0, H1, H2, -, -, -, -, -, -, H6⟩
  isplitl [H0]; · iexact H0
  isplitl [H1]; · iexact H1
  isplitl [H2]; · iexact H2
  iexact H6

/-! ## The TensorCore's handshake state before the call, in two parts -/

/-- All of it but what the TensorCore owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) : ((K (F := F)).tcSt EH d 0 : sProp 𝕄) = iprop(owesT (F := F) d ∗ tcRest (F := F) d) := by
  unfold SparseCore.Cfg.tcSt tcRest; rfl

theorem V5_eq (d : Dev nD) : (opXf (F := F)).result ((opComb (F := F)).result (V3 m d)) = V5 m d := rfl

/-! ## @main -/

set_option maxHeartbeats 1000000 in
/-- @main on device `d`'s TensorCore, from what the launch deals it and the region's ghost state: it leaves the
    arguments as launched and the result at the program's term of them. -/
theorem hmain (κ : GSem nD τ sig → ℕ) (d : Dev nD) :
    iprop((K (F := F)).ctx EH (P m) κ ∗ (K (F := F)).tcSt EH d 0 ∗ (K (F := F)).tcRes m g d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [tcSt_eq]
  simp only [main, wp_bind, wp_pure]
  iintro ⟨#Hctx, ⟨Ho, Hrest⟩, ⟨Hb, Hbufs, -, -⟩, Hg⟩
  ihave Hlev := (SparseCore.Cfg.ctx_levAts κ) $$ Hctx
  -- the slice of the position rows and its reshape
  iapply (wp_host d opSlice (sub_S10 main_arg2 main_v0 rfl rfl) rfl (StableHlo.launchContents m d))
  isplitl [Hb]; · iexact Hb
  isplitl [Hbufs]; · iexact Hbufs
  iintro ⟨Hb, Hbufs⟩
  rw [wp_ret]; imodintro
  iapply (wp_host d opPe2 (sub_S10 main_v0 main_v1 rfl rfl) rfl (opSlice.result (StableHlo.launchContents m d)))
  isplitl [Hb]; · iexact Hb
  isplitl [Hbufs]; · iexact Hbufs
  iintro ⟨Hb, Hbufs⟩
  rw [wp_ret]; imodintro
  -- the region
  iapply (wp_region m d _)
  isplitl [Hb]; · iexact Hb
  isplitl [Hbufs]; · iexact Hbufs
  isplitl [Ho]; · iexact Ho
  isplitr; · iexact Hlev
  isplitl [Hg]; · iexact Hg
  iintro ⟨Hb, Ha, Hr, Ho⟩
  ihave Hbufs := (region_post m d) $$ [Ha Hr]
  · isplitl [Ha]; · iexact Ha
    iexact Hr
  -- the combined table and the flattened tokens
  iapply (wp_host d opComb (sub_S10 main_v2 main_v3 rfl rfl) rfl (V3 m d))
  isplitl [Hb]; · iexact Hb
  isplitl [Hbufs]; · iexact Hbufs
  iintro ⟨Hb, Hbufs⟩
  rw [wp_ret]; imodintro
  iapply (wp_host d opXf (sub_S10 main_arg0 main_v4 rfl rfl) rfl (opComb.result (V3 m d)))
  isplitl [Hb]; · iexact Hb
  isplitl [Hbufs]; · iexact Hbufs
  iintro ⟨Hb, Hbufs⟩
  rw [wp_ret]; imodintro
  -- the SparseCore call
  rw [V5_eq m d]
  ihave Hbufs' := (Entails.of_eq (bufs5_eq m d)) $$ Hbufs
  icases Hbufs' with ⟨H0, H1, H2, Hv0, Hv1, Hv2, Hv3, Hv4, Hv5, Hv6⟩
  ihave Hst := (st_intro m d) $$ [Hv3 Hv4 Hv5]
  · isplitl [Hv3]; · iexact Hv3
    isplitl [Hv4]; · iexact Hv4
    iexact Hv5
  icases Hst with ⟨Hcr, Hst⟩
  iapply ((K (F := F)).wp_run (D (F := F)) 𝒱 (EH := EH) (P := P m) κ d 0)
  isplitr; · iexact Hctx
  isplitl [Ho Hrest]
  · iapply (Entails.of_eq (tcSt_eq (F := F) d).symm)
    isplitl [Ho]; · iexact Ho
    iexact Hrest
  isplitl [Hst]; · iexact Hst
  iintro ⟨Hst, Hdn⟩
  ihave Hj := (dn_elim m d) $$ [Hcr Hdn]
  · isplitl [Hcr]; · iexact Hcr
    iexact Hdn
  icases Hj with ⟨Hv3, Hv4, Hv5⟩
  ihave Hbufs := (Entails.of_eq (bufs6_eq m d).symm) $$ [H0 H1 H2 Hv0 Hv1 Hv2 Hv3 Hv4 Hv5 Hv6]
  · isplitl [H0]; · iexact H0
    isplitl [H1]; · iexact H1
    isplitl [H2]; · iexact H2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  -- the result
  iapply (wp_host d opRes (sub_S10 main_v5 main_v6 rfl rfl) rfl (V6 m d))
  isplitl [Hb]; · iexact Hb
  isplitl [Hbufs]; · iexact Hbufs
  iintro ⟨Hb, Hbufs⟩
  rw [wp_ret]; imodintro
  imodintro
  isplitl [Hst]; · iexact Hst
  iapply (bufs7_fin m d); iexact Hbufs

end Cert.Proof.LookupBits

end
-- ==== Proof.Bits.Run.lean ====
/-
  The kernel's run. From a launch memory whose tokens name table rows, every weakly fair execution of @main on the
  TensorCore, the two sequencers' dispatch and the thirty-two tiles' tasks terminates without a fault; the result
  array ends at the kernel's term of the three arguments — the combined table's rows gathered by token and position —
  and the arguments end unchanged.
-/
import proofs.«208021_g30185030156587_cont_9to1_1229_25_alg».proof.Proof.Bits.FinRes
import proofs.«208021_g30185030156587_cont_9to1_1229_25_alg».proof.Proof.Bits.TileObl
import proofs.«208021_g30185030156587_cont_9to1_1229_25_alg».proof.Proof.Bits.Main

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

theorem run_main [∀ e, Nonempty (Elt F e)] (hx : ∀ d : Dev nD, Cert.Spec.InRange (m (a0Loc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hx facts)
    (fun q _ => match q with | 0 => vecSplit m)
    m ρ main (G (F := F)) (FIN m) (u₀ (F := F)) (hu₀ m) (hmain m ρ) (fq m) (hfin m) (QC m) (hQ m)

end Cert.Proof.LookupBits

end
-- ==== Proof.PreRange.lean ====
/-
  The integer part of the precondition, read back: the precondition's last conjunct is
  "every token word w satisfies 0 ≤ w and w ≤ 4, both read signed", reduced by "and" over the whole token array.
  When the reduction is 1 every element's two comparisons are 1, and a 32-bit word that is signed-nonnegative
  and signed-at-most 4 has unsigned value below 5: it names a table row.
-/
import proofs.«208021_g30185030156587_cont_9to1_1229_25_alg».proof.Pre_input_domain
import proofs.«208021_g30185030156587_cont_9to1_1229_25_alg».proof.Proof.Gen.Pre_input_domain
import proofs.«208021_g30185030156587_cont_9to1_1229_25_alg».proof.Proof.Spec
import Idealize.ShloMosaic.Lib.ReduceAll

namespace Cert.RefSide

open Idealize.ShloMosaic Idealize.ShloMosaic.ValueIdx

/-- The scalar shape has one index. -/
instance subsingleton_scalar_idx : Subsingleton Cert.Pre_input_domain.S_.Idx :=
  ⟨fun a b => funext fun d => d.elim0⟩

/-- A 32-bit word between 0 and 4 in the signed reading is below 5 in the unsigned reading. -/
theorem toNat_lt_five_of_signed {w : BitVec 32} (h0 : (0#32 : BitVec 32).toInt ≤ w.toInt)
    (h4 : w.toInt ≤ (4#32 : BitVec 32).toInt) : w.toNat < 5 := by
  have e0 : (0#32 : BitVec 32).toInt = 0 := by decide
  have e4 : (4#32 : BitVec 32).toInt = 4 := by decide
  rw [e0] at h0
  rw [e4] at h4
  have hlt : 2 * w.toNat < 2 ^ 32 := BitVec.toInt_pos_iff.1 h0
  rw [BitVec.toInt_eq_toNat_of_lt hlt] at h4
  omega

/-- Under the precondition every token names a table row. Only the integer conjunct
    all((x ≥ 0) ∧ (x ≤ 4)) is used, so the statement holds for any float values. -/
theorem inRange_of_pre {F : FTy → Type} [FloatOps F] [hP : Cert.Pre_input_domain.Facts]
    (x : IVec Cert.Spec.SX 32) (tab : FVec F Cert.Spec.STab .f32) (pe : FVec F Cert.Spec.SPe .f32)
    (h : Cert.Pre_input_domain.fn (F := F) x tab pe = fun _ => 1#1) : Cert.Spec.InRange x := by
  intro i
  have h0 := congrFun h ValueIdx.ix0
  dsimp only [Cert.Pre_input_domain.fn] at h0
  obtain ⟨-, h14⟩ := IntOp.andi_eq_one.1 h0
  have hi := Host.reduce_andi_all _ _ _ _ _ h14 i
  obtain ⟨hge, hle⟩ := IntOp.andi_eq_one.1 hi
  exact toNat_lt_five_of_signed (IntOp.cmpi_sge.1 hge) (IntOp.cmpi_sle.1 hle)

end Cert.RefSide
-- ==== Proof.RefRun.lean ====
/-
  The reference's run and its value. The reference is a straight line of host operations once the two outlined
  functions (the row lookup with out-of-range fill, and the select inside it) are unfolded at their calls:
  twenty-three operations of the lookup, then the slice of the position table, its broadcast over the batch, the sum.
  Every weakly fair execution ends with the result buffer at the operations' composed term of the argument arrays
  and the arguments unchanged. Under the range condition on the tokens (each word below 5) that term is the
  specification's function, index by index: the wrap of negative indices is the identity, the in-range mask is all
  ones so the select takes the gathered row, and the clamp inside the gather is the identity.
-/
import proofs.«208021_g30185030156587_cont_9to1_1229_25_alg».proof.Defs
import proofs.«208021_g30185030156587_cont_9to1_1229_25_alg».proof.Proof.Gen.ReferenceIdeal
import proofs.«208021_g30185030156587_cont_9to1_1229_25_alg».proof.Proof.Spec
import proofs.«208021_g30185030156587_cont_9to1_1229_25_alg».proof.Proof.PreRange
import Idealize.ShloMosaic.Lib.StableHlo.Run
import Idealize.ShloMosaic.Lib.ValueIdx
import Idealize.ShloMosaic.Lib.ValueLayout
import Idealize.ShloMosaic.Lib.Pipeline.Value

noncomputable section

namespace Cert.RefSide

open Cert.ReferenceIdeal Cert.ReferenceIdeal.Facts₀ Idealize.ShloMosaic Idealize.ShloMosaic.TcCoe Idealize.SL.Sem
  Idealize.ShloMosaic.StableHlo Idealize.ShloMosaic.ValueIdx

section Generic

variable {F : FTy → Type} [FloatOps F] [hR : Cert.ReferenceIdeal.Facts]

/-! ## The run -/

/-- The reference's twenty-six operations, in order: the lookup's twenty-three over the call's buffer record
    (the inner select writes the record's own buffer), then the slice, the broadcast and the sum. The lookup's
    first argument is the table, its second the tokens. -/
abbrev ops : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 5#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 4#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1) main_call0.v5 main_call0.v13 (fun x i => Host.gather gather_S5x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    unary main_arg2 main_v1 ((extractStridedSlice S1x200x128 ![0, 0, 0] · slices_S1x2048x128_S1x200x128_0_0_0) : (⟨S1x2048x128, .f32⟩ : BufTy).Contents (Elt F) → (⟨S1x200x128, .f32⟩ : BufTy).Contents (Elt F)),
    unary main_v1 main_v2 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v0 main_v2 main_v3 (addf : (⟨S1024x200x128, .f32⟩ : BufTy).Contents (Elt F) → (⟨S1024x200x128, .f32⟩ : BufTy).Contents (Elt F) → (⟨S1024x200x128, .f32⟩ : BufTy).Contents (Elt F)) ]

-- twenty-six binds re-associated under the two unfolded calls
set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The tokens with a negative word moved up by the table's row count, as the lookup wraps them. -/
def wrapped (x : IVec S1024x200 32) : IVec S1024x200 32 :=
  select (cmpi .slt x (broadcastInDim S1024x200 ![] bcast_S_S1024x200 (constantI S_ 32 0#32)))
    (addi x (broadcastInDim S1024x200 ![] bcast_S_S1024x200 (constantI S_ 32 5#32))) x

/-- The wrapped tokens as the gather's start indices: one index vector of length one per token. -/
def starts (x : IVec S1024x200 32) : IVec S1024x200x1 32 :=
  broadcastInDim S1024x200x1 ![0, 1] bcast_S1024x200_S1024x200x1_0_1 (wrapped x)

/-- Per token, whether its wrapped word lies in 0..4 (signed): the "and" over the index vector's one component. -/
def okMask (x : IVec S1024x200 32) : IVec S1024x200 1 :=
  Host.reduce IntOp.andi
    (andi (cmpi .sge (starts x) (broadcastInDim S1024x200x1 ![] bcast_S_S1024x200x1 (constantI S_ 32 0#32)))
      (cmpi .sle (starts x) (broadcastInDim S1024x200x1 ![0, 1, 2] bcast_S1x1x1_S1024x200x1_0_1_2
        (broadcastInDim S1x1x1 ![2] bcast_S1_S1x1x1_2 (constantI S1 32 4#32)))))
    (constantI S_ 1 1#1) reducesTo_S1024x200x1_S1024x200_d2 h_S_

/-- The reference's result as one term of its arguments: the gathered rows where the token is in range and the
    fill constant elsewhere, plus the first 200 rows of the position table broadcast over the batch. -/
def refTerm (x : IVec S1024x200 32) (tab : FVec F S5x128 .f32) (pe : FVec F S1x2048x128 .f32) : FVec F S1024x200x128 .f32 :=
  addf
    (select (broadcastInDim S1024x200x128 ![0, 1] bcast_S1024x200_S1024x200x128_0_1 (okMask x))
      (Host.gather gather_S5x128_S1024x200x1_S1024x200x128_2_0_n_n_0_2_1128 tab (starts x))
      (broadcastInDim S1024x200x128 ![] bcast_S_S1024x200x128 (constant S_ .f32 0x7FC00000#32)))
    (broadcastInDim S1024x200x128 ![0, 1, 2] bcast_S1x200x128_S1024x200x128_0_1_2
      (extractStridedSlice S1x200x128 ![0, 0, 0] pe slices_S1x2048x128_S1x200x128_0_0_0))

attribute [local irreducible] Host.reduce Host.gather in
/-- The fold at the result buffer is that term of the fold's initial contents at the three argument buffers. -/
theorem after_out (V : Valuation τ sig (Elt F)) :
    after ops V (main_v3 : DevRef τ sig)
      = refTerm (V (main_arg0 : DevRef τ sig)) (V (main_arg1 : DevRef τ sig)) (V (main_arg2 : DevRef τ sig)) := by
  after_results
  simp only [TRef.ofBuf, TRef.toBuf, cast_eq]
  rfl

theorem after_arg0 (V : Valuation τ sig (Elt F)) :
    after ops V (main_arg0 : DevRef τ sig) = V (main_arg0 : DevRef τ sig) := by
  after_results

theorem after_arg1 (V : Valuation τ sig (Elt F)) :
    after ops V (main_arg1 : DevRef τ sig) = V (main_arg1 : DevRef τ sig) := by
  after_results

theorem after_arg2 (V : Valuation τ sig (Elt F)) :
    after ops V (main_arg2 : DevRef τ sig) = V (main_arg2 : DevRef τ sig) := by
  after_results

/-! ## The composed term is the specification's function -/

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A token word below 5 reads the same signed and unsigned. -/
theorem toInt_of_lt_five {w : BitVec 32} (h : w.toNat < 5) : w.toInt = (w.toNat : Int) :=
  BitVec.toInt_eq_toNat_of_lt (by omega)

/-- In range, the wrap leaves a token as it is: the word is not negative. -/
theorem wrapped_apply {x : IVec S1024x200 32} (hx : Cert.Spec.InRange x) (i : S1024x200.Idx) : wrapped x i = x i := by
  have hc : cmpi .slt x (broadcastInDim S1024x200 ![] bcast_S_S1024x200 (constantI S_ 32 0#32)) i = 0#1 := by
    apply eq_zero_of_ne_one
    intro h
    have h' : IntOp.cmpi .slt (x i) 0#32 = 1#1 := h
    rw [IntOp.cmpi_slt, toInt_of_lt_five (hx i), show (0#32 : BitVec 32).toInt = 0 from by decide] at h'
    omega
  unfold wrapped
  rw [select_apply, hc, select_zero]

/-- The start index of token (b, l) is its wrapped word. -/
theorem starts_apply (x : IVec S1024x200 32) (j : S1024x200x1.Idx) : starts x j = wrapped x (ix2 (j 0) (j 1)) := by
  unfold starts
  exact broadcastInDim_apply _ _ _ _ _ (fun a => by
    match a with
    | ⟨0, _⟩ => rfl
    | ⟨1, _⟩ => rfl)

/-- In range, every token's mask bit is 1: both comparisons hold at the index vector's one component. -/
theorem okMask_apply {x : IVec S1024x200 32} (hx : Cert.Spec.InRange x) (i : S1024x200.Idx) : okMask x i = 1#1 := by
  unfold okMask
  rw [Host.reduce_eq_foldl]
  refine foldl_andi_one _ (fun j => ?_) _
  show IntOp.andi (IntOp.cmpi .sge (starts x j) 0#32) (IntOp.cmpi .sle (starts x j) 4#32) = 1#1
  rw [IntOp.andi_eq_one, IntOp.cmpi_sge, IntOp.cmpi_sle, starts_apply, wrapped_apply hx,
    toInt_of_lt_five (hx _), show (0#32 : BitVec 32).toInt = 0 from by decide,
    show (4#32 : BitVec 32).toInt = 4 from by decide]
  have := hx (ix2 (j 0) (j 1))
  omega

/-- The lookup read at (b, l, k): the table at column k of the row its start index names, the index read signed
    and clamped into 0..4 as the gather clamps every start index. -/
theorem gather_apply {α : Type} (tab : S5x128.Idx → α) (idx : IVec S1024x200x1 32) (b : Fin 1024) (l : Fin 200) (k : Fin 128) :
    Host.gather gather_S5x128_S1024x200x1_S1024x200x128_2_0_n_n_0_2_1128 tab idx (ix3 b l k)
      = tab (ix2 (⟨min (idx (ix3 b l (0 : Fin 1))).toInt.toNat 4, by omega⟩ : Fin 5) k) := by
  unfold Host.gather
  congr 1
  funext a
  refine Fin.ext ?_
  match a with
  | ⟨0, _⟩ =>
    show gather_S5x128_S1024x200x1_S1024x200x128_2_0_n_n_0_2_1128.start (ix3 b l k) idx 0
        + gather_S5x128_S1024x200x1_S1024x200x128_2_0_n_n_0_2_1128.batchCoord (ix3 b l k) 0
        + gather_S5x128_S1024x200x1_S1024x200x128_2_0_n_n_0_2_1128.offCoord (ix3 b l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S5x128_S1024x200x1_S1024x200x128_2_0_n_n_0_2_1128.startIndexMap
      from List.mem_singleton.mpr rfl)]
    have hsi : gather_S5x128_S1024x200x1_S1024x200x128_2_0_n_n_0_2_1128.siIdx (ix3 b l k)
        ⟨List.idxOf (0 : Fin 2) gather_S5x128_S1024x200x1_S1024x200x128_2_0_n_n_0_2_1128.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S5x128_S1024x200x1_S1024x200x128_2_0_n_n_0_2_1128.start (ix3 b l k) idx 1
        + gather_S5x128_S1024x200x1_S1024x200x128_2_0_n_n_0_2_1128.batchCoord (ix3 b l k) 1
        + gather_S5x128_S1024x200x1_S1024x200x128_2_0_n_n_0_2_1128.offCoord (ix3 b l k) 1 = k.val
    rw [GatherDims.batchCoord_eq_zero _ _ _ List.not_mem_nil]
    unfold GatherDims.start
    rw [dif_neg (show (1 : Fin 2) ∉ gather_S5x128_S1024x200x1_S1024x200x128_2_0_n_n_0_2_1128.startIndexMap
      from by decide)]
    unfold GatherDims.offCoord
    rw [dif_pos (show (1 : Fin 2) ∈ gather_S5x128_S1024x200x1_S1024x200x128_2_0_n_n_0_2_1128.sKept from by decide)]
    simp only [Nat.zero_add, Nat.add_zero]
    rfl

/-- The position term read at (b, l, k): row l of the position table, the same for every batch entry. -/
theorem pos_apply {α : Type} (pe : S1x2048x128.Idx → α) (b : Fin 1024) (l : Fin 200) (k : Fin 128) :
    broadcastInDim S1024x200x128 ![0, 1, 2] bcast_S1x200x128_S1024x200x128_0_1_2
        (extractStridedSlice S1x200x128 ![0, 0, 0] pe slices_S1x2048x128_S1x200x128_0_0_0) (ix3 b l k)
      = pe (ix3 (0 : Fin 1) (Cert.Spec.posOf l) k) := by
  refine (broadcastInDim_apply _ _ _ (ix3 b l k) (ix3 (0 : Fin 1) l k) (fun a => by
    match a with
    | ⟨0, _⟩ => rfl
    | ⟨1, _⟩ => rfl
    | ⟨2, _⟩ => rfl)).trans ?_
  exact slice3_axis1_apply 0 pe slices_S1x2048x128_S1x200x128_0_0_0 (0 : Fin 1) l k (Cert.Spec.posOf l)
    (Nat.zero_add _).symm

/-- In range, the row the clamped start index names is the token's row. -/
theorem row_eq {v w : BitVec 32} (hv : v = w) (h : w.toNat < 5) (hlt : min v.toInt.toNat 4 < 5) :
    (⟨min v.toInt.toNat 4, hlt⟩ : Fin 5) = Cert.Spec.rowOf w := by
  subst hv
  refine Fin.ext ?_
  show min v.toInt.toNat 4 = v.toNat % 5
  rw [toInt_of_lt_five h, Int.toNat_natCast]
  omega

/-- Under the range condition the reference's term is the specification's function. -/
theorem refTerm_eq_out {x : IVec S1024x200 32} (tab : FVec F S5x128 .f32) (pe : FVec F S1x2048x128 .f32)
    (hx : Cert.Spec.InRange x) : refTerm x tab pe = Cert.Spec.out x tab pe := by
  funext j
  obtain ⟨b, l, k, rfl⟩ : ∃ (b : Fin 1024) (l : Fin 200) (k : Fin 128), j = ix3 b l k := ⟨j 0, j 1, j 2, eq_ix3 j⟩
  have hm : broadcastInDim S1024x200x128 ![0, 1] bcast_S1024x200_S1024x200x128_0_1 (okMask x) (ix3 b l k) = 1#1 :=
    (broadcastInDim_apply _ _ _ (ix3 b l k) (ix2 b l) (fun a => by
      match a with
      | ⟨0, _⟩ => rfl
      | ⟨1, _⟩ => rfl)).trans (okMask_apply hx _)
  show FloatOps.addf
      (Scalar.select (broadcastInDim S1024x200x128 ![0, 1] bcast_S1024x200_S1024x200x128_0_1 (okMask x) (ix3 b l k))
        (Host.gather gather_S5x128_S1024x200x1_S1024x200x128_2_0_n_n_0_2_1128 tab (starts x) (ix3 b l k))
        (broadcastInDim S1024x200x128 ![] bcast_S_S1024x200x128 (constant S_ .f32 0x7FC00000#32) (ix3 b l k)))
      (broadcastInDim S1024x200x128 ![0, 1, 2] bcast_S1x200x128_S1024x200x128_0_1_2
        (extractStridedSlice S1x200x128 ![0, 0, 0] pe slices_S1x2048x128_S1x200x128_0_0_0) (ix3 b l k))
    = FloatOps.addf (tab (ix2 (Cert.Spec.rowOf (x (ix2 b l))) k)) (pe (ix3 (0 : Fin 1) (Cert.Spec.posOf l) k))
  rw [hm, select_one, gather_apply, pos_apply,
    row_eq ((starts_apply x (ix3 b l (0 : Fin 1))).trans (wrapped_apply hx (ix2 b l))) (hx (ix2 b l))]

end Generic

/-! ## The run, with the result at the specification's function -/

/-- From any memory whose tokens are in range, with zero counters: every weakly fair execution of the reference
    terminates with the result buffer at the specification's function of the argument arrays, and the arguments
    unchanged. -/
theorem run [hR : Cert.ReferenceIdeal.Facts] (m : (ℓ : Loc Cert.ReferenceIdeal.nD Cert.ReferenceIdeal.τ Cert.ReferenceIdeal.sig) → Buf (Elt Ideal) ℓ) (g : Dev Cert.ReferenceIdeal.nD → PrngReg) (hx : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread _ _).loc Cert.ReferenceIdeal.main_v3) = Cert.Spec.out (F := Ideal) (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run defs _ _).mono (fun _ h c =>
      ⟨((h c main_v3).trans (after_out _)).trans (refTerm_eq_out _ _ (hx c)),
        (h c main_arg0).trans (after_arg0 _),
        (h c main_arg1).trans (after_arg1 _),
        (h c main_arg2).trans (after_arg2 _)⟩)
    (run_main m g)

end Cert.RefSide

end
-- ==== Proof.lean ====
/-
  The certificate's five claims. Both programs compute, at entry (b, l, k) of the result, row x[b, l] of the embedding
  table at column k plus entry (0, l, k) of the position table. The kernel builds the combined table (row v * 200 + l
  is table row v plus position row l) on the TensorCore, copies it into each SparseCore's shared memory, and each of
  the thirty-two tiles gathers, for its 6400 tokens, row (token) * 200 + (position) of it; the reference takes the
  table's rows by token and adds the position table's first 200 rows. Under the precondition every token is one of
  0, …, 4, so every gathered row exists and the reference's out-of-range mask is all ones. The two results are the
  same function of the arguments index by index (an equality of sums of the same two extended reals), so no
  finiteness is used. The kernel's run is proved once for any float instance; its frame at the word level and at the
  ideal instance are that run with the value dropped.
-/
import proofs.«208021_g30185030156587_cont_9to1_1229_25_alg».proof.Defs
import proofs.«208021_g30185030156587_cont_9to1_1229_25_alg».proof.Proof.Gen.Kernel
import proofs.«208021_g30185030156587_cont_9to1_1229_25_alg».proof.Proof.Gen.KernelIdeal
import proofs.«208021_g30185030156587_cont_9to1_1229_25_alg».proof.Proof.Gen.ReferenceIdeal
import proofs.«208021_g30185030156587_cont_9to1_1229_25_alg».proof.Proof.Gen.Pre_input_domain
import proofs.«208021_g30185030156587_cont_9to1_1229_25_alg».proof.Proof.Run
import proofs.«208021_g30185030156587_cont_9to1_1229_25_alg».proof.Proof.Bits.Run
import proofs.«208021_g30185030156587_cont_9to1_1229_25_alg».proof.Proof.RefRun
import proofs.«208021_g30185030156587_cont_9to1_1229_25_alg».proof.Proof.PreRange
import proofs.«208021_g30185030156587_cont_9to1_1229_25_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_input_domain.Gen.facts := fun m ρ hpre =>
  (θ_run Cert.Kernel.defs _ _).mono (fun _ h c => ⟨(h c).2.1, (h c).2.2.1, (h c).2.2.2⟩)
    (Cert.Proof.LookupBits.run_main (F := Bits) m ρ (fun d => Cert.RefSide.inRange_of_pre (F := Bits) _ _ _ (hpre d)))

/-- The idealized kernel runs and leaves its arguments unchanged. -/
theorem frame_ki : @Cert.frame_KernelIdeal Cert.KernelIdeal.Gen.facts Cert.Pre_input_domain.Gen.facts := fun m ρ hpre =>
  (θ_run Cert.KernelIdeal.defs _ _).mono (fun _ h c => ⟨(h c).2.1, (h c).2.2.1, (h c).2.2.2⟩)
    (Cert.Proof.Lookup.run_main (F := Ideal) m ρ (fun d => Cert.RefSide.inRange_of_pre (F := Ideal) _ _ _ (hpre d)))

/-- The idealized reference runs and leaves its arguments unchanged. -/
theorem frame_ri : @Cert.frame_ReferenceIdeal Cert.ReferenceIdeal.Gen.facts Cert.Pre_input_domain.Gen.facts := fun m ρ hpre =>
  (θ_run Cert.ReferenceIdeal.defs _ _).mono (fun _ h c => (h c).2)
    (Cert.RefSide.run m ρ (fun c => Cert.RefSide.inRange_of_pre (F := Ideal) _ _ _ (hpre c)))

/-- At the ideal instance both programs end with the table's row of each token plus its position's row. -/
theorem algebraic : @Cert.algebraic_KernelIdeal_ReferenceIdeal Cert.KernelIdeal.Gen.facts Cert.ReferenceIdeal.Gen.facts Cert.Pre_input_domain.Gen.facts := by
  intro m g m' g' hpre hagree
  have hx : ∀ d, Cert.Spec.InRange (m (Cert.Proof.Lookup.a0Loc d)) := fun d => Cert.RefSide.inRange_of_pre (F := Ideal) _ _ _ (hpre d)
  refine ⟨fun c => Cert.Proof.Lookup.kernelOut (F := Ideal) (m (Cert.Proof.Lookup.a0Loc c)) (m (Cert.Proof.Lookup.a1Loc c)) (m (Cert.Proof.Lookup.a2Loc c)), ?_, ?_⟩
  · exact (θ_run Cert.KernelIdeal.defs _ _).mono (fun _ h c => h c) (Cert.Proof.Lookup.run_main (F := Ideal) m g hx)
  · refine (θ_run Cert.ReferenceIdeal.defs _ _).mono (fun _ h c => ⟨?_, (h c).2⟩)
      (Cert.RefSide.run m' g' (fun c => by rw [(hagree c).1]; exact hx c))
    rw [(h c).1, (hagree c).1, (hagree c).2.1, (hagree c).2.2]
    exact (Cert.Proof.Lookup.kernelOut_eq_spec_any (F := Ideal) _ _ _).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
